-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v94)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v94) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S600000x64 : Shape := ⟨2, ![600000, 64]⟩
abbrev S64x128 : Shape := ⟨2, ![64, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S128x512 : Shape := ⟨2, ![128, 512]⟩
abbrev S512 : Shape := ⟨1, ![512]⟩
abbrev S512x1 : Shape := ⟨2, ![512, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000x64 : S_.BroadcastsInDim S600000x64 (![] : Fin 0 → Fin S600000x64.rank)
  reducesTo_S600000x64_S_d0_1 : S600000x64.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128x512 : S_.BroadcastsInDim S128x512 (![] : Fin 0 → Fin S128x512.rank)
  reducesTo_S128x512_S_d0_1 : S128x512.ReducesTo [0, 1] S_
  bcast_S_S512 : S_.BroadcastsInDim S512 (![] : Fin 0 → Fin S512.rank)
  reducesTo_S512_S_d0 : S512.ReducesTo [0] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_

variable [Facts]

def fn_part6 {F : FTy → Type} [FloatOps F] (main_arg22 : FVec F S1 .f32) (main_v98 : IVec S_ 1) (main_v101 : IVec S512x1 1) (main_c_39 : IVec S_ 1) : IVec S_ 1 :=
  let main_v102 : IVec S_ 1 := (fun x v => Host.reduce IntOp.andi x v reducesTo_S512x1_S_d0_1 h_S_) main_v101 main_c_39
  let main_v103 : IVec S_ 1 := andi main_v98 main_v102
  let main_v104 : FVec F S1 .f32 := Host.absf main_arg22
  let main_cst_40 : FVec F S_ .f32 := constant S_ .f32 0x7F800000#32
  let main_v105 : FVec F S1 .f32 := broadcastInDim S1 ![] bcast_S_S1 main_cst_40
  let main_v106 : IVec S1 1 := cmpf .olt main_v104 main_v105
  let main_c_41 : IVec S_ 1 := constantI S_ 1 1#1
  let main_v107 : IVec S_ 1 := (fun x v => Host.reduce IntOp.andi x v reducesTo_S1_S_d0 h_S_) main_v106 main_c_41
  let main_v108 : IVec S_ 1 := andi main_v103 main_v107
  main_v108

def fn_part5 {F : FTy → Type} [FloatOps F] (main_arg19 : FVec F S128x512 .f32) (main_arg20 : FVec F S512 .f32) (main_arg21 : FVec F S512x1 .f32) (main_arg22 : FVec F S1 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128x512 .f32 := Host.absf main_arg19
  let main_cst_34 : FVec F S_ .f32 := constant S_ .f32 0x7F800000#32
  let main_v90 : FVec F S128x512 .f32 := broadcastInDim S128x512 ![] bcast_S_S128x512 main_cst_34
  let main_v91 : IVec S128x512 1 := cmpf .olt main_v89 main_v90
  let main_c_35 : IVec S_ 1 := constantI S_ 1 1#1
  let main_v92 : IVec S_ 1 := (fun x v => Host.reduce IntOp.andi x v reducesTo_S128x512_S_d0_1 h_S_) main_v91 main_c_35
  let main_v93 : IVec S_ 1 := andi main_v88 main_v92
  let main_v94 : FVec F S512 .f32 := Host.absf main_arg20
  let main_cst_36 : FVec F S_ .f32 := constant S_ .f32 0x7F800000#32
  let main_v95 : FVec F S512 .f32 := broadcastInDim S512 ![] bcast_S_S512 main_cst_36
  let main_v96 : IVec S512 1 := cmpf .olt main_v94 main_v95
  let main_c_37 : IVec S_ 1 := constantI S_ 1 1#1
  let main_v97 : IVec S_ 1 := (fun x v => Host.reduce IntOp.andi x v reducesTo_S512_S_d0 h_S_) main_v96 main_c_37
  let main_v98 : IVec S_ 1 := andi main_v93 main_v97
  let main_v99 : FVec F S512x1 .f32 := Host.absf main_arg21
  let main_cst_38 : FVec F S_ .f32 := constant S_ .f32 0x7F800000#32
  let main_v100 : FVec F S512x1 .f32 := broadcastInDim S512x1 ![] bcast_S_S512x1 main_cst_38
  let main_v101 : IVec S512x1 1 := cmpf .olt main_v99 main_v100
  let main_c_39 : IVec S_ 1 := constantI S_ 1 1#1
  fn_part6 (F := F) main_arg22 main_v98 main_v101 main_c_39

def fn_part4 {F : FTy → Type} [FloatOps F] (main_arg15 : FVec F S128 .f32) (main_arg16 : FVec F S128 .f32) (main_arg17 : FVec F S128 .f32) (main_arg18 : FVec F S128 .f32) (main_arg19 : FVec F S128x512 .f32) (main_arg20 : FVec F S512 .f32) (main_arg21 : FVec F S512x1 .f32) (main_arg22 : FVec F S1 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg16
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg17
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128 .f32 := Host.absf main_arg18
  let main_cst_32 : FVec F S_ .f32 := constant S_ .f32 0x7F800000#32
  fn_part5 (F := F) main_arg19 main_arg20 main_arg21 main_arg22 main_v83 main_v84 main_cst_32

def fn_part3 {F : FTy → Type} [FloatOps F] (main_arg12 : FVec F S256 .f32) (main_arg13 : FVec F S256x128 .f32) (main_arg14 : FVec F S128 .f32) (main_arg15 : FVec F S128 .f32) (main_arg16 : FVec F S128 .f32) (main_arg17 : FVec F S128 .f32) (main_arg18 : FVec F S128 .f32) (main_arg19 : FVec F S128x512 .f32) (main_arg20 : FVec F S512 .f32) (main_arg21 : FVec F S512x1 .f32) (main_arg22 : FVec F S1 .f32) (main_v48 : IVec S_ 1) (main_v49 : FVec F S128x256 .f32) (main_v50 : FVec F S128x256 .f32) : IVec S_ 1 :=
  let main_v51 : IVec S128x256 1 := cmpf .olt main_v49 main_v50
  let main_c_19 : IVec S_ 1 := constantI S_ 1 1#1
  let main_v52 : IVec S_ 1 := (fun x v => Host.reduce IntOp.andi x v reducesTo_S128x256_S_d0_1 h_S_) main_v51 main_c_19
  let main_v53 : IVec S_ 1 := andi main_v48 main_v52
  let main_v54 : FVec F S256 .f32 := Host.absf main_arg12
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256x128 .f32 := Host.absf main_arg13
  let main_cst_22 : FVec F S_ .f32 := constant S_ .f32 0x7F800000#32
  let main_v60 : FVec F S256x128 .f32 := broadcastInDim S256x128 ![] bcast_S_S256x128 main_cst_22
  let main_v61 : IVec S256x128 1 := cmpf .olt main_v59 main_v60
  let main_c_23 : IVec S_ 1 := constantI S_ 1 1#1
  let main_v62 : IVec S_ 1 := (fun x v => Host.reduce IntOp.andi x v reducesTo_S256x128_S_d0_1 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg15 main_arg16 main_arg17 main_arg18 main_arg19 main_arg20 main_arg21 main_arg22 main_v63 main_v67

def fn_part2 {F : FTy → Type} [FloatOps F] (main_arg8 : FVec F S256 .f32) (main_arg9 : FVec F S256x128 .f32) (main_arg10 : FVec F S128 .f32) (main_arg11 : FVec F S128x256 .f32) (main_arg12 : FVec F S256 .f32) (main_arg13 : FVec F S256x128 .f32) (main_arg14 : FVec F S128 .f32) (main_arg15 : FVec F S128 .f32) (main_arg16 : FVec F S128 .f32) (main_arg17 : FVec F S128 .f32) (main_arg18 : FVec F S128 .f32) (main_arg19 : FVec F S128x512 .f32) (main_arg20 : FVec F S512 .f32) (main_arg21 : FVec F S512x1 .f32) (main_arg22 : FVec F S1 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x128 .f32 := Host.absf main_arg9
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x256 .f32 := Host.absf main_arg11
  let main_cst_18 : FVec F S_ .f32 := constant S_ .f32 0x7F800000#32
  let main_v50 : FVec F S128x256 .f32 := broadcastInDim S128x256 ![] bcast_S_S128x256 main_cst_18
  fn_part3 (F := F) main_arg12 main_arg13 main_arg14 main_arg15 main_arg16 main_arg17 main_arg18 main_arg19 main_arg20 main_arg21 main_arg22 main_v48 main_v49 main_v50

def fn_part1 {F : FTy → Type} [FloatOps F] (main_arg5 : FVec F S64x128 .f32) (main_arg6 : FVec F S128 .f32) (main_arg7 : FVec F S128x256 .f32) (main_arg8 : FVec F S256 .f32) (main_arg9 : FVec F S256x128 .f32) (main_arg10 : FVec F S128 .f32) (main_arg11 : FVec F S128x256 .f32) (main_arg12 : FVec F S256 .f32) (main_arg13 : FVec F S256x128 .f32) (main_arg14 : FVec F S128 .f32) (main_arg15 : FVec F S128 .f32) (main_arg16 : FVec F S128 .f32) (main_arg17 : FVec F S128 .f32) (main_arg18 : FVec F S128 .f32) (main_arg19 : FVec F S128x512 .f32) (main_arg20 : FVec F S512 .f32) (main_arg21 : FVec F S512x1 .f32) (main_arg22 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S64x128 .f32 := Host.absf main_arg5
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x256 .f32 := Host.absf main_arg7
  let main_cst_10 : FVec F S_ .f32 := constant S_ .f32 0x7F800000#32
  let main_v30 : FVec F S128x256 .f32 := broadcastInDim S128x256 ![] bcast_S_S128x256 main_cst_10
  let main_v31 : IVec S128x256 1 := cmpf .olt main_v29 main_v30
  let main_c_11 : IVec S_ 1 := constantI S_ 1 1#1
  let main_v32 : IVec S_ 1 := (fun x v => Host.reduce IntOp.andi x v reducesTo_S128x256_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_arg22 main_v33

def fn {F : FTy → Type} [FloatOps F] (main_arg0 : FVec F S50000x128 .f32) (main_arg1 : IVec S2x600000 32) (main_arg2 : FVec F S600000x64 .f32) (main_arg3 : FVec F S64x128 .f32) (main_arg4 : FVec F S128 .f32) (main_arg5 : FVec F S64x128 .f32) (main_arg6 : FVec F S128 .f32) (main_arg7 : FVec F S128x256 .f32) (main_arg8 : FVec F S256 .f32) (main_arg9 : FVec F S256x128 .f32) (main_arg10 : FVec F S128 .f32) (main_arg11 : FVec F S128x256 .f32) (main_arg12 : FVec F S256 .f32) (main_arg13 : FVec F S256x128 .f32) (main_arg14 : FVec F S128 .f32) (main_arg15 : FVec F S128 .f32) (main_arg16 : FVec F S128 .f32) (main_arg17 : FVec F S128 .f32) (main_arg18 : FVec F S128 .f32) (main_arg19 : FVec F S128x512 .f32) (main_arg20 : FVec F S512 .f32) (main_arg21 : FVec F S512x1 .f32) (main_arg22 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000x64 .f32 := Host.absf main_arg2
  let main_cst_0 : FVec F S_ .f32 := constant S_ .f32 0x7F800000#32
  let main_v5 : FVec F S600000x64 .f32 := broadcastInDim S600000x64 ![] bcast_S_S600000x64 main_cst_0
  let main_v6 : IVec S600000x64 1 := cmpf .olt main_v4 main_v5
  let main_c_1 : IVec S_ 1 := constantI S_ 1 1#1
  let main_v7 : IVec S_ 1 := (fun x v => Host.reduce IntOp.andi x v reducesTo_S600000x64_S_d0_1 h_S_) main_v6 main_c_1
  let main_v8 : IVec S_ 1 := andi main_v3 main_v7
  let main_v9 : FVec F S64x128 .f32 := Host.absf main_arg3
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S50000x128 : Shape := ⟨2, ![50000, 128]⟩
abbrev S2x600000 : Shape := ⟨2, ![2, 600000]⟩
abbrev S600000x64 : Shape := ⟨2, ![600000, 64]⟩
abbrev S64x128 : Shape := ⟨2, ![64, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S128x512 : Shape := ⟨2, ![128, 512]⟩
abbrev S512 : Shape := ⟨1, ![512]⟩
abbrev S512x1 : Shape := ⟨2, ![512, 1]⟩
abbrev S1 : Shape := ⟨1, ![1]⟩
abbrev S1x600000 : Shape := ⟨2, ![1, 600000]⟩
abbrev S600000 : Shape := ⟨1, ![600000]⟩
abbrev S64x256 : Shape := ⟨2, ![64, 256]⟩
abbrev S1x256 : Shape := ⟨2, ![1, 256]⟩
abbrev S600000x256 : Shape := ⟨2, ![600000, 256]⟩
abbrev S8000x64 : Shape := ⟨2, ![8000, 64]⟩
abbrev S8000x256 : Shape := ⟨2, ![8000, 256]⟩
abbrev S600000x128 : Shape := ⟨2, ![600000, 128]⟩
abbrev S_ : Shape := ⟨0, ![]⟩
abbrev S600000x1 : Shape := ⟨2, ![600000, 1]⟩
abbrev S1x128 : Shape := ⟨2, ![1, 128]⟩
abbrev S10x2x128 : Shape := ⟨3, ![10, 2, 128]⟩
abbrev S5000x128 : Shape := ⟨2, ![5000, 128]⟩
abbrev S1x2x128 : Shape := ⟨3, ![1, 2, 128]⟩
abbrev S5000x256 : Shape := ⟨2, ![5000, 256]⟩
abbrev S1x1x128 : Shape := ⟨3, ![1, 1, 128]⟩
abbrev S10x1x128 : Shape := ⟨3, ![10, 1, 128]⟩
abbrev S10x128 : Shape := ⟨2, ![10, 128]⟩
abbrev S1x512 : Shape := ⟨2, ![1, 512]⟩
abbrev S1x1 : Shape := ⟨2, ![1, 1]⟩
abbrev S50000x1 : Shape := ⟨2, ![50000, 1]⟩
abbrev S5000x1 : Shape := ⟨2, ![5000, 1]⟩
abbrev S5000x512 : Shape := ⟨2, ![5000, 512]⟩
abbrev S5000 : Shape := ⟨1, ![5000]⟩

abbrev nBuf : Space → Nat
  | .hbm => 144
  | .vmem => 42
  | .smem => 0
  | _ => 0

abbrev hbmTy0_0 (i : Nat) : BufTy := match i % 128 with
  | 0 => ⟨S50000x128, .f32⟩
  | 1 => ⟨S2x600000, .i32⟩
  | 2 => ⟨S600000x64, .f32⟩
  | 3 => ⟨S64x128, .f32⟩
  | 4 => ⟨S128, .f32⟩
  | 5 => ⟨S64x128, .f32⟩
  | 6 => ⟨S128, .f32⟩
  | 7 => ⟨S128x256, .f32⟩
  | 8 => ⟨S256, .f32⟩
  | 9 => ⟨S256x128, .f32⟩
  | 10 => ⟨S128, .f32⟩
  | 11 => ⟨S128x256, .f32⟩
  | 12 => ⟨S256, .f32⟩
  | 13 => ⟨S256x128, .f32⟩
  | 14 => ⟨S128, .f32⟩
  | 15 => ⟨S128, .f32⟩
  | 16 => ⟨S128, .f32⟩
  | 17 => ⟨S128, .f32⟩
  | 18 => ⟨S128, .f32⟩
  | 19 => ⟨S128x512, .f32⟩
  | 20 => ⟨S512, .f32⟩
  | 21 => ⟨S512x1, .f32⟩
  | 22 => ⟨S1, .f32⟩
  | 23 => ⟨S1x600000, .i32⟩
  | 24 => ⟨S600000, .i32⟩
  | 25 => ⟨S1x600000, .i32⟩
  | 26 => ⟨S600000, .i32⟩
  | 27 => ⟨S64x256, .f32⟩
  | 28 => ⟨S256, .f32⟩
  | 29 => ⟨S1x256, .f32⟩
  | 30 => ⟨S600000x256, .f32⟩
  | 31 => ⟨S600000x128, .f32⟩
  | 32 => ⟨S600000x128, .f32⟩
  | 33 => ⟨S_, .i32⟩
  | 34 => ⟨S600000, .i32⟩
  | 35 => ⟨S600000, .i1⟩
  | 36 => ⟨S_, .i32⟩
  | 37 => ⟨S600000, .i32⟩
  | 38 => ⟨S600000, .i32⟩
  | 39 => ⟨S600000, .i32⟩
  | 40 => ⟨S600000x1, .i32⟩
  | 41 => ⟨S600000x128, .f32⟩
  | 42 => ⟨S600000x128, .f32⟩
  | 43 => ⟨S_, .f32⟩
  | 44 => ⟨S600000x128, .f32⟩
  | 45 => ⟨S600000x128, .f32⟩
  | 46 => ⟨S_, .f32⟩
  | 47 => ⟨S50000x128, .f32⟩
  | 48 => ⟨S600000x1, .i32⟩
  | 49 => ⟨S50000x128, .f32⟩
  | 50 => ⟨S1x256, .f32⟩
  | 51 => ⟨S1x128, .f32⟩
  | 52 => ⟨S50000x128, .f32⟩
  | 53 => ⟨S10x2x128, .f32⟩
  | 54 => ⟨S10x1x128, .f32⟩
  | 55 => ⟨S10x128, .f32⟩
  | 56 => ⟨S_, .f32⟩
  | 57 => ⟨S128, .f32⟩
  | 58 => ⟨S10x1x128, .f32⟩
  | 59 => ⟨S10x128, .f32⟩
  | 60 => ⟨S_, .f32⟩
  | 61 => ⟨S128, .f32⟩
  | 62 => ⟨S_, .f32⟩
  | 63 => ⟨S128, .f32⟩
  | 64 => ⟨S128, .f32⟩
  | 65 => ⟨S_, .f32⟩
  | 66 => ⟨S128, .f32⟩
  | 67 => ⟨S128, .f32⟩
  | 68 => ⟨S128, .f32⟩
  | 69 => ⟨S128, .f32⟩
  | 70 => ⟨S_, .f32⟩
  | 71 => ⟨S128, .f32⟩
  | 72 => ⟨S128, .f32⟩
  | 73 => ⟨S1x128, .f32⟩
  | 74 => ⟨S50000x128, .f32⟩
  | 75 => ⟨S50000x128, .f32⟩
  | 76 => ⟨S_, .f32⟩
  | 77 => ⟨S128, .f32⟩
  | 78 => ⟨S128, .f32⟩
  | 79 => ⟨S128, .f32⟩
  | 80 => ⟨S1x128, .f32⟩
  | 81 => ⟨S50000x128, .f32⟩
  | 82 => ⟨S50000x128, .f32⟩
  | 83 => ⟨S1x128, .f32⟩
  | 84 => ⟨S50000x128, .f32⟩
  | 85 => ⟨S50000x128, .f32⟩
  | 86 => ⟨S1x128, .f32⟩
  | 87 => ⟨S50000x128, .f32⟩
  | 88 => ⟨S50000x128, .f32⟩
  | 89 => ⟨S_, .f32⟩
  | 90 => ⟨S50000x128, .f32⟩
  | 91 => ⟨S50000x128, .f32⟩
  | 92 => ⟨S_, .i32⟩
  | 93 => ⟨S600000, .i32⟩
  | 94 => ⟨S600000, .i1⟩
  | 95 => ⟨S_, .i32⟩
  | 96 => ⟨S600000, .i32⟩
  | 97 => ⟨S600000, .i32⟩
  | 98 => ⟨S600000, .i32⟩
  | 99 => ⟨S600000x1, .i32⟩
  | 100 => ⟨S600000x128, .f32⟩
  | 101 => ⟨S600000x128, .f32⟩
  | 102 => ⟨S_, .f32⟩
  | 103 => ⟨S600000x128, .f32⟩
  | 104 => ⟨S600000x128, .f32⟩
  | 105 => ⟨S_, .f32⟩
  | 106 => ⟨S50000x128, .f32⟩
  | 107 => ⟨S600000x1, .i32⟩
  | 108 => ⟨S50000x128, .f32⟩
  | 109 => ⟨S1x256, .f32⟩
  | 110 => ⟨S1x128, .f32⟩
  | 111 => ⟨S50000x128, .f32⟩
  | 112 => ⟨S10x2x128, .f32⟩
  | 113 => ⟨S10x1x128, .f32⟩
  | 114 => ⟨S10x128, .f32⟩
  | 115 => ⟨S_, .f32⟩
  | 116 => ⟨S128, .f32⟩
  | 117 => ⟨S10x1x128, .f32⟩
  | 118 => ⟨S10x128, .f32⟩
  | 119 => ⟨S_, .f32⟩
  | 120 => ⟨S128, .f32⟩
  | 121 => ⟨S_, .f32⟩
  | 122 => ⟨S128, .f32⟩
  | 123 => ⟨S128, .f32⟩
  | 124 => ⟨S_, .f32⟩
  | 125 => ⟨S128, .f32⟩
  | 126 => ⟨S128, .f32⟩
  | 127 => ⟨S128, .f32⟩
  | _ => ⟨S50000x128, .f32⟩

abbrev hbmTy0_1 (i : Nat) : BufTy := match i % 128 with
  | 0 => ⟨S128, .f32⟩
  | 1 => ⟨S_, .f32⟩
  | 2 => ⟨S128, .f32⟩
  | 3 => ⟨S128, .f32⟩
  | 4 => ⟨S_, .f32⟩
  | 5 => ⟨S128, .f32⟩
  | 6 => ⟨S128, .f32⟩
  | 7 => ⟨S128, .f32⟩
  | 8 => ⟨S1x128, .f32⟩
  | 9 => ⟨S1x128, .f32⟩
  | 10 => ⟨S1x128, .f32⟩
  | 11 => ⟨S1x128, .f32⟩
  | 12 => ⟨S1x512, .f32⟩
  | 13 => ⟨S1x512, .f32⟩
  | 14 => ⟨S1x1, .f32⟩
  | 15 => ⟨S50000x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S8000x64, .f32⟩
  | .local _ .vmem, ⟨1, _⟩ => ⟨S8000x64, .f32⟩
  | .local _ .vmem, ⟨2, _⟩ => ⟨S64x256, .f32⟩
  | .local _ .vmem, ⟨3, _⟩ => ⟨S1x256, .f32⟩
  | .local _ .vmem, ⟨4, _⟩ => ⟨S8000x256, .f32⟩
  | .local _ .vmem, ⟨5, _⟩ => ⟨S8000x256, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S128x256, .f32⟩
  | .local _ .vmem, ⟨11, _⟩ => ⟨S1x256, .f32⟩
  | .local _ .vmem, ⟨12, _⟩ => ⟨S256x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S1x2x128, .f32⟩
  | .local _ .vmem, ⟨17, _⟩ => ⟨S1x2x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x256, .f32⟩
  | .local _ .vmem, ⟨23, _⟩ => ⟨S1x256, .f32⟩
  | .local _ .vmem, ⟨24, _⟩ => ⟨S256x128, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S1x2x128, .f32⟩
  | .local _ .vmem, ⟨29, _⟩ => ⟨S1x2x128, .f32⟩
  | .local _ .vmem, ⟨30, _⟩ => ⟨S5000x128, .f32⟩
  | .local _ .vmem, ⟨31, _⟩ => ⟨S5000x128, .f32⟩
  | .local _ .vmem, ⟨32, _⟩ => ⟨S1x128, .f32⟩
  | .local _ .vmem, ⟨33, _⟩ => ⟨S1x128, .f32⟩
  | .local _ .vmem, ⟨34, _⟩ => ⟨S1x128, .f32⟩
  | .local _ .vmem, ⟨35, _⟩ => ⟨S1x128, .f32⟩
  | .local _ .vmem, ⟨36, _⟩ => ⟨S128x512, .f32⟩
  | .local _ .vmem, ⟨37, _⟩ => ⟨S1x512, .f32⟩
  | .local _ .vmem, ⟨38, _⟩ => ⟨S1x512, .f32⟩
  | .local _ .vmem, ⟨39, _⟩ => ⟨S1x1, .f32⟩
  | .local _ .vmem, ⟨40, _⟩ => ⟨S5000x1, .f32⟩
  | .local _ .vmem, ⟨41, _⟩ => ⟨S5000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_c : Ref sig .tc := ⟨.hbm, 33, rfl⟩
abbrev main_v10 : Ref sig .tc := ⟨.hbm, 34, rfl⟩
abbrev main_v11 : Ref sig .tc := ⟨.hbm, 35, rfl⟩
abbrev main_c_0 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_call0_cst : Ref sig .tc := ⟨.hbm, 43, rfl⟩
abbrev main_call0_v0 : Ref sig .tc := ⟨.hbm, 44, rfl⟩
abbrev main_v18 : Ref sig .tc := ⟨.hbm, 45, rfl⟩
abbrev main_cst : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24_0 : Ref sig .tc := ⟨.hbm, 52, rfl⟩
abbrev main_v24_1 : Ref sig .tc := ⟨.hbm, 53, rfl⟩
abbrev main_v25 : Ref sig .tc := ⟨.hbm, 54, rfl⟩
abbrev main_v26 : Ref sig .tc := ⟨.hbm, 55, rfl⟩
abbrev main_cst_1 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_cst_2 : Ref sig .tc := ⟨.hbm, 60, rfl⟩
abbrev main_v30 : Ref sig .tc := ⟨.hbm, 61, rfl⟩
abbrev main_cst_3 : Ref sig .tc := ⟨.hbm, 62, rfl⟩
abbrev main_v31 : Ref sig .tc := ⟨.hbm, 63, rfl⟩
abbrev main_v32 : Ref sig .tc := ⟨.hbm, 64, rfl⟩
abbrev main_cst_4 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_cst_5 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_cst_6 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_call1_cst : Ref sig .tc := ⟨.hbm, 89, rfl⟩
abbrev main_call1_v0 : Ref sig .tc := ⟨.hbm, 90, rfl⟩
abbrev main_v54 : Ref sig .tc := ⟨.hbm, 91, rfl⟩
abbrev main_c_7 : Ref sig .tc := ⟨.hbm, 92, rfl⟩
abbrev main_v55 : Ref sig .tc := ⟨.hbm, 93, rfl⟩
abbrev main_v56 : Ref sig .tc := ⟨.hbm, 94, rfl⟩
abbrev main_c_8 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_call2_cst : Ref sig .tc := ⟨.hbm, 102, rfl⟩
abbrev main_call2_v0 : Ref sig .tc := ⟨.hbm, 103, rfl⟩
abbrev main_v63 : Ref sig .tc := ⟨.hbm, 104, rfl⟩
abbrev main_cst_9 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69_0 : Ref sig .tc := ⟨.hbm, 111, rfl⟩
abbrev main_v69_1 : Ref sig .tc := ⟨.hbm, 112, rfl⟩
abbrev main_v70 : Ref sig .tc := ⟨.hbm, 113, rfl⟩
abbrev main_v71 : Ref sig .tc := ⟨.hbm, 114, rfl⟩
abbrev main_cst_10 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_cst_11 : Ref sig .tc := ⟨.hbm, 119, rfl⟩
abbrev main_v75 : Ref sig .tc := ⟨.hbm, 120, rfl⟩
abbrev main_cst_12 : Ref sig .tc := ⟨.hbm, 121, rfl⟩
abbrev main_v76 : Ref sig .tc := ⟨.hbm, 122, rfl⟩
abbrev main_v77 : Ref sig .tc := ⟨.hbm, 123, rfl⟩
abbrev main_cst_13 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_cst_14 : Ref sig .tc := ⟨.hbm, 129, rfl⟩
abbrev main_v82 : Ref sig .tc := ⟨.hbm, 130, rfl⟩
abbrev main_v83 : Ref sig .tc := ⟨.hbm, 131, rfl⟩
abbrev main_cst_15 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc1_stg7_0 : Ref sig .tc := ⟨.vmem, 16, rfl⟩
abbrev cc1_stg7_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg6_1 : Ref sig .tc := ⟨.vmem, 27, rfl⟩
abbrev cc2_stg7_0 : Ref sig .tc := ⟨.vmem, 28, rfl⟩
abbrev cc2_stg7_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg2_0 : Ref sig .tc := ⟨.vmem, 33, rfl⟩
abbrev cc3_stg3_0 : Ref sig .tc := ⟨.vmem, 34, rfl⟩
abbrev cc3_stg4_0 : Ref sig .tc := ⟨.vmem, 35, rfl⟩
abbrev cc3_stg5_0 : Ref sig .tc := ⟨.vmem, 36, rfl⟩
abbrev cc3_stg6_0 : Ref sig .tc := ⟨.vmem, 37, rfl⟩
abbrev cc3_stg7_0 : Ref sig .tc := ⟨.vmem, 38, rfl⟩
abbrev cc3_stg8_0 : Ref sig .tc := ⟨.vmem, 39, rfl⟩
abbrev cc3_stg9_0 : Ref sig .tc := ⟨.vmem, 40, rfl⟩
abbrev cc3_stg9_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15
abbrev cc1_sem7_0 : DmaSem sig := 16
abbrev cc1_sem7_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem6_1 : DmaSem sig := 27
abbrev cc2_sem7_0 : DmaSem sig := 28
abbrev cc2_sem7_1 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem3_0 : DmaSem sig := 34
abbrev cc3_sem4_0 : DmaSem sig := 35
abbrev cc3_sem5_0 : DmaSem sig := 36
abbrev cc3_sem6_0 : DmaSem sig := 37
abbrev cc3_sem7_0 : DmaSem sig := 38
abbrev cc3_sem8_0 : DmaSem sig := 39
abbrev cc3_sem9_0 : DmaSem sig := 40
abbrev cc3_sem9_1 : DmaSem sig := 41

abbrev nD : Nat := 1
abbrev τ : Topo := Topo.v7x

variable {F : FTy → Type} [FloatOps F]

abbrev grid0 : Pipeline.Grid := ⟨1, ![75], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x2x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S1x2x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x512 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x512 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x512 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x1 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S5000x1 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  concatenates_S64x128_S64x128_S64x256_d1 : Shape.Concatenates [S64x128, S64x128] S64x256 1
  concatenates_S128_S128_S256_d0 : Shape.Concatenates [S128, S128] S256 0
  shapeCasts_S256_S1x256 : S256.ShapeCasts S1x256
  inb_S8000x64_S8000x64_0_0 : ∀ a, (![0, 0] : Fin 2 → Nat) a + S8000x64.size a ≤ S8000x64.size a
  h_S8000x64 : 0 < S8000x64.numel
  bitsLt_bf16_f32 : FTy.bits .bf16 < FTy.bits .f32
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S8000x256 : S1x256.Broadcasts S8000x256
  inb_S8000x256_S8000x256_0_0 : ∀ a, (![0, 0] : Fin 2 → Nat) a + S8000x256.size a ≤ S8000x256.size a
  h_S8000x256 : 0 < S8000x256.numel
  slices_S600000x256_S600000x128_0_0 : S600000x256.Slices ![0, 0] S600000x128
  slices_S600000x256_S600000x128_0_128 : S600000x256.Slices ![0, 128] S600000x128
  bcast_S_S600000 : S_.BroadcastsInDim S600000 (![] : Fin 0 → Fin S600000.rank)
  bcast_S600000_S600000x1_0 : S600000.BroadcastsInDim S600000x1 (![0] : Fin 1 → Fin S600000x1.rank)
  bcast_S_S600000x128 : S_.BroadcastsInDim S600000x128 (![] : Fin 0 → Fin S600000x128.rank)
  bcast_S_S50000x128 : S_.BroadcastsInDim S50000x128 (![] : Fin 0 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x256_S128x256_0_0 : ∀ a, (![0, 0] : Fin 2 → Nat) a + S128x256.size a ≤ S128x256.size a
  h_S128x256 : 0 < S128x256.numel
  broadcasts_S1x256_S5000x256 : S1x256.Broadcasts S5000x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S128 : S5000x128.Reduces [0] S128
  shapeCasts_S1x128_S1x1x128 : S1x128.ShapeCasts S1x1x128
  concatenates_S1x1x128_S1x1x128_S1x2x128_d1 : Shape.Concatenates [S1x1x128, S1x1x128] S1x2x128 1
  inb_S1x2x128_S1x2x128_0_0_0 : ∀ a, (![0, 0, 0] : Fin 3 → Nat) a + S1x2x128.size a ≤ S1x2x128.size a
  h_S1x2x128 : 0 < S1x2x128.numel
  slices_S10x2x128_S10x1x128_0_0_0 : S10x2x128.Slices ![0, 0, 0] S10x1x128
  shapeCasts_S10x1x128_S10x128 : S10x1x128.ShapeCasts S10x128
  reducesTo_S10x128_S128_d0 : S10x128.ReducesTo [0] S128
  h_S_ : 0 < S_.numel
  slices_S10x2x128_S10x1x128_0_1_0 : S10x2x128.Slices ![0, 1, 0] S10x1x128
  bcast_S_S128 : S_.BroadcastsInDim S128 (![] : Fin 0 → Fin S128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S512_S1x512 : S512.ShapeCasts S1x512
  shapeCasts_S512x1_S1x512 : S512x1.ShapeCasts S1x512
  shapeCasts_S1_S1x1 : S1.ShapeCasts S1x1
  inb_S128x512_S128x512_0_0 : ∀ a, (![0, 0] : Fin 2 → Nat) a + S128x512.size a ≤ S128x512.size a
  h_S128x512 : 0 < S128x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S5000x512 : S1x512.Broadcasts S5000x512
  reduces_S5000x512_S5000 : S5000x512.Reduces [1] S5000
  shapeCasts_S5000_S5000x1 : S5000.ShapeCasts S5000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  dot_S8000x64_S64x256_S8000x256_1_0_0_1_n_n_wf : DotDims.WF S8000x64 S64x256 S8000x256 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x256_S5000x256_1_0_0_1_n_n_wf : DotDims.WF S5000x128 S128x256 S5000x256 [1] [0] [0] [1] [] []
  dot_S5000x256_S256x128_S5000x128_1_0_0_1_n_n_wf : DotDims.WF S5000x256 S256x128 S5000x128 [1] [0] [0] [1] [] []
  dot_S5000x128_S128x512_S5000x512_1_0_0_1_n_n_wf : DotDims.WF S5000x128 S128x512 S5000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S600000x64.size a
  hwx0_0 : ∀ i : grid0.Coords, EltTy.bits .f32 = 32 ∨ (Rect.block (s := S600000x64) S8000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x256.size a ≤ S64x256.size a
  hwx0_1 : ∀ i : grid0.Coords, EltTy.bits .f32 = 32 ∨ (Rect.block (s := S64x256) S64x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8000x256.size a ≤ S600000x256.size a
  hwx0_3 : ∀ i : grid0.Coords, EltTy.bits .f32 = 32 ∨ (Rect.block (s := S600000x256) S8000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x256.size a ≤ S128x256.size a
  hwx1_2 : ∀ i : grid1.Coords, EltTy.bits .f32 = 32 ∨ (Rect.block (s := S128x256) S128x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x128.size a ≤ S256x128.size a
  hwx1_4 : ∀ i : grid1.Coords, EltTy.bits .f32 = 32 ∨ (Rect.block (s := S256x128) S256x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x2x128.size a ≤ S10x2x128.size a
  hwx1_7 : ∀ i : grid1.Coords, EltTy.bits .f32 = 32 ∨ (Rect.block (s := S10x2x128) S1x2x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x256.size a ≤ S128x256.size a
  hwx2_2 : ∀ i : grid2.Coords, EltTy.bits .f32 = 32 ∨ (Rect.block (s := S128x256) S128x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x128.size a ≤ S256x128.size a
  hwx2_4 : ∀ i : grid2.Coords, EltTy.bits .f32 = 32 ∨ (Rect.block (s := S256x128) S256x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S50000x128.size a
  hwx2_6 : ∀ i : grid2.Coords, EltTy.bits .f32 = 32 ∨ (Rect.block (s := S50000x128) S5000x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1x2x128.size a ≤ S10x2x128.size a
  hwx2_7 : ∀ i : grid2.Coords, EltTy.bits .f32 = 32 ∨ (Rect.block (s := S10x2x128) S1x2x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x512.size a ≤ S128x512.size a
  hwx3_5 : ∀ i : grid3.Coords, EltTy.bits .f32 = 32 ∨ (Rect.block (s := S128x512) S128x512.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x512.size a ≤ S1x512.size a
  hwx3_6 : ∀ i : grid3.Coords, EltTy.bits .f32 = 32 ∨ (Rect.block (s := S1x512) S1x512.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x512.size a ≤ S1x512.size a
  hwx3_7 : ∀ i : grid3.Coords, EltTy.bits .f32 = 32 ∨ (Rect.block (s := S1x512) S1x512.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x1.size a ≤ S1x1.size a
  hwx3_8 : ∀ i : grid3.Coords, EltTy.bits .f32 = 32 ∨ (Rect.block (s := S1x1) S1x1.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S5000x1.size a ≤ S50000x1.size a
  hwx3_9 : ∀ i : grid3.Coords, EltTy.bits .f32 = 32 ∨ (Rect.block (s := S50000x1) S5000x1.size (cc3_transform_9 i) (hinb3_9 i)).WholeWords (EltTy.packing .f32)

variable [Facts₀]

def dot_S8000x64_S64x256_S8000x256_1_0_0_1_n_n : DotDims S8000x64 S64x256 S8000x256 where
  lhsContracting := [1]
  rhsContracting := [0]
  lhsNonContracting := [0]
  rhsNonContracting := [1]
  lhsBatch := []
  rhsBatch := []
  wf := dot_S8000x64_S64x256_S8000x256_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def dot_S5000x128_S128x512_S5000x512_1_0_0_1_n_n : DotDims S5000x128 S128x512 S5000x512 where
  lhsContracting := [1]
  rhsContracting := [0]
  lhsNonContracting := [0]
  rhsNonContracting := [1]
  lhsBatch := []
  rhsBatch := []
  wf := dot_S5000x128_S128x512_S5000x512_1_0_0_1_n_n_wf

abbrev win0_0 : Pipeline.Window sig grid0 :=
  Pipeline.Window.ofSpec (Memref.whole main_arg2) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S64x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S8000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S128x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v22) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S256x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v23) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v24_0) S5000x128.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v24_1) S1x2x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v54) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v66) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg11) S128x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v67) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg13) S256x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v68) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v69_0) S5000x128.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v69_1) S1x2x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v69_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v87) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v88) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v89) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v90) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg19) S128x512.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v91) S1x512.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v92) S1x512.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v93) S1x1.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v94) S5000x1.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S600000x64 : Shape := ⟨2, ![600000, 64]⟩
abbrev S64x128 : Shape := ⟨2, ![64, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S128x512 : Shape := ⟨2, ![128, 512]⟩
abbrev S512 : Shape := ⟨1, ![512]⟩
abbrev S512x1 : Shape := ⟨2, ![512, 1]⟩
abbrev S1 : Shape := ⟨1, ![1]⟩
abbrev S1x600000 : Shape := ⟨2, ![1, 600000]⟩
abbrev S600000 : Shape := ⟨1, ![600000]⟩
abbrev S600000x128 : Shape := ⟨2, ![600000, 128]⟩
abbrev S1x128 : Shape := ⟨2, ![1, 128]⟩
abbrev S_ : Shape := ⟨0, ![]⟩
abbrev S600000x1 : Shape := ⟨2, ![600000, 1]⟩
abbrev S50000x256 : Shape := ⟨2, ![50000, 256]⟩
abbrev S1x256 : Shape := ⟨2, ![1, 256]⟩
abbrev S50000x512 : Shape := ⟨2, ![50000, 512]⟩
abbrev S1x512 : Shape := ⟨2, ![1, 512]⟩
abbrev S50000x1 : Shape := ⟨2, ![50000, 1]⟩
abbrev S1x1 : Shape := ⟨2, ![1, 1]⟩

abbrev nBuf : Space → Nat
  | .hbm => 170
  | .vmem => 0
  | .smem => 0
  | _ => 0

abbrev hbmTy0_0 (i : Nat) : BufTy := match i % 128 with
  | 0 => ⟨S50000x128, .f32⟩
  | 1 => ⟨S2x600000, .i32⟩
  | 2 => ⟨S600000x64, .f32⟩
  | 3 => ⟨S64x128, .f32⟩
  | 4 => ⟨S128, .f32⟩
  | 5 => ⟨S64x128, .f32⟩
  | 6 => ⟨S128, .f32⟩
  | 7 => ⟨S128x256, .f32⟩
  | 8 => ⟨S256, .f32⟩
  | 9 => ⟨S256x128, .f32⟩
  | 10 => ⟨S128, .f32⟩
  | 11 => ⟨S128x256, .f32⟩
  | 12 => ⟨S256, .f32⟩
  | 13 => ⟨S256x128, .f32⟩
  | 14 => ⟨S128, .f32⟩
  | 15 => ⟨S128, .f32⟩
  | 16 => ⟨S128, .f32⟩
  | 17 => ⟨S128, .f32⟩
  | 18 => ⟨S128, .f32⟩
  | 19 => ⟨S128x512, .f32⟩
  | 20 => ⟨S512, .f32⟩
  | 21 => ⟨S512x1, .f32⟩
  | 22 => ⟨S1, .f32⟩
  | 23 => ⟨S1x600000, .i32⟩
  | 24 => ⟨S600000, .i32⟩
  | 25 => ⟨S1x600000, .i32⟩
  | 26 => ⟨S600000, .i32⟩
  | 27 => ⟨S600000x128, .f32⟩
  | 28 => ⟨S1x128, .f32⟩
  | 29 => ⟨S600000x128, .f32⟩
  | 30 => ⟨S600000x128, .f32⟩
  | 31 => ⟨S_, .i32⟩
  | 32 => ⟨S600000, .i32⟩
  | 33 => ⟨S600000, .i1⟩
  | 34 => ⟨S_, .i32⟩
  | 35 => ⟨S600000, .i32⟩
  | 36 => ⟨S600000, .i32⟩
  | 37 => ⟨S600000, .i32⟩
  | 38 => ⟨S600000x1, .i32⟩
  | 39 => ⟨S600000x128, .f32⟩
  | 40 => ⟨S600000x128, .f32⟩
  | 41 => ⟨S_, .f32⟩
  | 42 => ⟨S600000x128, .f32⟩
  | 43 => ⟨S600000x128, .f32⟩
  | 44 => ⟨S_, .f32⟩
  | 45 => ⟨S50000x128, .f32⟩
  | 46 => ⟨S600000x1, .i32⟩
  | 47 => ⟨S50000x128, .f32⟩
  | 48 => ⟨S50000x128, .f32⟩
  | 49 => ⟨S50000x256, .f32⟩
  | 50 => ⟨S1x256, .f32⟩
  | 51 => ⟨S50000x256, .f32⟩
  | 52 => ⟨S50000x256, .f32⟩
  | 53 => ⟨S_, .f32⟩
  | 54 => ⟨S50000x256, .f32⟩
  | 55 => ⟨S50000x256, .f32⟩
  | 56 => ⟨S50000x128, .f32⟩
  | 57 => ⟨S1x128, .f32⟩
  | 58 => ⟨S50000x128, .f32⟩
  | 59 => ⟨S50000x128, .f32⟩
  | 60 => ⟨S_, .f32⟩
  | 61 => ⟨S128, .f32⟩
  | 62 => ⟨S_, .f32⟩
  | 63 => ⟨S128, .f32⟩
  | 64 => ⟨S128, .f32⟩
  | 65 => ⟨S1x128, .f32⟩
  | 66 => ⟨S50000x128, .f32⟩
  | 67 => ⟨S50000x128, .f32⟩
  | 68 => ⟨S50000x128, .f32⟩
  | 69 => ⟨S_, .f32⟩
  | 70 => ⟨S128, .f32⟩
  | 71 => ⟨S_, .f32⟩
  | 72 => ⟨S128, .f32⟩
  | 73 => ⟨S128, .f32⟩
  | 74 => ⟨S1x128, .f32⟩
  | 75 => ⟨S50000x128, .f32⟩
  | 76 => ⟨S50000x128, .f32⟩
  | 77 => ⟨S_, .f32⟩
  | 78 => ⟨S128, .f32⟩
  | 79 => ⟨S128, .f32⟩
  | 80 => ⟨S128, .f32⟩
  | 81 => ⟨S1x128, .f32⟩
  | 82 => ⟨S50000x128, .f32⟩
  | 83 => ⟨S50000x128, .f32⟩
  | 84 => ⟨S1x128, .f32⟩
  | 85 => ⟨S50000x128, .f32⟩
  | 86 => ⟨S50000x128, .f32⟩
  | 87 => ⟨S1x128, .f32⟩
  | 88 => ⟨S50000x128, .f32⟩
  | 89 => ⟨S50000x128, .f32⟩
  | 90 => ⟨S_, .f32⟩
  | 91 => ⟨S50000x128, .f32⟩
  | 92 => ⟨S50000x128, .f32⟩
  | 93 => ⟨S600000x128, .f32⟩
  | 94 => ⟨S1x128, .f32⟩
  | 95 => ⟨S600000x128, .f32⟩
  | 96 => ⟨S600000x128, .f32⟩
  | 97 => ⟨S_, .i32⟩
  | 98 => ⟨S600000, .i32⟩
  | 99 => ⟨S600000, .i1⟩
  | 100 => ⟨S_, .i32⟩
  | 101 => ⟨S600000, .i32⟩
  | 102 => ⟨S600000, .i32⟩
  | 103 => ⟨S600000, .i32⟩
  | 104 => ⟨S600000x1, .i32⟩
  | 105 => ⟨S600000x128, .f32⟩
  | 106 => ⟨S600000x128, .f32⟩
  | 107 => ⟨S_, .f32⟩
  | 108 => ⟨S600000x128, .f32⟩
  | 109 => ⟨S600000x128, .f32⟩
  | 110 => ⟨S_, .f32⟩
  | 111 => ⟨S50000x128, .f32⟩
  | 112 => ⟨S600000x1, .i32⟩
  | 113 => ⟨S50000x128, .f32⟩
  | 114 => ⟨S50000x128, .f32⟩
  | 115 => ⟨S50000x256, .f32⟩
  | 116 => ⟨S1x256, .f32⟩
  | 117 => ⟨S50000x256, .f32⟩
  | 118 => ⟨S50000x256, .f32⟩
  | 119 => ⟨S_, .f32⟩
  | 120 => ⟨S50000x256, .f32⟩
  | 121 => ⟨S50000x256, .f32⟩
  | 122 => ⟨S50000x128, .f32⟩
  | 123 => ⟨S1x128, .f32⟩
  | 124 => ⟨S50000x128, .f32⟩
  | 125 => ⟨S50000x128, .f32⟩
  | 126 => ⟨S_, .f32⟩
  | 127 => ⟨S128, .f32⟩
  | _ => ⟨S50000x128, .f32⟩

abbrev hbmTy0_1 (i : Nat) : BufTy := match i % 128 with
  | 0 => ⟨S_, .f32⟩
  | 1 => ⟨S128, .f32⟩
  | 2 => ⟨S128, .f32⟩
  | 3 => ⟨S1x128, .f32⟩
  | 4 => ⟨S50000x128, .f32⟩
  | 5 => ⟨S50000x128, .f32⟩
  | 6 => ⟨S50000x128, .f32⟩
  | 7 => ⟨S_, .f32⟩
  | 8 => ⟨S128, .f32⟩
  | 9 => ⟨S_, .f32⟩
  | 10 => ⟨S128, .f32⟩
  | 11 => ⟨S128, .f32⟩
  | 12 => ⟨S1x128, .f32⟩
  | 13 => ⟨S50000x128, .f32⟩
  | 14 => ⟨S50000x128, .f32⟩
  | 15 => ⟨S_, .f32⟩
  | 16 => ⟨S128, .f32⟩
  | 17 => ⟨S128, .f32⟩
  | 18 => ⟨S128, .f32⟩
  | 19 => ⟨S1x128, .f32⟩
  | 20 => ⟨S50000x128, .f32⟩
  | 21 => ⟨S50000x128, .f32⟩
  | 22 => ⟨S1x128, .f32⟩
  | 23 => ⟨S50000x128, .f32⟩
  | 24 => ⟨S50000x128, .f32⟩
  | 25 => ⟨S1x128, .f32⟩
  | 26 => ⟨S50000x128, .f32⟩
  | 27 => ⟨S50000x128, .f32⟩
  | 28 => ⟨S_, .f32⟩
  | 29 => ⟨S50000x128, .f32⟩
  | 30 => ⟨S50000x128, .f32⟩
  | 31 => ⟨S50000x512, .f32⟩
  | 32 => ⟨S1x512, .f32⟩
  | 33 => ⟨S50000x512, .f32⟩
  | 34 => ⟨S50000x512, .f32⟩
  | 35 => ⟨S_, .f32⟩
  | 36 => ⟨S50000x512, .f32⟩
  | 37 => ⟨S50000x512, .f32⟩
  | 38 => ⟨S50000x1, .f32⟩
  | 39 => ⟨S1x1, .f32⟩
  | 40 => ⟨S50000x1, .f32⟩
  | 41 => ⟨S50000x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_c : Ref sig .tc := ⟨.hbm, 31, rfl⟩
abbrev main_v8 : Ref sig .tc := ⟨.hbm, 32, rfl⟩
abbrev main_v9 : Ref sig .tc := ⟨.hbm, 33, rfl⟩
abbrev main_c_0 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_call0_cst : Ref sig .tc := ⟨.hbm, 41, rfl⟩
abbrev main_call0_v0 : Ref sig .tc := ⟨.hbm, 42, rfl⟩
abbrev main_v16 : Ref sig .tc := ⟨.hbm, 43, rfl⟩
abbrev main_cst : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_call1_cst : Ref sig .tc := ⟨.hbm, 53, rfl⟩
abbrev main_call1_v0 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_cst_1 : Ref sig .tc := ⟨.hbm, 60, rfl⟩
abbrev main_v30 : Ref sig .tc := ⟨.hbm, 61, rfl⟩
abbrev main_cst_2 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_cst_3 : Ref sig .tc := ⟨.hbm, 69, rfl⟩
abbrev main_v37 : Ref sig .tc := ⟨.hbm, 70, rfl⟩
abbrev main_cst_4 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_cst_5 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_call2_cst : Ref sig .tc := ⟨.hbm, 90, rfl⟩
abbrev main_call2_v0 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_c_6 : Ref sig .tc := ⟨.hbm, 97, rfl⟩
abbrev main_v60 : Ref sig .tc := ⟨.hbm, 98, rfl⟩
abbrev main_v61 : Ref sig .tc := ⟨.hbm, 99, rfl⟩
abbrev main_c_7 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_call3_cst : Ref sig .tc := ⟨.hbm, 107, rfl⟩
abbrev main_call3_v0 : Ref sig .tc := ⟨.hbm, 108, rfl⟩
abbrev main_v68 : Ref sig .tc := ⟨.hbm, 109, rfl⟩
abbrev main_cst_8 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_call4_cst : Ref sig .tc := ⟨.hbm, 119, rfl⟩
abbrev main_call4_v0 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_cst_9 : Ref sig .tc := ⟨.hbm, 126, rfl⟩
abbrev main_v82 : Ref sig .tc := ⟨.hbm, 127, rfl⟩
abbrev main_cst_10 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_cst_11 : Ref sig .tc := ⟨.hbm, 135, rfl⟩
abbrev main_v89 : Ref sig .tc := ⟨.hbm, 136, rfl⟩
abbrev main_cst_12 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_cst_13 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_call5_cst : Ref sig .tc := ⟨.hbm, 156, rfl⟩
abbrev main_call5_v0 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_call6_cst : Ref sig .tc := ⟨.hbm, 163, rfl⟩
abbrev main_call6_v0 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S128_S1x128_1 : S128.BroadcastsInDim S1x128 (![1] : Fin 1 → Fin S1x128.rank)
  bcast_S1x128_S600000x128_0_1 : S1x128.BroadcastsInDim S600000x128 (![0, 1] : Fin 2 → Fin S600000x128.rank)
  bcast_S_S600000 : S_.BroadcastsInDim S600000 (![] : Fin 0 → Fin S600000.rank)
  bcast_S600000_S600000x1_0 : S600000.BroadcastsInDim S600000x1 (![0] : Fin 1 → Fin S600000x1.rank)
  bcast_S_S600000x128 : S_.BroadcastsInDim S600000x128 (![] : Fin 0 → Fin S600000x128.rank)
  bcast_S_S50000x128 : S_.BroadcastsInDim S50000x128 (![] : Fin 0 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  bcast_S_S50000x512 : S_.BroadcastsInDim S50000x512 (![] : Fin 0 → Fin S50000x512.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  dot_S600000x64_S64x128_S600000x128_1_0_0_1_n_n_wf : DotDims.WF S600000x64 S64x128 S600000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x256_S50000x256_1_0_0_1_n_n_wf : DotDims.WF S50000x128 S128x256 S50000x256 [1] [0] [0] [1] [] []
  dot_S50000x256_S256x128_S50000x128_1_0_0_1_n_n_wf : DotDims.WF S50000x256 S256x128 S50000x128 [1] [0] [0] [1] [] []
  dot_S50000x128_S128x512_S50000x512_1_0_0_1_n_n_wf : DotDims.WF S50000x128 S128x512 S50000x512 [1] [0] [0] [1] [] []
  dot_S50000x512_S512x1_S50000x1_1_0_0_1_n_n_wf : DotDims.WF S50000x512 S512x1 S50000x1 [1] [0] [0] [1] [] []

variable [Facts₀]

def dot_S600000x64_S64x128_S600000x128_1_0_0_1_n_n : DotDims S600000x64 S64x128 S600000x128 where
  lhsContracting := [1]
  rhsContracting := [0]
  lhsNonContracting := [0]
  rhsNonContracting := [1]
  lhsBatch := []
  rhsBatch := []
  wf := dot_S600000x64_S64x128_S600000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x512_S50000x512_1_0_0_1_n_n : DotDims S50000x128 S128x512 S50000x512 where
  lhsContracting := [1]
  rhsContracting := [0]
  lhsNonContracting := [0]
  rhsNonContracting := [1]
  lhsBatch := []
  rhsBatch := []
  wf := dot_S50000x128_S128x512_S50000x512_1_0_0_1_n_n_wf
def dot_S50000x512_S512x1_S50000x1_1_0_0_1_n_n : DotDims S50000x512 S512x1 S50000x1 where
  lhsContracting := [1]
  rhsContracting := [0]
  lhsNonContracting := [0]
  rhsNonContracting := [1]
  lhsBatch := []
  rhsBatch := []
  wf := dot_S50000x512_S512x1_S50000x1_1_0_0_1_n_n_wf

class Facts : Prop extends Facts₀ where

variable [Facts]
-- ==== Proof.KernelRun.lean ====
/-
  The run of the whole program with its result named.

  The program is four grid kernels among stretches of array operations.  Every weakly fair execution terminates
  without a fault, and the final memory is the fold of the stretches and of the kernels' write-backs over the launch
  memory; here that fact is stated with the result array included, beside the argument arrays, which end as launched.
-/
import proofs.«131147_j56908316672645_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; afterwards the result array holds what the
    last region's write-backs leave, and every argument array is as launched. -/
theorem run : θ_run defs (onTc (τ := τ) (main (F := F))) ⟨m, fun _ => 0, ρ⟩ (fun r => ∀ c : Dev nD,
      r.2.mem ((c.tc : Thread nD τ).loc main_v94) = W14 m ρ c (Proc.devRef .tc main_v94)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v94 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c),
       (h c _ (mem_uc main_arg11 (by decide))).trans (W14_main_arg11 m ρ c),
       (h c _ (mem_uc main_arg12 (by decide))).trans (W14_main_arg12 m ρ c),
       (h c _ (mem_uc main_arg13 (by decide))).trans (W14_main_arg13 m ρ c),
       (h c _ (mem_uc main_arg14 (by decide))).trans (W14_main_arg14 m ρ c),
       (h c _ (mem_uc main_arg15 (by decide))).trans (W14_main_arg15 m ρ c),
       (h c _ (mem_uc main_arg16 (by decide))).trans (W14_main_arg16 m ρ c),
       (h c _ (mem_uc main_arg17 (by decide))).trans (W14_main_arg17 m ρ c),
       (h c _ (mem_uc main_arg18 (by decide))).trans (W14_main_arg18 m ρ c),
       (h c _ (mem_uc main_arg19 (by decide))).trans (W14_main_arg19 m ρ c),
       (h c _ (mem_uc main_arg20 (by decide))).trans (W14_main_arg20 m ρ c),
       (h c _ (mem_uc main_arg21 (by decide))).trans (W14_main_arg21 m ρ c),
       (h c _ (mem_uc main_arg22 (by decide))).trans (W14_main_arg22 m ρ c)⟩)

/-- The result array is the last kernel's output window after all ten grid points. -/
theorem result_eq (c : Dev nD) :
    W14 m ρ c (Proc.devRef .tc main_v94) = (dat3 (V13 m ρ) c).arrAt 9 cfg3.N :=
  W14_arr m ρ c 9

end Cert.KernelIdeal.RunValue

end
-- ==== Proof.Spec.lean ====
/-
  The pieces of the two-layer graph network, entry by entry, over the extended reals.

  Every piece is a function of whole matrices read at an index: a dense layer x · W + b with the bias as a one-row
  matrix, the rectifier, the inner network of a convolution relu((h + a) · W₁ + b₁) · W₂ + b₂, the column sums and column
  sums of squares of each block of 5000 consecutive rows, the normalisation (h − μ) · s · γ + β with one-row statistics,
  and the readout, whose last layer has one output column and is an inner product of each row with one weight row.
  Sums and products of extended reals are commutative and associative, so none of these definitions depends on how a
  program groups or orders its sums.
-/
import Idealize.ShloMosaic.PureOps.Ideal
import Idealize.ShloMosaic.Lib.ValueIdx

noncomputable section

namespace Cert.Gine

open Idealize.ShloMosaic Idealize.ShloMosaic.ValueIdx

/-- A matrix of extended reals with `m` rows and `n` columns. -/
abbrev Mat (m n : ℕ) : Type := (⟨2, ![m, n]⟩ : Shape).Idx → EReal

/-- A vector of length `n`. -/
abbrev Vect (n : ℕ) : Type := (⟨1, ![n]⟩ : Shape).Idx → EReal

/-- A vector laid out as a one-row matrix. -/
def row {n : ℕ} (b : Vect n) : Mat 1 n := fun i => b (ix1 (i 1))

/-- A one-column matrix laid out as a one-row matrix. -/
def colAsRow {n : ℕ} (w : Mat n 1) : Mat 1 n := fun i => w (ix2 (i 1) 0)

/-- A vector of length one as a one-by-one matrix. -/
def cell (b : Vect 1) : Mat 1 1 := fun _ => b (ix1 0)

/-- `x · W + b`: row `p` of `x` against column `q` of `W`, plus entry `q` of the one-row matrix `b`. -/
def affine {M K N : ℕ} (x : Mat M K) (W : Mat K N) (b : Mat 1 N) : Mat M N :=
  fun i => (∑ k : Fin K, x (ix2 (i 0) k) * W (ix2 k (i 1))) + b (ix2 0 (i 1))

/-- The rectifier, entry by entry. -/
def relu {M N : ℕ} (x : Mat M N) : Mat M N := fun i => max (x i) 0

/-- The inner network of one convolution: `relu((h + a) · W₁ + b₁) · W₂ + b₂`. -/
def mlp {M D H C : ℕ} (h a : Mat M D) (W1 : Mat D H) (b1 : Mat 1 H) (W2 : Mat H C) (b2 : Mat 1 C) : Mat M C :=
  affine (relu (affine (fun i => h i + a i) W1 b1)) W2 b2

/-- Row `r` of block `t` when 50000 rows are cut into 10 blocks of 5000 consecutive rows. -/
def rowOf (t : Fin 10) (r : Fin 5000) : Fin 50000 := ⟨t.val * 5000 + r.val, by omega⟩

/-- Per block of 5000 rows: the column sums (middle coordinate 0) and the column sums of squares (middle coordinate 1). -/
def blockStats (o : Mat 50000 128) : (⟨3, ![10, 2, 128]⟩ : Shape).Idx → EReal :=
  fun i => if (i 1).val = 0 then ∑ r : Fin 5000, o (ix2 (rowOf (i 0) r) (i 2))
    else ∑ r : Fin 5000, o (ix2 (rowOf (i 0) r) (i 2)) * o (ix2 (rowOf (i 0) r) (i 2))

/-- Normalisation with a given mean and inverse deviation, then scale and shift; all four are one-row matrices. -/
def normalize {M N : ℕ} (h : Mat M N) (mu s g b : Mat 1 N) : Mat M N :=
  fun i => (h i - mu (ix2 0 (i 1))) * s (ix2 0 (i 1)) * g (ix2 0 (i 1)) + b (ix2 0 (i 1))

/-- The readout: the rectified normalisation, a rectified dense layer, then the inner product of each row with one
    weight row, plus a constant. -/
def readout {M D H : ℕ} (h : Mat M D) (mu s g b : Mat 1 D) (W : Mat D H) (b1 : Mat 1 H) (w2 : Mat 1 H) (b2 : Mat 1 1) :
    Mat M 1 :=
  fun i => (∑ j : Fin H, relu (affine (relu (normalize h mu s g b)) W b1) (ix2 (i 0) j) * w2 (ix2 0 j)) + b2 (ix2 0 0)

end Cert.Gine

end
-- ==== Proof.StatsDefs.lean ====
/-
  The column statistics the kernel program finishes from the per-block sums.
-/
import proofs.«131147_j56908316672645_2_alg».proof.Proof.Gen.KernelIdeal
import Idealize.ShloMosaic.PureOps.Ideal

noncomputable section

namespace Cert.Gine

open Idealize.ShloMosaic Cert.KernelIdeal Cert.KernelIdeal.Gen

/-- The column means: the per-block column sums (middle coordinate 0) added over the ten blocks and divided by 50000. -/
def kMean (s : FVec Ideal S10x2x128 .f32) : FVec Ideal S128 .f32 :=
  Host.divf (Host.reduceAdd (shapeCast S10x128 (extractStridedSlice S10x1x128 ![0, 0, 0] s slices_S10x2x128_S10x1x128_0_0_0)
      shapeCasts_S10x1x128_S10x128) (constant (F := Ideal) S_ .f32 0x00000000#32) reducesTo_S10x128_S128_d0 h_S_)
    (broadcastInDim S128 ![] bcast_S_S128 (constant (F := Ideal) S_ .f32 0x47435000#32))

/-- The column means of the squares, from the per-block column sums of squares (middle coordinate 1). -/
def kMeanSq (s : FVec Ideal S10x2x128 .f32) : FVec Ideal S128 .f32 :=
  Host.divf (Host.reduceAdd (shapeCast S10x128 (extractStridedSlice S10x1x128 ![0, 1, 0] s slices_S10x2x128_S10x1x128_0_1_0)
      shapeCasts_S10x1x128_S10x128) (constant (F := Ideal) S_ .f32 0x00000000#32) reducesTo_S10x128_S128_d0 h_S_)
    (broadcastInDim S128 ![] bcast_S_S128 (constant (F := Ideal) S_ .f32 0x47435000#32))

/-- The column variances: the mean of the squares minus the squared mean, clamped below at zero. -/
def kVar (s : FVec Ideal S10x2x128 .f32) : FVec Ideal S128 .f32 :=
  maximumf (subf (kMeanSq s) (mulf (kMean s) (kMean s)))
    (broadcastInDim S128 ![] bcast_S_S128 (constant (F := Ideal) S_ .f32 0x00000000#32))

/-- The inverse deviations: the inverse square root of the variance plus the small constant. -/
def kIstd (s : FVec Ideal S10x2x128 .f32) : FVec Ideal S128 .f32 :=
  Host.rsqrt (addf (kVar s) (broadcastInDim S128 ![] bcast_S_S128 (constant (F := Ideal) S_ .f32 0x3727C5AC#32)))

end Cert.Gine

end
-- ==== Proof.Aggr.lean ====
/-
  One round of message passing, in the spelling of each of the two programs.

  Every edge carries the rectified sum of its source node's row and its own embedding row; every node receives the sum
  of the messages of the edges that end in it.  A negative source index counts from the end of the node list.  The two
  programs print this with their own copies of the same gather and scatter dimension numbers, so the two spellings are
  one function.
-/
import proofs.«131147_j56908316672645_2_alg».proof.Proof.Gen.KernelIdeal
import proofs.«131147_j56908316672645_2_alg».proof.Proof.Gen.ReferenceIdeal
import Idealize.ShloMosaic.PureOps.Ideal

noncomputable section

namespace Cert.Gine

open Idealize.ShloMosaic

/-- The round as the kernel program's array operations spell it. -/
def aggrK (x : FVec Ideal Cert.KernelIdeal.S50000x128 .f32) (src dst : IVec Cert.KernelIdeal.S600000 32)
    (e : FVec Ideal Cert.KernelIdeal.S600000x128 .f32) : FVec Ideal Cert.KernelIdeal.S50000x128 .f32 :=
  open Cert.KernelIdeal Cert.KernelIdeal.Gen in
  Host.scatterAdd scatter_S50000x128_S600000x1_S600000x128_1_0_0_1
    (broadcastInDim S50000x128 ![] bcast_S_S50000x128 (constant (F := Ideal) S_ .f32 0x00000000#32))
    (broadcastInDim S600000x1 ![0] bcast_S600000_S600000x1_0 dst)
    (maximumf (addf (Host.gather gather_S50000x128_S600000x1_S600000x128_1_0_n_n_0_1_1128 x
        (broadcastInDim S600000x1 ![0] bcast_S600000_S600000x1_0
          (select (cmpi .slt src (broadcastInDim S600000 ![] bcast_S_S600000 (constantI S_ 32 0#32)))
            (addi src (broadcastInDim S600000 ![] bcast_S_S600000 (constantI S_ 32 50000#32))) src))) e)
      (broadcastInDim S600000x128 ![] bcast_S_S600000x128 (constant (F := Ideal) S_ .f32 0x00000000#32)))

/-- The round as the reference program's array operations spell it. -/
def aggrR (x : FVec Ideal Cert.ReferenceIdeal.S50000x128 .f32) (src dst : IVec Cert.ReferenceIdeal.S600000 32)
    (e : FVec Ideal Cert.ReferenceIdeal.S600000x128 .f32) : FVec Ideal Cert.ReferenceIdeal.S50000x128 .f32 :=
  open Cert.ReferenceIdeal Cert.ReferenceIdeal.Gen in
  Host.scatterAdd scatter_S50000x128_S600000x1_S600000x128_1_0_0_1
    (broadcastInDim S50000x128 ![] bcast_S_S50000x128 (constant (F := Ideal) S_ .f32 0x00000000#32))
    (broadcastInDim S600000x1 ![0] bcast_S600000_S600000x1_0 dst)
    (maximumf (addf (Host.gather gather_S50000x128_S600000x1_S600000x128_1_0_n_n_0_1_1128 x
        (broadcastInDim S600000x1 ![0] bcast_S600000_S600000x1_0
          (select (cmpi .slt src (broadcastInDim S600000 ![] bcast_S_S600000 (constantI S_ 32 0#32)))
            (addi src (broadcastInDim S600000 ![] bcast_S_S600000 (constantI S_ 32 50000#32))) src))) e)
      (broadcastInDim S600000x128 ![] bcast_S_S600000x128 (constant (F := Ideal) S_ .f32 0x00000000#32)))

/-- The two spellings are one function: the two programs' dimension-number records have the same fields. -/
theorem aggrK_eq_aggrR (x : FVec Ideal Cert.KernelIdeal.S50000x128 .f32) (src dst : IVec Cert.KernelIdeal.S600000 32)
    (e : FVec Ideal Cert.KernelIdeal.S600000x128 .f32) : aggrK x src dst e = aggrR x src dst e := rfl

end Cert.Gine

end
-- ==== Proof.GlueDefs.lean ====
/-
  The kernel program's intermediate arrays and its result, as functions of the launch memory.

  The program embeds the edge features for both layers at once, then runs two rounds of message passing, each followed
  by the inner network and a normalisation whose statistics come from per-block column sums, and finally the readout.
  Each definition below is one of these arrays written with the specification's matrix functions and with the array
  operations the program applies between its grid kernels.
-/
import proofs.«131147_j56908316672645_2_alg».proof.Proof.Gen.KernelIdeal.Frame
import proofs.«131147_j56908316672645_2_alg».proof.Proof.Spec
import proofs.«131147_j56908316672645_2_alg».proof.Proof.StatsDefs
import proofs.«131147_j56908316672645_2_alg».proof.Proof.Aggr

set_option maxRecDepth 16384

noncomputable section

namespace Cert.KernelIdeal.Glue

open Cert.KernelIdeal Cert.KernelIdeal.Gen
open Idealize.ShloMosaic Idealize.ShloMosaic.TcCoe Idealize.ShloMosaic.ValueIdx Idealize.SL.Sem Idealize.ShloMosaic.StableHlo

section Value

variable (Z : Valuation τ sig (Elt Ideal))

/-- The edges' source nodes and destination nodes: the two rows of the edge list. -/
def src : IVec S600000 32 :=
  shapeCast S600000 (extractStridedSlice S1x600000 ![0, 0] (Z (Proc.devRef .tc main_arg1)) slices_S2x600000_S1x600000_0_0) shapeCasts_S1x600000_S600000
@[inherit_doc src]
def dst : IVec S600000 32 :=
  shapeCast S600000 (extractStridedSlice S1x600000 ![1, 0] (Z (Proc.devRef .tc main_arg1)) slices_S2x600000_S1x600000_1_0) shapeCasts_S1x600000_S600000

/-- The joint edge embedding of both layers: the edge features against the two weight matrices side by side, plus the
    two biases end to end. -/
def e01 : FVec Ideal S600000x256 .f32 :=
  Cert.Gine.affine (M := 600000) (K := 64) (N := 256) (Z (Proc.devRef .tc main_arg2))
    (concatenate S64x256 1 [⟨S64x128, (Z (Proc.devRef .tc main_arg3))⟩, ⟨S64x128, (Z (Proc.devRef .tc main_arg5))⟩] concatenates_S64x128_S64x128_S64x256_d1)
    (shapeCast S1x256 (concatenate S256 0 [⟨S128, (Z (Proc.devRef .tc main_arg4))⟩, ⟨S128, (Z (Proc.devRef .tc main_arg6))⟩] concatenates_S128_S128_S256_d0) shapeCasts_S256_S1x256)

/-- Its left half, the first layer's edge embedding, and its right half, the second layer's. -/
def e0 : FVec Ideal S600000x128 .f32 := extractStridedSlice S600000x128 ![0, 0] (e01 Z) slices_S600000x256_S600000x128_0_0
@[inherit_doc e0]
def e1 : FVec Ideal S600000x128 .f32 := extractStridedSlice S600000x128 ![0, 128] (e01 Z) slices_S600000x256_S600000x128_0_128

/-- The first layer: messages, then the inner network, before normalisation. -/
def ag0 : FVec Ideal S50000x128 .f32 := Cert.Gine.aggrK (Z (Proc.devRef .tc main_arg0)) (src Z) (dst Z) (e0 Z)
@[inherit_doc ag0]
def h0raw : FVec Ideal S50000x128 .f32 :=
  Cert.Gine.mlp (M := 50000) (D := 128) (H := 256) (C := 128) (Z (Proc.devRef .tc main_arg0)) (ag0 Z) (Z (Proc.devRef .tc main_arg7))
    (shapeCast S1x256 (Z (Proc.devRef .tc main_arg8)) shapeCasts_S256_S1x256) (Z (Proc.devRef .tc main_arg9)) (shapeCast S1x128 (Z (Proc.devRef .tc main_arg10)) shapeCasts_S128_S1x128)

/-- The first layer's output: normalised with the statistics finished from the per-block sums, scaled, shifted, rectified. -/
def h0 : FVec Ideal S50000x128 .f32 :=
  maximumf (addf (F := Ideal) (φ := .f32) (mulf (mulf (subf (h0raw Z) (broadcastInDim S50000x128 ![0, 1] bcast_S1x128_S50000x128_0_1 (broadcastInDim S1x128 ![1] bcast_S128_S1x128_1 (Cert.Gine.kMean (Cert.Gine.blockStats (h0raw Z)))))) (broadcastInDim S50000x128 ![0, 1] bcast_S1x128_S50000x128_0_1 (broadcastInDim S1x128 ![1] bcast_S128_S1x128_1 (Cert.Gine.kIstd (Cert.Gine.blockStats (h0raw Z)))))) (broadcastInDim S50000x128 ![0, 1] bcast_S1x128_S50000x128_0_1 (broadcastInDim S1x128 ![1] bcast_S128_S1x128_1 ((Z (Proc.devRef .tc main_arg15)))))) (broadcastInDim S50000x128 ![0, 1] bcast_S1x128_S50000x128_0_1 (broadcastInDim S1x128 ![1] bcast_S128_S1x128_1 ((Z (Proc.devRef .tc main_arg16))))))
    (broadcastInDim S50000x128 ![] bcast_S_S50000x128 (constant (F := Ideal) S_ .f32 0x00000000#32))

/-- The second layer before normalisation. -/
def ag1 : FVec Ideal S50000x128 .f32 := Cert.Gine.aggrK (h0 Z) (src Z) (dst Z) (e1 Z)
@[inherit_doc ag1]
def h1raw : FVec Ideal S50000x128 .f32 :=
  Cert.Gine.mlp (M := 50000) (D := 128) (H := 256) (C := 128) (h0 Z) (ag1 Z) (Z (Proc.devRef .tc main_arg11))
    (shapeCast S1x256 (Z (Proc.devRef .tc main_arg12)) shapeCasts_S256_S1x256) (Z (Proc.devRef .tc main_arg13)) (shapeCast S1x128 (Z (Proc.devRef .tc main_arg14)) shapeCasts_S128_S1x128)

/-- The program's result: the readout over the second layer, normalised inside it. -/
def out : FVec Ideal S50000x1 .f32 :=
  Cert.Gine.readout (M := 50000) (D := 128) (H := 512) (h1raw Z)
    (shapeCast S1x128 (Cert.Gine.kMean (Cert.Gine.blockStats (h1raw Z))) shapeCasts_S128_S1x128)
    (shapeCast S1x128 (Cert.Gine.kIstd (Cert.Gine.blockStats (h1raw Z))) shapeCasts_S128_S1x128)
    (shapeCast S1x128 (Z (Proc.devRef .tc main_arg17)) shapeCasts_S128_S1x128) (shapeCast S1x128 (Z (Proc.devRef .tc main_arg18)) shapeCasts_S128_S1x128)
    (Z (Proc.devRef .tc main_arg19)) (shapeCast S1x512 (Z (Proc.devRef .tc main_arg20)) shapeCasts_S512_S1x512)
    (shapeCast S1x512 (Z (Proc.devRef .tc main_arg21)) shapeCasts_S512x1_S1x512) (shapeCast S1x1 (Z (Proc.devRef .tc main_arg22)) shapeCasts_S1_S1x1)

end Value

end Cert.KernelIdeal.Glue

end
-- ==== Proof.LibProduct.lean ====
/-
  A matrix product read at an entry, for any sizes.

  For an M by K left factor and a K by N right factor contracted along the left factor's columns and the right
  factor's rows (no batch axis), the operand indices at the output entry (a, b) and the contraction index c are
  (a, c) and (c, b).  So the entry (a, b) of the product is ∑ c, l (a, c) · r (c, b): for the matrix unit's product
  into a zero accumulator and for the host's general product alike.  Row a of the product depends on row a of the
  left factor only.
-/
import Idealize.ShloMosaic.PureOps.Ideal
import Idealize.ShloMosaic.PureOps.Ideal.Laws
import Idealize.ShloMosaic.Lib.ValueIdx

noncomputable section

namespace Cert.LibProduct

open Idealize.ShloMosaic Idealize.ShloMosaic.ValueIdx

variable {M K N : ℕ}

/-- The row-by-column dimension numbers: the left factor's columns against the right factor's rows, no batch axis. -/
abbrev rowCol (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], wf⟩

/-- The left operand's row coordinate at the output entry (a, b) is a, whatever the contraction index. -/
theorem lhs_row (wf : DotDims.WF ⟨2, ![M, K]⟩ ⟨2, ![K, N]⟩ ⟨2, ![M, N]⟩ [1] [0] [0] [1] [] [])
    (i : (⟨2, ![M, N]⟩ : Shape).Idx) (q : (rowCol wf).contr.Idx) : ((rowCol wf).lhsIdx i q 0).val = (i 0).val := by
  unfold DotDims.lhsIdx
  rw [dif_neg (by simp), dif_pos (by simp)]
  rfl

/-- The right operand's column coordinate at the output entry (a, b) is b, whatever the contraction index. -/
theorem rhs_col (wf : DotDims.WF ⟨2, ![M, K]⟩ ⟨2, ![K, N]⟩ ⟨2, ![M, N]⟩ [1] [0] [0] [1] [] [])
    (i : (⟨2, ![M, N]⟩ : Shape).Idx) (q : (rowCol wf).contr.Idx) : ((rowCol wf).rhsIdx i q 1).val = (i 1).val := by
  unfold DotDims.rhsIdx
  rw [dif_neg (by simp), dif_pos (by simp)]
  rfl

/-- The sum over the contraction index of the products of the operands' entries is the sum over the shared
    coordinate c of l (a, c) · r (c, b). -/
theorem sum_products (wf : DotDims.WF ⟨2, ![M, K]⟩ ⟨2, ![K, N]⟩ ⟨2, ![M, N]⟩ [1] [0] [0] [1] [] [])
    (l : (⟨2, ![M, K]⟩ : Shape).Idx → EReal) (r : (⟨2, ![K, N]⟩ : Shape).Idx → EReal) (a : Fin M) (b : Fin N) :
    ∑ k : (rowCol wf).contr.Idx, l ((rowCol wf).lhsIdx (ix2 a b) k) * r ((rowCol wf).rhsIdx (ix2 a b) k)
      = ∑ c : Fin K, l (ix2 a c) * r (ix2 c b) := by
  rw [← Equiv.sum_comp (contrEquiv1 (rowCol wf) K rfl rfl).symm]
  refine Finset.sum_congr rfl fun c _ => ?_
  have hk := contrEquiv1_symm_val (rowCol wf) K rfl rfl c
  have el : (rowCol wf).lhsIdx (ix2 a b) ((contrEquiv1 (rowCol wf) K rfl rfl).symm c) = ix2 a c := funext fun ax => Fin.ext (by
    match ax with
    | ⟨0, _⟩ => exact lhs_row wf _ _
    | ⟨1, _⟩ => exact ((rowCol wf).lhsIdx_val_of_single rfl (ix2 a b) _).trans hk)
  have er : (rowCol wf).rhsIdx (ix2 a b) ((contrEquiv1 (rowCol wf) K rfl rfl).symm c) = ix2 c b := funext fun ax => Fin.ext (by
    match ax with
    | ⟨0, _⟩ => exact ((rowCol wf).rhsIdx_val_of_single rfl (ix2 a b) _).trans hk
    | ⟨1, _⟩ => exact rhs_col wf _ _)
  rw [el, er]

/-- THE MATRIX UNIT'S PRODUCT INTO A ZERO ACCUMULATOR AT AN ENTRY, for any record of dimension numbers with the
    row-by-column axis lists. -/
theorem matmul_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (l : FVec Ideal ⟨2, ![M, K]⟩ φ₁) (r : FVec Ideal ⟨2, ![K, N]⟩ φ₂) (a : Fin M) (b : Fin N) :
    FloatOps.matmul d prec l r (constant ⟨2, ![M, N]⟩ .f32 0x00000000#32) (ix2 a b) = ∑ c : Fin K, l (ix2 a c) * r (ix2 c b) := by
  obtain ⟨lc, rc, ln, rn, lb, rb, wf⟩ := d
  dsimp only at h1 h2 h3 h4 h5 h6
  subst h1 h2 h3 h4 h5 h6
  rw [Ideal.matmul_constant_zero_apply]
  exact sum_products wf l r a b

/-- THE HOST'S GENERAL PRODUCT AT AN ENTRY, for any such record. -/
theorem dotGeneral_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (l : FVec Ideal ⟨2, ![M, K]⟩ φ₁) (r : FVec Ideal ⟨2, ![K, N]⟩ φ₂) (a : Fin M) (b : Fin N) :
    Host.dotGeneral d prec l r (ix2 a b) = ∑ c : Fin K, l (ix2 a c) * r (ix2 c b) := by
  obtain ⟨lc, rc, ln, rn, lb, rb, wf⟩ := d
  dsimp only at h1 h2 h3 h4 h5 h6
  subst h1 h2 h3 h4 h5 h6
  simp only [Host.dotGeneral]
  rw [Ideal.dotGeneral_apply]
  exact sum_products wf l r a b

end Cert.LibProduct

end
-- ==== Proof.EdgeValue.lean ====
/-
  The edge-embedding region, read as one matrix expression.

  The region cuts the 600000 rows of the edge features into 75 blocks of 8000 consecutive rows.  At each block it
  multiplies the block by the whole 64 by 256 weight matrix and adds the one-row bias to every row of the product.
  Entry (p, q) of a block's result is therefore the sum over k of x (8000 t + p, k) * W (k, q), plus b (0, q): row
  8000 t + p of the dense layer x * W + b.  The 75 blocks tile the 600000 rows, so after the last block the result
  array is the dense layer of the whole input, entry by entry.
-/
import proofs.«131147_j56908316672645_2_alg».proof.Proof.Gen.KernelIdeal.Frame
import proofs.«131147_j56908316672645_2_alg».proof.Proof.Spec
import proofs.«131147_j56908316672645_2_alg».proof.Proof.LibProduct
import Idealize.ShloMosaic.Lib.Pipeline.Value
import Idealize.ShloMosaic.Lib.ValueIdx
import Idealize.ShloMosaic.Lib.ValueIdxCoords
import Idealize.ShloMosaic.Lib.ValueLayout
import Idealize.ShloMosaic.PureOps.Ideal.Laws

set_option maxRecDepth 16384

noncomputable section

namespace Cert.KernelIdeal.EdgeValue

open Cert.KernelIdeal Cert.KernelIdeal.Gen Idealize.ShloMosaic Idealize.ShloMosaic.TcCoe Idealize.ShloMosaic.ValueIdx Idealize.SL.Sem
open Idealize.ShloMosaic.Pipeline (Dat Cfg Window)

/-- The zero offsets of a whole-buffer access, as a constant function. -/
theorem zeros : (![0, 0] : Fin 2 → Nat) = fun _ => 0 := funext fun a => by fin_cases a <;> rfl

/-- One block's result at entry (p, q): row p of the block against column q of the weights, plus entry q of the bias row.
    The narrowing of the factors is the identity on extended reals, the accumulator starts at zero, the casts keep the
    shape, and the bias row is repeated along the rows. -/
theorem pay_apply (x0 : Vec Ideal S8000x64 .f32) (x1 : Vec Ideal S64x256 .f32) (x2 : Vec Ideal S1x256 .f32)
    (p : Fin 8000) (q : Fin 256) :
    Gen.k0_pay1 x0 x1 x2 (ix2 p q) = (∑ k : Fin 64, x0 (ix2 p k) * x1 (ix2 k q)) + x2 (ix2 (0 : Fin 1) q) := by
  unfold Gen.k0_pay1
  rw [addf_apply, shapeCast_self, shapeCast_self, broadcastTo_1b_ab_apply]
  exact congrArg (· + x2 (ix2 (0 : Fin 1) q))
    (Cert.LibProduct.matmul_zero_apply dot_S8000x64_S64x256_S8000x256_1_0_0_1_n_n rfl rfl rfl rfl rfl rfl none
      (truncf .bf16 x0 bitsLt_bf16_f32) (truncf .bf16 x1 bitsLt_bf16_f32) p q)

/-- One block's result at entry (p, q) is the dense layer at an index i of the whole array, as soon as row p of the
    block is row i 0 of the input, column q of the block's weights is column i 1 of the weights, and entry q of the
    block's bias row is entry i 1 of the bias row. -/
theorem block_apply (X : S600000x64.Idx → EReal) (W : S64x256.Idx → EReal) (b : S1x256.Idx → EReal)
    (x0 : Vec Ideal S8000x64 .f32) (x1 : Vec Ideal S64x256 .f32) (x2 : Vec Ideal S1x256 .f32)
    (p : Fin 8000) (q : Fin 256) (i : S600000x256.Idx)
    (h0 : ∀ k : Fin 64, x0 (ix2 p k) = X (ix2 (i 0) k))
    (h1 : ∀ k : Fin 64, x1 (ix2 k q) = W (ix2 k (i 1)))
    (h2 : x2 (ix2 (0 : Fin 1) q) = b (ix2 0 (i 1))) :
    Gen.k0_pay1 x0 x1 x2 (ix2 p q) = Cert.Gine.affine X W b i := by
  rw [pay_apply, h2]
  unfold Cert.Gine.affine
  exact congrArg (· + b (ix2 0 (i 1))) (Finset.sum_congr rfl fun k _ => by rw [h0 k, h1 k])

/-- The printed index maps, decided over the 75 points: the input's and the output's row block is the point's number,
    every other block index is zero. -/
theorem idx_facts : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = t.val
    ∧ win0_3.index t (1 : Fin 2) = 0 :=
  (by decide +kernel : ∀ t : Fin grid0.N, _)

variable (V : (c : Dev nD) → (b : Ref sig .tc) → Buf (Elt Ideal) ((c : Thread nD τ).loc b))

/-- What point t writes back is block t of the dense layer of the arrays as the region finds them. -/
theorem flushed_eq (c : Dev nD) (t : Fin cfg0.N) :
    (Gen.dat0 (F := Ideal) V c).flushed 3 t = ((cfg0.win 3).blk t).view.read (Elt Ideal)
      (Cert.Gine.affine (V c main_arg2 : S600000x64.Idx → EReal) (V c main_v4 : S64x256.Idx → EReal)
        (V c main_v6 : S1x256.Idx → EReal)) := by
  show (cfg0.win 3).cut (grid0.coords t) ((Gen.dat0 (F := Ideal) V c).after 3 t) = _
  rw [Gen.after0_3]
  unfold Gen.out0_3
  rw [View.canon_unit_zero zeros]
  simp only [View.ld_unit_zero (S := S8000x64) zeros, View.ld_unit_zero (S := S64x256) zeros,
    View.ld_unit_zero (S := S1x256) zeros]
  obtain ⟨e0, e1, e2, e3, e4, e5, e6, e7⟩ := idx_facts t
  funext j
  show Gen.k0_pay1 (Gen.iblk0 V c 0 t) (Gen.iblk0 V c 1 t) (Gen.iblk0 V c 2 t) j
    = Cert.Gine.affine (V c main_arg2 : S600000x64.Idx → EReal) (V c main_v4 : S64x256.Idx → EReal)
        (V c main_v6 : S1x256.Idx → EReal) (((cfg0.win 3).blk t).view.emb j)
  refine (congrArg (Gen.k0_pay1 (Gen.iblk0 V c 0 t) (Gen.iblk0 V c 1 t) (Gen.iblk0 V c 2 t))
    (eq_ix2 (n0 := 8000) (n1 := 256) j)).trans ?_
  refine block_apply _ _ _ _ _ _ (j 0) (j 1) (((cfg0.win 3).blk t).view.emb j) (fun k => ?_) (fun k => ?_) ?_
  · show V c main_arg2 (((cfg0.win 0).blk t).view.emb (ix2 (j 0) k))
      = V c main_arg2 (ix2 ((((cfg0.win 3).blk t).view.emb j) 0) k)
    refine congrArg (V c main_arg2) (funext fun a => Fin.ext ?_)
    match a with
    | ⟨0, _⟩ =>
      show win0_0.index t (0 : Fin 2) * 8000 + 1 * (j 0).val = win0_3.index t (0 : Fin 2) * 8000 + 1 * (j 0).val
      omega
    | ⟨1, _⟩ =>
      show win0_0.index t (1 : Fin 2) * 64 + 1 * k.val = k.val
      omega
  · show V c main_v4 (((cfg0.win 1).blk t).view.emb (ix2 k (j 1)))
      = V c main_v4 (ix2 k ((((cfg0.win 3).blk t).view.emb j) 1))
    refine congrArg (V c main_v4) (funext fun a => Fin.ext ?_)
    match a with
    | ⟨0, _⟩ =>
      show win0_1.index t (0 : Fin 2) * 64 + 1 * k.val = k.val
      omega
    | ⟨1, _⟩ =>
      show win0_1.index t (1 : Fin 2) * 256 + 1 * (j 1).val = win0_3.index t (1 : Fin 2) * 256 + 1 * (j 1).val
      omega
  · show V c main_v6 (((cfg0.win 2).blk t).view.emb (ix2 (0 : Fin 1) (j 1)))
      = V c main_v6 (ix2 0 ((((cfg0.win 3).blk t).view.emb j) 1))
    refine congrArg (V c main_v6) (funext fun a => Fin.ext ?_)
    match a with
    | ⟨0, _⟩ =>
      show win0_2.index t (0 : Fin 2) * 1 + 1 * 0 = 0
      omega
    | ⟨1, _⟩ =>
      show win0_2.index t (1 : Fin 2) * 256 + 1 * (j 1).val = win0_3.index t (1 : Fin 2) * 256 + 1 * (j 1).val
      omega

/-- An index of the result array is in point t's block iff each coordinate is in the block's range on its axis. -/
theorem mem_blk (t : Fin cfg0.N) (i : S600000x256.Idx) :
    i ∈ ((cfg0.win 3).blk t).view.set ↔ ∀ a : Fin 2, win0_3.index t a * S8000x256.size a ≤ (i a).val
      ∧ (i a).val < win0_3.index t a * S8000x256.size a + S8000x256.size a := by
  show i ∈ ((View.whole main_v7).slice (win0_3.rect t)).set ↔ _
  rw [View.set_slice_whole, Rect.mem_set_unit]
  exact Iff.rfl

/-- Every index of the result array is in some point's block: row r is in block r / 8000. -/
theorem cover (i : S600000x256.Idx) :
    ∃ t : Fin cfg0.N, (cfg0.win 3).flush t = true ∧ i ∈ ((cfg0.win 3).blk t).view.set := by
  have hi0 : (i 0).val < 600000 := (i 0).isLt
  have hi1 : (i 1).val < 256 := (i 1).isLt
  have hN : cfg0.N = 75 := N_0
  have ht : (i 0).val / 8000 < cfg0.N := by rw [hN]; omega
  obtain ⟨-, -, -, -, -, -, e6, e7⟩ := idx_facts ⟨(i 0).val / 8000, ht⟩
  have e6' : win0_3.index ⟨(i 0).val / 8000, ht⟩ (0 : Fin 2) = (i 0).val / 8000 := e6
  refine ⟨⟨(i 0).val / 8000, ht⟩, flush0_3 _, ?_⟩
  rw [mem_blk]
  intro a
  match a with
  | ⟨0, _⟩ =>
    show win0_3.index ⟨(i 0).val / 8000, ht⟩ (0 : Fin 2) * 8000 ≤ (i 0).val
      ∧ (i 0).val < win0_3.index ⟨(i 0).val / 8000, ht⟩ (0 : Fin 2) * 8000 + 8000
    omega
  | ⟨1, _⟩ =>
    show win0_3.index ⟨(i 0).val / 8000, ht⟩ (1 : Fin 2) * 256 ≤ (i 1).val
      ∧ (i 1).val < win0_3.index ⟨(i 0).val / 8000, ht⟩ (1 : Fin 2) * 256 + 256
    omega

/-- The result array after the region: the dense layer of the edge features, the weights and the bias row as the
    region finds them. -/
theorem final (c : Dev nD) :
    (Gen.dat0 (F := Ideal) V c).arrAt 3 cfg0.N
      = Cert.Gine.affine (V c main_arg2 : S600000x64.Idx → EReal) (V c main_v4 : S64x256.Idx → EReal)
          (V c main_v6 : S1x256.Idx → EReal) :=
  (Gen.dat0 (F := Ideal) V c).arrAt_eq_of_cover 3 _ (fun t _ => flushed_eq V c t) cover

end Cert.KernelIdeal.EdgeValue

end
-- ==== Proof.NodeValue.lean ====
/-
  The node network's two results, read entry by entry.

  One launch of the node kernel cuts the 50000 rows into 10 blocks of 5000 consecutive rows.  At block t it adds the two
  row blocks, applies the first dense layer, the rectifier and the second dense layer, and stores the 5000 by 128 result
  as block t of the first result; it stores the column sums of that block and of its squares as plane t of the second
  result.  A dense layer's row p depends on row p of its input only, so block t of the result is block t of the network
  applied to the whole arrays, and the 10 blocks tile the 50000 rows.
-/
import proofs.«131147_j56908316672645_2_alg».proof.Proof.Gen.KernelIdeal.Frame
import proofs.«131147_j56908316672645_2_alg».proof.Proof.Spec
import proofs.«131147_j56908316672645_2_alg».proof.Proof.LibProduct
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

open Cert.KernelIdeal Cert.KernelIdeal.Gen Idealize.ShloMosaic Idealize.ShloMosaic.TcCoe Idealize.ShloMosaic.ValueIdx Idealize.SL.Sem
open Idealize.ShloMosaic.Pipeline (Dat Cfg Window)

namespace Cert.KernelIdeal.NodeValue1

/-! ## What one grid point stores, entry by entry -/

/-- The first stored value at row p and column q of a block: the second dense layer of the rectified first dense layer
    of the sum of the two input blocks, all read at row p. -/
theorem pay1_apply (x0 x1 : Vec Ideal S5000x128 .f32) (W1 : Vec Ideal S128x256 .f32) (b1 : Vec Ideal S1x256 .f32)
    (W2 : Vec Ideal S256x128 .f32) (b2 : Vec Ideal S1x128 .f32) (p : Fin 5000) (q : Fin 128) :
    k1_pay1 x0 x1 W1 b1 W2 b2 (ix2 p q)
      = (∑ k : Fin 256, max ((∑ j : Fin 128, (x0 (ix2 p j) + x1 (ix2 p j)) * W1 (ix2 j k)) + b1 (ix2 0 k)) 0 * W2 (ix2 k q))
        + b2 (ix2 0 q) := by
  unfold k1_pay1
  simp only [shapeCast_self, matmul]
  rw [addf_apply, Cert.LibProduct.matmul_zero_apply _ rfl rfl rfl rfl rfl rfl, broadcastTo_1b_ab_apply]
  congr 1
  refine Finset.sum_congr rfl fun k _ => ?_
  rw [truncf_apply, truncf_apply, maximumf_apply, broadcast_apply, addf_apply,
    Cert.LibProduct.matmul_zero_apply _ rfl rfl rfl rfl rfl rfl, broadcastTo_1b_ab_apply,
    show (FloatOps.ofBits FTy.f32 0x00000000#32 : Ideal .f32) = 0 from Ideal.ofBits_zero_f32]
  rfl

/-- The reduced index q with row r put back is (r, q). -/
theorem lift_rows (h : S5000x128.Reduces [0] S128) (q : Fin 128) (r : Fin (S5000x128.size 0)) :
    h.lift (ix1 q) r = ix2 (⟨r.val, r.isLt⟩ : Fin 5000) q := by
  funext a; apply Fin.ext
  match a with
  | ⟨0, _⟩ => rfl
  | ⟨1, _⟩ => rfl

/-- A sum over the 5000 rows of a block, column by column. -/
theorem colsum_apply (src : FVec Ideal S5000x128 .f32) (h : S5000x128.Reduces [0] S128) (hφ : FKind.Formats .f32)
    (hacc : (0x00000000#32 : BitVec 32) = FKind.add.neutral .f32 hφ) (q : Fin 128) :
    multiReduction (F := Ideal) .add [0] S128 src 0x00000000#32 h hφ hacc (ix1 q) = ∑ r : Fin 5000, src (ix2 r q) := by
  refine (Ideal.multiReduction_add_single src 0x00000000#32 h hφ hacc (ix1 q)).trans ?_
  show ∑ r : Fin 5000, src (h.lift (ix1 q) r) = _
  refine Finset.sum_congr rfl fun r _ => ?_
  exact congrArg src (lift_rows h q r)

/-- The second stored value: at middle coordinate 0 the column sums of the first stored value, at middle coordinate 1
    the column sums of its squares. -/
theorem pay2_apply (x0 x1 : Vec Ideal S5000x128 .f32) (W1 : Vec Ideal S128x256 .f32) (b1 : Vec Ideal S1x256 .f32)
    (W2 : Vec Ideal S256x128 .f32) (b2 : Vec Ideal S1x128 .f32) (u : Fin 1) (s : Fin 2) (q : Fin 128) :
    k1_pay2 x0 x1 W1 b1 W2 b2 (ix3 u s q)
      = if s.val = 0 then ∑ r : Fin 5000, k1_pay1 x0 x1 W1 b1 W2 b2 (ix2 r q)
        else ∑ r : Fin 5000, k1_pay1 x0 x1 W1 b1 W2 b2 (ix2 r q) * k1_pay1 x0 x1 W1 b1 W2 b2 (ix2 r q) := by
  unfold k1_pay2
  dsimp only
  split
  · next hs =>
    refine (concatenate_pair_apply_left (s₁ := S1x1x128) (s₂ := S1x1x128) (1 : Fin 3) _ _ _ (ix3 u s q) rfl (ix3 u (0 : Fin 1) q) (fun b => ?_)).trans ?_
    · match b with
      | ⟨0, _⟩ => rfl
      | ⟨1, _⟩ => exact hs.symm
      | ⟨2, _⟩ => rfl
    · rw [shapeCast_ab_1ab_apply, shapeCast_a_1a_apply]
      exact colsum_apply _ _ _ _ q
  · next hs =>
    have hs1 : s.val = 1 := by have := s.isLt; omega
    refine (concatenate_pair_apply_right (s₁ := S1x1x128) (s₂ := S1x1x128) (1 : Fin 3) _ _ _ (ix3 u s q) rfl rfl (ix3 u (0 : Fin 1) q) (fun b hb => ?_) ?_).trans ?_
    · match b with
      | ⟨0, _⟩ => rfl
      | ⟨1, _⟩ => exact absurd rfl hb
      | ⟨2, _⟩ => rfl
    · show 0 + 1 = s.val
      omega
    · rw [shapeCast_ab_1ab_apply, shapeCast_a_1a_apply]
      refine (colsum_apply _ _ _ _ q).trans ?_
      rfl

/-! ## A block's stored values as the network's entries -/

/-- When the two input blocks are rows 5000 n … 5000 n + 4999 of two arrays, the first stored value at row p is the
    network of the whole arrays at row 5000 n + p: every sum in it reads that one row. -/
theorem pay1_of_rows (x0 x1 : Vec Ideal S5000x128 .f32) (W1 : Vec Ideal S128x256 .f32) (b1 : Vec Ideal S1x256 .f32)
    (W2 : Vec Ideal S256x128 .f32) (b2 : Vec Ideal S1x128 .f32) (A0 A1 : S50000x128.Idx → EReal) (n : Fin 10)
    (h0 : ∀ (p : Fin 5000) (j : Fin 128), x0 (ix2 p j) = A0 (ix2 (Cert.Gine.rowOf n p) j))
    (h1 : ∀ (p : Fin 5000) (j : Fin 128), x1 (ix2 p j) = A1 (ix2 (Cert.Gine.rowOf n p) j))
    (p : Fin 5000) (q : Fin 128) :
    k1_pay1 x0 x1 W1 b1 W2 b2 (ix2 p q) = Cert.Gine.mlp A0 A1 W1 b1 W2 b2 (ix2 (Cert.Gine.rowOf n p) q) := by
  rw [pay1_apply]
  show _ = (∑ k : Fin 256, max ((∑ j : Fin 128, (A0 (ix2 (Cert.Gine.rowOf n p) j) + A1 (ix2 (Cert.Gine.rowOf n p) j)) * W1 (ix2 j k))
      + b1 (ix2 0 k)) 0 * W2 (ix2 k q)) + b2 (ix2 0 q)
  simp only [h0, h1]

/-- Then the second stored value is the block's statistics of that network. -/
theorem pay2_of_rows (x0 x1 : Vec Ideal S5000x128 .f32) (W1 : Vec Ideal S128x256 .f32) (b1 : Vec Ideal S1x256 .f32)
    (W2 : Vec Ideal S256x128 .f32) (b2 : Vec Ideal S1x128 .f32) (A0 A1 : S50000x128.Idx → EReal) (n : Fin 10)
    (h0 : ∀ (p : Fin 5000) (j : Fin 128), x0 (ix2 p j) = A0 (ix2 (Cert.Gine.rowOf n p) j))
    (h1 : ∀ (p : Fin 5000) (j : Fin 128), x1 (ix2 p j) = A1 (ix2 (Cert.Gine.rowOf n p) j))
    (u : Fin 1) (s : Fin 2) (q : Fin 128) :
    k1_pay2 x0 x1 W1 b1 W2 b2 (ix3 u s q) = Cert.Gine.blockStats (Cert.Gine.mlp A0 A1 W1 b1 W2 b2) (ix3 n s q) := by
  rw [pay2_apply]
  show _ = if s.val = 0 then ∑ r : Fin 5000, Cert.Gine.mlp A0 A1 W1 b1 W2 b2 (ix2 (Cert.Gine.rowOf n r) q)
    else ∑ r : Fin 5000, Cert.Gine.mlp A0 A1 W1 b1 W2 b2 (ix2 (Cert.Gine.rowOf n r) q) * Cert.Gine.mlp A0 A1 W1 b1 W2 b2 (ix2 (Cert.Gine.rowOf n r) q)
  simp only [pay1_of_rows x0 x1 W1 b1 W2 b2 A0 A1 n h0 h1]

/-! ## From blocks to the arrays -/

variable (V : (c : Dev nD) → (b : Ref sig .tc) → Buf (Elt Ideal) ((c : Thread nD τ).loc b))

theorem zeros2 : (![0, 0] : Fin 2 → Nat) = fun _ => 0 := funext fun a => by fin_cases a <;> rfl
theorem zeros3 : (![0, 0, 0] : Fin 3 → Nat) = fun _ => 0 := funext fun a => by fin_cases a <;> rfl

/-- The printed index maps, decided over the grid: the row windows and both outputs are at block t on their leading
    axis and block 0 elsewhere; the weights and biases are at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0
    ∧ win1_7.index t (0 : Fin 3) = t.val ∧ win1_7.index t (1 : Fin 3) = 0 ∧ win1_7.index t (2 : Fin 3) = 0 :=
  (by decide +kernel : ∀ t : Fin grid1.N, _)

/-- The grid point as a block number. -/
abbrev blockOf (t : Fin cfg1.N) : Fin 10 := ⟨t.val, lt_of_lt_of_eq t.isLt N_1⟩

/-- The first input window's block at point t is rows 5000 t … of its array. -/
theorem rows0 (c : Dev nD) (t : Fin cfg1.N) (p : Fin 5000) (j : Fin 128) :
    (iblk1 V c 0 t : Vec Ideal S5000x128 .f32) (ix2 p j)
      = (V c main_arg0 : S50000x128.Idx → EReal) (ix2 (Cert.Gine.rowOf (blockOf t) p) j) := by
  obtain ⟨e0, e1, -⟩ := idx_facts t
  unfold iblk1
  rw [View.read_apply]
  show (V c main_arg0 : S50000x128.Idx → EReal) _ = _
  congr 1
  funext a
  apply Fin.ext
  match a with
  | ⟨0, _⟩ => show win1_0.index t (0 : Fin 2) * 5000 + 1 * p.val = t.val * 5000 + p.val; rw [e0]; omega
  | ⟨1, _⟩ => show win1_0.index t (1 : Fin 2) * 128 + 1 * j.val = j.val; rw [e1]; omega

/-- The second input window's block likewise. -/
theorem rows1 (c : Dev nD) (t : Fin cfg1.N) (p : Fin 5000) (j : Fin 128) :
    (iblk1 V c 1 t : Vec Ideal S5000x128 .f32) (ix2 p j)
      = (V c main_v21 : S50000x128.Idx → EReal) (ix2 (Cert.Gine.rowOf (blockOf t) p) j) := by
  obtain ⟨-, -, e0, e1, -⟩ := idx_facts t
  unfold iblk1
  rw [View.read_apply]
  show (V c main_v21 : S50000x128.Idx → EReal) _ = _
  congr 1
  funext a
  apply Fin.ext
  match a with
  | ⟨0, _⟩ => show win1_1.index t (0 : Fin 2) * 5000 + 1 * p.val = t.val * 5000 + p.val; rw [e0]; omega
  | ⟨1, _⟩ => show win1_1.index t (1 : Fin 2) * 128 + 1 * j.val = j.val; rw [e1]; omega

/-- The weights' and biases' windows hold their whole arrays at every point. -/
theorem whole2 (c : Dev nD) (t : Fin cfg1.N) :
    (iblk1 V c 2 t : Vec Ideal S128x256 .f32) = (V c main_arg7 : S128x256.Idx → EReal) := by
  obtain ⟨-, -, -, -, e0, e1, -⟩ := idx_facts t
  funext y
  unfold iblk1
  rw [View.read_apply]
  show (V c main_arg7 : S128x256.Idx → EReal) _ = _
  congr 1
  funext a
  apply Fin.ext
  match a with
  | ⟨0, _⟩ => show win1_2.index t (0 : Fin 2) * 128 + 1 * (y 0).val = (y 0).val; rw [e0]; omega
  | ⟨1, _⟩ => show win1_2.index t (1 : Fin 2) * 256 + 1 * (y 1).val = (y 1).val; rw [e1]; omega

theorem whole3 (c : Dev nD) (t : Fin cfg1.N) :
    (iblk1 V c 3 t : Vec Ideal S1x256 .f32) = (V c main_v22 : S1x256.Idx → EReal) := by
  obtain ⟨-, -, -, -, -, -, e0, e1, -⟩ := idx_facts t
  funext y
  unfold iblk1
  rw [View.read_apply]
  show (V c main_v22 : S1x256.Idx → EReal) _ = _
  congr 1
  funext a
  apply Fin.ext
  match a with
  | ⟨0, _⟩ => show win1_3.index t (0 : Fin 2) * 1 + 1 * (y 0).val = (y 0).val; rw [e0]; omega
  | ⟨1, _⟩ => show win1_3.index t (1 : Fin 2) * 256 + 1 * (y 1).val = (y 1).val; rw [e1]; omega

theorem whole4 (c : Dev nD) (t : Fin cfg1.N) :
    (iblk1 V c 4 t : Vec Ideal S256x128 .f32) = (V c main_arg9 : S256x128.Idx → EReal) := by
  obtain ⟨-, -, -, -, -, -, -, -, e0, e1, -⟩ := idx_facts t
  funext y
  unfold iblk1
  rw [View.read_apply]
  show (V c main_arg9 : S256x128.Idx → EReal) _ = _
  congr 1
  funext a
  apply Fin.ext
  match a with
  | ⟨0, _⟩ => show win1_4.index t (0 : Fin 2) * 256 + 1 * (y 0).val = (y 0).val; rw [e0]; omega
  | ⟨1, _⟩ => show win1_4.index t (1 : Fin 2) * 128 + 1 * (y 1).val = (y 1).val; rw [e1]; omega

theorem whole5 (c : Dev nD) (t : Fin cfg1.N) :
    (iblk1 V c 5 t : Vec Ideal S1x128 .f32) = (V c main_v23 : S1x128.Idx → EReal) := by
  obtain ⟨-, -, -, -, -, -, -, -, -, -, e0, e1, -⟩ := idx_facts t
  funext y
  unfold iblk1
  rw [View.read_apply]
  show (V c main_v23 : S1x128.Idx → EReal) _ = _
  congr 1
  funext a
  apply Fin.ext
  match a with
  | ⟨0, _⟩ => show win1_5.index t (0 : Fin 2) * 1 + 1 * (y 0).val = (y 0).val; rw [e0]; omega
  | ⟨1, _⟩ => show win1_5.index t (1 : Fin 2) * 128 + 1 * (y 1).val = (y 1).val; rw [e1]; omega

/-- The network of the arrays as the launch finds them. -/
abbrev net (c : Dev nD) : S50000x128.Idx → EReal :=
  Cert.Gine.mlp (V c main_arg0 : S50000x128.Idx → EReal) (V c main_v21 : S50000x128.Idx → EReal) (V c main_arg7 : S128x256.Idx → EReal) (V c main_v22 : S1x256.Idx → EReal) (V c main_arg9 : S256x128.Idx → EReal) (V c main_v23 : S1x128.Idx → EReal)

/-- WHAT POINT t WRITES BACK to the first result is block t of the network of the whole arrays. -/
theorem flushed_out (c : Dev nD) (t : Fin cfg1.N) :
    (dat1 (F := Ideal) V c).flushed 6 t = ((cfg1.win 6).blk t).view.read (Elt Ideal) (net V c) := by
  show (cfg1.win 6).cut (grid1.coords t) ((dat1 (F := Ideal) V c).after 6 t) = _
  rw [after1_6]
  unfold out1_6
  rw [View.canon_unit_zero zeros2]
  simp only [View.ld_unit_zero (S := S5000x128) zeros2, View.ld_unit_zero (S := S128x256) zeros2, View.ld_unit_zero (S := S1x256) zeros2,
    View.ld_unit_zero (S := S256x128) zeros2, View.ld_unit_zero (S := S1x128) zeros2]
  rw [whole2 V c t, whole3 V c t, whole4 V c t, whole5 V c t]
  obtain ⟨-, -, -, -, -, -, -, -, -, -, -, -, e0, e1, -⟩ := idx_facts t
  funext y
  have hy0 : (y 0).val < 5000 := (y 0).isLt
  have hy1 : (y 1).val < 128 := (y 1).isLt
  have ex : (cfg1.win 6).xinj (grid1.coords t) y = ix2 (⟨(y 0).val, hy0⟩ : Fin 5000) (⟨(y 1).val, hy1⟩ : Fin 128) :=
    funext fun a => by
      match a with
      | ⟨0, _⟩ => rfl
      | ⟨1, _⟩ => rfl
  have ee : ((cfg1.win 6).blk t).view.emb y = ix2 (Cert.Gine.rowOf (blockOf t) ⟨(y 0).val, hy0⟩) (⟨(y 1).val, hy1⟩ : Fin 128) :=
    funext fun a => Fin.ext (by
      match a with
      | ⟨0, _⟩ => show win1_6.index t (0 : Fin 2) * 5000 + 1 * (y 0).val = t.val * 5000 + (y 0).val; rw [e0]; omega
      | ⟨1, _⟩ => show win1_6.index t (1 : Fin 2) * 128 + 1 * (y 1).val = (y 1).val; rw [e1]; omega)
  show k1_pay1 (F := Ideal) _ _ _ _ _ _ ((cfg1.win 6).xinj (grid1.coords t) y) = net V c (((cfg1.win 6).blk t).view.emb y)
  rw [ex, ee]
  exact pay1_of_rows _ _ _ _ _ _ _ _ (blockOf t) (rows0 V c t) (rows1 V c t) _ _

/-- WHAT POINT t WRITES BACK to the second result is plane t of the block statistics of that network. -/
theorem flushed_stats (c : Dev nD) (t : Fin cfg1.N) :
    (dat1 (F := Ideal) V c).flushed 7 t = ((cfg1.win 7).blk t).view.read (Elt Ideal) (Cert.Gine.blockStats (net V c)) := by
  show (cfg1.win 7).cut (grid1.coords t) ((dat1 (F := Ideal) V c).after 7 t) = _
  rw [after1_7]
  unfold out1_7
  rw [View.canon_unit_zero zeros3]
  simp only [View.ld_unit_zero (S := S5000x128) zeros2, View.ld_unit_zero (S := S128x256) zeros2, View.ld_unit_zero (S := S1x256) zeros2,
    View.ld_unit_zero (S := S256x128) zeros2, View.ld_unit_zero (S := S1x128) zeros2]
  rw [whole2 V c t, whole3 V c t, whole4 V c t, whole5 V c t]
  obtain ⟨-, -, -, -, -, -, -, -, -, -, -, -, -, -, e0, e1, e2⟩ := idx_facts t
  funext y
  have hy0 : (y 0).val < 1 := (y 0).isLt
  have hy1 : (y 1).val < 2 := (y 1).isLt
  have hy2 : (y 2).val < 128 := (y 2).isLt
  have ex : (cfg1.win 7).xinj (grid1.coords t) y = ix3 (⟨(y 0).val, hy0⟩ : Fin 1) (⟨(y 1).val, hy1⟩ : Fin 2) (⟨(y 2).val, hy2⟩ : Fin 128) :=
    funext fun a => by
      match a with
      | ⟨0, _⟩ => rfl
      | ⟨1, _⟩ => rfl
      | ⟨2, _⟩ => rfl
  have ee : ((cfg1.win 7).blk t).view.emb y = ix3 (blockOf t) (⟨(y 1).val, hy1⟩ : Fin 2) (⟨(y 2).val, hy2⟩ : Fin 128) :=
    funext fun a => Fin.ext (by
      match a with
      | ⟨0, _⟩ => show win1_7.index t (0 : Fin 3) * 1 + 1 * (y 0).val = t.val; rw [e0]; omega
      | ⟨1, _⟩ => show win1_7.index t (1 : Fin 3) * 2 + 1 * (y 1).val = (y 1).val; rw [e1]; omega
      | ⟨2, _⟩ => show win1_7.index t (2 : Fin 3) * 128 + 1 * (y 2).val = (y 2).val; rw [e2]; omega)
  show k1_pay2 (F := Ideal) _ _ _ _ _ _ ((cfg1.win 7).xinj (grid1.coords t) y) = Cert.Gine.blockStats (net V c) (((cfg1.win 7).blk t).view.emb y)
  rw [ex, ee]
  exact pay2_of_rows _ _ _ _ _ _ _ _ (blockOf t) (rows0 V c t) (rows1 V c t) _ _ _

/-- An index of the first result is in point t's block iff each coordinate is in the block's range on its axis. -/
theorem mem_blk_out (t : Fin cfg1.N) (i : S50000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v24_0).slice (win1_6.rect t)).set ↔ _
  rw [View.set_slice_whole, Rect.mem_set_unit]
  exact Iff.rfl

/-- Likewise for the second result. -/
theorem mem_blk_stats (t : Fin cfg1.N) (i : S10x2x128.Idx) :
    i ∈ ((cfg1.win 7).blk t).view.set ↔ ∀ a : Fin 3, win1_7.index t a * S1x2x128.size a ≤ (i a).val ∧ (i a).val < win1_7.index t a * S1x2x128.size a + S1x2x128.size a := by
  show i ∈ ((View.whole main_v24_1).slice (win1_7.rect t)).set ↔ _
  rw [View.set_slice_whole, Rect.mem_set_unit]
  exact Iff.rfl

/-- Row r of the first result is in the block of point r / 5000. -/
theorem cover_out (i : S50000x128.Idx) : ∃ t : Fin cfg1.N, (cfg1.win 6).flush t = true ∧ i ∈ ((cfg1.win 6).blk t).view.set := by
  have hi0 : (i 0).val < 50000 := (i 0).isLt
  have hi1 : (i 1).val < 128 := (i 1).isLt
  have hN : cfg1.N = 10 := N_1
  let t : Fin cfg1.N := ⟨(i 0).val / 5000, by rw [hN]; omega⟩
  obtain ⟨-, -, -, -, -, -, -, -, -, -, -, -, e0, e1, -⟩ := idx_facts t
  have ht : t.val = (i 0).val / 5000 := rfl
  refine ⟨t, flush1_6 t, ?_⟩
  rw [mem_blk_out]
  intro a
  match a with
  | ⟨0, _⟩ => show win1_6.index t (0 : Fin 2) * 5000 ≤ (i 0).val ∧ (i 0).val < win1_6.index t (0 : Fin 2) * 5000 + 5000; rw [e0, ht]; omega
  | ⟨1, _⟩ => show win1_6.index t (1 : Fin 2) * 128 ≤ (i 1).val ∧ (i 1).val < win1_6.index t (1 : Fin 2) * 128 + 128; rw [e1]; omega

/-- Plane n of the second result is the block of point n. -/
theorem cover_stats (i : S10x2x128.Idx) : ∃ t : Fin cfg1.N, (cfg1.win 7).flush t = true ∧ i ∈ ((cfg1.win 7).blk t).view.set := by
  have hi0 : (i 0).val < 10 := (i 0).isLt
  have hi1 : (i 1).val < 2 := (i 1).isLt
  have hi2 : (i 2).val < 128 := (i 2).isLt
  have hN : cfg1.N = 10 := N_1
  let t : Fin cfg1.N := ⟨(i 0).val, by rw [hN]; omega⟩
  obtain ⟨-, -, -, -, -, -, -, -, -, -, -, -, -, -, e0, e1, e2⟩ := idx_facts t
  have ht : t.val = (i 0).val := rfl
  refine ⟨t, flush1_7 t, ?_⟩
  rw [mem_blk_stats]
  intro a
  match a with
  | ⟨0, _⟩ => show win1_7.index t (0 : Fin 3) * 1 ≤ (i 0).val ∧ (i 0).val < win1_7.index t (0 : Fin 3) * 1 + 1; rw [e0, ht]; omega
  | ⟨1, _⟩ => show win1_7.index t (1 : Fin 3) * 2 ≤ (i 1).val ∧ (i 1).val < win1_7.index t (1 : Fin 3) * 2 + 2; rw [e1]; omega
  | ⟨2, _⟩ => show win1_7.index t (2 : Fin 3) * 128 ≤ (i 2).val ∧ (i 2).val < win1_7.index t (2 : Fin 3) * 128 + 128; rw [e2]; omega

/-- THE FIRST RESULT after the launch: the network of the arrays as the launch finds them. -/
theorem out_final (c : Dev nD) : (dat1 (F := Ideal) V c).arrAt 6 cfg1.N
    = Cert.Gine.mlp (V c main_arg0 : S50000x128.Idx → EReal) (V c main_v21 : S50000x128.Idx → EReal) (V c main_arg7 : S128x256.Idx → EReal) (V c main_v22 : S1x256.Idx → EReal) (V c main_arg9 : S256x128.Idx → EReal) (V c main_v23 : S1x128.Idx → EReal) :=
  (dat1 (F := Ideal) V c).arrAt_eq_of_cover 6 (net V c) (fun t _ => flushed_out V c t) cover_out

/-- THE SECOND RESULT after the launch: per block of 5000 rows, the column sums of that network and of its squares. -/
theorem stats_final (c : Dev nD) : (dat1 (F := Ideal) V c).arrAt 7 cfg1.N
    = Cert.Gine.blockStats (Cert.Gine.mlp (V c main_arg0 : S50000x128.Idx → EReal) (V c main_v21 : S50000x128.Idx → EReal) (V c main_arg7 : S128x256.Idx → EReal) (V c main_v22 : S1x256.Idx → EReal) (V c main_arg9 : S256x128.Idx → EReal) (V c main_v23 : S1x128.Idx → EReal)) :=
  (dat1 (F := Ideal) V c).arrAt_eq_of_cover 7 (Cert.Gine.blockStats (net V c)) (fun t _ => flushed_stats V c t) cover_stats

end Cert.KernelIdeal.NodeValue1

end
-- ==== Proof.NodeValue2.lean ====
/-
  The node network's two results, read entry by entry.

  One launch of the node kernel cuts the 50000 rows into 10 blocks of 5000 consecutive rows.  At block t it adds the two
  row blocks, applies the first dense layer, the rectifier and the second dense layer, and stores the 5000 by 128 result
  as block t of the first result; it stores the column sums of that block and of its squares as plane t of the second
  result.  A dense layer's row p depends on row p of its input only, so block t of the result is block t of the network
  applied to the whole arrays, and the 10 blocks tile the 50000 rows.
-/
import proofs.«131147_j56908316672645_2_alg».proof.Proof.Gen.KernelIdeal.Frame
import proofs.«131147_j56908316672645_2_alg».proof.Proof.Spec
import proofs.«131147_j56908316672645_2_alg».proof.Proof.LibProduct
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

open Cert.KernelIdeal Cert.KernelIdeal.Gen Idealize.ShloMosaic Idealize.ShloMosaic.TcCoe Idealize.ShloMosaic.ValueIdx Idealize.SL.Sem
open Idealize.ShloMosaic.Pipeline (Dat Cfg Window)

namespace Cert.KernelIdeal.NodeValue2

/-! ## What one grid point stores, entry by entry -/

/-- The first stored value at row p and column q of a block: the second dense layer of the rectified first dense layer
    of the sum of the two input blocks, all read at row p. -/
theorem pay1_apply (x0 x1 : Vec Ideal S5000x128 .f32) (W1 : Vec Ideal S128x256 .f32) (b1 : Vec Ideal S1x256 .f32)
    (W2 : Vec Ideal S256x128 .f32) (b2 : Vec Ideal S1x128 .f32) (p : Fin 5000) (q : Fin 128) :
    k2_pay1 x0 x1 W1 b1 W2 b2 (ix2 p q)
      = (∑ k : Fin 256, max ((∑ j : Fin 128, (x0 (ix2 p j) + x1 (ix2 p j)) * W1 (ix2 j k)) + b1 (ix2 0 k)) 0 * W2 (ix2 k q))
        + b2 (ix2 0 q) := by
  unfold k2_pay1
  simp only [shapeCast_self, matmul]
  rw [addf_apply, Cert.LibProduct.matmul_zero_apply _ rfl rfl rfl rfl rfl rfl, broadcastTo_1b_ab_apply]
  congr 1
  refine Finset.sum_congr rfl fun k _ => ?_
  rw [truncf_apply, truncf_apply, maximumf_apply, broadcast_apply, addf_apply,
    Cert.LibProduct.matmul_zero_apply _ rfl rfl rfl rfl rfl rfl, broadcastTo_1b_ab_apply,
    show (FloatOps.ofBits FTy.f32 0x00000000#32 : Ideal .f32) = 0 from Ideal.ofBits_zero_f32]
  rfl

/-- The reduced index q with row r put back is (r, q). -/
theorem lift_rows (h : S5000x128.Reduces [0] S128) (q : Fin 128) (r : Fin (S5000x128.size 0)) :
    h.lift (ix1 q) r = ix2 (⟨r.val, r.isLt⟩ : Fin 5000) q := by
  funext a; apply Fin.ext
  match a with
  | ⟨0, _⟩ => rfl
  | ⟨1, _⟩ => rfl

/-- A sum over the 5000 rows of a block, column by column. -/
theorem colsum_apply (src : FVec Ideal S5000x128 .f32) (h : S5000x128.Reduces [0] S128) (hφ : FKind.Formats .f32)
    (hacc : (0x00000000#32 : BitVec 32) = FKind.add.neutral .f32 hφ) (q : Fin 128) :
    multiReduction (F := Ideal) .add [0] S128 src 0x00000000#32 h hφ hacc (ix1 q) = ∑ r : Fin 5000, src (ix2 r q) := by
  refine (Ideal.multiReduction_add_single src 0x00000000#32 h hφ hacc (ix1 q)).trans ?_
  show ∑ r : Fin 5000, src (h.lift (ix1 q) r) = _
  refine Finset.sum_congr rfl fun r _ => ?_
  exact congrArg src (lift_rows h q r)

/-- The second stored value: at middle coordinate 0 the column sums of the first stored value, at middle coordinate 1
    the column sums of its squares. -/
theorem pay2_apply (x0 x1 : Vec Ideal S5000x128 .f32) (W1 : Vec Ideal S128x256 .f32) (b1 : Vec Ideal S1x256 .f32)
    (W2 : Vec Ideal S256x128 .f32) (b2 : Vec Ideal S1x128 .f32) (u : Fin 1) (s : Fin 2) (q : Fin 128) :
    k2_pay2 x0 x1 W1 b1 W2 b2 (ix3 u s q)
      = if s.val = 0 then ∑ r : Fin 5000, k2_pay1 x0 x1 W1 b1 W2 b2 (ix2 r q)
        else ∑ r : Fin 5000, k2_pay1 x0 x1 W1 b1 W2 b2 (ix2 r q) * k2_pay1 x0 x1 W1 b1 W2 b2 (ix2 r q) := by
  unfold k2_pay2
  dsimp only
  split
  · next hs =>
    refine (concatenate_pair_apply_left (s₁ := S1x1x128) (s₂ := S1x1x128) (1 : Fin 3) _ _ _ (ix3 u s q) rfl (ix3 u (0 : Fin 1) q) (fun b => ?_)).trans ?_
    · match b with
      | ⟨0, _⟩ => rfl
      | ⟨1, _⟩ => exact hs.symm
      | ⟨2, _⟩ => rfl
    · rw [shapeCast_ab_1ab_apply, shapeCast_a_1a_apply]
      exact colsum_apply _ _ _ _ q
  · next hs =>
    have hs1 : s.val = 1 := by have := s.isLt; omega
    refine (concatenate_pair_apply_right (s₁ := S1x1x128) (s₂ := S1x1x128) (1 : Fin 3) _ _ _ (ix3 u s q) rfl rfl (ix3 u (0 : Fin 1) q) (fun b hb => ?_) ?_).trans ?_
    · match b with
      | ⟨0, _⟩ => rfl
      | ⟨1, _⟩ => exact absurd rfl hb
      | ⟨2, _⟩ => rfl
    · show 0 + 1 = s.val
      omega
    · rw [shapeCast_ab_1ab_apply, shapeCast_a_1a_apply]
      refine (colsum_apply _ _ _ _ q).trans ?_
      rfl

/-! ## A block's stored values as the network's entries -/

/-- When the two input blocks are rows 5000 n … 5000 n + 4999 of two arrays, the first stored value at row p is the
    network of the whole arrays at row 5000 n + p: every sum in it reads that one row. -/
theorem pay1_of_rows (x0 x1 : Vec Ideal S5000x128 .f32) (W1 : Vec Ideal S128x256 .f32) (b1 : Vec Ideal S1x256 .f32)
    (W2 : Vec Ideal S256x128 .f32) (b2 : Vec Ideal S1x128 .f32) (A0 A1 : S50000x128.Idx → EReal) (n : Fin 10)
    (h0 : ∀ (p : Fin 5000) (j : Fin 128), x0 (ix2 p j) = A0 (ix2 (Cert.Gine.rowOf n p) j))
    (h1 : ∀ (p : Fin 5000) (j : Fin 128), x1 (ix2 p j) = A1 (ix2 (Cert.Gine.rowOf n p) j))
    (p : Fin 5000) (q : Fin 128) :
    k2_pay1 x0 x1 W1 b1 W2 b2 (ix2 p q) = Cert.Gine.mlp A0 A1 W1 b1 W2 b2 (ix2 (Cert.Gine.rowOf n p) q) := by
  rw [pay1_apply]
  show _ = (∑ k : Fin 256, max ((∑ j : Fin 128, (A0 (ix2 (Cert.Gine.rowOf n p) j) + A1 (ix2 (Cert.Gine.rowOf n p) j)) * W1 (ix2 j k))
      + b1 (ix2 0 k)) 0 * W2 (ix2 k q)) + b2 (ix2 0 q)
  simp only [h0, h1]

/-- Then the second stored value is the block's statistics of that network. -/
theorem pay2_of_rows (x0 x1 : Vec Ideal S5000x128 .f32) (W1 : Vec Ideal S128x256 .f32) (b1 : Vec Ideal S1x256 .f32)
    (W2 : Vec Ideal S256x128 .f32) (b2 : Vec Ideal S1x128 .f32) (A0 A1 : S50000x128.Idx → EReal) (n : Fin 10)
    (h0 : ∀ (p : Fin 5000) (j : Fin 128), x0 (ix2 p j) = A0 (ix2 (Cert.Gine.rowOf n p) j))
    (h1 : ∀ (p : Fin 5000) (j : Fin 128), x1 (ix2 p j) = A1 (ix2 (Cert.Gine.rowOf n p) j))
    (u : Fin 1) (s : Fin 2) (q : Fin 128) :
    k2_pay2 x0 x1 W1 b1 W2 b2 (ix3 u s q) = Cert.Gine.blockStats (Cert.Gine.mlp A0 A1 W1 b1 W2 b2) (ix3 n s q) := by
  rw [pay2_apply]
  show _ = if s.val = 0 then ∑ r : Fin 5000, Cert.Gine.mlp A0 A1 W1 b1 W2 b2 (ix2 (Cert.Gine.rowOf n r) q)
    else ∑ r : Fin 5000, Cert.Gine.mlp A0 A1 W1 b1 W2 b2 (ix2 (Cert.Gine.rowOf n r) q) * Cert.Gine.mlp A0 A1 W1 b1 W2 b2 (ix2 (Cert.Gine.rowOf n r) q)
  simp only [pay1_of_rows x0 x1 W1 b1 W2 b2 A0 A1 n h0 h1]

/-! ## From blocks to the arrays -/

variable (V : (c : Dev nD) → (b : Ref sig .tc) → Buf (Elt Ideal) ((c : Thread nD τ).loc b))

theorem zeros2 : (![0, 0] : Fin 2 → Nat) = fun _ => 0 := funext fun a => by fin_cases a <;> rfl
theorem zeros3 : (![0, 0, 0] : Fin 3 → Nat) = fun _ => 0 := funext fun a => by fin_cases a <;> rfl

/-- The printed index maps, decided over the grid: the row windows and both outputs are at block t on their leading
    axis and block 0 elsewhere; the weights and biases are at block 0. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0
    ∧ win2_7.index t (0 : Fin 3) = t.val ∧ win2_7.index t (1 : Fin 3) = 0 ∧ win2_7.index t (2 : Fin 3) = 0 :=
  (by decide +kernel : ∀ t : Fin grid2.N, _)

/-- The grid point as a block number. -/
abbrev blockOf (t : Fin cfg2.N) : Fin 10 := ⟨t.val, lt_of_lt_of_eq t.isLt N_2⟩

/-- The first input window's block at point t is rows 5000 t … of its array. -/
theorem rows0 (c : Dev nD) (t : Fin cfg2.N) (p : Fin 5000) (j : Fin 128) :
    (iblk2 V c 0 t : Vec Ideal S5000x128 .f32) (ix2 p j)
      = (V c main_v54 : S50000x128.Idx → EReal) (ix2 (Cert.Gine.rowOf (blockOf t) p) j) := by
  obtain ⟨e0, e1, -⟩ := idx_facts t
  unfold iblk2
  rw [View.read_apply]
  show (V c main_v54 : S50000x128.Idx → EReal) _ = _
  congr 1
  funext a
  apply Fin.ext
  match a with
  | ⟨0, _⟩ => show win2_0.index t (0 : Fin 2) * 5000 + 1 * p.val = t.val * 5000 + p.val; rw [e0]; omega
  | ⟨1, _⟩ => show win2_0.index t (1 : Fin 2) * 128 + 1 * j.val = j.val; rw [e1]; omega

/-- The second input window's block likewise. -/
theorem rows1 (c : Dev nD) (t : Fin cfg2.N) (p : Fin 5000) (j : Fin 128) :
    (iblk2 V c 1 t : Vec Ideal S5000x128 .f32) (ix2 p j)
      = (V c main_v66 : S50000x128.Idx → EReal) (ix2 (Cert.Gine.rowOf (blockOf t) p) j) := by
  obtain ⟨-, -, e0, e1, -⟩ := idx_facts t
  unfold iblk2
  rw [View.read_apply]
  show (V c main_v66 : S50000x128.Idx → EReal) _ = _
  congr 1
  funext a
  apply Fin.ext
  match a with
  | ⟨0, _⟩ => show win2_1.index t (0 : Fin 2) * 5000 + 1 * p.val = t.val * 5000 + p.val; rw [e0]; omega
  | ⟨1, _⟩ => show win2_1.index t (1 : Fin 2) * 128 + 1 * j.val = j.val; rw [e1]; omega

/-- The weights' and biases' windows hold their whole arrays at every point. -/
theorem whole2 (c : Dev nD) (t : Fin cfg2.N) :
    (iblk2 V c 2 t : Vec Ideal S128x256 .f32) = (V c main_arg11 : S128x256.Idx → EReal) := by
  obtain ⟨-, -, -, -, e0, e1, -⟩ := idx_facts t
  funext y
  unfold iblk2
  rw [View.read_apply]
  show (V c main_arg11 : S128x256.Idx → EReal) _ = _
  congr 1
  funext a
  apply Fin.ext
  match a with
  | ⟨0, _⟩ => show win2_2.index t (0 : Fin 2) * 128 + 1 * (y 0).val = (y 0).val; rw [e0]; omega
  | ⟨1, _⟩ => show win2_2.index t (1 : Fin 2) * 256 + 1 * (y 1).val = (y 1).val; rw [e1]; omega

theorem whole3 (c : Dev nD) (t : Fin cfg2.N) :
    (iblk2 V c 3 t : Vec Ideal S1x256 .f32) = (V c main_v67 : S1x256.Idx → EReal) := by
  obtain ⟨-, -, -, -, -, -, e0, e1, -⟩ := idx_facts t
  funext y
  unfold iblk2
  rw [View.read_apply]
  show (V c main_v67 : S1x256.Idx → EReal) _ = _
  congr 1
  funext a
  apply Fin.ext
  match a with
  | ⟨0, _⟩ => show win2_3.index t (0 : Fin 2) * 1 + 1 * (y 0).val = (y 0).val; rw [e0]; omega
  | ⟨1, _⟩ => show win2_3.index t (1 : Fin 2) * 256 + 1 * (y 1).val = (y 1).val; rw [e1]; omega

theorem whole4 (c : Dev nD) (t : Fin cfg2.N) :
    (iblk2 V c 4 t : Vec Ideal S256x128 .f32) = (V c main_arg13 : S256x128.Idx → EReal) := by
  obtain ⟨-, -, -, -, -, -, -, -, e0, e1, -⟩ := idx_facts t
  funext y
  unfold iblk2
  rw [View.read_apply]
  show (V c main_arg13 : S256x128.Idx → EReal) _ = _
  congr 1
  funext a
  apply Fin.ext
  match a with
  | ⟨0, _⟩ => show win2_4.index t (0 : Fin 2) * 256 + 1 * (y 0).val = (y 0).val; rw [e0]; omega
  | ⟨1, _⟩ => show win2_4.index t (1 : Fin 2) * 128 + 1 * (y 1).val = (y 1).val; rw [e1]; omega

theorem whole5 (c : Dev nD) (t : Fin cfg2.N) :
    (iblk2 V c 5 t : Vec Ideal S1x128 .f32) = (V c main_v68 : S1x128.Idx → EReal) := by
  obtain ⟨-, -, -, -, -, -, -, -, -, -, e0, e1, -⟩ := idx_facts t
  funext y
  unfold iblk2
  rw [View.read_apply]
  show (V c main_v68 : S1x128.Idx → EReal) _ = _
  congr 1
  funext a
  apply Fin.ext
  match a with
  | ⟨0, _⟩ => show win2_5.index t (0 : Fin 2) * 1 + 1 * (y 0).val = (y 0).val; rw [e0]; omega
  | ⟨1, _⟩ => show win2_5.index t (1 : Fin 2) * 128 + 1 * (y 1).val = (y 1).val; rw [e1]; omega

/-- The network of the arrays as the launch finds them. -/
abbrev net (c : Dev nD) : S50000x128.Idx → EReal :=
  Cert.Gine.mlp (V c main_v54 : S50000x128.Idx → EReal) (V c main_v66 : S50000x128.Idx → EReal) (V c main_arg11 : S128x256.Idx → EReal) (V c main_v67 : S1x256.Idx → EReal) (V c main_arg13 : S256x128.Idx → EReal) (V c main_v68 : S1x128.Idx → EReal)

/-- WHAT POINT t WRITES BACK to the first result is block t of the network of the whole arrays. -/
theorem flushed_out (c : Dev nD) (t : Fin cfg2.N) :
    (dat2 (F := Ideal) V c).flushed 6 t = ((cfg2.win 6).blk t).view.read (Elt Ideal) (net V c) := by
  show (cfg2.win 6).cut (grid2.coords t) ((dat2 (F := Ideal) V c).after 6 t) = _
  rw [after2_6]
  unfold out2_6
  rw [View.canon_unit_zero zeros2]
  simp only [View.ld_unit_zero (S := S5000x128) zeros2, View.ld_unit_zero (S := S128x256) zeros2, View.ld_unit_zero (S := S1x256) zeros2,
    View.ld_unit_zero (S := S256x128) zeros2, View.ld_unit_zero (S := S1x128) zeros2]
  rw [whole2 V c t, whole3 V c t, whole4 V c t, whole5 V c t]
  obtain ⟨-, -, -, -, -, -, -, -, -, -, -, -, e0, e1, -⟩ := idx_facts t
  funext y
  have hy0 : (y 0).val < 5000 := (y 0).isLt
  have hy1 : (y 1).val < 128 := (y 1).isLt
  have ex : (cfg2.win 6).xinj (grid2.coords t) y = ix2 (⟨(y 0).val, hy0⟩ : Fin 5000) (⟨(y 1).val, hy1⟩ : Fin 128) :=
    funext fun a => by
      match a with
      | ⟨0, _⟩ => rfl
      | ⟨1, _⟩ => rfl
  have ee : ((cfg2.win 6).blk t).view.emb y = ix2 (Cert.Gine.rowOf (blockOf t) ⟨(y 0).val, hy0⟩) (⟨(y 1).val, hy1⟩ : Fin 128) :=
    funext fun a => Fin.ext (by
      match a with
      | ⟨0, _⟩ => show win2_6.index t (0 : Fin 2) * 5000 + 1 * (y 0).val = t.val * 5000 + (y 0).val; rw [e0]; omega
      | ⟨1, _⟩ => show win2_6.index t (1 : Fin 2) * 128 + 1 * (y 1).val = (y 1).val; rw [e1]; omega)
  show k2_pay1 (F := Ideal) _ _ _ _ _ _ ((cfg2.win 6).xinj (grid2.coords t) y) = net V c (((cfg2.win 6).blk t).view.emb y)
  rw [ex, ee]
  exact pay1_of_rows _ _ _ _ _ _ _ _ (blockOf t) (rows0 V c t) (rows1 V c t) _ _

/-- WHAT POINT t WRITES BACK to the second result is plane t of the block statistics of that network. -/
theorem flushed_stats (c : Dev nD) (t : Fin cfg2.N) :
    (dat2 (F := Ideal) V c).flushed 7 t = ((cfg2.win 7).blk t).view.read (Elt Ideal) (Cert.Gine.blockStats (net V c)) := by
  show (cfg2.win 7).cut (grid2.coords t) ((dat2 (F := Ideal) V c).after 7 t) = _
  rw [after2_7]
  unfold out2_7
  rw [View.canon_unit_zero zeros3]
  simp only [View.ld_unit_zero (S := S5000x128) zeros2, View.ld_unit_zero (S := S128x256) zeros2, View.ld_unit_zero (S := S1x256) zeros2,
    View.ld_unit_zero (S := S256x128) zeros2, View.ld_unit_zero (S := S1x128) zeros2]
  rw [whole2 V c t, whole3 V c t, whole4 V c t, whole5 V c t]
  obtain ⟨-, -, -, -, -, -, -, -, -, -, -, -, -, -, e0, e1, e2⟩ := idx_facts t
  funext y
  have hy0 : (y 0).val < 1 := (y 0).isLt
  have hy1 : (y 1).val < 2 := (y 1).isLt
  have hy2 : (y 2).val < 128 := (y 2).isLt
  have ex : (cfg2.win 7).xinj (grid2.coords t) y = ix3 (⟨(y 0).val, hy0⟩ : Fin 1) (⟨(y 1).val, hy1⟩ : Fin 2) (⟨(y 2).val, hy2⟩ : Fin 128) :=
    funext fun a => by
      match a with
      | ⟨0, _⟩ => rfl
      | ⟨1, _⟩ => rfl
      | ⟨2, _⟩ => rfl
  have ee : ((cfg2.win 7).blk t).view.emb y = ix3 (blockOf t) (⟨(y 1).val, hy1⟩ : Fin 2) (⟨(y 2).val, hy2⟩ : Fin 128) :=
    funext fun a => Fin.ext (by
      match a with
      | ⟨0, _⟩ => show win2_7.index t (0 : Fin 3) * 1 + 1 * (y 0).val = t.val; rw [e0]; omega
      | ⟨1, _⟩ => show win2_7.index t (1 : Fin 3) * 2 + 1 * (y 1).val = (y 1).val; rw [e1]; omega
      | ⟨2, _⟩ => show win2_7.index t (2 : Fin 3) * 128 + 1 * (y 2).val = (y 2).val; rw [e2]; omega)
  show k2_pay2 (F := Ideal) _ _ _ _ _ _ ((cfg2.win 7).xinj (grid2.coords t) y) = Cert.Gine.blockStats (net V c) (((cfg2.win 7).blk t).view.emb y)
  rw [ex, ee]
  exact pay2_of_rows _ _ _ _ _ _ _ _ (blockOf t) (rows0 V c t) (rows1 V c t) _ _ _

/-- An index of the first result is in point t's block iff each coordinate is in the block's range on its axis. -/
theorem mem_blk_out (t : Fin cfg2.N) (i : S50000x128.Idx) :
    i ∈ ((cfg2.win 6).blk t).view.set ↔ ∀ a : Fin 2, win2_6.index t a * S5000x128.size a ≤ (i a).val ∧ (i a).val < win2_6.index t a * S5000x128.size a + S5000x128.size a := by
  show i ∈ ((View.whole main_v69_0).slice (win2_6.rect t)).set ↔ _
  rw [View.set_slice_whole, Rect.mem_set_unit]
  exact Iff.rfl

/-- Likewise for the second result. -/
theorem mem_blk_stats (t : Fin cfg2.N) (i : S10x2x128.Idx) :
    i ∈ ((cfg2.win 7).blk t).view.set ↔ ∀ a : Fin 3, win2_7.index t a * S1x2x128.size a ≤ (i a).val ∧ (i a).val < win2_7.index t a * S1x2x128.size a + S1x2x128.size a := by
  show i ∈ ((View.whole main_v69_1).slice (win2_7.rect t)).set ↔ _
  rw [View.set_slice_whole, Rect.mem_set_unit]
  exact Iff.rfl

/-- Row r of the first result is in the block of point r / 5000. -/
theorem cover_out (i : S50000x128.Idx) : ∃ t : Fin cfg2.N, (cfg2.win 6).flush t = true ∧ i ∈ ((cfg2.win 6).blk t).view.set := by
  have hi0 : (i 0).val < 50000 := (i 0).isLt
  have hi1 : (i 1).val < 128 := (i 1).isLt
  have hN : cfg2.N = 10 := N_2
  let t : Fin cfg2.N := ⟨(i 0).val / 5000, by rw [hN]; omega⟩
  obtain ⟨-, -, -, -, -, -, -, -, -, -, -, -, e0, e1, -⟩ := idx_facts t
  have ht : t.val = (i 0).val / 5000 := rfl
  refine ⟨t, flush2_6 t, ?_⟩
  rw [mem_blk_out]
  intro a
  match a with
  | ⟨0, _⟩ => show win2_6.index t (0 : Fin 2) * 5000 ≤ (i 0).val ∧ (i 0).val < win2_6.index t (0 : Fin 2) * 5000 + 5000; rw [e0, ht]; omega
  | ⟨1, _⟩ => show win2_6.index t (1 : Fin 2) * 128 ≤ (i 1).val ∧ (i 1).val < win2_6.index t (1 : Fin 2) * 128 + 128; rw [e1]; omega

/-- Plane n of the second result is the block of point n. -/
theorem cover_stats (i : S10x2x128.Idx) : ∃ t : Fin cfg2.N, (cfg2.win 7).flush t = true ∧ i ∈ ((cfg2.win 7).blk t).view.set := by
  have hi0 : (i 0).val < 10 := (i 0).isLt
  have hi1 : (i 1).val < 2 := (i 1).isLt
  have hi2 : (i 2).val < 128 := (i 2).isLt
  have hN : cfg2.N = 10 := N_2
  let t : Fin cfg2.N := ⟨(i 0).val, by rw [hN]; omega⟩
  obtain ⟨-, -, -, -, -, -, -, -, -, -, -, -, -, -, e0, e1, e2⟩ := idx_facts t
  have ht : t.val = (i 0).val := rfl
  refine ⟨t, flush2_7 t, ?_⟩
  rw [mem_blk_stats]
  intro a
  match a with
  | ⟨0, _⟩ => show win2_7.index t (0 : Fin 3) * 1 ≤ (i 0).val ∧ (i 0).val < win2_7.index t (0 : Fin 3) * 1 + 1; rw [e0, ht]; omega
  | ⟨1, _⟩ => show win2_7.index t (1 : Fin 3) * 2 ≤ (i 1).val ∧ (i 1).val < win2_7.index t (1 : Fin 3) * 2 + 2; rw [e1]; omega
  | ⟨2, _⟩ => show win2_7.index t (2 : Fin 3) * 128 ≤ (i 2).val ∧ (i 2).val < win2_7.index t (2 : Fin 3) * 128 + 128; rw [e2]; omega

/-- THE FIRST RESULT after the launch: the network of the arrays as the launch finds them. -/
theorem out_final (c : Dev nD) : (dat2 (F := Ideal) V c).arrAt 6 cfg2.N
    = Cert.Gine.mlp (V c main_v54 : S50000x128.Idx → EReal) (V c main_v66 : S50000x128.Idx → EReal) (V c main_arg11 : S128x256.Idx → EReal) (V c main_v67 : S1x256.Idx → EReal) (V c main_arg13 : S256x128.Idx → EReal) (V c main_v68 : S1x128.Idx → EReal) :=
  (dat2 (F := Ideal) V c).arrAt_eq_of_cover 6 (net V c) (fun t _ => flushed_out V c t) cover_out

/-- THE SECOND RESULT after the launch: per block of 5000 rows, the column sums of that network and of its squares. -/
theorem stats_final (c : Dev nD) : (dat2 (F := Ideal) V c).arrAt 7 cfg2.N
    = Cert.Gine.blockStats (Cert.Gine.mlp (V c main_v54 : S50000x128.Idx → EReal) (V c main_v66 : S50000x128.Idx → EReal) (V c main_arg11 : S128x256.Idx → EReal) (V c main_v67 : S1x256.Idx → EReal) (V c main_arg13 : S256x128.Idx → EReal) (V c main_v68 : S1x128.Idx → EReal)) :=
  (dat2 (F := Ideal) V c).arrAt_eq_of_cover 7 (Cert.Gine.blockStats (net V c)) (fun t _ => flushed_stats V c t) cover_stats

end Cert.KernelIdeal.NodeValue2

end
-- ==== Proof.ReadoutValue.lean ====
/-
  The readout region's result array, entry by entry.

  The region cuts the 50000 rows of the node features into 10 blocks of 5000 consecutive rows; the four one-row
  statistics, the weight matrix, the two one-row vectors and the constant are read whole at every block.  On one block
  the body normalises and rectifies each row, applies the dense layer and the rectifier, multiplies by the weight row
  and sums each row, and adds the constant.  Every one of these steps acts on a row by itself, so the value the body
  leaves at row r of block t is the readout of the whole arrays at row 5000 t + r, and the ten blocks tile the 50000
  rows: the result array is the readout of the arrays the region finds.
-/
import proofs.«131147_j56908316672645_2_alg».proof.Proof.Gen.KernelIdeal.Frame
import proofs.«131147_j56908316672645_2_alg».proof.Proof.Spec
import proofs.«131147_j56908316672645_2_alg».proof.Proof.LibProduct
import Idealize.ShloMosaic.Lib.Pipeline.Value
import Idealize.ShloMosaic.Lib.ValueLayout
import Idealize.ShloMosaic.PureOps.Ideal.Laws

set_option maxRecDepth 16384

noncomputable section

namespace Cert.KernelIdeal.ReadoutValue

open Cert.KernelIdeal Cert.KernelIdeal.Gen Idealize.ShloMosaic Idealize.ShloMosaic.TcCoe Idealize.ShloMosaic.ValueIdx Idealize.SL.Sem
open Idealize.ShloMosaic.Pipeline (Dat Cfg Window)
open Cert.Gine

/-! ## Two layout operations read at an entry -/

section Layout
variable {α : Type}

/-- A vector of length a cast to a column [a, 1] reads, at (p, u), the vector at p: the row-major position of (p, u)
    in a one-column matrix is p. -/
theorem castColumn_apply {a : ℕ} (v : (⟨1, ![a]⟩ : Shape).Idx → α) (h : (⟨1, ![a]⟩ : Shape).ShapeCasts ⟨2, ![a, 1]⟩)
    (p : Fin a) (u : Fin 1) : shapeCast ⟨2, ![a, 1]⟩ v h (ix2 p u) = v (ix1 p) :=
  shapeCast_apply v h _ _ (by
    have hu : u.val = 0 := by omega
    rw [Shape.rowMajor_val_one, Shape.rowMajor_val_two]
    show p.val = p.val * 1 + u.val
    omega)

/-- A one-entry matrix broadcast to a column reads its one entry everywhere. -/
theorem broadcastEntry_apply {a : ℕ} (v : (⟨2, ![1, 1]⟩ : Shape).Idx → α) (h : (⟨2, ![1, 1]⟩ : Shape).Broadcasts ⟨2, ![a, 1]⟩)
    (p : Fin a) (u : Fin 1) : broadcastTo ⟨2, ![a, 1]⟩ v h (ix2 p u) = v (ix2 (0 : Fin 1) (0 : Fin 1)) := by
  rw [broadcastTo_1b_ab_apply v h p u]
  have hu : u = 0 := Fin.ext (by omega)
  rw [hu]

end Layout

/-! ## The body's value on one block -/

/-- The normalised and rectified block at an entry: the block's entry less the mean, times the inverse deviation,
    times the scale, plus the shift, rectified; each statistic read at the entry's column. -/
theorem rectNorm_apply (x0 : Vec Ideal S5000x128 .f32) (x1 x2 x3 x4 : Vec Ideal S1x128 .f32) (p : Fin 5000) (k : Fin 128) :
    maximumf (addf (mulf (mulf (subf (x0 : FVec Ideal S5000x128 .f32)
        (broadcastTo S5000x128 x1 broadcasts_S1x128_S5000x128))
        (broadcastTo S5000x128 x2 broadcasts_S1x128_S5000x128))
        (broadcastTo S5000x128 x3 broadcasts_S1x128_S5000x128))
        (broadcastTo S5000x128 x4 broadcasts_S1x128_S5000x128))
      (broadcast S5000x128 (Scalar.ofBits (F := Ideal) .f32 0x00000000#32)) (ix2 p k)
      = relu (normalize (x0 : Mat 5000 128) x1 x2 x3 x4) (ix2 p k) := by
  rw [maximumf_apply, addf_apply, mulf_apply, mulf_apply, subf_apply, broadcast_apply]
  rw [broadcastTo_1b_ab_apply x1 _ p k, broadcastTo_1b_ab_apply x2 _ p k, broadcastTo_1b_ab_apply x3 _ p k,
    broadcastTo_1b_ab_apply x4 _ p k]
  show max _ (Ideal.ofBits .f32 0x00000000#32) = _
  rw [Ideal.ofBits_zero_f32]
  rfl

/-- The dense layer on the block at an entry: row p of the block against column j of the weights, plus the bias at
    column j, rectified.  The product into a zero accumulator is the plain sum over the shared coordinate, and the
    narrowing of the two factors changes no value. -/
theorem dense_apply (hn : FVec Ideal S5000x128 .f32) (x5 : Vec Ideal S128x512 .f32) (x6 : Vec Ideal S1x512 .f32)
    (p : Fin 5000) (j : Fin 512) :
    maximumf (addf (matmul dot_S5000x128_S128x512_S5000x512_1_0_0_1_n_n none (truncf .bf16 hn bitsLt_bf16_f32)
          (truncf .bf16 (x5 : FVec Ideal S128x512 .f32) bitsLt_bf16_f32) (constant (F := Ideal) S5000x512 .f32 0x00000000#32))
        (broadcastTo S5000x512 x6 broadcasts_S1x512_S5000x512))
      (broadcast S5000x512 (Scalar.ofBits (F := Ideal) .f32 0x00000000#32)) (ix2 p j)
      = relu (affine (hn : Mat 5000 128) x5 x6) (ix2 p j) := by
  rw [maximumf_apply, addf_apply, broadcast_apply]
  rw [broadcastTo_1b_ab_apply x6 _ p j]
  rw [show matmul dot_S5000x128_S128x512_S5000x512_1_0_0_1_n_n none (truncf .bf16 hn bitsLt_bf16_f32)
      (truncf .bf16 (x5 : FVec Ideal S128x512 .f32) bitsLt_bf16_f32) (constant (F := Ideal) S5000x512 .f32 0x00000000#32) (ix2 p j)
      = ∑ c : Fin 128, hn (ix2 p c) * x5 (ix2 c j) from
    Cert.LibProduct.matmul_zero_apply dot_S5000x128_S128x512_S5000x512_1_0_0_1_n_n rfl rfl rfl rfl rfl rfl none _ _ p j]
  show max _ (Ideal.ofBits .f32 0x00000000#32) = _
  rw [Ideal.ofBits_zero_f32]
  rfl

/-- The last layer on the block at an entry: each row's entries times the weight row, summed along the row, the
    sums laid out as a column. -/
theorem rowSum_apply (a : FVec Ideal S5000x512 .f32) (x7 : Vec Ideal S1x512 .f32) (p : Fin 5000) (u : Fin 1) :
    shapeCast S5000x1 (multiReduction (F := Ideal) .add [1] S5000
        (mulf a (broadcastTo S5000x512 x7 broadcasts_S1x512_S5000x512))
        0x00000000#32 reduces_S5000x512_S5000 (.inl rfl) rfl) shapeCasts_S5000_S5000x1 (ix2 p u)
      = ∑ j : Fin 512, a (ix2 p j) * x7 (ix2 (0 : Fin 1) j) := by
  rw [castColumn_apply _ _ p u]
  refine (Ideal.multiReduction_add_single _ _ reduces_S5000x512_S5000 _ _ (ix1 p)).trans ?_
  show ∑ j : Fin 512, mulf a (broadcastTo S5000x512 x7 broadcasts_S1x512_S5000x512) (reduces_S5000x512_S5000.lift (ix1 p) j)
    = ∑ j : Fin 512, a (ix2 p j) * x7 (ix2 (0 : Fin 1) j)
  refine Finset.sum_congr rfl fun (j : Fin 512) _ => ?_
  have e : reduces_S5000x512_S5000.lift (ix1 p) j = ix2 p j := by
    funext ax; apply Fin.ext
    match ax with
    | ⟨0, _⟩ => rfl
    | ⟨1, _⟩ => rfl
  rw [e, mulf_apply]
  rw [broadcastTo_1b_ab_apply x7 _ p j]

/-- THE BODY'S VALUE: on blocks of any contents the stored column is the readout of the blocks. -/
theorem pay_eq (x0 : Vec Ideal S5000x128 .f32) (x1 x2 x3 x4 : Vec Ideal S1x128 .f32) (x5 : Vec Ideal S128x512 .f32)
    (x6 x7 : Vec Ideal S1x512 .f32) (x8 : Vec Ideal S1x1 .f32) :
    k3_pay1 (F := Ideal) (k3_pay2 x0 x1 x2 x3 x4 x5 x6 x7) x8
      = readout (x0 : Mat 5000 128) x1 x2 x3 x4 x5 x6 x7 x8 := by
  funext i
  obtain ⟨p, u, rfl⟩ : ∃ (p : Fin 5000) (u : Fin 1), i = ix2 p u := ⟨i 0, i 1, eq_ix2 i⟩
  unfold k3_pay1 k3_pay2
  dsimp only
  rw [addf_apply]
  simp only [shapeCast_self]
  rw [broadcastEntry_apply x8 _ p u, rowSum_apply _ x7 p u]
  unfold readout
  congr 1
  refine Finset.sum_congr rfl fun j _ => ?_
  congr 1
  refine (dense_apply _ x5 x6 p j).trans ?_
  unfold relu affine
  dsimp only
  congr 2
  refine Finset.sum_congr rfl fun k _ => ?_
  congr 1
  exact rectNorm_apply x0 x1 x2 x3 x4 p k

/-! ## One row at a time -/

/-- The readout of ONE row r of features: what the readout's entry in that row is, as a function of the row alone. -/
def rowReadout {D H : ℕ} (r : Fin D → EReal) (mu s g b : Mat 1 D) (W : Mat D H) (b1 w2 : Mat 1 H) (b2 : Mat 1 1) : EReal :=
  (∑ j : Fin H, max ((∑ k : Fin D,
      max ((r k - mu (ix2 0 k)) * s (ix2 0 k) * g (ix2 0 k) + b (ix2 0 k)) 0 * W (ix2 k j)) + b1 (ix2 0 j)) 0
    * w2 (ix2 0 j)) + b2 (ix2 0 0)

/-- The readout at an entry reads the feature matrix in that entry's row only. -/
theorem readout_eq_rowReadout {M D H : ℕ} (h : Mat M D) (mu s g b : Mat 1 D) (W : Mat D H) (b1 w2 : Mat 1 H) (b2 : Mat 1 1)
    (i : (⟨2, ![M, 1]⟩ : Shape).Idx) :
    readout h mu s g b W b1 w2 b2 i = rowReadout (fun k => h (ix2 (i 0) k)) mu s g b W b1 w2 b2 := rfl

/-- So two feature matrices that agree on a row have the same readout there, whatever their numbers of rows. -/
theorem readout_congr_row {M M' D H : ℕ} (h : Mat M D) (h' : Mat M' D) (mu s g b : Mat 1 D) (W : Mat D H) (b1 w2 : Mat 1 H)
    (b2 : Mat 1 1) (i : (⟨2, ![M, 1]⟩ : Shape).Idx) (i' : (⟨2, ![M', 1]⟩ : Shape).Idx)
    (hrow : ∀ k : Fin D, h (ix2 (i 0) k) = h' (ix2 (i' 0) k)) :
    readout h mu s g b W b1 w2 b2 i = readout h' mu s g b W b1 w2 b2 i' := by
  rw [readout_eq_rowReadout, readout_eq_rowReadout]
  exact congrArg (fun r => rowReadout r mu s g b W b1 w2 b2) (funext hrow)

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the ten points: the feature window and the result window are at block
    (t, 0), every other window at block (0, 0). -/
theorem idx_facts : ∀ t : Fin cfg3.N, win3_0.index t (0 : Fin 2) = t.val ∧ win3_0.index t (1 : Fin 2) = 0
    ∧ win3_9.index t (0 : Fin 2) = t.val ∧ win3_9.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 2) = 0 ∧ win3_8.index t (1 : Fin 2) = 0 :=
  (by decide +kernel : ∀ t : Fin grid3.N, _)

/-- The feature window's block at point t is rows 5000 t … 5000 t + 4999 of the feature array. -/
theorem iblk0_apply (c : Dev nD) (t : Fin cfg3.N) (y : S5000x128.Idx) (k : S50000x128.Idx)
    (hk0 : (k 0).val = t.val * 5000 + (y 0).val) (hk1 : (k 1).val = (y 1).val) :
    (iblk3 V c 0 t : Vec Ideal S5000x128 .f32) y = (V c main_v69_0 : S50000x128.Idx → EReal) k := by
  obtain ⟨e0, e1, -⟩ := idx_facts t
  unfold iblk3
  rw [View.read_apply]
  show V c main_v69_0 _ = V c main_v69_0 _
  congr 1
  funext a
  apply Fin.ext
  match a with
  | ⟨0, _⟩ => show win3_0.index t (0 : Fin 2) * 5000 + 1 * (y 0).val = (k 0).val; rw [e0, hk0]; omega
  | ⟨1, _⟩ => show win3_0.index t (1 : Fin 2) * 128 + 1 * (y 1).val = (k 1).val; rw [e1, hk1]; omega

/-- Each of the eight windows read whole holds, at every point, its whole array: its one block is block (0, 0). -/
theorem iblk1_eq (c : Dev nD) (t : Fin cfg3.N) :
    (iblk3 V c 1 t : Vec Ideal S1x128 .f32) = (V c main_v87 : S1x128.Idx → EReal) := by
  obtain ⟨-, -, -, -, e0, e1, -⟩ := idx_facts t
  funext y
  unfold iblk3
  rw [View.read_apply]
  show V c main_v87 _ = V c main_v87 y
  congr 1
  funext a
  apply Fin.ext
  match a with
  | ⟨0, _⟩ => show win3_1.index t (0 : Fin 2) * 1 + 1 * (y 0).val = (y 0).val; rw [e0]; omega
  | ⟨1, _⟩ => show win3_1.index t (1 : Fin 2) * 128 + 1 * (y 1).val = (y 1).val; rw [e1]; omega

theorem iblk2_eq (c : Dev nD) (t : Fin cfg3.N) :
    (iblk3 V c 2 t : Vec Ideal S1x128 .f32) = (V c main_v88 : S1x128.Idx → EReal) := by
  obtain ⟨-, -, -, -, -, -, e0, e1, -⟩ := idx_facts t
  funext y
  unfold iblk3
  rw [View.read_apply]
  show V c main_v88 _ = V c main_v88 y
  congr 1
  funext a
  apply Fin.ext
  match a with
  | ⟨0, _⟩ => show win3_2.index t (0 : Fin 2) * 1 + 1 * (y 0).val = (y 0).val; rw [e0]; omega
  | ⟨1, _⟩ => show win3_2.index t (1 : Fin 2) * 128 + 1 * (y 1).val = (y 1).val; rw [e1]; omega

theorem iblk3_eq (c : Dev nD) (t : Fin cfg3.N) :
    (iblk3 V c 3 t : Vec Ideal S1x128 .f32) = (V c main_v89 : S1x128.Idx → EReal) := by
  obtain ⟨-, -, -, -, -, -, -, -, e0, e1, -⟩ := idx_facts t
  funext y
  unfold iblk3
  rw [View.read_apply]
  show V c main_v89 _ = V c main_v89 y
  congr 1
  funext a
  apply Fin.ext
  match a with
  | ⟨0, _⟩ => show win3_3.index t (0 : Fin 2) * 1 + 1 * (y 0).val = (y 0).val; rw [e0]; omega
  | ⟨1, _⟩ => show win3_3.index t (1 : Fin 2) * 128 + 1 * (y 1).val = (y 1).val; rw [e1]; omega

theorem iblk4_eq (c : Dev nD) (t : Fin cfg3.N) :
    (iblk3 V c 4 t : Vec Ideal S1x128 .f32) = (V c main_v90 : S1x128.Idx → EReal) := by
  obtain ⟨-, -, -, -, -, -, -, -, -, -, e0, e1, -⟩ := idx_facts t
  funext y
  unfold iblk3
  rw [View.read_apply]
  show V c main_v90 _ = V c main_v90 y
  congr 1
  funext a
  apply Fin.ext
  match a with
  | ⟨0, _⟩ => show win3_4.index t (0 : Fin 2) * 1 + 1 * (y 0).val = (y 0).val; rw [e0]; omega
  | ⟨1, _⟩ => show win3_4.index t (1 : Fin 2) * 128 + 1 * (y 1).val = (y 1).val; rw [e1]; omega

theorem iblk5_eq (c : Dev nD) (t : Fin cfg3.N) :
    (iblk3 V c 5 t : Vec Ideal S128x512 .f32) = (V c main_arg19 : S128x512.Idx → EReal) := by
  obtain ⟨-, -, -, -, -, -, -, -, -, -, -, -, e0, e1, -⟩ := idx_facts t
  funext y
  unfold iblk3
  rw [View.read_apply]
  show V c main_arg19 _ = V c main_arg19 y
  congr 1
  funext a
  apply Fin.ext
  match a with
  | ⟨0, _⟩ => show win3_5.index t (0 : Fin 2) * 128 + 1 * (y 0).val = (y 0).val; rw [e0]; omega
  | ⟨1, _⟩ => show win3_5.index t (1 : Fin 2) * 512 + 1 * (y 1).val = (y 1).val; rw [e1]; omega

theorem iblk6_eq (c : Dev nD) (t : Fin cfg3.N) :
    (iblk3 V c 6 t : Vec Ideal S1x512 .f32) = (V c main_v91 : S1x512.Idx → EReal) := by
  obtain ⟨-, -, -, -, -, -, -, -, -, -, -, -, -, -, e0, e1, -⟩ := idx_facts t
  funext y
  unfold iblk3
  rw [View.read_apply]
  show V c main_v91 _ = V c main_v91 y
  congr 1
  funext a
  apply Fin.ext
  match a with
  | ⟨0, _⟩ => show win3_6.index t (0 : Fin 2) * 1 + 1 * (y 0).val = (y 0).val; rw [e0]; omega
  | ⟨1, _⟩ => show win3_6.index t (1 : Fin 2) * 512 + 1 * (y 1).val = (y 1).val; rw [e1]; omega

theorem iblk7_eq (c : Dev nD) (t : Fin cfg3.N) :
    (iblk3 V c 7 t : Vec Ideal S1x512 .f32) = (V c main_v92 : S1x512.Idx → EReal) := by
  obtain ⟨-, -, -, -, -, -, -, -, -, -, -, -, -, -, -, -, e0, e1, -⟩ := idx_facts t
  funext y
  unfold iblk3
  rw [View.read_apply]
  show V c main_v92 _ = V c main_v92 y
  congr 1
  funext a
  apply Fin.ext
  match a with
  | ⟨0, _⟩ => show win3_7.index t (0 : Fin 2) * 1 + 1 * (y 0).val = (y 0).val; rw [e0]; omega
  | ⟨1, _⟩ => show win3_7.index t (1 : Fin 2) * 512 + 1 * (y 1).val = (y 1).val; rw [e1]; omega

theorem iblk8_eq (c : Dev nD) (t : Fin cfg3.N) :
    (iblk3 V c 8 t : Vec Ideal S1x1 .f32) = (V c main_v93 : S1x1.Idx → EReal) := by
  obtain ⟨-, -, -, -, -, -, -, -, -, -, -, -, -, -, -, -, -, -, e0, e1⟩ := idx_facts t
  funext y
  unfold iblk3
  rw [View.read_apply]
  show V c main_v93 _ = V c main_v93 y
  congr 1
  funext a
  apply Fin.ext
  match a with
  | ⟨0, _⟩ => show win3_8.index t (0 : Fin 2) * 1 + 1 * (y 0).val = (y 0).val; rw [e0]; omega
  | ⟨1, _⟩ => show win3_8.index t (1 : Fin 2) * 1 + 1 * (y 1).val = (y 1).val; rw [e1]; omega

/-- What the body leaves in the result window's buffer, on blocks of any contents: the readout of the blocks (the
    one store fills the buffer, and every load reads its whole buffer). -/
theorem out_eq (x0 : Vec Ideal S5000x128 .f32) (x1 x2 x3 x4 : Vec Ideal S1x128 .f32) (x5 : Vec Ideal S128x512 .f32)
    (x6 x7 : Vec Ideal S1x512 .f32) (x8 : Vec Ideal S1x1 .f32) :
    out3_9 (F := Ideal) x0 x1 x2 x3 x4 x5 x6 x7 x8 = readout (x0 : Mat 5000 128) x1 x2 x3 x4 x5 x6 x7 x8 := by
  unfold out3_9
  rw [View.canon_unit_zero hz]
  simp only [View.ld_unit_zero (S := S5000x128) hz, View.ld_unit_zero (S := S1x128) hz,
    View.ld_unit_zero (S := S128x512) hz, View.ld_unit_zero (S := S1x512) hz, View.ld_unit_zero (S := S1x1) hz]
  exact pay_eq x0 x1 x2 x3 x4 x5 x6 x7 x8

/-- The readout of the arrays the region finds. -/
abbrev G (c : Dev nD) : S50000x1.Idx → EReal :=
  readout (V c main_v69_0 : S50000x128.Idx → EReal) (V c main_v87 : S1x128.Idx → EReal) (V c main_v88 : S1x128.Idx → EReal)
    (V c main_v89 : S1x128.Idx → EReal) (V c main_v90 : S1x128.Idx → EReal) (V c main_arg19 : S128x512.Idx → EReal)
    (V c main_v91 : S1x512.Idx → EReal) (V c main_v92 : S1x512.Idx → EReal) (V c main_v93 : S1x1.Idx → EReal)

/-- WHAT POINT t WRITES BACK is block t of the readout of the arrays: row r of the block is row 5000 t + r of the
    array, and the readout at a row reads that row of the features only. -/
theorem flushed_eq (c : Dev nD) (t : Fin cfg3.N) :
    (dat3 V c).flushed 9 t = ((cfg3.win 9).blk t).view.read (Elt Ideal) (G V c) := by
  show (cfg3.win 9).cut (grid3.coords t) ((dat3 V c).after 9 t) = _
  rw [after3_9]
  rw [out_eq (iblk3 V c 0 t) (iblk3 V c 1 t) (iblk3 V c 2 t) (iblk3 V c 3 t) (iblk3 V c 4 t) (iblk3 V c 5 t)
    (iblk3 V c 6 t) (iblk3 V c 7 t) (iblk3 V c 8 t)]
  rw [iblk1_eq V c t, iblk2_eq V c t, iblk3_eq V c t, iblk4_eq V c t, iblk5_eq V c t, iblk6_eq V c t, iblk7_eq V c t,
    iblk8_eq V c t]
  obtain ⟨-, -, e0, e1, -⟩ := idx_facts t
  funext j
  show readout (iblk3 V c 0 t : Mat 5000 128) (V c main_v87 : Mat 1 128) (V c main_v88 : Mat 1 128) (V c main_v89 : Mat 1 128)
      (V c main_v90 : Mat 1 128) (V c main_arg19 : Mat 128 512) (V c main_v91 : Mat 1 512) (V c main_v92 : Mat 1 512)
      (V c main_v93 : Mat 1 1) (j : S5000x1.Idx)
    = G V c ((((cfg3.win 9).blk t).view.emb j : S50000x1.Idx))
  refine readout_congr_row (M := 5000) (M' := 50000) _ _ _ _ _ _ _ _ _ _ _ _ fun k => ?_
  refine iblk0_apply V c t _ _ ?_ rfl
  show win3_9.index t (0 : Fin 2) * 5000 + 1 * (j 0).val = t.val * 5000 + (j 0).val
  rw [e0]; omega

/-- An index of the result array is in point t's block iff each coordinate is in the block's range on its axis. -/
theorem mem_blk (t : Fin cfg3.N) (i : S50000x1.Idx) :
    i ∈ ((cfg3.win 9).blk t).view.set ↔ ∀ a : Fin 2, win3_9.index t a * S5000x1.size a ≤ (i a).val
      ∧ (i a).val < win3_9.index t a * S5000x1.size a + S5000x1.size a := by
  show i ∈ ((View.whole main_v94).slice (win3_9.rect t)).set ↔ _
  rw [View.set_slice_whole, Rect.mem_set_unit]
  exact Iff.rfl

/-- The ten blocks tile the 50000 rows: row r is in the block of point r / 5000. -/
theorem cover (i : S50000x1.Idx) : ∃ t : Fin cfg3.N, (cfg3.win 9).flush t = true ∧ i ∈ ((cfg3.win 9).blk t).view.set := by
  have hN : grid3.N = 10 := N_3
  have hi0 : (i 0).val < 50000 := (i 0).isLt
  have hi1 : (i 1).val < 1 := (i 1).isLt
  refine ⟨⟨(i 0).val / 5000, by show (i 0).val / 5000 < grid3.N; rw [hN]; omega⟩, flush3_9 _, ?_⟩
  rw [mem_blk]
  obtain ⟨-, -, e0, e1, -⟩ := idx_facts ⟨(i 0).val / 5000, by show (i 0).val / 5000 < grid3.N; rw [hN]; omega⟩
  intro a
  match a with
  | ⟨0, _⟩ =>
    show win3_9.index _ (0 : Fin 2) * 5000 ≤ (i 0).val ∧ (i 0).val < win3_9.index _ (0 : Fin 2) * 5000 + 5000
    rw [e0]; show (i 0).val / 5000 * 5000 ≤ (i 0).val ∧ (i 0).val < (i 0).val / 5000 * 5000 + 5000; omega
  | ⟨1, _⟩ =>
    show win3_9.index _ (1 : Fin 2) * 1 ≤ (i 1).val ∧ (i 1).val < win3_9.index _ (1 : Fin 2) * 1 + 1
    rw [e1]; omega

/-- THE RESULT ARRAY after the region: the readout of the arrays the region finds. -/
theorem final (c : Dev nD) : (dat3 (F := Ideal) V c).arrAt 9 cfg3.N
    = readout (V c main_v69_0 : S50000x128.Idx → EReal) (V c main_v87 : S1x128.Idx → EReal)
        (V c main_v88 : S1x128.Idx → EReal) (V c main_v89 : S1x128.Idx → EReal) (V c main_v90 : S1x128.Idx → EReal)
        (V c main_arg19 : S128x512.Idx → EReal) (V c main_v91 : S1x512.Idx → EReal) (V c main_v92 : S1x512.Idx → EReal)
        (V c main_v93 : S1x1.Idx → EReal) :=
  (dat3 V c).arrAt_eq_of_cover 9 (G V c) (fun t _ => flushed_eq V c t) cover

end Cert.KernelIdeal.ReadoutValue

end
-- ==== Proof.Glue.lean ====
/-
  The array operations between the grid kernels, read back, and the program's result.

  Between its four kernels the program slices the edge list into sources and destinations, joins the two edge-embedding
  weight matrices side by side and the two biases end to end, cuts the joint embedding back into its two halves,
  gathers the rows of the sources, adds the embedding, rectifies, and scatters the sum onto the destinations; it
  finishes the column statistics from the per-block sums and normalises.  Each lemma here names what one buffer holds
  at one point of the run as those operations applied to what the buffers held one step earlier; composed with what
  each kernel leaves in its output arrays, the result array is the readout of the launch contents.
-/
import proofs.«131147_j56908316672645_2_alg».proof.Proof.GlueDefs
import proofs.«131147_j56908316672645_2_alg».proof.Proof.KernelRun
import proofs.«131147_j56908316672645_2_alg».proof.Proof.EdgeValue
import proofs.«131147_j56908316672645_2_alg».proof.Proof.NodeValue
import proofs.«131147_j56908316672645_2_alg».proof.Proof.NodeValue2
import proofs.«131147_j56908316672645_2_alg».proof.Proof.ReadoutValue
import Idealize.ShloMosaic.Lib.StableHlo.Run

set_option maxRecDepth 16384

noncomputable section

namespace Cert.KernelIdeal.Glue

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-! ## At the first kernel's entry -/

theorem W1_arg0 : W1 m ρ c (Proc.devRef .tc main_arg0) = W0 m ρ c (Proc.devRef .tc main_arg0) := by
  show StableHlo.after hostOps0 (W0 m ρ c) (Proc.devRef .tc main_arg0) = _
  generalize W0 m ρ c = Wp
  after_results

theorem W1_arg2 : W1 m ρ c (Proc.devRef .tc main_arg2) = W0 m ρ c (Proc.devRef .tc main_arg2) := by
  show StableHlo.after hostOps0 (W0 m ρ c) (Proc.devRef .tc main_arg2) = _
  generalize W0 m ρ c = Wp
  after_results

theorem W1_arg7 : W1 m ρ c (Proc.devRef .tc main_arg7) = W0 m ρ c (Proc.devRef .tc main_arg7) := by
  show StableHlo.after hostOps0 (W0 m ρ c) (Proc.devRef .tc main_arg7) = _
  generalize W0 m ρ c = Wp
  after_results

theorem W1_arg8 : W1 m ρ c (Proc.devRef .tc main_arg8) = W0 m ρ c (Proc.devRef .tc main_arg8) := by
  show StableHlo.after hostOps0 (W0 m ρ c) (Proc.devRef .tc main_arg8) = _
  generalize W0 m ρ c = Wp
  after_results

theorem W1_arg9 : W1 m ρ c (Proc.devRef .tc main_arg9) = W0 m ρ c (Proc.devRef .tc main_arg9) := by
  show StableHlo.after hostOps0 (W0 m ρ c) (Proc.devRef .tc main_arg9) = _
  generalize W0 m ρ c = Wp
  after_results

theorem W1_arg10 : W1 m ρ c (Proc.devRef .tc main_arg10) = W0 m ρ c (Proc.devRef .tc main_arg10) := by
  show StableHlo.after hostOps0 (W0 m ρ c) (Proc.devRef .tc main_arg10) = _
  generalize W0 m ρ c = Wp
  after_results

theorem W1_arg11 : W1 m ρ c (Proc.devRef .tc main_arg11) = W0 m ρ c (Proc.devRef .tc main_arg11) := by
  show StableHlo.after hostOps0 (W0 m ρ c) (Proc.devRef .tc main_arg11) = _
  generalize W0 m ρ c = Wp
  after_results

theorem W1_arg12 : W1 m ρ c (Proc.devRef .tc main_arg12) = W0 m ρ c (Proc.devRef .tc main_arg12) := by
  show StableHlo.after hostOps0 (W0 m ρ c) (Proc.devRef .tc main_arg12) = _
  generalize W0 m ρ c = Wp
  after_results

theorem W1_arg13 : W1 m ρ c (Proc.devRef .tc main_arg13) = W0 m ρ c (Proc.devRef .tc main_arg13) := by
  show StableHlo.after hostOps0 (W0 m ρ c) (Proc.devRef .tc main_arg13) = _
  generalize W0 m ρ c = Wp
  after_results

theorem W1_arg14 : W1 m ρ c (Proc.devRef .tc main_arg14) = W0 m ρ c (Proc.devRef .tc main_arg14) := by
  show StableHlo.after hostOps0 (W0 m ρ c) (Proc.devRef .tc main_arg14) = _
  generalize W0 m ρ c = Wp
  after_results

theorem W1_arg15 : W1 m ρ c (Proc.devRef .tc main_arg15) = W0 m ρ c (Proc.devRef .tc main_arg15) := by
  show StableHlo.after hostOps0 (W0 m ρ c) (Proc.devRef .tc main_arg15) = _
  generalize W0 m ρ c = Wp
  after_results

theorem W1_arg16 : W1 m ρ c (Proc.devRef .tc main_arg16) = W0 m ρ c (Proc.devRef .tc main_arg16) := by
  show StableHlo.after hostOps0 (W0 m ρ c) (Proc.devRef .tc main_arg16) = _
  generalize W0 m ρ c = Wp
  after_results

theorem W1_arg17 : W1 m ρ c (Proc.devRef .tc main_arg17) = W0 m ρ c (Proc.devRef .tc main_arg17) := by
  show StableHlo.after hostOps0 (W0 m ρ c) (Proc.devRef .tc main_arg17) = _
  generalize W0 m ρ c = Wp
  after_results

theorem W1_arg18 : W1 m ρ c (Proc.devRef .tc main_arg18) = W0 m ρ c (Proc.devRef .tc main_arg18) := by
  show StableHlo.after hostOps0 (W0 m ρ c) (Proc.devRef .tc main_arg18) = _
  generalize W0 m ρ c = Wp
  after_results

theorem W1_arg19 : W1 m ρ c (Proc.devRef .tc main_arg19) = W0 m ρ c (Proc.devRef .tc main_arg19) := by
  show StableHlo.after hostOps0 (W0 m ρ c) (Proc.devRef .tc main_arg19) = _
  generalize W0 m ρ c = Wp
  after_results

theorem W1_arg20 : W1 m ρ c (Proc.devRef .tc main_arg20) = W0 m ρ c (Proc.devRef .tc main_arg20) := by
  show StableHlo.after hostOps0 (W0 m ρ c) (Proc.devRef .tc main_arg20) = _
  generalize W0 m ρ c = Wp
  after_results

theorem W1_arg21 : W1 m ρ c (Proc.devRef .tc main_arg21) = W0 m ρ c (Proc.devRef .tc main_arg21) := by
  show StableHlo.after hostOps0 (W0 m ρ c) (Proc.devRef .tc main_arg21) = _
  generalize W0 m ρ c = Wp
  after_results

theorem W1_arg22 : W1 m ρ c (Proc.devRef .tc main_arg22) = W0 m ρ c (Proc.devRef .tc main_arg22) := by
  show StableHlo.after hostOps0 (W0 m ρ c) (Proc.devRef .tc main_arg22) = _
  generalize W0 m ρ c = Wp
  after_results

theorem W1_v1 : W1 m ρ c (Proc.devRef .tc main_v1)
    = (shapeCast S600000 (extractStridedSlice S1x600000 ![0, 0] (W0 m ρ c (Proc.devRef .tc main_arg1)) slices_S2x600000_S1x600000_0_0) shapeCasts_S1x600000_S600000 : (⟨S600000, .i32⟩ : BufTy).Contents (Elt Ideal)) := by
  show StableHlo.after hostOps0 (W0 m ρ c) (Proc.devRef .tc main_v1) = _
  generalize W0 m ρ c = Wp
  after_results
  rfl

theorem W1_v3 : W1 m ρ c (Proc.devRef .tc main_v3)
    = (shapeCast S600000 (extractStridedSlice S1x600000 ![1, 0] (W0 m ρ c (Proc.devRef .tc main_arg1)) slices_S2x600000_S1x600000_1_0) shapeCasts_S1x600000_S600000 : (⟨S600000, .i32⟩ : BufTy).Contents (Elt Ideal)) := by
  show StableHlo.after hostOps0 (W0 m ρ c) (Proc.devRef .tc main_v3) = _
  generalize W0 m ρ c = Wp
  after_results
  rfl

theorem W1_v4 : W1 m ρ c (Proc.devRef .tc main_v4)
    = (concatenate S64x256 1 [⟨S64x128, W0 m ρ c (Proc.devRef .tc main_arg3)⟩, ⟨S64x128, W0 m ρ c (Proc.devRef .tc main_arg5)⟩] concatenates_S64x128_S64x128_S64x256_d1 : (⟨S64x256, .f32⟩ : BufTy).Contents (Elt Ideal)) := by
  show StableHlo.after hostOps0 (W0 m ρ c) (Proc.devRef .tc main_v4) = _
  generalize W0 m ρ c = Wp
  after_results

theorem W1_v6 : W1 m ρ c (Proc.devRef .tc main_v6)
    = (shapeCast S1x256 (concatenate S256 0 [⟨S128, W0 m ρ c (Proc.devRef .tc main_arg4)⟩, ⟨S128, W0 m ρ c (Proc.devRef .tc main_arg6)⟩] concatenates_S128_S128_S256_d0) shapeCasts_S256_S1x256 : (⟨S1x256, .f32⟩ : BufTy).Contents (Elt Ideal)) := by
  show StableHlo.after hostOps0 (W0 m ρ c) (Proc.devRef .tc main_v6) = _
  generalize W0 m ρ c = Wp
  after_results
  rfl

/-! ## At the first kernel's exit: every buffer but its own arrays is as at its entry -/

theorem W2_arg0 : W2 m ρ c (Proc.devRef .tc main_arg0) = W1 m ρ c (Proc.devRef .tc main_arg0) :=
  W2_of_ne m ρ c main_arg0 (by decide)

theorem W2_v1 : W2 m ρ c (Proc.devRef .tc main_v1) = W1 m ρ c (Proc.devRef .tc main_v1) :=
  W2_of_ne m ρ c main_v1 (by decide)

theorem W2_v3 : W2 m ρ c (Proc.devRef .tc main_v3) = W1 m ρ c (Proc.devRef .tc main_v3) :=
  W2_of_ne m ρ c main_v3 (by decide)

theorem W2_arg7 : W2 m ρ c (Proc.devRef .tc main_arg7) = W1 m ρ c (Proc.devRef .tc main_arg7) :=
  W2_of_ne m ρ c main_arg7 (by decide)

theorem W2_arg8 : W2 m ρ c (Proc.devRef .tc main_arg8) = W1 m ρ c (Proc.devRef .tc main_arg8) :=
  W2_of_ne m ρ c main_arg8 (by decide)

theorem W2_arg9 : W2 m ρ c (Proc.devRef .tc main_arg9) = W1 m ρ c (Proc.devRef .tc main_arg9) :=
  W2_of_ne m ρ c main_arg9 (by decide)

theorem W2_arg10 : W2 m ρ c (Proc.devRef .tc main_arg10) = W1 m ρ c (Proc.devRef .tc main_arg10) :=
  W2_of_ne m ρ c main_arg10 (by decide)

theorem W2_arg11 : W2 m ρ c (Proc.devRef .tc main_arg11) = W1 m ρ c (Proc.devRef .tc main_arg11) :=
  W2_of_ne m ρ c main_arg11 (by decide)

theorem W2_arg12 : W2 m ρ c (Proc.devRef .tc main_arg12) = W1 m ρ c (Proc.devRef .tc main_arg12) :=
  W2_of_ne m ρ c main_arg12 (by decide)

theorem W2_arg13 : W2 m ρ c (Proc.devRef .tc main_arg13) = W1 m ρ c (Proc.devRef .tc main_arg13) :=
  W2_of_ne m ρ c main_arg13 (by decide)

theorem W2_arg14 : W2 m ρ c (Proc.devRef .tc main_arg14) = W1 m ρ c (Proc.devRef .tc main_arg14) :=
  W2_of_ne m ρ c main_arg14 (by decide)

theorem W2_arg15 : W2 m ρ c (Proc.devRef .tc main_arg15) = W1 m ρ c (Proc.devRef .tc main_arg15) :=
  W2_of_ne m ρ c main_arg15 (by decide)

theorem W2_arg16 : W2 m ρ c (Proc.devRef .tc main_arg16) = W1 m ρ c (Proc.devRef .tc main_arg16) :=
  W2_of_ne m ρ c main_arg16 (by decide)

theorem W2_arg17 : W2 m ρ c (Proc.devRef .tc main_arg17) = W1 m ρ c (Proc.devRef .tc main_arg17) :=
  W2_of_ne m ρ c main_arg17 (by decide)

theorem W2_arg18 : W2 m ρ c (Proc.devRef .tc main_arg18) = W1 m ρ c (Proc.devRef .tc main_arg18) :=
  W2_of_ne m ρ c main_arg18 (by decide)

theorem W2_arg19 : W2 m ρ c (Proc.devRef .tc main_arg19) = W1 m ρ c (Proc.devRef .tc main_arg19) :=
  W2_of_ne m ρ c main_arg19 (by decide)

theorem W2_arg20 : W2 m ρ c (Proc.devRef .tc main_arg20) = W1 m ρ c (Proc.devRef .tc main_arg20) :=
  W2_of_ne m ρ c main_arg20 (by decide)

theorem W2_arg21 : W2 m ρ c (Proc.devRef .tc main_arg21) = W1 m ρ c (Proc.devRef .tc main_arg21) :=
  W2_of_ne m ρ c main_arg21 (by decide)

theorem W2_arg22 : W2 m ρ c (Proc.devRef .tc main_arg22) = W1 m ρ c (Proc.devRef .tc main_arg22) :=
  W2_of_ne m ρ c main_arg22 (by decide)

/-! ## At the second kernel's entry -/

theorem W5_arg0 : W5 m ρ c (Proc.devRef .tc main_arg0) = W2 m ρ c (Proc.devRef .tc main_arg0) := by
  show StableHlo.after hostOps1_2 (StableHlo.after hostOps1_1 (StableHlo.after hostOps1 (W2 m ρ c))) (Proc.devRef .tc main_arg0) = _
  generalize W2 m ρ c = Wp
  after_results

theorem W5_v1 : W5 m ρ c (Proc.devRef .tc main_v1) = W2 m ρ c (Proc.devRef .tc main_v1) := by
  show StableHlo.after hostOps1_2 (StableHlo.after hostOps1_1 (StableHlo.after hostOps1 (W2 m ρ c))) (Proc.devRef .tc main_v1) = _
  generalize W2 m ρ c = Wp
  after_results

theorem W5_v3 : W5 m ρ c (Proc.devRef .tc main_v3) = W2 m ρ c (Proc.devRef .tc main_v3) := by
  show StableHlo.after hostOps1_2 (StableHlo.after hostOps1_1 (StableHlo.after hostOps1 (W2 m ρ c))) (Proc.devRef .tc main_v3) = _
  generalize W2 m ρ c = Wp
  after_results

theorem W5_arg7 : W5 m ρ c (Proc.devRef .tc main_arg7) = W2 m ρ c (Proc.devRef .tc main_arg7) := by
  show StableHlo.after hostOps1_2 (StableHlo.after hostOps1_1 (StableHlo.after hostOps1 (W2 m ρ c))) (Proc.devRef .tc main_arg7) = _
  generalize W2 m ρ c = Wp
  after_results

theorem W5_arg9 : W5 m ρ c (Proc.devRef .tc main_arg9) = W2 m ρ c (Proc.devRef .tc main_arg9) := by
  show StableHlo.after hostOps1_2 (StableHlo.after hostOps1_1 (StableHlo.after hostOps1 (W2 m ρ c))) (Proc.devRef .tc main_arg9) = _
  generalize W2 m ρ c = Wp
  after_results

theorem W5_arg11 : W5 m ρ c (Proc.devRef .tc main_arg11) = W2 m ρ c (Proc.devRef .tc main_arg11) := by
  show StableHlo.after hostOps1_2 (StableHlo.after hostOps1_1 (StableHlo.after hostOps1 (W2 m ρ c))) (Proc.devRef .tc main_arg11) = _
  generalize W2 m ρ c = Wp
  after_results

theorem W5_arg12 : W5 m ρ c (Proc.devRef .tc main_arg12) = W2 m ρ c (Proc.devRef .tc main_arg12) := by
  show StableHlo.after hostOps1_2 (StableHlo.after hostOps1_1 (StableHlo.after hostOps1 (W2 m ρ c))) (Proc.devRef .tc main_arg12) = _
  generalize W2 m ρ c = Wp
  after_results

theorem W5_arg13 : W5 m ρ c (Proc.devRef .tc main_arg13) = W2 m ρ c (Proc.devRef .tc main_arg13) := by
  show StableHlo.after hostOps1_2 (StableHlo.after hostOps1_1 (StableHlo.after hostOps1 (W2 m ρ c))) (Proc.devRef .tc main_arg13) = _
  generalize W2 m ρ c = Wp
  after_results

theorem W5_arg14 : W5 m ρ c (Proc.devRef .tc main_arg14) = W2 m ρ c (Proc.devRef .tc main_arg14) := by
  show StableHlo.after hostOps1_2 (StableHlo.after hostOps1_1 (StableHlo.after hostOps1 (W2 m ρ c))) (Proc.devRef .tc main_arg14) = _
  generalize W2 m ρ c = Wp
  after_results

theorem W5_arg15 : W5 m ρ c (Proc.devRef .tc main_arg15) = W2 m ρ c (Proc.devRef .tc main_arg15) := by
  show StableHlo.after hostOps1_2 (StableHlo.after hostOps1_1 (StableHlo.after hostOps1 (W2 m ρ c))) (Proc.devRef .tc main_arg15) = _
  generalize W2 m ρ c = Wp
  after_results

theorem W5_arg16 : W5 m ρ c (Proc.devRef .tc main_arg16) = W2 m ρ c (Proc.devRef .tc main_arg16) := by
  show StableHlo.after hostOps1_2 (StableHlo.after hostOps1_1 (StableHlo.after hostOps1 (W2 m ρ c))) (Proc.devRef .tc main_arg16) = _
  generalize W2 m ρ c = Wp
  after_results

theorem W5_arg17 : W5 m ρ c (Proc.devRef .tc main_arg17) = W2 m ρ c (Proc.devRef .tc main_arg17) := by
  show StableHlo.after hostOps1_2 (StableHlo.after hostOps1_1 (StableHlo.after hostOps1 (W2 m ρ c))) (Proc.devRef .tc main_arg17) = _
  generalize W2 m ρ c = Wp
  after_results

theorem W5_arg18 : W5 m ρ c (Proc.devRef .tc main_arg18) = W2 m ρ c (Proc.devRef .tc main_arg18) := by
  show StableHlo.after hostOps1_2 (StableHlo.after hostOps1_1 (StableHlo.after hostOps1 (W2 m ρ c))) (Proc.devRef .tc main_arg18) = _
  generalize W2 m ρ c = Wp
  after_results

theorem W5_arg19 : W5 m ρ c (Proc.devRef .tc main_arg19) = W2 m ρ c (Proc.devRef .tc main_arg19) := by
  show StableHlo.after hostOps1_2 (StableHlo.after hostOps1_1 (StableHlo.after hostOps1 (W2 m ρ c))) (Proc.devRef .tc main_arg19) = _
  generalize W2 m ρ c = Wp
  after_results

theorem W5_arg20 : W5 m ρ c (Proc.devRef .tc main_arg20) = W2 m ρ c (Proc.devRef .tc main_arg20) := by
  show StableHlo.after hostOps1_2 (StableHlo.after hostOps1_1 (StableHlo.after hostOps1 (W2 m ρ c))) (Proc.devRef .tc main_arg20) = _
  generalize W2 m ρ c = Wp
  after_results

theorem W5_arg21 : W5 m ρ c (Proc.devRef .tc main_arg21) = W2 m ρ c (Proc.devRef .tc main_arg21) := by
  show StableHlo.after hostOps1_2 (StableHlo.after hostOps1_1 (StableHlo.after hostOps1 (W2 m ρ c))) (Proc.devRef .tc main_arg21) = _
  generalize W2 m ρ c = Wp
  after_results

theorem W5_arg22 : W5 m ρ c (Proc.devRef .tc main_arg22) = W2 m ρ c (Proc.devRef .tc main_arg22) := by
  show StableHlo.after hostOps1_2 (StableHlo.after hostOps1_1 (StableHlo.after hostOps1 (W2 m ρ c))) (Proc.devRef .tc main_arg22) = _
  generalize W2 m ρ c = Wp
  after_results

theorem W3_v17 : W3 m ρ c (Proc.devRef .tc main_v17)
    = (addf (F := Ideal) (φ := .f32) (Host.gather gather_S50000x128_S600000x1_S600000x128_1_0_n_n_0_1_1128 (W2 m ρ c (Proc.devRef .tc main_arg0))
        (broadcastInDim S600000x1 ![0] bcast_S600000_S600000x1_0
          (select (cmpi .slt (W2 m ρ c (Proc.devRef .tc main_v1)) (broadcastInDim S600000 ![] bcast_S_S600000 (constantI S_ 32 0#32)))
            (addi (W2 m ρ c (Proc.devRef .tc main_v1)) (broadcastInDim S600000 ![] bcast_S_S600000 (constantI S_ 32 50000#32))) (W2 m ρ c (Proc.devRef .tc main_v1)))))
        (extractStridedSlice S600000x128 ![0, 0] (W2 m ρ c (Proc.devRef .tc main_v7)) slices_S600000x256_S600000x128_0_0) : (⟨S600000x128, .f32⟩ : BufTy).Contents (Elt Ideal)) := by
  show StableHlo.after hostOps1 (W2 m ρ c) (Proc.devRef .tc main_v17) = _
  generalize W2 m ρ c = Wp
  after_results

theorem W3_v9 : W3 m ρ c (Proc.devRef .tc main_v9)
    = (extractStridedSlice S600000x128 ![0, 128] (W2 m ρ c (Proc.devRef .tc main_v7)) slices_S600000x256_S600000x128_0_128 : (⟨S600000x128, .f32⟩ : BufTy).Contents (Elt Ideal)) := by
  show StableHlo.after hostOps1 (W2 m ρ c) (Proc.devRef .tc main_v9) = _
  generalize W2 m ρ c = Wp
  after_results

theorem W3_v3 : W3 m ρ c (Proc.devRef .tc main_v3) = W2 m ρ c (Proc.devRef .tc main_v3) := by
  show StableHlo.after hostOps1 (W2 m ρ c) (Proc.devRef .tc main_v3) = _
  generalize W2 m ρ c = Wp
  after_results

theorem W4_v18 : W4 m ρ c (Proc.devRef .tc main_v18)
    = (maximumf (W3 m ρ c (Proc.devRef .tc main_v17)) (broadcastInDim S600000x128 ![] bcast_S_S600000x128 (constant (F := Ideal) S_ .f32 0x00000000#32)) : (⟨S600000x128, .f32⟩ : BufTy).Contents (Elt Ideal)) := by
  show StableHlo.after hostOps1_1 (W3 m ρ c) (Proc.devRef .tc main_v18) = _
  generalize W3 m ρ c = Wp
  after_results
  rfl

theorem W4_v3 : W4 m ρ c (Proc.devRef .tc main_v3) = W3 m ρ c (Proc.devRef .tc main_v3) := by
  show StableHlo.after hostOps1_1 (W3 m ρ c) (Proc.devRef .tc main_v3) = _
  generalize W3 m ρ c = Wp
  after_results

theorem W4_v9 : W4 m ρ c (Proc.devRef .tc main_v9) = W3 m ρ c (Proc.devRef .tc main_v9) := by
  show StableHlo.after hostOps1_1 (W3 m ρ c) (Proc.devRef .tc main_v9) = _
  generalize W3 m ρ c = Wp
  after_results

theorem W5_v21s : W5 m ρ c (Proc.devRef .tc main_v21)
    = (Host.scatterAdd scatter_S50000x128_S600000x1_S600000x128_1_0_0_1
      (broadcastInDim S50000x128 ![] bcast_S_S50000x128 (constant (F := Ideal) S_ .f32 0x00000000#32))
      (broadcastInDim S600000x1 ![0] bcast_S600000_S600000x1_0 (W4 m ρ c (Proc.devRef .tc main_v3)))
      (W4 m ρ c (Proc.devRef .tc main_v18)) : (⟨S50000x128, .f32⟩ : BufTy).Contents (Elt Ideal)) := by
  show StableHlo.after hostOps1_2 (W4 m ρ c) (Proc.devRef .tc main_v21) = _
  generalize W4 m ρ c = Wp
  after_results

theorem W5_v9s : W5 m ρ c (Proc.devRef .tc main_v9) = W4 m ρ c (Proc.devRef .tc main_v9) := by
  show StableHlo.after hostOps1_2 (W4 m ρ c) (Proc.devRef .tc main_v9) = _
  generalize W4 m ρ c = Wp
  after_results

theorem W5_v22 : W5 m ρ c (Proc.devRef .tc main_v22)
    = (shapeCast S1x256 (W2 m ρ c (Proc.devRef .tc main_arg8)) shapeCasts_S256_S1x256 : (⟨S1x256, .f32⟩ : BufTy).Contents (Elt Ideal)) := by
  show StableHlo.after hostOps1_2 (StableHlo.after hostOps1_1 (StableHlo.after hostOps1 (W2 m ρ c))) (Proc.devRef .tc main_v22) = _
  generalize W2 m ρ c = Wp
  after_results
  rfl

theorem W5_v23 : W5 m ρ c (Proc.devRef .tc main_v23)
    = (shapeCast S1x128 (W2 m ρ c (Proc.devRef .tc main_arg10)) shapeCasts_S128_S1x128 : (⟨S1x128, .f32⟩ : BufTy).Contents (Elt Ideal)) := by
  show StableHlo.after hostOps1_2 (StableHlo.after hostOps1_1 (StableHlo.after hostOps1 (W2 m ρ c))) (Proc.devRef .tc main_v23) = _
  generalize W2 m ρ c = Wp
  after_results
  rfl

/-! ## At the second kernel's exit -/

theorem W6_v1 : W6 m ρ c (Proc.devRef .tc main_v1) = W5 m ρ c (Proc.devRef .tc main_v1) :=
  W6_of_ne m ρ c main_v1 (by decide)

theorem W6_v3 : W6 m ρ c (Proc.devRef .tc main_v3) = W5 m ρ c (Proc.devRef .tc main_v3) :=
  W6_of_ne m ρ c main_v3 (by decide)

theorem W6_v9 : W6 m ρ c (Proc.devRef .tc main_v9) = W5 m ρ c (Proc.devRef .tc main_v9) :=
  W6_of_ne m ρ c main_v9 (by decide)

theorem W6_arg11 : W6 m ρ c (Proc.devRef .tc main_arg11) = W5 m ρ c (Proc.devRef .tc main_arg11) :=
  W6_of_ne m ρ c main_arg11 (by decide)

theorem W6_arg12 : W6 m ρ c (Proc.devRef .tc main_arg12) = W5 m ρ c (Proc.devRef .tc main_arg12) :=
  W6_of_ne m ρ c main_arg12 (by decide)

theorem W6_arg13 : W6 m ρ c (Proc.devRef .tc main_arg13) = W5 m ρ c (Proc.devRef .tc main_arg13) :=
  W6_of_ne m ρ c main_arg13 (by decide)

theorem W6_arg14 : W6 m ρ c (Proc.devRef .tc main_arg14) = W5 m ρ c (Proc.devRef .tc main_arg14) :=
  W6_of_ne m ρ c main_arg14 (by decide)

theorem W6_arg15 : W6 m ρ c (Proc.devRef .tc main_arg15) = W5 m ρ c (Proc.devRef .tc main_arg15) :=
  W6_of_ne m ρ c main_arg15 (by decide)

theorem W6_arg16 : W6 m ρ c (Proc.devRef .tc main_arg16) = W5 m ρ c (Proc.devRef .tc main_arg16) :=
  W6_of_ne m ρ c main_arg16 (by decide)

theorem W6_arg17 : W6 m ρ c (Proc.devRef .tc main_arg17) = W5 m ρ c (Proc.devRef .tc main_arg17) :=
  W6_of_ne m ρ c main_arg17 (by decide)

theorem W6_arg18 : W6 m ρ c (Proc.devRef .tc main_arg18) = W5 m ρ c (Proc.devRef .tc main_arg18) :=
  W6_of_ne m ρ c main_arg18 (by decide)

theorem W6_arg19 : W6 m ρ c (Proc.devRef .tc main_arg19) = W5 m ρ c (Proc.devRef .tc main_arg19) :=
  W6_of_ne m ρ c main_arg19 (by decide)

theorem W6_arg20 : W6 m ρ c (Proc.devRef .tc main_arg20) = W5 m ρ c (Proc.devRef .tc main_arg20) :=
  W6_of_ne m ρ c main_arg20 (by decide)

theorem W6_arg21 : W6 m ρ c (Proc.devRef .tc main_arg21) = W5 m ρ c (Proc.devRef .tc main_arg21) :=
  W6_of_ne m ρ c main_arg21 (by decide)

theorem W6_arg22 : W6 m ρ c (Proc.devRef .tc main_arg22) = W5 m ρ c (Proc.devRef .tc main_arg22) :=
  W6_of_ne m ρ c main_arg22 (by decide)

/-! ## From the second kernel's exit to the third kernel's entry -/

set_option maxHeartbeats 2000000 in
theorem W7_v53 : W7 m ρ c (Proc.devRef .tc main_v53)
    = (addf (F := Ideal) (φ := .f32) (mulf (mulf (subf (W6 m ρ c (Proc.devRef .tc main_v24_0)) (broadcastInDim S50000x128 ![0, 1] bcast_S1x128_S50000x128_0_1 (broadcastInDim S1x128 ![1] bcast_S128_S1x128_1 (Cert.Gine.kMean (W6 m ρ c (Proc.devRef .tc main_v24_1)))))) (broadcastInDim S50000x128 ![0, 1] bcast_S1x128_S50000x128_0_1 (broadcastInDim S1x128 ![1] bcast_S128_S1x128_1 (Cert.Gine.kIstd (W6 m ρ c (Proc.devRef .tc main_v24_1)))))) (broadcastInDim S50000x128 ![0, 1] bcast_S1x128_S50000x128_0_1 (broadcastInDim S1x128 ![1] bcast_S128_S1x128_1 (W6 m ρ c (Proc.devRef .tc main_arg15))))) (broadcastInDim S50000x128 ![0, 1] bcast_S1x128_S50000x128_0_1 (broadcastInDim S1x128 ![1] bcast_S128_S1x128_1 (W6 m ρ c (Proc.devRef .tc main_arg16)))) : (⟨S50000x128, .f32⟩ : BufTy).Contents (Elt Ideal)) := by
  show StableHlo.after hostOps2 (W6 m ρ c) (Proc.devRef .tc main_v53) = _
  generalize W6 m ρ c = Wp
  after_results
  unfold Cert.Gine.kIstd Cert.Gine.kVar Cert.Gine.kMeanSq Cert.Gine.kMean
  rfl

theorem W7_v1 : W7 m ρ c (Proc.devRef .tc main_v1) = W6 m ρ c (Proc.devRef .tc main_v1) := by
  show StableHlo.after hostOps2 (W6 m ρ c) (Proc.devRef .tc main_v1) = _
  generalize W6 m ρ c = Wp
  after_results

theorem W7_v3 : W7 m ρ c (Proc.devRef .tc main_v3) = W6 m ρ c (Proc.devRef .tc main_v3) := by
  show StableHlo.after hostOps2 (W6 m ρ c) (Proc.devRef .tc main_v3) = _
  generalize W6 m ρ c = Wp
  after_results

theorem W7_v9 : W7 m ρ c (Proc.devRef .tc main_v9) = W6 m ρ c (Proc.devRef .tc main_v9) := by
  show StableHlo.after hostOps2 (W6 m ρ c) (Proc.devRef .tc main_v9) = _
  generalize W6 m ρ c = Wp
  after_results

theorem W7_arg11 : W7 m ρ c (Proc.devRef .tc main_arg11) = W6 m ρ c (Proc.devRef .tc main_arg11) := by
  show StableHlo.after hostOps2 (W6 m ρ c) (Proc.devRef .tc main_arg11) = _
  generalize W6 m ρ c = Wp
  after_results

theorem W7_arg12 : W7 m ρ c (Proc.devRef .tc main_arg12) = W6 m ρ c (Proc.devRef .tc main_arg12) := by
  show StableHlo.after hostOps2 (W6 m ρ c) (Proc.devRef .tc main_arg12) = _
  generalize W6 m ρ c = Wp
  after_results

theorem W7_arg13 : W7 m ρ c (Proc.devRef .tc main_arg13) = W6 m ρ c (Proc.devRef .tc main_arg13) := by
  show StableHlo.after hostOps2 (W6 m ρ c) (Proc.devRef .tc main_arg13) = _
  generalize W6 m ρ c = Wp
  after_results

theorem W7_arg14 : W7 m ρ c (Proc.devRef .tc main_arg14) = W6 m ρ c (Proc.devRef .tc main_arg14) := by
  show StableHlo.after hostOps2 (W6 m ρ c) (Proc.devRef .tc main_arg14) = _
  generalize W6 m ρ c = Wp
  after_results

theorem W7_arg17 : W7 m ρ c (Proc.devRef .tc main_arg17) = W6 m ρ c (Proc.devRef .tc main_arg17) := by
  show StableHlo.after hostOps2 (W6 m ρ c) (Proc.devRef .tc main_arg17) = _
  generalize W6 m ρ c = Wp
  after_results

theorem W7_arg18 : W7 m ρ c (Proc.devRef .tc main_arg18) = W6 m ρ c (Proc.devRef .tc main_arg18) := by
  show StableHlo.after hostOps2 (W6 m ρ c) (Proc.devRef .tc main_arg18) = _
  generalize W6 m ρ c = Wp
  after_results

theorem W7_arg19 : W7 m ρ c (Proc.devRef .tc main_arg19) = W6 m ρ c (Proc.devRef .tc main_arg19) := by
  show StableHlo.after hostOps2 (W6 m ρ c) (Proc.devRef .tc main_arg19) = _
  generalize W6 m ρ c = Wp
  after_results

theorem W7_arg20 : W7 m ρ c (Proc.devRef .tc main_arg20) = W6 m ρ c (Proc.devRef .tc main_arg20) := by
  show StableHlo.after hostOps2 (W6 m ρ c) (Proc.devRef .tc main_arg20) = _
  generalize W6 m ρ c = Wp
  after_results

theorem W7_arg21 : W7 m ρ c (Proc.devRef .tc main_arg21) = W6 m ρ c (Proc.devRef .tc main_arg21) := by
  show StableHlo.after hostOps2 (W6 m ρ c) (Proc.devRef .tc main_arg21) = _
  generalize W6 m ρ c = Wp
  after_results

theorem W7_arg22 : W7 m ρ c (Proc.devRef .tc main_arg22) = W6 m ρ c (Proc.devRef .tc main_arg22) := by
  show StableHlo.after hostOps2 (W6 m ρ c) (Proc.devRef .tc main_arg22) = _
  generalize W6 m ρ c = Wp
  after_results

theorem W8_v54 : W8 m ρ c (Proc.devRef .tc main_v54)
    = (maximumf (W7 m ρ c (Proc.devRef .tc main_v53)) (broadcastInDim S50000x128 ![] bcast_S_S50000x128 (constant (F := Ideal) S_ .f32 0x00000000#32)) : (⟨S50000x128, .f32⟩ : BufTy).Contents (Elt Ideal)) := by
  show StableHlo.after hostOps2_1 (W7 m ρ c) (Proc.devRef .tc main_v54) = _
  generalize W7 m ρ c = Wp
  after_results
  rfl

theorem W8_v1 : W8 m ρ c (Proc.devRef .tc main_v1) = W7 m ρ c (Proc.devRef .tc main_v1) := by
  show StableHlo.after hostOps2_1 (W7 m ρ c) (Proc.devRef .tc main_v1) = _
  generalize W7 m ρ c = Wp
  after_results

theorem W8_v3 : W8 m ρ c (Proc.devRef .tc main_v3) = W7 m ρ c (Proc.devRef .tc main_v3) := by
  show StableHlo.after hostOps2_1 (W7 m ρ c) (Proc.devRef .tc main_v3) = _
  generalize W7 m ρ c = Wp
  after_results

theorem W8_v9 : W8 m ρ c (Proc.devRef .tc main_v9) = W7 m ρ c (Proc.devRef .tc main_v9) := by
  show StableHlo.after hostOps2_1 (W7 m ρ c) (Proc.devRef .tc main_v9) = _
  generalize W7 m ρ c = Wp
  after_results

theorem W8_arg11 : W8 m ρ c (Proc.devRef .tc main_arg11) = W7 m ρ c (Proc.devRef .tc main_arg11) := by
  show StableHlo.after hostOps2_1 (W7 m ρ c) (Proc.devRef .tc main_arg11) = _
  generalize W7 m ρ c = Wp
  after_results

theorem W8_arg12 : W8 m ρ c (Proc.devRef .tc main_arg12) = W7 m ρ c (Proc.devRef .tc main_arg12) := by
  show StableHlo.after hostOps2_1 (W7 m ρ c) (Proc.devRef .tc main_arg12) = _
  generalize W7 m ρ c = Wp
  after_results

theorem W8_arg13 : W8 m ρ c (Proc.devRef .tc main_arg13) = W7 m ρ c (Proc.devRef .tc main_arg13) := by
  show StableHlo.after hostOps2_1 (W7 m ρ c) (Proc.devRef .tc main_arg13) = _
  generalize W7 m ρ c = Wp
  after_results

theorem W8_arg14 : W8 m ρ c (Proc.devRef .tc main_arg14) = W7 m ρ c (Proc.devRef .tc main_arg14) := by
  show StableHlo.after hostOps2_1 (W7 m ρ c) (Proc.devRef .tc main_arg14) = _
  generalize W7 m ρ c = Wp
  after_results

theorem W8_arg17 : W8 m ρ c (Proc.devRef .tc main_arg17) = W7 m ρ c (Proc.devRef .tc main_arg17) := by
  show StableHlo.after hostOps2_1 (W7 m ρ c) (Proc.devRef .tc main_arg17) = _
  generalize W7 m ρ c = Wp
  after_results

theorem W8_arg18 : W8 m ρ c (Proc.devRef .tc main_arg18) = W7 m ρ c (Proc.devRef .tc main_arg18) := by
  show StableHlo.after hostOps2_1 (W7 m ρ c) (Proc.devRef .tc main_arg18) = _
  generalize W7 m ρ c = Wp
  after_results

theorem W8_arg19 : W8 m ρ c (Proc.devRef .tc main_arg19) = W7 m ρ c (Proc.devRef .tc main_arg19) := by
  show StableHlo.after hostOps2_1 (W7 m ρ c) (Proc.devRef .tc main_arg19) = _
  generalize W7 m ρ c = Wp
  after_results

theorem W8_arg20 : W8 m ρ c (Proc.devRef .tc main_arg20) = W7 m ρ c (Proc.devRef .tc main_arg20) := by
  show StableHlo.after hostOps2_1 (W7 m ρ c) (Proc.devRef .tc main_arg20) = _
  generalize W7 m ρ c = Wp
  after_results

theorem W8_arg21 : W8 m ρ c (Proc.devRef .tc main_arg21) = W7 m ρ c (Proc.devRef .tc main_arg21) := by
  show StableHlo.after hostOps2_1 (W7 m ρ c) (Proc.devRef .tc main_arg21) = _
  generalize W7 m ρ c = Wp
  after_results

theorem W8_arg22 : W8 m ρ c (Proc.devRef .tc main_arg22) = W7 m ρ c (Proc.devRef .tc main_arg22) := by
  show StableHlo.after hostOps2_1 (W7 m ρ c) (Proc.devRef .tc main_arg22) = _
  generalize W7 m ρ c = Wp
  after_results

theorem W9_v62 : W9 m ρ c (Proc.devRef .tc main_v62)
    = (addf (F := Ideal) (φ := .f32) (Host.gather gather_S50000x128_S600000x1_S600000x128_1_0_n_n_0_1_1128 (W8 m ρ c (Proc.devRef .tc main_v54))
        (broadcastInDim S600000x1 ![0] bcast_S600000_S600000x1_0
          (select (cmpi .slt (W8 m ρ c (Proc.devRef .tc main_v1)) (broadcastInDim S600000 ![] bcast_S_S600000 (constantI S_ 32 0#32)))
            (addi (W8 m ρ c (Proc.devRef .tc main_v1)) (broadcastInDim S600000 ![] bcast_S_S600000 (constantI S_ 32 50000#32))) (W8 m ρ c (Proc.devRef .tc main_v1)))))
        (W8 m ρ c (Proc.devRef .tc main_v9)) : (⟨S600000x128, .f32⟩ : BufTy).Contents (Elt Ideal)) := by
  show StableHlo.after hostOps2_2 (W8 m ρ c) (Proc.devRef .tc main_v62) = _
  generalize W8 m ρ c = Wp
  after_results

theorem W9_v54 : W9 m ρ c (Proc.devRef .tc main_v54) = W8 m ρ c (Proc.devRef .tc main_v54) := by
  show StableHlo.after hostOps2_2 (W8 m ρ c) (Proc.devRef .tc main_v54) = _
  generalize W8 m ρ c = Wp
  after_results

theorem W9_v3 : W9 m ρ c (Proc.devRef .tc main_v3) = W8 m ρ c (Proc.devRef .tc main_v3) := by
  show StableHlo.after hostOps2_2 (W8 m ρ c) (Proc.devRef .tc main_v3) = _
  generalize W8 m ρ c = Wp
  after_results

theorem W9_arg11 : W9 m ρ c (Proc.devRef .tc main_arg11) = W8 m ρ c (Proc.devRef .tc main_arg11) := by
  show StableHlo.after hostOps2_2 (W8 m ρ c) (Proc.devRef .tc main_arg11) = _
  generalize W8 m ρ c = Wp
  after_results

theorem W9_arg12 : W9 m ρ c (Proc.devRef .tc main_arg12) = W8 m ρ c (Proc.devRef .tc main_arg12) := by
  show StableHlo.after hostOps2_2 (W8 m ρ c) (Proc.devRef .tc main_arg12) = _
  generalize W8 m ρ c = Wp
  after_results

theorem W9_arg13 : W9 m ρ c (Proc.devRef .tc main_arg13) = W8 m ρ c (Proc.devRef .tc main_arg13) := by
  show StableHlo.after hostOps2_2 (W8 m ρ c) (Proc.devRef .tc main_arg13) = _
  generalize W8 m ρ c = Wp
  after_results

theorem W9_arg14 : W9 m ρ c (Proc.devRef .tc main_arg14) = W8 m ρ c (Proc.devRef .tc main_arg14) := by
  show StableHlo.after hostOps2_2 (W8 m ρ c) (Proc.devRef .tc main_arg14) = _
  generalize W8 m ρ c = Wp
  after_results

theorem W9_arg17 : W9 m ρ c (Proc.devRef .tc main_arg17) = W8 m ρ c (Proc.devRef .tc main_arg17) := by
  show StableHlo.after hostOps2_2 (W8 m ρ c) (Proc.devRef .tc main_arg17) = _
  generalize W8 m ρ c = Wp
  after_results

theorem W9_arg18 : W9 m ρ c (Proc.devRef .tc main_arg18) = W8 m ρ c (Proc.devRef .tc main_arg18) := by
  show StableHlo.after hostOps2_2 (W8 m ρ c) (Proc.devRef .tc main_arg18) = _
  generalize W8 m ρ c = Wp
  after_results

theorem W9_arg19 : W9 m ρ c (Proc.devRef .tc main_arg19) = W8 m ρ c (Proc.devRef .tc main_arg19) := by
  show StableHlo.after hostOps2_2 (W8 m ρ c) (Proc.devRef .tc main_arg19) = _
  generalize W8 m ρ c = Wp
  after_results

theorem W9_arg20 : W9 m ρ c (Proc.devRef .tc main_arg20) = W8 m ρ c (Proc.devRef .tc main_arg20) := by
  show StableHlo.after hostOps2_2 (W8 m ρ c) (Proc.devRef .tc main_arg20) = _
  generalize W8 m ρ c = Wp
  after_results

theorem W9_arg21 : W9 m ρ c (Proc.devRef .tc main_arg21) = W8 m ρ c (Proc.devRef .tc main_arg21) := by
  show StableHlo.after hostOps2_2 (W8 m ρ c) (Proc.devRef .tc main_arg21) = _
  generalize W8 m ρ c = Wp
  after_results

theorem W9_arg22 : W9 m ρ c (Proc.devRef .tc main_arg22) = W8 m ρ c (Proc.devRef .tc main_arg22) := by
  show StableHlo.after hostOps2_2 (W8 m ρ c) (Proc.devRef .tc main_arg22) = _
  generalize W8 m ρ c = Wp
  after_results

theorem W10_v63 : W10 m ρ c (Proc.devRef .tc main_v63)
    = (maximumf (W9 m ρ c (Proc.devRef .tc main_v62)) (broadcastInDim S600000x128 ![] bcast_S_S600000x128 (constant (F := Ideal) S_ .f32 0x00000000#32)) : (⟨S600000x128, .f32⟩ : BufTy).Contents (Elt Ideal)) := by
  show StableHlo.after hostOps2_3 (W9 m ρ c) (Proc.devRef .tc main_v63) = _
  generalize W9 m ρ c = Wp
  after_results
  rfl

theorem W10_v54 : W10 m ρ c (Proc.devRef .tc main_v54) = W9 m ρ c (Proc.devRef .tc main_v54) := by
  show StableHlo.after hostOps2_3 (W9 m ρ c) (Proc.devRef .tc main_v54) = _
  generalize W9 m ρ c = Wp
  after_results

theorem W10_v3 : W10 m ρ c (Proc.devRef .tc main_v3) = W9 m ρ c (Proc.devRef .tc main_v3) := by
  show StableHlo.after hostOps2_3 (W9 m ρ c) (Proc.devRef .tc main_v3) = _
  generalize W9 m ρ c = Wp
  after_results

theorem W10_arg11 : W10 m ρ c (Proc.devRef .tc main_arg11) = W9 m ρ c (Proc.devRef .tc main_arg11) := by
  show StableHlo.after hostOps2_3 (W9 m ρ c) (Proc.devRef .tc main_arg11) = _
  generalize W9 m ρ c = Wp
  after_results

theorem W10_arg12 : W10 m ρ c (Proc.devRef .tc main_arg12) = W9 m ρ c (Proc.devRef .tc main_arg12) := by
  show StableHlo.after hostOps2_3 (W9 m ρ c) (Proc.devRef .tc main_arg12) = _
  generalize W9 m ρ c = Wp
  after_results

theorem W10_arg13 : W10 m ρ c (Proc.devRef .tc main_arg13) = W9 m ρ c (Proc.devRef .tc main_arg13) := by
  show StableHlo.after hostOps2_3 (W9 m ρ c) (Proc.devRef .tc main_arg13) = _
  generalize W9 m ρ c = Wp
  after_results

theorem W10_arg14 : W10 m ρ c (Proc.devRef .tc main_arg14) = W9 m ρ c (Proc.devRef .tc main_arg14) := by
  show StableHlo.after hostOps2_3 (W9 m ρ c) (Proc.devRef .tc main_arg14) = _
  generalize W9 m ρ c = Wp
  after_results

theorem W10_arg17 : W10 m ρ c (Proc.devRef .tc main_arg17) = W9 m ρ c (Proc.devRef .tc main_arg17) := by
  show StableHlo.after hostOps2_3 (W9 m ρ c) (Proc.devRef .tc main_arg17) = _
  generalize W9 m ρ c = Wp
  after_results

theorem W10_arg18 : W10 m ρ c (Proc.devRef .tc main_arg18) = W9 m ρ c (Proc.devRef .tc main_arg18) := by
  show StableHlo.after hostOps2_3 (W9 m ρ c) (Proc.devRef .tc main_arg18) = _
  generalize W9 m ρ c = Wp
  after_results

theorem W10_arg19 : W10 m ρ c (Proc.devRef .tc main_arg19) = W9 m ρ c (Proc.devRef .tc main_arg19) := by
  show StableHlo.after hostOps2_3 (W9 m ρ c) (Proc.devRef .tc main_arg19) = _
  generalize W9 m ρ c = Wp
  after_results

theorem W10_arg20 : W10 m ρ c (Proc.devRef .tc main_arg20) = W9 m ρ c (Proc.devRef .tc main_arg20) := by
  show StableHlo.after hostOps2_3 (W9 m ρ c) (Proc.devRef .tc main_arg20) = _
  generalize W9 m ρ c = Wp
  after_results

theorem W10_arg21 : W10 m ρ c (Proc.devRef .tc main_arg21) = W9 m ρ c (Proc.devRef .tc main_arg21) := by
  show StableHlo.after hostOps2_3 (W9 m ρ c) (Proc.devRef .tc main_arg21) = _
  generalize W9 m ρ c = Wp
  after_results

theorem W10_arg22 : W10 m ρ c (Proc.devRef .tc main_arg22) = W9 m ρ c (Proc.devRef .tc main_arg22) := by
  show StableHlo.after hostOps2_3 (W9 m ρ c) (Proc.devRef .tc main_arg22) = _
  generalize W9 m ρ c = Wp
  after_results

theorem W11_v66 : W11 m ρ c (Proc.devRef .tc main_v66)
    = (Host.scatterAdd scatter_S50000x128_S600000x1_S600000x128_1_0_0_1
      (broadcastInDim S50000x128 ![] bcast_S_S50000x128 (constant (F := Ideal) S_ .f32 0x00000000#32))
      (broadcastInDim S600000x1 ![0] bcast_S600000_S600000x1_0 (W10 m ρ c (Proc.devRef .tc main_v3)))
      (W10 m ρ c (Proc.devRef .tc main_v63)) : (⟨S50000x128, .f32⟩ : BufTy).Contents (Elt Ideal)) := by
  show StableHlo.after hostOps2_4 (W10 m ρ c) (Proc.devRef .tc main_v66) = _
  generalize W10 m ρ c = Wp
  after_results

theorem W11_v67 : W11 m ρ c (Proc.devRef .tc main_v67)
    = (shapeCast S1x256 (W10 m ρ c (Proc.devRef .tc main_arg12)) shapeCasts_S256_S1x256 : (⟨S1x256, .f32⟩ : BufTy).Contents (Elt Ideal)) := by
  show StableHlo.after hostOps2_4 (W10 m ρ c) (Proc.devRef .tc main_v67) = _
  generalize W10 m ρ c = Wp
  after_results
  rfl

theorem W11_v68 : W11 m ρ c (Proc.devRef .tc main_v68)
    = (shapeCast S1x128 (W10 m ρ c (Proc.devRef .tc main_arg14)) shapeCasts_S128_S1x128 : (⟨S1x128, .f32⟩ : BufTy).Contents (Elt Ideal)) := by
  show StableHlo.after hostOps2_4 (W10 m ρ c) (Proc.devRef .tc main_v68) = _
  generalize W10 m ρ c = Wp
  after_results
  rfl

theorem W11_v54 : W11 m ρ c (Proc.devRef .tc main_v54) = W10 m ρ c (Proc.devRef .tc main_v54) := by
  show StableHlo.after hostOps2_4 (W10 m ρ c) (Proc.devRef .tc main_v54) = _
  generalize W10 m ρ c = Wp
  after_results

theorem W11_arg11 : W11 m ρ c (Proc.devRef .tc main_arg11) = W10 m ρ c (Proc.devRef .tc main_arg11) := by
  show StableHlo.after hostOps2_4 (W10 m ρ c) (Proc.devRef .tc main_arg11) = _
  generalize W10 m ρ c = Wp
  after_results

theorem W11_arg13 : W11 m ρ c (Proc.devRef .tc main_arg13) = W10 m ρ c (Proc.devRef .tc main_arg13) := by
  show StableHlo.after hostOps2_4 (W10 m ρ c) (Proc.devRef .tc main_arg13) = _
  generalize W10 m ρ c = Wp
  after_results

theorem W11_arg17 : W11 m ρ c (Proc.devRef .tc main_arg17) = W10 m ρ c (Proc.devRef .tc main_arg17) := by
  show StableHlo.after hostOps2_4 (W10 m ρ c) (Proc.devRef .tc main_arg17) = _
  generalize W10 m ρ c = Wp
  after_results

theorem W11_arg18 : W11 m ρ c (Proc.devRef .tc main_arg18) = W10 m ρ c (Proc.devRef .tc main_arg18) := by
  show StableHlo.after hostOps2_4 (W10 m ρ c) (Proc.devRef .tc main_arg18) = _
  generalize W10 m ρ c = Wp
  after_results

theorem W11_arg19 : W11 m ρ c (Proc.devRef .tc main_arg19) = W10 m ρ c (Proc.devRef .tc main_arg19) := by
  show StableHlo.after hostOps2_4 (W10 m ρ c) (Proc.devRef .tc main_arg19) = _
  generalize W10 m ρ c = Wp
  after_results

theorem W11_arg20 : W11 m ρ c (Proc.devRef .tc main_arg20) = W10 m ρ c (Proc.devRef .tc main_arg20) := by
  show StableHlo.after hostOps2_4 (W10 m ρ c) (Proc.devRef .tc main_arg20) = _
  generalize W10 m ρ c = Wp
  after_results

theorem W11_arg21 : W11 m ρ c (Proc.devRef .tc main_arg21) = W10 m ρ c (Proc.devRef .tc main_arg21) := by
  show StableHlo.after hostOps2_4 (W10 m ρ c) (Proc.devRef .tc main_arg21) = _
  generalize W10 m ρ c = Wp
  after_results

theorem W11_arg22 : W11 m ρ c (Proc.devRef .tc main_arg22) = W10 m ρ c (Proc.devRef .tc main_arg22) := by
  show StableHlo.after hostOps2_4 (W10 m ρ c) (Proc.devRef .tc main_arg22) = _
  generalize W10 m ρ c = Wp
  after_results

/-! ## At the third kernel's exit, and the fourth kernel's entry -/

theorem W12_arg17 : W12 m ρ c (Proc.devRef .tc main_arg17) = W11 m ρ c (Proc.devRef .tc main_arg17) :=
  W12_of_ne m ρ c main_arg17 (by decide)

theorem W12_arg18 : W12 m ρ c (Proc.devRef .tc main_arg18) = W11 m ρ c (Proc.devRef .tc main_arg18) :=
  W12_of_ne m ρ c main_arg18 (by decide)

theorem W12_arg19 : W12 m ρ c (Proc.devRef .tc main_arg19) = W11 m ρ c (Proc.devRef .tc main_arg19) :=
  W12_of_ne m ρ c main_arg19 (by decide)

theorem W12_arg20 : W12 m ρ c (Proc.devRef .tc main_arg20) = W11 m ρ c (Proc.devRef .tc main_arg20) :=
  W12_of_ne m ρ c main_arg20 (by decide)

theorem W12_arg21 : W12 m ρ c (Proc.devRef .tc main_arg21) = W11 m ρ c (Proc.devRef .tc main_arg21) :=
  W12_of_ne m ρ c main_arg21 (by decide)

theorem W12_arg22 : W12 m ρ c (Proc.devRef .tc main_arg22) = W11 m ρ c (Proc.devRef .tc main_arg22) :=
  W12_of_ne m ρ c main_arg22 (by decide)

theorem W13_v69_0 : W13 m ρ c (Proc.devRef .tc main_v69_0) = W12 m ρ c (Proc.devRef .tc main_v69_0) := by
  show StableHlo.after hostOps3 (W12 m ρ c) (Proc.devRef .tc main_v69_0) = _
  generalize W12 m ρ c = Wp
  after_results

theorem W13_arg19 : W13 m ρ c (Proc.devRef .tc main_arg19) = W12 m ρ c (Proc.devRef .tc main_arg19) := by
  show StableHlo.after hostOps3 (W12 m ρ c) (Proc.devRef .tc main_arg19) = _
  generalize W12 m ρ c = Wp
  after_results

theorem W13_v87 : W13 m ρ c (Proc.devRef .tc main_v87)
    = (shapeCast S1x128 (Cert.Gine.kMean (W12 m ρ c (Proc.devRef .tc main_v69_1))) shapeCasts_S128_S1x128 : (⟨S1x128, .f32⟩ : BufTy).Contents (Elt Ideal)) := by
  show StableHlo.after hostOps3 (W12 m ρ c) (Proc.devRef .tc main_v87) = _
  generalize W12 m ρ c = Wp
  after_results
  rfl

set_option maxHeartbeats 2000000 in
theorem W13_v88 : W13 m ρ c (Proc.devRef .tc main_v88)
    = (shapeCast S1x128 (Cert.Gine.kIstd (W12 m ρ c (Proc.devRef .tc main_v69_1))) shapeCasts_S128_S1x128 : (⟨S1x128, .f32⟩ : BufTy).Contents (Elt Ideal)) := by
  show StableHlo.after hostOps3 (W12 m ρ c) (Proc.devRef .tc main_v88) = _
  generalize W12 m ρ c = Wp
  after_results
  unfold Cert.Gine.kIstd Cert.Gine.kVar Cert.Gine.kMeanSq Cert.Gine.kMean
  rfl

theorem W13_v89 : W13 m ρ c (Proc.devRef .tc main_v89)
    = (shapeCast S1x128 (W12 m ρ c (Proc.devRef .tc main_arg17)) shapeCasts_S128_S1x128 : (⟨S1x128, .f32⟩ : BufTy).Contents (Elt Ideal)) := by
  show StableHlo.after hostOps3 (W12 m ρ c) (Proc.devRef .tc main_v89) = _
  generalize W12 m ρ c = Wp
  after_results
  rfl

theorem W13_v90 : W13 m ρ c (Proc.devRef .tc main_v90)
    = (shapeCast S1x128 (W12 m ρ c (Proc.devRef .tc main_arg18)) shapeCasts_S128_S1x128 : (⟨S1x128, .f32⟩ : BufTy).Contents (Elt Ideal)) := by
  show StableHlo.after hostOps3 (W12 m ρ c) (Proc.devRef .tc main_v90) = _
  generalize W12 m ρ c = Wp
  after_results
  rfl

theorem W13_v91 : W13 m ρ c (Proc.devRef .tc main_v91)
    = (shapeCast S1x512 (W12 m ρ c (Proc.devRef .tc main_arg20)) shapeCasts_S512_S1x512 : (⟨S1x512, .f32⟩ : BufTy).Contents (Elt Ideal)) := by
  show StableHlo.after hostOps3 (W12 m ρ c) (Proc.devRef .tc main_v91) = _
  generalize W12 m ρ c = Wp
  after_results
  rfl

theorem W13_v92 : W13 m ρ c (Proc.devRef .tc main_v92)
    = (shapeCast S1x512 (W12 m ρ c (Proc.devRef .tc main_arg21)) shapeCasts_S512x1_S1x512 : (⟨S1x512, .f32⟩ : BufTy).Contents (Elt Ideal)) := by
  show StableHlo.after hostOps3 (W12 m ρ c) (Proc.devRef .tc main_v92) = _
  generalize W12 m ρ c = Wp
  after_results
  rfl

theorem W13_v93 : W13 m ρ c (Proc.devRef .tc main_v93)
    = (shapeCast S1x1 (W12 m ρ c (Proc.devRef .tc main_arg22)) shapeCasts_S1_S1x1 : (⟨S1x1, .f32⟩ : BufTy).Contents (Elt Ideal)) := by
  show StableHlo.after hostOps3 (W12 m ρ c) (Proc.devRef .tc main_v93) = _
  generalize W12 m ρ c = Wp
  after_results
  rfl

/-! ## Every carried buffer, back to the launch -/

theorem L1_arg0 : W1 m ρ c (Proc.devRef .tc main_arg0) = W0 m ρ c (Proc.devRef .tc main_arg0) :=
  W1_arg0 m ρ c
theorem L2_arg0 : W2 m ρ c (Proc.devRef .tc main_arg0) = W0 m ρ c (Proc.devRef .tc main_arg0) :=
  (W2_arg0 m ρ c).trans (L1_arg0 m ρ c)
theorem L5_arg0 : W5 m ρ c (Proc.devRef .tc main_arg0) = W0 m ρ c (Proc.devRef .tc main_arg0) :=
  (W5_arg0 m ρ c).trans (L2_arg0 m ρ c)

theorem L1_arg7 : W1 m ρ c (Proc.devRef .tc main_arg7) = W0 m ρ c (Proc.devRef .tc main_arg7) :=
  W1_arg7 m ρ c
theorem L2_arg7 : W2 m ρ c (Proc.devRef .tc main_arg7) = W0 m ρ c (Proc.devRef .tc main_arg7) :=
  (W2_arg7 m ρ c).trans (L1_arg7 m ρ c)
theorem L5_arg7 : W5 m ρ c (Proc.devRef .tc main_arg7) = W0 m ρ c (Proc.devRef .tc main_arg7) :=
  (W5_arg7 m ρ c).trans (L2_arg7 m ρ c)

theorem L1_arg9 : W1 m ρ c (Proc.devRef .tc main_arg9) = W0 m ρ c (Proc.devRef .tc main_arg9) :=
  W1_arg9 m ρ c
theorem L2_arg9 : W2 m ρ c (Proc.devRef .tc main_arg9) = W0 m ρ c (Proc.devRef .tc main_arg9) :=
  (W2_arg9 m ρ c).trans (L1_arg9 m ρ c)
theorem L5_arg9 : W5 m ρ c (Proc.devRef .tc main_arg9) = W0 m ρ c (Proc.devRef .tc main_arg9) :=
  (W5_arg9 m ρ c).trans (L2_arg9 m ρ c)

theorem L1_arg8 : W1 m ρ c (Proc.devRef .tc main_arg8) = W0 m ρ c (Proc.devRef .tc main_arg8) :=
  W1_arg8 m ρ c
theorem L2_arg8 : W2 m ρ c (Proc.devRef .tc main_arg8) = W0 m ρ c (Proc.devRef .tc main_arg8) :=
  (W2_arg8 m ρ c).trans (L1_arg8 m ρ c)

theorem L1_arg10 : W1 m ρ c (Proc.devRef .tc main_arg10) = W0 m ρ c (Proc.devRef .tc main_arg10) :=
  W1_arg10 m ρ c
theorem L2_arg10 : W2 m ρ c (Proc.devRef .tc main_arg10) = W0 m ρ c (Proc.devRef .tc main_arg10) :=
  (W2_arg10 m ρ c).trans (L1_arg10 m ρ c)

theorem L1_arg11 : W1 m ρ c (Proc.devRef .tc main_arg11) = W0 m ρ c (Proc.devRef .tc main_arg11) :=
  W1_arg11 m ρ c
theorem L2_arg11 : W2 m ρ c (Proc.devRef .tc main_arg11) = W0 m ρ c (Proc.devRef .tc main_arg11) :=
  (W2_arg11 m ρ c).trans (L1_arg11 m ρ c)
theorem L5_arg11 : W5 m ρ c (Proc.devRef .tc main_arg11) = W0 m ρ c (Proc.devRef .tc main_arg11) :=
  (W5_arg11 m ρ c).trans (L2_arg11 m ρ c)
theorem L6_arg11 : W6 m ρ c (Proc.devRef .tc main_arg11) = W0 m ρ c (Proc.devRef .tc main_arg11) :=
  (W6_arg11 m ρ c).trans (L5_arg11 m ρ c)
theorem L7_arg11 : W7 m ρ c (Proc.devRef .tc main_arg11) = W0 m ρ c (Proc.devRef .tc main_arg11) :=
  (W7_arg11 m ρ c).trans (L6_arg11 m ρ c)
theorem L8_arg11 : W8 m ρ c (Proc.devRef .tc main_arg11) = W0 m ρ c (Proc.devRef .tc main_arg11) :=
  (W8_arg11 m ρ c).trans (L7_arg11 m ρ c)
theorem L9_arg11 : W9 m ρ c (Proc.devRef .tc main_arg11) = W0 m ρ c (Proc.devRef .tc main_arg11) :=
  (W9_arg11 m ρ c).trans (L8_arg11 m ρ c)
theorem L10_arg11 : W10 m ρ c (Proc.devRef .tc main_arg11) = W0 m ρ c (Proc.devRef .tc main_arg11) :=
  (W10_arg11 m ρ c).trans (L9_arg11 m ρ c)
theorem L11_arg11 : W11 m ρ c (Proc.devRef .tc main_arg11) = W0 m ρ c (Proc.devRef .tc main_arg11) :=
  (W11_arg11 m ρ c).trans (L10_arg11 m ρ c)

theorem L1_arg13 : W1 m ρ c (Proc.devRef .tc main_arg13) = W0 m ρ c (Proc.devRef .tc main_arg13) :=
  W1_arg13 m ρ c
theorem L2_arg13 : W2 m ρ c (Proc.devRef .tc main_arg13) = W0 m ρ c (Proc.devRef .tc main_arg13) :=
  (W2_arg13 m ρ c).trans (L1_arg13 m ρ c)
theorem L5_arg13 : W5 m ρ c (Proc.devRef .tc main_arg13) = W0 m ρ c (Proc.devRef .tc main_arg13) :=
  (W5_arg13 m ρ c).trans (L2_arg13 m ρ c)
theorem L6_arg13 : W6 m ρ c (Proc.devRef .tc main_arg13) = W0 m ρ c (Proc.devRef .tc main_arg13) :=
  (W6_arg13 m ρ c).trans (L5_arg13 m ρ c)
theorem L7_arg13 : W7 m ρ c (Proc.devRef .tc main_arg13) = W0 m ρ c (Proc.devRef .tc main_arg13) :=
  (W7_arg13 m ρ c).trans (L6_arg13 m ρ c)
theorem L8_arg13 : W8 m ρ c (Proc.devRef .tc main_arg13) = W0 m ρ c (Proc.devRef .tc main_arg13) :=
  (W8_arg13 m ρ c).trans (L7_arg13 m ρ c)
theorem L9_arg13 : W9 m ρ c (Proc.devRef .tc main_arg13) = W0 m ρ c (Proc.devRef .tc main_arg13) :=
  (W9_arg13 m ρ c).trans (L8_arg13 m ρ c)
theorem L10_arg13 : W10 m ρ c (Proc.devRef .tc main_arg13) = W0 m ρ c (Proc.devRef .tc main_arg13) :=
  (W10_arg13 m ρ c).trans (L9_arg13 m ρ c)
theorem L11_arg13 : W11 m ρ c (Proc.devRef .tc main_arg13) = W0 m ρ c (Proc.devRef .tc main_arg13) :=
  (W11_arg13 m ρ c).trans (L10_arg13 m ρ c)

theorem L1_arg12 : W1 m ρ c (Proc.devRef .tc main_arg12) = W0 m ρ c (Proc.devRef .tc main_arg12) :=
  W1_arg12 m ρ c
theorem L2_arg12 : W2 m ρ c (Proc.devRef .tc main_arg12) = W0 m ρ c (Proc.devRef .tc main_arg12) :=
  (W2_arg12 m ρ c).trans (L1_arg12 m ρ c)
theorem L5_arg12 : W5 m ρ c (Proc.devRef .tc main_arg12) = W0 m ρ c (Proc.devRef .tc main_arg12) :=
  (W5_arg12 m ρ c).trans (L2_arg12 m ρ c)
theorem L6_arg12 : W6 m ρ c (Proc.devRef .tc main_arg12) = W0 m ρ c (Proc.devRef .tc main_arg12) :=
  (W6_arg12 m ρ c).trans (L5_arg12 m ρ c)
theorem L7_arg12 : W7 m ρ c (Proc.devRef .tc main_arg12) = W0 m ρ c (Proc.devRef .tc main_arg12) :=
  (W7_arg12 m ρ c).trans (L6_arg12 m ρ c)
theorem L8_arg12 : W8 m ρ c (Proc.devRef .tc main_arg12) = W0 m ρ c (Proc.devRef .tc main_arg12) :=
  (W8_arg12 m ρ c).trans (L7_arg12 m ρ c)
theorem L9_arg12 : W9 m ρ c (Proc.devRef .tc main_arg12) = W0 m ρ c (Proc.devRef .tc main_arg12) :=
  (W9_arg12 m ρ c).trans (L8_arg12 m ρ c)
theorem L10_arg12 : W10 m ρ c (Proc.devRef .tc main_arg12) = W0 m ρ c (Proc.devRef .tc main_arg12) :=
  (W10_arg12 m ρ c).trans (L9_arg12 m ρ c)

theorem L1_arg14 : W1 m ρ c (Proc.devRef .tc main_arg14) = W0 m ρ c (Proc.devRef .tc main_arg14) :=
  W1_arg14 m ρ c
theorem L2_arg14 : W2 m ρ c (Proc.devRef .tc main_arg14) = W0 m ρ c (Proc.devRef .tc main_arg14) :=
  (W2_arg14 m ρ c).trans (L1_arg14 m ρ c)
theorem L5_arg14 : W5 m ρ c (Proc.devRef .tc main_arg14) = W0 m ρ c (Proc.devRef .tc main_arg14) :=
  (W5_arg14 m ρ c).trans (L2_arg14 m ρ c)
theorem L6_arg14 : W6 m ρ c (Proc.devRef .tc main_arg14) = W0 m ρ c (Proc.devRef .tc main_arg14) :=
  (W6_arg14 m ρ c).trans (L5_arg14 m ρ c)
theorem L7_arg14 : W7 m ρ c (Proc.devRef .tc main_arg14) = W0 m ρ c (Proc.devRef .tc main_arg14) :=
  (W7_arg14 m ρ c).trans (L6_arg14 m ρ c)
theorem L8_arg14 : W8 m ρ c (Proc.devRef .tc main_arg14) = W0 m ρ c (Proc.devRef .tc main_arg14) :=
  (W8_arg14 m ρ c).trans (L7_arg14 m ρ c)
theorem L9_arg14 : W9 m ρ c (Proc.devRef .tc main_arg14) = W0 m ρ c (Proc.devRef .tc main_arg14) :=
  (W9_arg14 m ρ c).trans (L8_arg14 m ρ c)
theorem L10_arg14 : W10 m ρ c (Proc.devRef .tc main_arg14) = W0 m ρ c (Proc.devRef .tc main_arg14) :=
  (W10_arg14 m ρ c).trans (L9_arg14 m ρ c)

theorem L1_arg15 : W1 m ρ c (Proc.devRef .tc main_arg15) = W0 m ρ c (Proc.devRef .tc main_arg15) :=
  W1_arg15 m ρ c
theorem L2_arg15 : W2 m ρ c (Proc.devRef .tc main_arg15) = W0 m ρ c (Proc.devRef .tc main_arg15) :=
  (W2_arg15 m ρ c).trans (L1_arg15 m ρ c)
theorem L5_arg15 : W5 m ρ c (Proc.devRef .tc main_arg15) = W0 m ρ c (Proc.devRef .tc main_arg15) :=
  (W5_arg15 m ρ c).trans (L2_arg15 m ρ c)
theorem L6_arg15 : W6 m ρ c (Proc.devRef .tc main_arg15) = W0 m ρ c (Proc.devRef .tc main_arg15) :=
  (W6_arg15 m ρ c).trans (L5_arg15 m ρ c)

theorem L1_arg16 : W1 m ρ c (Proc.devRef .tc main_arg16) = W0 m ρ c (Proc.devRef .tc main_arg16) :=
  W1_arg16 m ρ c
theorem L2_arg16 : W2 m ρ c (Proc.devRef .tc main_arg16) = W0 m ρ c (Proc.devRef .tc main_arg16) :=
  (W2_arg16 m ρ c).trans (L1_arg16 m ρ c)
theorem L5_arg16 : W5 m ρ c (Proc.devRef .tc main_arg16) = W0 m ρ c (Proc.devRef .tc main_arg16) :=
  (W5_arg16 m ρ c).trans (L2_arg16 m ρ c)
theorem L6_arg16 : W6 m ρ c (Proc.devRef .tc main_arg16) = W0 m ρ c (Proc.devRef .tc main_arg16) :=
  (W6_arg16 m ρ c).trans (L5_arg16 m ρ c)

theorem L1_arg17 : W1 m ρ c (Proc.devRef .tc main_arg17) = W0 m ρ c (Proc.devRef .tc main_arg17) :=
  W1_arg17 m ρ c
theorem L2_arg17 : W2 m ρ c (Proc.devRef .tc main_arg17) = W0 m ρ c (Proc.devRef .tc main_arg17) :=
  (W2_arg17 m ρ c).trans (L1_arg17 m ρ c)
theorem L5_arg17 : W5 m ρ c (Proc.devRef .tc main_arg17) = W0 m ρ c (Proc.devRef .tc main_arg17) :=
  (W5_arg17 m ρ c).trans (L2_arg17 m ρ c)
theorem L6_arg17 : W6 m ρ c (Proc.devRef .tc main_arg17) = W0 m ρ c (Proc.devRef .tc main_arg17) :=
  (W6_arg17 m ρ c).trans (L5_arg17 m ρ c)
theorem L7_arg17 : W7 m ρ c (Proc.devRef .tc main_arg17) = W0 m ρ c (Proc.devRef .tc main_arg17) :=
  (W7_arg17 m ρ c).trans (L6_arg17 m ρ c)
theorem L8_arg17 : W8 m ρ c (Proc.devRef .tc main_arg17) = W0 m ρ c (Proc.devRef .tc main_arg17) :=
  (W8_arg17 m ρ c).trans (L7_arg17 m ρ c)
theorem L9_arg17 : W9 m ρ c (Proc.devRef .tc main_arg17) = W0 m ρ c (Proc.devRef .tc main_arg17) :=
  (W9_arg17 m ρ c).trans (L8_arg17 m ρ c)
theorem L10_arg17 : W10 m ρ c (Proc.devRef .tc main_arg17) = W0 m ρ c (Proc.devRef .tc main_arg17) :=
  (W10_arg17 m ρ c).trans (L9_arg17 m ρ c)
theorem L11_arg17 : W11 m ρ c (Proc.devRef .tc main_arg17) = W0 m ρ c (Proc.devRef .tc main_arg17) :=
  (W11_arg17 m ρ c).trans (L10_arg17 m ρ c)
theorem L12_arg17 : W12 m ρ c (Proc.devRef .tc main_arg17) = W0 m ρ c (Proc.devRef .tc main_arg17) :=
  (W12_arg17 m ρ c).trans (L11_arg17 m ρ c)

theorem L1_arg18 : W1 m ρ c (Proc.devRef .tc main_arg18) = W0 m ρ c (Proc.devRef .tc main_arg18) :=
  W1_arg18 m ρ c
theorem L2_arg18 : W2 m ρ c (Proc.devRef .tc main_arg18) = W0 m ρ c (Proc.devRef .tc main_arg18) :=
  (W2_arg18 m ρ c).trans (L1_arg18 m ρ c)
theorem L5_arg18 : W5 m ρ c (Proc.devRef .tc main_arg18) = W0 m ρ c (Proc.devRef .tc main_arg18) :=
  (W5_arg18 m ρ c).trans (L2_arg18 m ρ c)
theorem L6_arg18 : W6 m ρ c (Proc.devRef .tc main_arg18) = W0 m ρ c (Proc.devRef .tc main_arg18) :=
  (W6_arg18 m ρ c).trans (L5_arg18 m ρ c)
theorem L7_arg18 : W7 m ρ c (Proc.devRef .tc main_arg18) = W0 m ρ c (Proc.devRef .tc main_arg18) :=
  (W7_arg18 m ρ c).trans (L6_arg18 m ρ c)
theorem L8_arg18 : W8 m ρ c (Proc.devRef .tc main_arg18) = W0 m ρ c (Proc.devRef .tc main_arg18) :=
  (W8_arg18 m ρ c).trans (L7_arg18 m ρ c)
theorem L9_arg18 : W9 m ρ c (Proc.devRef .tc main_arg18) = W0 m ρ c (Proc.devRef .tc main_arg18) :=
  (W9_arg18 m ρ c).trans (L8_arg18 m ρ c)
theorem L10_arg18 : W10 m ρ c (Proc.devRef .tc main_arg18) = W0 m ρ c (Proc.devRef .tc main_arg18) :=
  (W10_arg18 m ρ c).trans (L9_arg18 m ρ c)
theorem L11_arg18 : W11 m ρ c (Proc.devRef .tc main_arg18) = W0 m ρ c (Proc.devRef .tc main_arg18) :=
  (W11_arg18 m ρ c).trans (L10_arg18 m ρ c)
theorem L12_arg18 : W12 m ρ c (Proc.devRef .tc main_arg18) = W0 m ρ c (Proc.devRef .tc main_arg18) :=
  (W12_arg18 m ρ c).trans (L11_arg18 m ρ c)

theorem L1_arg20 : W1 m ρ c (Proc.devRef .tc main_arg20) = W0 m ρ c (Proc.devRef .tc main_arg20) :=
  W1_arg20 m ρ c
theorem L2_arg20 : W2 m ρ c (Proc.devRef .tc main_arg20) = W0 m ρ c (Proc.devRef .tc main_arg20) :=
  (W2_arg20 m ρ c).trans (L1_arg20 m ρ c)
theorem L5_arg20 : W5 m ρ c (Proc.devRef .tc main_arg20) = W0 m ρ c (Proc.devRef .tc main_arg20) :=
  (W5_arg20 m ρ c).trans (L2_arg20 m ρ c)
theorem L6_arg20 : W6 m ρ c (Proc.devRef .tc main_arg20) = W0 m ρ c (Proc.devRef .tc main_arg20) :=
  (W6_arg20 m ρ c).trans (L5_arg20 m ρ c)
theorem L7_arg20 : W7 m ρ c (Proc.devRef .tc main_arg20) = W0 m ρ c (Proc.devRef .tc main_arg20) :=
  (W7_arg20 m ρ c).trans (L6_arg20 m ρ c)
theorem L8_arg20 : W8 m ρ c (Proc.devRef .tc main_arg20) = W0 m ρ c (Proc.devRef .tc main_arg20) :=
  (W8_arg20 m ρ c).trans (L7_arg20 m ρ c)
theorem L9_arg20 : W9 m ρ c (Proc.devRef .tc main_arg20) = W0 m ρ c (Proc.devRef .tc main_arg20) :=
  (W9_arg20 m ρ c).trans (L8_arg20 m ρ c)
theorem L10_arg20 : W10 m ρ c (Proc.devRef .tc main_arg20) = W0 m ρ c (Proc.devRef .tc main_arg20) :=
  (W10_arg20 m ρ c).trans (L9_arg20 m ρ c)
theorem L11_arg20 : W11 m ρ c (Proc.devRef .tc main_arg20) = W0 m ρ c (Proc.devRef .tc main_arg20) :=
  (W11_arg20 m ρ c).trans (L10_arg20 m ρ c)
theorem L12_arg20 : W12 m ρ c (Proc.devRef .tc main_arg20) = W0 m ρ c (Proc.devRef .tc main_arg20) :=
  (W12_arg20 m ρ c).trans (L11_arg20 m ρ c)

theorem L1_arg21 : W1 m ρ c (Proc.devRef .tc main_arg21) = W0 m ρ c (Proc.devRef .tc main_arg21) :=
  W1_arg21 m ρ c
theorem L2_arg21 : W2 m ρ c (Proc.devRef .tc main_arg21) = W0 m ρ c (Proc.devRef .tc main_arg21) :=
  (W2_arg21 m ρ c).trans (L1_arg21 m ρ c)
theorem L5_arg21 : W5 m ρ c (Proc.devRef .tc main_arg21) = W0 m ρ c (Proc.devRef .tc main_arg21) :=
  (W5_arg21 m ρ c).trans (L2_arg21 m ρ c)
theorem L6_arg21 : W6 m ρ c (Proc.devRef .tc main_arg21) = W0 m ρ c (Proc.devRef .tc main_arg21) :=
  (W6_arg21 m ρ c).trans (L5_arg21 m ρ c)
theorem L7_arg21 : W7 m ρ c (Proc.devRef .tc main_arg21) = W0 m ρ c (Proc.devRef .tc main_arg21) :=
  (W7_arg21 m ρ c).trans (L6_arg21 m ρ c)
theorem L8_arg21 : W8 m ρ c (Proc.devRef .tc main_arg21) = W0 m ρ c (Proc.devRef .tc main_arg21) :=
  (W8_arg21 m ρ c).trans (L7_arg21 m ρ c)
theorem L9_arg21 : W9 m ρ c (Proc.devRef .tc main_arg21) = W0 m ρ c (Proc.devRef .tc main_arg21) :=
  (W9_arg21 m ρ c).trans (L8_arg21 m ρ c)
theorem L10_arg21 : W10 m ρ c (Proc.devRef .tc main_arg21) = W0 m ρ c (Proc.devRef .tc main_arg21) :=
  (W10_arg21 m ρ c).trans (L9_arg21 m ρ c)
theorem L11_arg21 : W11 m ρ c (Proc.devRef .tc main_arg21) = W0 m ρ c (Proc.devRef .tc main_arg21) :=
  (W11_arg21 m ρ c).trans (L10_arg21 m ρ c)
theorem L12_arg21 : W12 m ρ c (Proc.devRef .tc main_arg21) = W0 m ρ c (Proc.devRef .tc main_arg21) :=
  (W12_arg21 m ρ c).trans (L11_arg21 m ρ c)

theorem L1_arg22 : W1 m ρ c (Proc.devRef .tc main_arg22) = W0 m ρ c (Proc.devRef .tc main_arg22) :=
  W1_arg22 m ρ c
theorem L2_arg22 : W2 m ρ c (Proc.devRef .tc main_arg22) = W0 m ρ c (Proc.devRef .tc main_arg22) :=
  (W2_arg22 m ρ c).trans (L1_arg22 m ρ c)
theorem L5_arg22 : W5 m ρ c (Proc.devRef .tc main_arg22) = W0 m ρ c (Proc.devRef .tc main_arg22) :=
  (W5_arg22 m ρ c).trans (L2_arg22 m ρ c)
theorem L6_arg22 : W6 m ρ c (Proc.devRef .tc main_arg22) = W0 m ρ c (Proc.devRef .tc main_arg22) :=
  (W6_arg22 m ρ c).trans (L5_arg22 m ρ c)
theorem L7_arg22 : W7 m ρ c (Proc.devRef .tc main_arg22) = W0 m ρ c (Proc.devRef .tc main_arg22) :=
  (W7_arg22 m ρ c).trans (L6_arg22 m ρ c)
theorem L8_arg22 : W8 m ρ c (Proc.devRef .tc main_arg22) = W0 m ρ c (Proc.devRef .tc main_arg22) :=
  (W8_arg22 m ρ c).trans (L7_arg22 m ρ c)
theorem L9_arg22 : W9 m ρ c (Proc.devRef .tc main_arg22) = W0 m ρ c (Proc.devRef .tc main_arg22) :=
  (W9_arg22 m ρ c).trans (L8_arg22 m ρ c)
theorem L10_arg22 : W10 m ρ c (Proc.devRef .tc main_arg22) = W0 m ρ c (Proc.devRef .tc main_arg22) :=
  (W10_arg22 m ρ c).trans (L9_arg22 m ρ c)
theorem L11_arg22 : W11 m ρ c (Proc.devRef .tc main_arg22) = W0 m ρ c (Proc.devRef .tc main_arg22) :=
  (W11_arg22 m ρ c).trans (L10_arg22 m ρ c)
theorem L12_arg22 : W12 m ρ c (Proc.devRef .tc main_arg22) = W0 m ρ c (Proc.devRef .tc main_arg22) :=
  (W12_arg22 m ρ c).trans (L11_arg22 m ρ c)

theorem L1_arg19 : W1 m ρ c (Proc.devRef .tc main_arg19) = W0 m ρ c (Proc.devRef .tc main_arg19) :=
  W1_arg19 m ρ c
theorem L2_arg19 : W2 m ρ c (Proc.devRef .tc main_arg19) = W0 m ρ c (Proc.devRef .tc main_arg19) :=
  (W2_arg19 m ρ c).trans (L1_arg19 m ρ c)
theorem L5_arg19 : W5 m ρ c (Proc.devRef .tc main_arg19) = W0 m ρ c (Proc.devRef .tc main_arg19) :=
  (W5_arg19 m ρ c).trans (L2_arg19 m ρ c)
theorem L6_arg19 : W6 m ρ c (Proc.devRef .tc main_arg19) = W0 m ρ c (Proc.devRef .tc main_arg19) :=
  (W6_arg19 m ρ c).trans (L5_arg19 m ρ c)
theorem L7_arg19 : W7 m ρ c (Proc.devRef .tc main_arg19) = W0 m ρ c (Proc.devRef .tc main_arg19) :=
  (W7_arg19 m ρ c).trans (L6_arg19 m ρ c)
theorem L8_arg19 : W8 m ρ c (Proc.devRef .tc main_arg19) = W0 m ρ c (Proc.devRef .tc main_arg19) :=
  (W8_arg19 m ρ c).trans (L7_arg19 m ρ c)
theorem L9_arg19 : W9 m ρ c (Proc.devRef .tc main_arg19) = W0 m ρ c (Proc.devRef .tc main_arg19) :=
  (W9_arg19 m ρ c).trans (L8_arg19 m ρ c)
theorem L10_arg19 : W10 m ρ c (Proc.devRef .tc main_arg19) = W0 m ρ c (Proc.devRef .tc main_arg19) :=
  (W10_arg19 m ρ c).trans (L9_arg19 m ρ c)
theorem L11_arg19 : W11 m ρ c (Proc.devRef .tc main_arg19) = W0 m ρ c (Proc.devRef .tc main_arg19) :=
  (W11_arg19 m ρ c).trans (L10_arg19 m ρ c)
theorem L12_arg19 : W12 m ρ c (Proc.devRef .tc main_arg19) = W0 m ρ c (Proc.devRef .tc main_arg19) :=
  (W12_arg19 m ρ c).trans (L11_arg19 m ρ c)
theorem L13_arg19 : W13 m ρ c (Proc.devRef .tc main_arg19) = W0 m ρ c (Proc.devRef .tc main_arg19) :=
  (W13_arg19 m ρ c).trans (L12_arg19 m ρ c)

theorem L1_arg2 : W1 m ρ c (Proc.devRef .tc main_arg2) = W0 m ρ c (Proc.devRef .tc main_arg2) :=
  W1_arg2 m ρ c

theorem S1_v1 : W1 m ρ c (Proc.devRef .tc main_v1) = src (W0 m ρ c) :=
  W1_v1 m ρ c
theorem S2_v1 : W2 m ρ c (Proc.devRef .tc main_v1) = src (W0 m ρ c) :=
  (W2_v1 m ρ c).trans (S1_v1 m ρ c)
theorem S5_v1 : W5 m ρ c (Proc.devRef .tc main_v1) = src (W0 m ρ c) :=
  (W5_v1 m ρ c).trans (S2_v1 m ρ c)
theorem S6_v1 : W6 m ρ c (Proc.devRef .tc main_v1) = src (W0 m ρ c) :=
  (W6_v1 m ρ c).trans (S5_v1 m ρ c)
theorem S7_v1 : W7 m ρ c (Proc.devRef .tc main_v1) = src (W0 m ρ c) :=
  (W7_v1 m ρ c).trans (S6_v1 m ρ c)
theorem S8_v1 : W8 m ρ c (Proc.devRef .tc main_v1) = src (W0 m ρ c) :=
  (W8_v1 m ρ c).trans (S7_v1 m ρ c)

theorem S1_v3 : W1 m ρ c (Proc.devRef .tc main_v3) = dst (W0 m ρ c) :=
  W1_v3 m ρ c
theorem S2_v3 : W2 m ρ c (Proc.devRef .tc main_v3) = dst (W0 m ρ c) :=
  (W2_v3 m ρ c).trans (S1_v3 m ρ c)

theorem S3_v3 : W3 m ρ c (Proc.devRef .tc main_v3) = dst (W0 m ρ c) := (W3_v3 m ρ c).trans (S2_v3 m ρ c)
theorem S4_v3 : W4 m ρ c (Proc.devRef .tc main_v3) = dst (W0 m ρ c) := (W4_v3 m ρ c).trans (S3_v3 m ρ c)
theorem S5_v3 : W5 m ρ c (Proc.devRef .tc main_v3) = dst (W0 m ρ c) := (W5_v3 m ρ c).trans (S2_v3 m ρ c)
theorem S6_v3 : W6 m ρ c (Proc.devRef .tc main_v3) = dst (W0 m ρ c) := (W6_v3 m ρ c).trans (S5_v3 m ρ c)
theorem S7_v3 : W7 m ρ c (Proc.devRef .tc main_v3) = dst (W0 m ρ c) := (W7_v3 m ρ c).trans (S6_v3 m ρ c)
theorem S8_v3 : W8 m ρ c (Proc.devRef .tc main_v3) = dst (W0 m ρ c) := (W8_v3 m ρ c).trans (S7_v3 m ρ c)
theorem S9_v3 : W9 m ρ c (Proc.devRef .tc main_v3) = dst (W0 m ρ c) := (W9_v3 m ρ c).trans (S8_v3 m ρ c)
theorem S10_v3 : W10 m ρ c (Proc.devRef .tc main_v3) = dst (W0 m ρ c) := (W10_v3 m ρ c).trans (S9_v3 m ρ c)

/-! ## The kernels' results, composed -/

/-- The joint edge embedding, as the first kernel leaves it. -/
theorem T2_v7 : W2 m ρ c (Proc.devRef .tc main_v7) = e01 (W0 m ρ c) := by
  refine (W2_arr m ρ c 3).trans ?_
  refine (Cert.KernelIdeal.EdgeValue.final (V1 m ρ) c).trans ?_
  show Cert.Gine.affine (M := 600000) (K := 64) (N := 256) (W1 m ρ c (Proc.devRef .tc main_arg2)) (W1 m ρ c (Proc.devRef .tc main_v4)) (W1 m ρ c (Proc.devRef .tc main_v6)) = _
  rw [L1_arg2, W1_v4, W1_v6]
  rfl

theorem T3_v9 : W3 m ρ c (Proc.devRef .tc main_v9) = e1 (W0 m ρ c) := by
  rw [W3_v9, T2_v7]; rfl
theorem T4_v9 : W4 m ρ c (Proc.devRef .tc main_v9) = e1 (W0 m ρ c) := (W4_v9 m ρ c).trans (T3_v9 m ρ c)
theorem T5_v9 : W5 m ρ c (Proc.devRef .tc main_v9) = e1 (W0 m ρ c) := (W5_v9s m ρ c).trans (T4_v9 m ρ c)
theorem T6_v9 : W6 m ρ c (Proc.devRef .tc main_v9) = e1 (W0 m ρ c) := (W6_v9 m ρ c).trans (T5_v9 m ρ c)
theorem T7_v9 : W7 m ρ c (Proc.devRef .tc main_v9) = e1 (W0 m ρ c) := (W7_v9 m ρ c).trans (T6_v9 m ρ c)
theorem T8_v9 : W8 m ρ c (Proc.devRef .tc main_v9) = e1 (W0 m ρ c) := (W8_v9 m ρ c).trans (T7_v9 m ρ c)

/-- The first round of messages. -/
theorem T5_v21 : W5 m ρ c (Proc.devRef .tc main_v21) = ag0 (W0 m ρ c) := by
  rw [W5_v21s, W4_v18, W3_v17, S4_v3, L2_arg0, S2_v1, T2_v7]
  rfl

theorem T5_v22 : W5 m ρ c (Proc.devRef .tc main_v22)
    = (shapeCast S1x256 (W0 m ρ c (Proc.devRef .tc main_arg8)) shapeCasts_S256_S1x256 : (⟨S1x256, .f32⟩ : BufTy).Contents (Elt Ideal)) := by
  rw [W5_v22, L2_arg8]
theorem T5_v23 : W5 m ρ c (Proc.devRef .tc main_v23)
    = (shapeCast S1x128 (W0 m ρ c (Proc.devRef .tc main_arg10)) shapeCasts_S128_S1x128 : (⟨S1x128, .f32⟩ : BufTy).Contents (Elt Ideal)) := by
  rw [W5_v23, L2_arg10]

/-- The first layer before normalisation, and its per-block statistics, as the second kernel leaves them. -/
theorem T6_v24_0 : W6 m ρ c (Proc.devRef .tc main_v24_0) = h0raw (W0 m ρ c) := by
  refine (W6_arr m ρ c 6).trans ?_
  refine (Cert.KernelIdeal.NodeValue1.out_final (V5 m ρ) c).trans ?_
  show Cert.Gine.mlp (M := 50000) (D := 128) (H := 256) (C := 128) (W5 m ρ c (Proc.devRef .tc main_arg0)) (W5 m ρ c (Proc.devRef .tc main_v21)) (W5 m ρ c (Proc.devRef .tc main_arg7)) (W5 m ρ c (Proc.devRef .tc main_v22)) (W5 m ρ c (Proc.devRef .tc main_arg9)) (W5 m ρ c (Proc.devRef .tc main_v23)) = _
  rw [L5_arg0, T5_v21, L5_arg7, T5_v22, L5_arg9, T5_v23]
  rfl

theorem T6_v24_1 : W6 m ρ c (Proc.devRef .tc main_v24_1) = Cert.Gine.blockStats (h0raw (W0 m ρ c)) := by
  refine (W6_arr m ρ c 7).trans ?_
  refine (Cert.KernelIdeal.NodeValue1.stats_final (V5 m ρ) c).trans ?_
  show Cert.Gine.blockStats (Cert.Gine.mlp (M := 50000) (D := 128) (H := 256) (C := 128) (W5 m ρ c (Proc.devRef .tc main_arg0)) (W5 m ρ c (Proc.devRef .tc main_v21)) (W5 m ρ c (Proc.devRef .tc main_arg7)) (W5 m ρ c (Proc.devRef .tc main_v22)) (W5 m ρ c (Proc.devRef .tc main_arg9)) (W5 m ρ c (Proc.devRef .tc main_v23))) = _
  rw [L5_arg0, T5_v21, L5_arg7, T5_v22, L5_arg9, T5_v23]
  rfl

/-- The first layer's output. -/
theorem T8_v54 : W8 m ρ c (Proc.devRef .tc main_v54) = h0 (W0 m ρ c) := by
  rw [W8_v54, W7_v53, T6_v24_0, T6_v24_1, L6_arg15, L6_arg16]
  rfl
theorem T9_v54 : W9 m ρ c (Proc.devRef .tc main_v54) = h0 (W0 m ρ c) := (W9_v54 m ρ c).trans (T8_v54 m ρ c)
theorem T10_v54 : W10 m ρ c (Proc.devRef .tc main_v54) = h0 (W0 m ρ c) := (W10_v54 m ρ c).trans (T9_v54 m ρ c)
theorem T11_v54 : W11 m ρ c (Proc.devRef .tc main_v54) = h0 (W0 m ρ c) := (W11_v54 m ρ c).trans (T10_v54 m ρ c)

/-- The second round of messages. -/
theorem T11_v66 : W11 m ρ c (Proc.devRef .tc main_v66) = ag1 (W0 m ρ c) := by
  rw [W11_v66, W10_v63, W9_v62, S10_v3, T8_v54, S8_v1, T8_v9]
  rfl

theorem T11_v67 : W11 m ρ c (Proc.devRef .tc main_v67)
    = (shapeCast S1x256 (W0 m ρ c (Proc.devRef .tc main_arg12)) shapeCasts_S256_S1x256 : (⟨S1x256, .f32⟩ : BufTy).Contents (Elt Ideal)) := by
  rw [W11_v67, L10_arg12]
theorem T11_v68 : W11 m ρ c (Proc.devRef .tc main_v68)
    = (shapeCast S1x128 (W0 m ρ c (Proc.devRef .tc main_arg14)) shapeCasts_S128_S1x128 : (⟨S1x128, .f32⟩ : BufTy).Contents (Elt Ideal)) := by
  rw [W11_v68, L10_arg14]

/-- The second layer before normalisation, and its per-block statistics, as the third kernel leaves them. -/
theorem T12_v69_0 : W12 m ρ c (Proc.devRef .tc main_v69_0) = h1raw (W0 m ρ c) := by
  refine (W12_arr m ρ c 6).trans ?_
  refine (Cert.KernelIdeal.NodeValue2.out_final (V11 m ρ) c).trans ?_
  show Cert.Gine.mlp (M := 50000) (D := 128) (H := 256) (C := 128) (W11 m ρ c (Proc.devRef .tc main_v54)) (W11 m ρ c (Proc.devRef .tc main_v66)) (W11 m ρ c (Proc.devRef .tc main_arg11)) (W11 m ρ c (Proc.devRef .tc main_v67)) (W11 m ρ c (Proc.devRef .tc main_arg13)) (W11 m ρ c (Proc.devRef .tc main_v68)) = _
  rw [T11_v54, T11_v66, L11_arg11, T11_v67, L11_arg13, T11_v68]
  rfl

theorem T12_v69_1 : W12 m ρ c (Proc.devRef .tc main_v69_1) = Cert.Gine.blockStats (h1raw (W0 m ρ c)) := by
  refine (W12_arr m ρ c 7).trans ?_
  refine (Cert.KernelIdeal.NodeValue2.stats_final (V11 m ρ) c).trans ?_
  show Cert.Gine.blockStats (Cert.Gine.mlp (M := 50000) (D := 128) (H := 256) (C := 128) (W11 m ρ c (Proc.devRef .tc main_v54)) (W11 m ρ c (Proc.devRef .tc main_v66)) (W11 m ρ c (Proc.devRef .tc main_arg11)) (W11 m ρ c (Proc.devRef .tc main_v67)) (W11 m ρ c (Proc.devRef .tc main_arg13)) (W11 m ρ c (Proc.devRef .tc main_v68))) = _
  rw [T11_v54, T11_v66, L11_arg11, T11_v67, L11_arg13, T11_v68]
  rfl

/-- THE RESULT: what the last kernel leaves in the result array is the readout of the launch contents. -/
theorem value : W14 m ρ c (Proc.devRef .tc main_v94) = out (W0 m ρ c) := by
  refine (Cert.KernelIdeal.RunValue.result_eq m ρ c).trans ?_
  refine (Cert.KernelIdeal.ReadoutValue.final (V13 m ρ) c).trans ?_
  show Cert.Gine.readout (M := 50000) (D := 128) (H := 512) (W13 m ρ c (Proc.devRef .tc main_v69_0)) (W13 m ρ c (Proc.devRef .tc main_v87)) (W13 m ρ c (Proc.devRef .tc main_v88)) (W13 m ρ c (Proc.devRef .tc main_v89)) (W13 m ρ c (Proc.devRef .tc main_v90)) (W13 m ρ c (Proc.devRef .tc main_arg19)) (W13 m ρ c (Proc.devRef .tc main_v91)) (W13 m ρ c (Proc.devRef .tc main_v92)) (W13 m ρ c (Proc.devRef .tc main_v93)) = _
  rw [W13_v69_0, T12_v69_0, W13_v87, W13_v88, T12_v69_1, W13_v89, L12_arg17, W13_v90, L12_arg18, L13_arg19, W13_v91, L12_arg20, W13_v92, L12_arg21, W13_v93, L12_arg22]
  rfl

end Cert.KernelIdeal.Glue

end
-- ==== Proof.LibRowVector.lean ====
/-
  A vector laid along every row of a matrix, and a scalar repeated over an array, read at an entry, at any
  sizes.

  The array [M, N] whose entry (p, q) is v q has two spellings: the vector cast to the one-row matrix [1, N]
  and that row repeated M times, and the vector broadcast along its own axis to [1, N] and then along both
  axes to [M, N]. Either way the entry (p, q) is v q. A rank-0 array broadcast to any shape reads its one
  value everywhere.
-/
import Idealize.ShloMosaic.Lib.Pipeline.Value
import Idealize.ShloMosaic.Lib.ValueIdx
import Idealize.ShloMosaic.Lib.ValueLayout

noncomputable section

namespace Cert.LibRowVector

open Idealize.ShloMosaic Idealize.ShloMosaic.ValueIdx

variable {α : Type} {M N : ℕ}

/-- The vector cast to one row and the row repeated: entry (p, q) is v q. -/
theorem castRow_apply (v : (⟨1, ![N]⟩ : Shape).Idx → α) (h1 : (⟨1, ![N]⟩ : Shape).ShapeCasts ⟨2, ![1, N]⟩)
    (h2 : (⟨2, ![1, N]⟩ : Shape).Broadcasts ⟨2, ![M, N]⟩) (p : Fin M) (q : Fin N) :
    broadcastTo ⟨2, ![M, N]⟩ (shapeCast ⟨2, ![1, N]⟩ v h1) h2 (ix2 p q) = v (ix1 q) := by
  rw [broadcastTo_1b_ab_apply, shapeCast_a_1a_apply]

/-- The vector broadcast along its own axis to one row: entry (0, q) is v q. -/
theorem inDimOneRow_apply (v : (⟨1, ![N]⟩ : Shape).Idx → α)
    (h1 : (⟨1, ![N]⟩ : Shape).BroadcastsInDim ⟨2, ![1, N]⟩ ![1]) (u : Fin 1) (q : Fin N) :
    broadcastInDim ⟨2, ![1, N]⟩ ![1] h1 v (ix2 u q) = v (ix1 q) :=
  broadcastInDim_apply ![1] h1 v (ix2 u q) (ix1 q) (fun a => by
    match a with
    | ⟨0, _⟩ =>
      show q.val = if N = 1 then 0 else q.val
      split
      · have := q.isLt; omega
      · rfl)

/-- One row broadcast along both axes to M rows: entry (p, q) is the row's entry q. -/
theorem inDimRows_apply (w : (⟨2, ![1, N]⟩ : Shape).Idx → α)
    (h2 : (⟨2, ![1, N]⟩ : Shape).BroadcastsInDim ⟨2, ![M, N]⟩ ![0, 1]) (p : Fin M) (q : Fin N) :
    broadcastInDim ⟨2, ![M, N]⟩ ![0, 1] h2 w (ix2 p q) = w (ix2 (0 : Fin 1) q) :=
  broadcastInDim_apply ![0, 1] h2 w (ix2 p q) (ix2 (0 : Fin 1) q) (fun a => by
    match a with
    | ⟨0, _⟩ => show 0 = if (1 : ℕ) = 1 then 0 else p.val; rw [if_pos rfl]
    | ⟨1, _⟩ =>
      show q.val = if N = 1 then 0 else q.val
      split
      · have := q.isLt; omega
      · rfl)

/-- The vector broadcast to one row and the row to M rows: entry (p, q) is v q. -/
theorem inDimRow_apply (v : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 v) (ix2 p q) = v (ix1 q) := by
  rw [inDimRows_apply, inDimOneRow_apply]

/-- A rank-0 array broadcast to any shape reads its one value at every index. -/
theorem inDimScalar_apply {s : Shape} (x : (⟨0, ![]⟩ : Shape).Idx → α) (h : (⟨0, ![]⟩ : Shape).BroadcastsInDim s ![])
    (i : s.Idx) : broadcastInDim s ![] h x i = x ix0 :=
  broadcastInDim_apply ![] h x i ix0 (fun a => a.elim0)

end Cert.LibRowVector

end
-- ==== Proof.RefStages.lean ====
/-
  The reference program's stages as the specification's matrix functions.

  Each dense layer of the reference is a matrix product plus a bias vector spread over the rows, so it is x · W + b
  entry by entry; each rectifier is the entrywise maximum with zero; each column statistic is a plain sum over the
  50000 rows divided by 50000; each normalisation subtracts the mean row, multiplies by the inverse deviation row and
  the scale row, and adds the shift row.  The lemmas below state this once for arbitrary operand arrays and then
  read every stage of the reference through them.
-/
import proofs.«131147_j56908316672645_2_alg».proof.Proof.Gen.ReferenceIdeal.Read
import proofs.«131147_j56908316672645_2_alg».proof.Proof.Spec
import proofs.«131147_j56908316672645_2_alg».proof.Proof.LibProduct
import proofs.«131147_j56908316672645_2_alg».proof.Proof.LibRowVector

noncomputable section

namespace Cert.ReferenceIdeal.Stages

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- A dense layer: the product of an M by K matrix with a K by N matrix, plus a bias vector spread along the rows,
    is x · W + b entry by entry. -/
theorem dense {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (hb1 : (⟨1, ![N]⟩ : Shape).BroadcastsInDim ⟨2, ![1, N]⟩ ![1])
    (hb2 : (⟨2, ![1, N]⟩ : Shape).BroadcastsInDim ⟨2, ![M, N]⟩ ![0, 1])
    (l : FVec Ideal ⟨2, ![M, K]⟩ .f32) (W : FVec Ideal ⟨2, ![K, N]⟩ .f32) (b : FVec Ideal ⟨1, ![N]⟩ .f32) :
    addf (Host.dotGeneral d none l W) (broadcastInDim ⟨2, ![M, N]⟩ ![0, 1] hb2 (broadcastInDim ⟨2, ![1, N]⟩ ![1] hb1 b))
      = Cert.Gine.affine l W (Cert.Gine.row b) := by
  funext i
  obtain ⟨p, q, rfl⟩ : ∃ (p : Fin M) (q : Fin N), i = ix2 p q := ⟨i 0, i 1, eq_ix2 i⟩
  rw [addf_apply, Cert.LibProduct.dotGeneral_apply d h1 h2 h3 h4 h5 h6, Cert.LibRowVector.inDimRow_apply]
  rfl

/-- The edge embedding of layer 0. -/
theorem embed0 (x2 : (⟨S600000x64, .f32⟩ : BufTy).Contents (Elt Ideal)) (x3 : (⟨S64x128, .f32⟩ : BufTy).Contents (Elt Ideal))
    (x4 : (⟨S128, .f32⟩ : BufTy).Contents (Elt Ideal)) :
    val_main_v7 (F := Ideal) x2 x3 x4 = Cert.Gine.affine x2 x3 (Cert.Gine.row x4) :=
  dense dot_S600000x64_S64x128_S600000x128_1_0_0_1_n_n rfl rfl rfl rfl rfl rfl bcast_S128_S1x128_1
    bcast_S1x128_S600000x128_0_1 x2 x3 x4

/-- The rectifier: the entrywise maximum with the zero array. -/
theorem rect {M N : ℕ} (hz : (⟨0, ![]⟩ : Shape).BroadcastsInDim ⟨2, ![M, N]⟩ ![]) (x : FVec Ideal ⟨2, ![M, N]⟩ .f32) :
    maximumf x (broadcastInDim ⟨2, ![M, N]⟩ ![] hz (constant (F := Ideal) ⟨0, ![]⟩ .f32 0x00000000#32)) = Cert.Gine.relu x := by
  funext i
  rw [maximumf_apply, Cert.LibRowVector.inDimScalar_apply, constant_apply, Ideal.ofBits_zero_f32]
  rfl

/-- The inner network of a convolution: two dense layers with a rectifier between them, over the sum of the node
    features and the aggregated messages. -/
theorem inner {M D H C : ℕ} (d1 : DotDims ⟨2, ![M, D]⟩ ⟨2, ![D, H]⟩ ⟨2, ![M, H]⟩)
    (h1 : d1.lhsContracting = [1]) (h2 : d1.rhsContracting = [0]) (h3 : d1.lhsNonContracting = [0])
    (h4 : d1.rhsNonContracting = [1]) (h5 : d1.lhsBatch = []) (h6 : d1.rhsBatch = [])
    (d2 : DotDims ⟨2, ![M, H]⟩ ⟨2, ![H, C]⟩ ⟨2, ![M, C]⟩)
    (k1 : d2.lhsContracting = [1]) (k2 : d2.rhsContracting = [0]) (k3 : d2.lhsNonContracting = [0])
    (k4 : d2.rhsNonContracting = [1]) (k5 : d2.lhsBatch = []) (k6 : d2.rhsBatch = [])
    (hb1 : (⟨1, ![H]⟩ : Shape).BroadcastsInDim ⟨2, ![1, H]⟩ ![1])
    (hb2 : (⟨2, ![1, H]⟩ : Shape).BroadcastsInDim ⟨2, ![M, H]⟩ ![0, 1])
    (hz : (⟨0, ![]⟩ : Shape).BroadcastsInDim ⟨2, ![M, H]⟩ ![])
    (hc1 : (⟨1, ![C]⟩ : Shape).BroadcastsInDim ⟨2, ![1, C]⟩ ![1])
    (hc2 : (⟨2, ![1, C]⟩ : Shape).BroadcastsInDim ⟨2, ![M, C]⟩ ![0, 1])
    (h a : FVec Ideal ⟨2, ![M, D]⟩ .f32) (W1 : FVec Ideal ⟨2, ![D, H]⟩ .f32) (b1 : FVec Ideal ⟨1, ![H]⟩ .f32)
    (W2 : FVec Ideal ⟨2, ![H, C]⟩ .f32) (b2 : FVec Ideal ⟨1, ![C]⟩ .f32) :
    addf (Host.dotGeneral d2 none
        (maximumf (addf (Host.dotGeneral d1 none (addf h a) W1)
            (broadcastInDim ⟨2, ![M, H]⟩ ![0, 1] hb2 (broadcastInDim ⟨2, ![1, H]⟩ ![1] hb1 b1)))
          (broadcastInDim ⟨2, ![M, H]⟩ ![] hz (constant (F := Ideal) ⟨0, ![]⟩ .f32 0x00000000#32))) W2)
      (broadcastInDim ⟨2, ![M, C]⟩ ![0, 1] hc2 (broadcastInDim ⟨2, ![1, C]⟩ ![1] hc1 b2))
      = Cert.Gine.mlp h a W1 (Cert.Gine.row b1) W2 (Cert.Gine.row b2) := by
  rw [dense d1 h1 h2 h3 h4 h5 h6 hb1 hb2, rect hz, dense d2 k1 k2 k3 k4 k5 k6 hc1 hc2]
  rfl

variable (x0 : (⟨S50000x128, .f32⟩ : BufTy).Contents (Elt Ideal))
  (x1 : (⟨S2x600000, .i32⟩ : BufTy).Contents (Elt Ideal))
  (x2 : (⟨S600000x64, .f32⟩ : BufTy).Contents (Elt Ideal))
  (x3 : (⟨S64x128, .f32⟩ : BufTy).Contents (Elt Ideal))
  (x4 : (⟨S128, .f32⟩ : BufTy).Contents (Elt Ideal))
  (x5 : (⟨S64x128, .f32⟩ : BufTy).Contents (Elt Ideal))
  (x6 : (⟨S128, .f32⟩ : BufTy).Contents (Elt Ideal))
  (x7 : (⟨S128x256, .f32⟩ : BufTy).Contents (Elt Ideal))
  (x8 : (⟨S256, .f32⟩ : BufTy).Contents (Elt Ideal))
  (x9 : (⟨S256x128, .f32⟩ : BufTy).Contents (Elt Ideal))
  (x10 : (⟨S128, .f32⟩ : BufTy).Contents (Elt Ideal))
  (x11 : (⟨S128x256, .f32⟩ : BufTy).Contents (Elt Ideal))
  (x12 : (⟨S256, .f32⟩ : BufTy).Contents (Elt Ideal))
  (x13 : (⟨S256x128, .f32⟩ : BufTy).Contents (Elt Ideal))
  (x14 : (⟨S128, .f32⟩ : BufTy).Contents (Elt Ideal))
  (x15 : (⟨S128, .f32⟩ : BufTy).Contents (Elt Ideal))
  (x16 : (⟨S128, .f32⟩ : BufTy).Contents (Elt Ideal))
  (x17 : (⟨S128, .f32⟩ : BufTy).Contents (Elt Ideal))
  (x18 : (⟨S128, .f32⟩ : BufTy).Contents (Elt Ideal))
  (x19 : (⟨S128x512, .f32⟩ : BufTy).Contents (Elt Ideal))
  (x20 : (⟨S512, .f32⟩ : BufTy).Contents (Elt Ideal))
  (x21 : (⟨S512x1, .f32⟩ : BufTy).Contents (Elt Ideal))
  (x22 : (⟨S1, .f32⟩ : BufTy).Contents (Elt Ideal))

/-- The edge embedding of layer 1. -/
theorem embed1 : val_main_v59 (F := Ideal) x2 x5 x6 = Cert.Gine.affine x2 x5 (Cert.Gine.row x6) :=
  dense dot_S600000x64_S64x128_S600000x128_1_0_0_1_n_n rfl rfl rfl rfl rfl rfl bcast_S128_S1x128_1
    bcast_S1x128_S600000x128_0_1 x2 x5 x6

/-- The inner network of layer 0 over the node features and the first aggregation. -/
theorem inner0 : val_main_v29 (F := Ideal) x0 x1 x2 x3 x4 x7 x8 x9 x10
    = Cert.Gine.mlp x0 (val_main_v19 (F := Ideal) x0 x1 x2 x3 x4) x7 (Cert.Gine.row x8) x9 (Cert.Gine.row x10) :=
  inner dot_S50000x128_S128x256_S50000x256_1_0_0_1_n_n rfl rfl rfl rfl rfl rfl
    dot_S50000x256_S256x128_S50000x128_1_0_0_1_n_n rfl rfl rfl rfl rfl rfl
    bcast_S256_S1x256_1 bcast_S1x256_S50000x256_0_1 bcast_S_S50000x256 bcast_S128_S1x128_1 bcast_S1x128_S50000x128_0_1
    x0 (val_main_v19 (F := Ideal) x0 x1 x2 x3 x4) x7 x8 x9 x10

/-- The inner network of layer 1 over the normalised layer-0 output and the second aggregation. -/
theorem inner1 : val_main_v81 (F := Ideal) x0 x1 x2 x3 x4 x5 x6 x7 x8 x9 x10 x11 x12 x13 x14 x15 x16
    = Cert.Gine.mlp (val_main_v55 (F := Ideal) x0 x1 x2 x3 x4 x7 x8 x9 x10 x15 x16) (val_main_v71 (F := Ideal) x0 x1 x2 x3 x4 x5 x6 x7 x8 x9 x10 x15 x16)
        x11 (Cert.Gine.row x12) x13 (Cert.Gine.row x14) :=
  inner dot_S50000x128_S128x256_S50000x256_1_0_0_1_n_n rfl rfl rfl rfl rfl rfl
    dot_S50000x256_S256x128_S50000x128_1_0_0_1_n_n rfl rfl rfl rfl rfl rfl
    bcast_S256_S1x256_1 bcast_S1x256_S50000x256_0_1 bcast_S_S50000x256 bcast_S128_S1x128_1 bcast_S1x128_S50000x128_0_1
    (val_main_v55 (F := Ideal) x0 x1 x2 x3 x4 x7 x8 x9 x10 x15 x16) (val_main_v71 (F := Ideal) x0 x1 x2 x3 x4 x5 x6 x7 x8 x9 x10 x15 x16) x11 x12 x13 x14

/-- A column sum: the sum over the 50000 rows started from zero is the plain sum of the column. -/
theorem colSum (y : FVec Ideal S50000x128 .f32) (q : Fin 128) :
    Host.reduceAdd y (constant (F := Ideal) S_ .f32 0x00000000#32) reducesTo_S50000x128_S128_d0 h_S_ (ix1 q)
      = ∑ n : Fin 50000, y (ix2 n q) := by
  simp only [Host.reduceAdd, Ideal.hostReduceAdd_def]
  rw [Ideal.hostReduceAdd_single reducesTo_S50000x128_S128_d0 (by decide), constant_apply, Ideal.ofBits_zero_f32, zero_add]
  refine Finset.sum_congr rfl fun k _ => ?_
  exact congrArg y (funext fun a => Fin.ext (by match a with | ⟨0, _⟩ => rfl | ⟨1, _⟩ => rfl))

/-- A column mean: the column sum divided by a constant spread over the columns. -/
theorem colMean (c : BitVec 32) (y : FVec Ideal S50000x128 .f32) (q : Fin 128) :
    Host.divf (Host.reduceAdd y (constant (F := Ideal) S_ .f32 0x00000000#32) reducesTo_S50000x128_S128_d0 h_S_)
        (broadcastInDim S128 ![] bcast_S_S128 (constant (F := Ideal) S_ .f32 c)) (ix1 q)
      = Ideal.div (∑ n : Fin 50000, y (ix2 n q)) (Ideal.ofBits .f32 c) := by
  show FloatOps.hostDivf (Host.reduceAdd y (constant (F := Ideal) S_ .f32 0x00000000#32) reducesTo_S50000x128_S128_d0 h_S_ (ix1 q))
      (broadcastInDim S128 ![] bcast_S_S128 (constant (F := Ideal) S_ .f32 c) (ix1 q)) = _
  rw [colSum, Cert.LibRowVector.inDimScalar_apply, constant_apply, Ideal.hostDivf_def]

/-- A column variance: the column mean of the squared deviations from a given row of means. -/
theorem colVar (c : BitVec 32) (y : FVec Ideal S50000x128 .f32) (m : FVec Ideal S128 .f32) (q : Fin 128) :
    Host.divf (Host.reduceAdd (mulf (subf y (broadcastInDim S50000x128 ![0, 1] bcast_S1x128_S50000x128_0_1 (broadcastInDim S1x128 ![1] bcast_S128_S1x128_1 m))) (subf y (broadcastInDim S50000x128 ![0, 1] bcast_S1x128_S50000x128_0_1 (broadcastInDim S1x128 ![1] bcast_S128_S1x128_1 m))))
          (constant (F := Ideal) S_ .f32 0x00000000#32) reducesTo_S50000x128_S128_d0 h_S_)
        (broadcastInDim S128 ![] bcast_S_S128 (constant (F := Ideal) S_ .f32 c)) (ix1 q)
      = Ideal.div (∑ n : Fin 50000, (y (ix2 n q) - m (ix1 q)) * (y (ix2 n q) - m (ix1 q))) (Ideal.ofBits .f32 c) := by
  rw [colMean]
  refine congrArg (fun s => Ideal.div s (Ideal.ofBits .f32 c)) (Finset.sum_congr rfl fun n _ => ?_)
  rw [mulf_apply, subf_apply, Cert.LibRowVector.inDimRow_apply]

/-- The normalisation with its rectifier: subtract the mean row, multiply by the inverse deviation row and by the scale
    row, add the shift row, and take the maximum with zero. -/
theorem norm {M N : ℕ} (hb1 : (⟨1, ![N]⟩ : Shape).BroadcastsInDim ⟨2, ![1, N]⟩ ![1])
    (hb2 : (⟨2, ![1, N]⟩ : Shape).BroadcastsInDim ⟨2, ![M, N]⟩ ![0, 1])
    (hz : (⟨0, ![]⟩ : Shape).BroadcastsInDim ⟨2, ![M, N]⟩ ![])
    (h : FVec Ideal ⟨2, ![M, N]⟩ .f32) (mu s g b : FVec Ideal ⟨1, ![N]⟩ .f32) :
    maximumf (addf (mulf (mulf (subf h (broadcastInDim ⟨2, ![M, N]⟩ ![0, 1] hb2 (broadcastInDim ⟨2, ![1, N]⟩ ![1] hb1 mu))) (broadcastInDim ⟨2, ![M, N]⟩ ![0, 1] hb2 (broadcastInDim ⟨2, ![1, N]⟩ ![1] hb1 s))) (broadcastInDim ⟨2, ![M, N]⟩ ![0, 1] hb2 (broadcastInDim ⟨2, ![1, N]⟩ ![1] hb1 g))) (broadcastInDim ⟨2, ![M, N]⟩ ![0, 1] hb2 (broadcastInDim ⟨2, ![1, N]⟩ ![1] hb1 b)))
        (broadcastInDim ⟨2, ![M, N]⟩ ![] hz (constant (F := Ideal) ⟨0, ![]⟩ .f32 0x00000000#32))
      = Cert.Gine.relu (Cert.Gine.normalize h (Cert.Gine.row mu) (Cert.Gine.row s) (Cert.Gine.row g) (Cert.Gine.row b)) := by
  rw [rect hz]
  refine congrArg Cert.Gine.relu (funext fun i => ?_)
  obtain ⟨p, q, rfl⟩ : ∃ (p : Fin M) (q : Fin N), i = ix2 p q := ⟨i 0, i 1, eq_ix2 i⟩
  rw [addf_apply, mulf_apply, mulf_apply, subf_apply, Cert.LibRowVector.inDimRow_apply, Cert.LibRowVector.inDimRow_apply,
    Cert.LibRowVector.inDimRow_apply, Cert.LibRowVector.inDimRow_apply]
  rfl

/-- The column means of the layer-0 output. -/
theorem mean0 (q : Fin 128) : val_main_v32 (F := Ideal) x0 x1 x2 x3 x4 x7 x8 x9 x10 (ix1 q)
    = Ideal.div (∑ n : Fin 50000, val_main_v29 (F := Ideal) x0 x1 x2 x3 x4 x7 x8 x9 x10 (ix2 n q)) (Ideal.ofBits .f32 0x47435000#32) :=
  colMean 0x47435000#32 (val_main_v29 (F := Ideal) x0 x1 x2 x3 x4 x7 x8 x9 x10) q

/-- The column variances of the layer-0 output. -/
theorem var0 (q : Fin 128) : val_main_v39 (F := Ideal) x0 x1 x2 x3 x4 x7 x8 x9 x10 (ix1 q)
    = Ideal.div (∑ n : Fin 50000,
        (val_main_v29 (F := Ideal) x0 x1 x2 x3 x4 x7 x8 x9 x10 (ix2 n q) - val_main_v32 (F := Ideal) x0 x1 x2 x3 x4 x7 x8 x9 x10 (ix1 q))
          * (val_main_v29 (F := Ideal) x0 x1 x2 x3 x4 x7 x8 x9 x10 (ix2 n q) - val_main_v32 (F := Ideal) x0 x1 x2 x3 x4 x7 x8 x9 x10 (ix1 q)))
      (Ideal.ofBits .f32 0x47435000#32) :=
  colVar 0x47435000#32 (val_main_v29 (F := Ideal) x0 x1 x2 x3 x4 x7 x8 x9 x10) (val_main_v32 (F := Ideal) x0 x1 x2 x3 x4 x7 x8 x9 x10) q

/-- The inverse deviations of layer 0: the reciprocal square root of the variance plus a constant. -/
theorem istd0 : val_main_v45 (F := Ideal) x0 x1 x2 x3 x4 x7 x8 x9 x10
    = Host.rsqrt (addf (val_main_v39 (F := Ideal) x0 x1 x2 x3 x4 x7 x8 x9 x10) (broadcastInDim S128 ![] bcast_S_S128 (constant (F := Ideal) S_ .f32 0x3727C5AC#32))) := rfl

/-- The normalisation of layer 0 with its rectifier. -/
theorem norm0 : val_main_v55 (F := Ideal) x0 x1 x2 x3 x4 x7 x8 x9 x10 x15 x16
    = Cert.Gine.relu (Cert.Gine.normalize (val_main_v29 (F := Ideal) x0 x1 x2 x3 x4 x7 x8 x9 x10) (Cert.Gine.row (val_main_v32 (F := Ideal) x0 x1 x2 x3 x4 x7 x8 x9 x10)) (Cert.Gine.row (val_main_v45 (F := Ideal) x0 x1 x2 x3 x4 x7 x8 x9 x10))
        (Cert.Gine.row x15) (Cert.Gine.row x16)) :=
  norm bcast_S128_S1x128_1 bcast_S1x128_S50000x128_0_1 bcast_S_S50000x128 (val_main_v29 (F := Ideal) x0 x1 x2 x3 x4 x7 x8 x9 x10) (val_main_v32 (F := Ideal) x0 x1 x2 x3 x4 x7 x8 x9 x10) (val_main_v45 (F := Ideal) x0 x1 x2 x3 x4 x7 x8 x9 x10) x15 x16

/-- The column means of the layer-1 output. -/
theorem mean1 (q : Fin 128) : val_main_v84 (F := Ideal) x0 x1 x2 x3 x4 x5 x6 x7 x8 x9 x10 x11 x12 x13 x14 x15 x16 (ix1 q)
    = Ideal.div (∑ n : Fin 50000, val_main_v81 (F := Ideal) x0 x1 x2 x3 x4 x5 x6 x7 x8 x9 x10 x11 x12 x13 x14 x15 x16 (ix2 n q)) (Ideal.ofBits .f32 0x47435000#32) :=
  colMean 0x47435000#32 (val_main_v81 (F := Ideal) x0 x1 x2 x3 x4 x5 x6 x7 x8 x9 x10 x11 x12 x13 x14 x15 x16) q

/-- The column variances of the layer-1 output. -/
theorem var1 (q : Fin 128) : val_main_v91 (F := Ideal) x0 x1 x2 x3 x4 x5 x6 x7 x8 x9 x10 x11 x12 x13 x14 x15 x16 (ix1 q)
    = Ideal.div (∑ n : Fin 50000,
        (val_main_v81 (F := Ideal) x0 x1 x2 x3 x4 x5 x6 x7 x8 x9 x10 x11 x12 x13 x14 x15 x16 (ix2 n q) - val_main_v84 (F := Ideal) x0 x1 x2 x3 x4 x5 x6 x7 x8 x9 x10 x11 x12 x13 x14 x15 x16 (ix1 q))
          * (val_main_v81 (F := Ideal) x0 x1 x2 x3 x4 x5 x6 x7 x8 x9 x10 x11 x12 x13 x14 x15 x16 (ix2 n q) - val_main_v84 (F := Ideal) x0 x1 x2 x3 x4 x5 x6 x7 x8 x9 x10 x11 x12 x13 x14 x15 x16 (ix1 q)))
      (Ideal.ofBits .f32 0x47435000#32) :=
  colVar 0x47435000#32 (val_main_v81 (F := Ideal) x0 x1 x2 x3 x4 x5 x6 x7 x8 x9 x10 x11 x12 x13 x14 x15 x16) (val_main_v84 (F := Ideal) x0 x1 x2 x3 x4 x5 x6 x7 x8 x9 x10 x11 x12 x13 x14 x15 x16) q

/-- The inverse deviations of layer 1. -/
theorem istd1 : val_main_v97 (F := Ideal) x0 x1 x2 x3 x4 x5 x6 x7 x8 x9 x10 x11 x12 x13 x14 x15 x16
    = Host.rsqrt (addf (val_main_v91 (F := Ideal) x0 x1 x2 x3 x4 x5 x6 x7 x8 x9 x10 x11 x12 x13 x14 x15 x16) (broadcastInDim S128 ![] bcast_S_S128 (constant (F := Ideal) S_ .f32 0x3727C5AC#32))) := rfl

/-- The normalisation of layer 1 with its rectifier. -/
theorem norm1 : val_main_v107 (F := Ideal) x0 x1 x2 x3 x4 x5 x6 x7 x8 x9 x10 x11 x12 x13 x14 x15 x16 x17 x18
    = Cert.Gine.relu (Cert.Gine.normalize (val_main_v81 (F := Ideal) x0 x1 x2 x3 x4 x5 x6 x7 x8 x9 x10 x11 x12 x13 x14 x15 x16) (Cert.Gine.row (val_main_v84 (F := Ideal) x0 x1 x2 x3 x4 x5 x6 x7 x8 x9 x10 x11 x12 x13 x14 x15 x16)) (Cert.Gine.row (val_main_v97 (F := Ideal) x0 x1 x2 x3 x4 x5 x6 x7 x8 x9 x10 x11 x12 x13 x14 x15 x16))
        (Cert.Gine.row x17) (Cert.Gine.row x18)) :=
  norm bcast_S128_S1x128_1 bcast_S1x128_S50000x128_0_1 bcast_S_S50000x128 (val_main_v81 (F := Ideal) x0 x1 x2 x3 x4 x5 x6 x7 x8 x9 x10 x11 x12 x13 x14 x15 x16) (val_main_v84 (F := Ideal) x0 x1 x2 x3 x4 x5 x6 x7 x8 x9 x10 x11 x12 x13 x14 x15 x16) (val_main_v97 (F := Ideal) x0 x1 x2 x3 x4 x5 x6 x7 x8 x9 x10 x11 x12 x13 x14 x15 x16) x17 x18

/-- A dense layer followed by the rectifier. -/
theorem denseRect {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (hb1 : (⟨1, ![N]⟩ : Shape).BroadcastsInDim ⟨2, ![1, N]⟩ ![1])
    (hb2 : (⟨2, ![1, N]⟩ : Shape).BroadcastsInDim ⟨2, ![M, N]⟩ ![0, 1])
    (hz : (⟨0, ![]⟩ : Shape).BroadcastsInDim ⟨2, ![M, N]⟩ ![])
    (l : FVec Ideal ⟨2, ![M, K]⟩ .f32) (W : FVec Ideal ⟨2, ![K, N]⟩ .f32) (b : FVec Ideal ⟨1, ![N]⟩ .f32) :
    maximumf (addf (Host.dotGeneral d none l W) (broadcastInDim ⟨2, ![M, N]⟩ ![0, 1] hb2 (broadcastInDim ⟨2, ![1, N]⟩ ![1] hb1 b)))
        (broadcastInDim ⟨2, ![M, N]⟩ ![] hz (constant (F := Ideal) ⟨0, ![]⟩ .f32 0x00000000#32))
      = Cert.Gine.relu (Cert.Gine.affine l W (Cert.Gine.row b)) := by
  rw [dense d h1 h2 h3 h4 h5 h6 hb1 hb2, rect hz]

/-- The readout: the rectified normalisation of the layer-1 output, a rectified dense layer, and a last dense layer with
    one output column, which is the inner product of each row with the weight column plus one constant. -/
theorem out : val_main_v116 (F := Ideal) x0 x1 x2 x3 x4 x5 x6 x7 x8 x9 x10 x11 x12 x13 x14 x15 x16 x17 x18 x19 x20 x21 x22
    = Cert.Gine.readout (val_main_v81 (F := Ideal) x0 x1 x2 x3 x4 x5 x6 x7 x8 x9 x10 x11 x12 x13 x14 x15 x16) (Cert.Gine.row (val_main_v84 (F := Ideal) x0 x1 x2 x3 x4 x5 x6 x7 x8 x9 x10 x11 x12 x13 x14 x15 x16)) (Cert.Gine.row (val_main_v97 (F := Ideal) x0 x1 x2 x3 x4 x5 x6 x7 x8 x9 x10 x11 x12 x13 x14 x15 x16)) (Cert.Gine.row x17) (Cert.Gine.row x18)
        x19 (Cert.Gine.row x20) (Cert.Gine.colAsRow x21) (Cert.Gine.cell x22) := by
  have e1 : val_main_v116 (F := Ideal) x0 x1 x2 x3 x4 x5 x6 x7 x8 x9 x10 x11 x12 x13 x14 x15 x16 x17 x18 x19 x20 x21 x22
      = Cert.Gine.affine (val_main_v112 (F := Ideal) x0 x1 x2 x3 x4 x5 x6 x7 x8 x9 x10 x11 x12 x13 x14 x15 x16 x17 x18 x19 x20) x21 (Cert.Gine.row x22) :=
    dense dot_S50000x512_S512x1_S50000x1_1_0_0_1_n_n rfl rfl rfl rfl rfl rfl bcast_S1_S1x1_1 bcast_S1x1_S50000x1_0_1
      (val_main_v112 (F := Ideal) x0 x1 x2 x3 x4 x5 x6 x7 x8 x9 x10 x11 x12 x13 x14 x15 x16 x17 x18 x19 x20) x21 x22
  have e2 : val_main_v112 (F := Ideal) x0 x1 x2 x3 x4 x5 x6 x7 x8 x9 x10 x11 x12 x13 x14 x15 x16 x17 x18 x19 x20
      = Cert.Gine.relu (Cert.Gine.affine (val_main_v107 (F := Ideal) x0 x1 x2 x3 x4 x5 x6 x7 x8 x9 x10 x11 x12 x13 x14 x15 x16 x17 x18) x19 (Cert.Gine.row x20)) :=
    denseRect dot_S50000x128_S128x512_S50000x512_1_0_0_1_n_n rfl rfl rfl rfl rfl rfl bcast_S512_S1x512_1
      bcast_S1x512_S50000x512_0_1 bcast_S_S50000x512 (val_main_v107 (F := Ideal) x0 x1 x2 x3 x4 x5 x6 x7 x8 x9 x10 x11 x12 x13 x14 x15 x16 x17 x18) x19 x20
  rw [e1, e2, norm1]
  funext i
  obtain ⟨p, u, rfl⟩ : ∃ (p : Fin 50000) (u : Fin 1), i = ix2 p u := ⟨i 0, i 1, eq_ix2 i⟩
  obtain rfl : u = 0 := Subsingleton.elim _ _
  rfl

end Cert.ReferenceIdeal.Stages

end
-- ==== Proof.Layout.lean ====
/-
  Layout identities: a vector, a column or a single entry laid out as a one-row matrix, and a dense layer whose weight
  matrix and bias are two layers' weights and biases set side by side.

  A reshape keeps the row-major order of the entries, so a vector of length n reshaped to one row has entry q at
  (0, q), a column of n entries reshaped to one row has its entry (q, 0) at (0, q), and a vector of length one
  reshaped to a one-by-one matrix has its one entry.  When two weight matrices with N columns each are set side by
  side and the two biases end to end, column q of the joint layer's output, for q below N, uses column q of the
  first matrix and entry q of the first bias only, and column N + q uses column q of the second matrix and entry q
  of the second bias: the left half of the output is the first layer, the right half the second.
-/
import proofs.«131147_j56908316672645_2_alg».proof.Proof.Spec
import Idealize.ShloMosaic.Lib.Pipeline.Value
import Idealize.ShloMosaic.Lib.ValueLayout

noncomputable section

namespace Cert.Gine.Layout

open Idealize.ShloMosaic Idealize.ShloMosaic.ValueIdx

/-! ## One-row layouts -/

/-- A vector of length n reshaped to [1, n] is the vector laid out as one row. -/
theorem cast_row {n : ℕ} (v : FVec Ideal ⟨1, ![n]⟩ .f32) (h : (⟨1, ![n]⟩ : Shape).ShapeCasts ⟨2, ![1, n]⟩) :
    shapeCast ⟨2, ![1, n]⟩ v h = Cert.Gine.row v := by
  funext i
  obtain ⟨u, q, rfl⟩ : ∃ (u : Fin 1) (q : Fin n), i = ix2 u q := ⟨i 0, i 1, eq_ix2 i⟩
  exact shapeCast_a_1a_apply v h u q

/-- A column [n, 1] reshaped to [1, n] is the column laid out as one row: both positions of entry q are q. -/
theorem cast_colAsRow {n : ℕ} (w : FVec Ideal ⟨2, ![n, 1]⟩ .f32) (h : (⟨2, ![n, 1]⟩ : Shape).ShapeCasts ⟨2, ![1, n]⟩) :
    shapeCast ⟨2, ![1, n]⟩ w h = Cert.Gine.colAsRow w := by
  funext i
  obtain ⟨u, q, rfl⟩ : ∃ (u : Fin 1) (q : Fin n), i = ix2 u q := ⟨i 0, i 1, eq_ix2 i⟩
  exact shapeCast_apply w h (ix2 u q) (ix2 q (0 : Fin 1)) (by
    have hu : u.val = 0 := by omega
    rw [Shape.rowMajor_val_two, Shape.rowMajor_val_two]
    show q.val * 1 + 0 = u.val * n + q.val
    rw [hu, Nat.zero_mul, Nat.zero_add, Nat.mul_one, Nat.add_zero])

/-- A vector of length one reshaped to [1, 1] is its one entry as a one-by-one matrix. -/
theorem cast_cell (b : FVec Ideal ⟨1, ![1]⟩ .f32) (h : (⟨1, ![1]⟩ : Shape).ShapeCasts ⟨2, ![1, 1]⟩) :
    shapeCast ⟨2, ![1, 1]⟩ b h = Cert.Gine.cell b := by
  funext i
  obtain ⟨u, q, rfl⟩ : ∃ (u : Fin 1) (q : Fin 1), i = ix2 u q := ⟨i 0, i 1, eq_ix2 i⟩
  rw [shapeCast_a_1a_apply b h u q]
  have hq : q = 0 := Fin.ext (by omega)
  rw [hq]
  rfl

/-! ## Two dense layers computed as one -/

/-- The left half of the joint layer's output is the first layer: columns 0 … 127 of the side-by-side weights are
    the first matrix, entries 0 … 127 of the end-to-end bias the first bias. -/
theorem embed_lo (ea : Mat 600000 64) (W0 W1 : Mat 64 128) (b0 b1 : Vect 128)
    (hW : Shape.Concatenates [(⟨2, ![64, 128]⟩ : Shape), ⟨2, ![64, 128]⟩] ⟨2, ![64, 256]⟩ 1)
    (hb : Shape.Concatenates [(⟨1, ![128]⟩ : Shape), ⟨1, ![128]⟩] ⟨1, ![256]⟩ 0)
    (hc : (⟨1, ![256]⟩ : Shape).ShapeCasts ⟨2, ![1, 256]⟩)
    (hs0 : (⟨2, ![600000, 256]⟩ : Shape).Slices ![0, 0] ⟨2, ![600000, 128]⟩) :
    extractStridedSlice ⟨2, ![600000, 128]⟩ ![0, 0]
        (Cert.Gine.affine ea (concatenate ⟨2, ![64, 256]⟩ 1 [⟨⟨2, ![64, 128]⟩, W0⟩, ⟨⟨2, ![64, 128]⟩, W1⟩] hW)
          (shapeCast ⟨2, ![1, 256]⟩ (concatenate ⟨1, ![256]⟩ 0 [⟨⟨1, ![128]⟩, b0⟩, ⟨⟨1, ![128]⟩, b1⟩] hb) hc)) hs0
      = Cert.Gine.affine ea W0 (Cert.Gine.row b0) := by
  funext j
  obtain ⟨p, q, rfl⟩ : ∃ (p : Fin 600000) (q : Fin 128), j = ix2 p q := ⟨j 0, j 1, eq_ix2 j⟩
  have hq : q.val < 256 := by omega
  rw [extractStridedSlice_apply ![0, 0] _ hs0 (ix2 p q) (ix2 p (⟨q.val, hq⟩ : Fin 256)) (fun a => match a with
    | ⟨0, _⟩ => by show p.val = 0 + p.val; omega
    | ⟨1, _⟩ => by show q.val = 0 + q.val; omega)]
  show (∑ k : Fin 64, ea (ix2 p k)
        * concatenate ⟨2, ![64, 256]⟩ 1 [⟨⟨2, ![64, 128]⟩, W0⟩, ⟨⟨2, ![64, 128]⟩, W1⟩] hW (ix2 k (⟨q.val, hq⟩ : Fin 256)))
      + shapeCast ⟨2, ![1, 256]⟩ (concatenate ⟨1, ![256]⟩ 0 [⟨⟨1, ![128]⟩, b0⟩, ⟨⟨1, ![128]⟩, b1⟩] hb) hc
          (ix2 (0 : Fin 1) (⟨q.val, hq⟩ : Fin 256))
    = (∑ k : Fin 64, ea (ix2 p k) * W0 (ix2 k q)) + b0 (ix1 q)
  congr 1
  · refine Finset.sum_congr rfl fun k _ => ?_
    congr 1
    exact concatenate_pair_apply_left 1 W0 W1 hW (ix2 k (⟨q.val, hq⟩ : Fin 256)) rfl (ix2 k q) (fun b => match b with
      | ⟨0, _⟩ => rfl
      | ⟨1, _⟩ => rfl)
  · rw [shapeCast_a_1a_apply _ hc (0 : Fin 1) (⟨q.val, hq⟩ : Fin 256)]
    exact concatenate_pair_apply_left 0 b0 b1 hb (ix1 (⟨q.val, hq⟩ : Fin 256)) rfl (ix1 q) (fun b => match b with
      | ⟨0, _⟩ => rfl)

/-- The right half of the joint layer's output is the second layer: column 128 + q of the side-by-side weights is
    column q of the second matrix, entry 128 + q of the end-to-end bias entry q of the second bias. -/
theorem embed_hi (ea : Mat 600000 64) (W0 W1 : Mat 64 128) (b0 b1 : Vect 128)
    (hW : Shape.Concatenates [(⟨2, ![64, 128]⟩ : Shape), ⟨2, ![64, 128]⟩] ⟨2, ![64, 256]⟩ 1)
    (hb : Shape.Concatenates [(⟨1, ![128]⟩ : Shape), ⟨1, ![128]⟩] ⟨1, ![256]⟩ 0)
    (hc : (⟨1, ![256]⟩ : Shape).ShapeCasts ⟨2, ![1, 256]⟩)
    (hs1 : (⟨2, ![600000, 256]⟩ : Shape).Slices ![0, 128] ⟨2, ![600000, 128]⟩) :
    extractStridedSlice ⟨2, ![600000, 128]⟩ ![0, 128]
        (Cert.Gine.affine ea (concatenate ⟨2, ![64, 256]⟩ 1 [⟨⟨2, ![64, 128]⟩, W0⟩, ⟨⟨2, ![64, 128]⟩, W1⟩] hW)
          (shapeCast ⟨2, ![1, 256]⟩ (concatenate ⟨1, ![256]⟩ 0 [⟨⟨1, ![128]⟩, b0⟩, ⟨⟨1, ![128]⟩, b1⟩] hb) hc)) hs1
      = Cert.Gine.affine ea W1 (Cert.Gine.row b1) := by
  funext j
  obtain ⟨p, q, rfl⟩ : ∃ (p : Fin 600000) (q : Fin 128), j = ix2 p q := ⟨j 0, j 1, eq_ix2 j⟩
  have hq : 128 + q.val < 256 := by omega
  rw [extractStridedSlice_apply ![0, 128] _ hs1 (ix2 p q) (ix2 p (⟨128 + q.val, hq⟩ : Fin 256)) (fun a => match a with
    | ⟨0, _⟩ => by show p.val = 0 + p.val; omega
    | ⟨1, _⟩ => by show 128 + q.val = 128 + q.val; rfl)]
  show (∑ k : Fin 64, ea (ix2 p k)
        * concatenate ⟨2, ![64, 256]⟩ 1 [⟨⟨2, ![64, 128]⟩, W0⟩, ⟨⟨2, ![64, 128]⟩, W1⟩] hW (ix2 k (⟨128 + q.val, hq⟩ : Fin 256)))
      + shapeCast ⟨2, ![1, 256]⟩ (concatenate ⟨1, ![256]⟩ 0 [⟨⟨1, ![128]⟩, b0⟩, ⟨⟨1, ![128]⟩, b1⟩] hb) hc
          (ix2 (0 : Fin 1) (⟨128 + q.val, hq⟩ : Fin 256))
    = (∑ k : Fin 64, ea (ix2 p k) * W1 (ix2 k q)) + b1 (ix1 q)
  congr 1
  · refine Finset.sum_congr rfl fun k _ => ?_
    congr 1
    exact concatenate_pair_apply_right 1 W0 W1 hW (ix2 k (⟨128 + q.val, hq⟩ : Fin 256)) rfl rfl (ix2 k q)
      (fun b hb => match b, hb with
        | ⟨0, _⟩, _ => rfl
        | ⟨1, _⟩, hb => absurd rfl hb)
      (by show q.val + 128 = 128 + q.val; omega)
  · rw [shapeCast_a_1a_apply _ hc (0 : Fin 1) (⟨128 + q.val, hq⟩ : Fin 256)]
    exact concatenate_pair_apply_right 0 b0 b1 hb (ix1 (⟨128 + q.val, hq⟩ : Fin 256)) rfl rfl (ix1 q)
      (fun b hb => match b, hb with
        | ⟨0, _⟩, hb => absurd rfl hb)
      (by show q.val + 128 = 128 + q.val; omega)

end Cert.Gine.Layout

end
-- ==== Proof.LibRealValued.lean ====
/-
  Extended reals that are real numbers.

  Over the extended reals the distributive law, and with it the exchange of two finite sums across a product, holds
  only away from the infinities.  An entry is called real when it is the coercion of a real number; sums, products,
  maxima and case distinctions of real entries are real, and so is every finite sum of real entries.  A family of real
  entries has a real-valued family behind it, which is how a law proved over the reals is carried to the extended
  reals.
-/
import Mathlib.Data.EReal.Operations
import Mathlib.Algebra.BigOperators.Group.Finset.Basic

noncomputable section

namespace Cert.RealValued

/-- The extended real `x` is (the coercion of) a real number. -/
def IsReal (x : EReal) : Prop := ∃ r : ℝ, x = (r : EReal)

theorem isReal_coe (r : ℝ) : IsReal (r : EReal) := ⟨r, rfl⟩

theorem isReal_zero : IsReal 0 := ⟨0, rfl⟩

theorem isReal_one : IsReal 1 := ⟨1, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.max {x y : EReal} (hx : IsReal x) (hy : IsReal y) : IsReal (max x y) := by
  rcases max_choice x y with h | h <;> rw [h] <;> assumption

theorem IsReal.ite {p : Prop} [Decidable p] {x y : EReal} (hx : IsReal x) (hy : IsReal y) :
    IsReal (if p then x else y) := by
  split <;> assumption

/-- A finite sum of real entries is real. -/
theorem isReal_sum {ι : Type} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real entry that is at least one is a nonzero real number. -/
theorem IsReal.coe_ne_zero_of_one_le {x : EReal} (hx : IsReal x) (h1 : 1 ≤ x) : ∃ r : ℝ, r ≠ 0 ∧ x = (r : EReal) := by
  obtain ⟨r, rfl⟩ := hx
  refine ⟨r, ?_, rfl⟩
  have : (1 : ℝ) ≤ r := by exact_mod_cast h1
  intro h0
  rw [h0] at this
  linarith

end Cert.RealValued

end
-- ==== Proof.LibVariance.lean ====
/-
  The arithmetic that joins the two programs.

  A column's variance is computed in two ways.  One program takes the mean of the squared deviations,
  (1/N) Σ (h_p − μ)², with μ = (1/N) Σ h_p.  The other takes the mean of the squares minus the squared mean,
  (1/N) Σ h_p² − μ², and, where every entry is +1 or −1, simply 1 − μ².  Over the real numbers the three agree:
  Σ (h_p − μ)² = Σ h_p² − 2 μ Σ h_p + N μ² = Σ h_p² − N μ², and Σ h_p² = N when every h_p² = 1.  Over the
  extended reals the expansion uses the distributive law, which fails at the infinities, so the identities are
  stated for columns whose entries are real numbers.
-/
import Idealize.ShloMosaic.PureOps.Ideal
import proofs.«131147_j56908316672645_2_alg».proof.Proof.LibRealValued

noncomputable section

namespace Cert.BNN.Laws

open Idealize.ShloMosaic Cert.RealValued

/-- The f32 word of `16384.0` denotes the real number 16384. -/
theorem ofBits_16384 : Ideal.ofBits .f32 0x46800000#32 = ((16384 : ℝ) : EReal) := by
  simp [Ideal.ofBits, Ideal.ieee, -EReal.coe_mul]; norm_num

/-- The zero word denotes 0. -/
theorem ofBits_zero : Ideal.ofBits .f32 0x00000000#32 = 0 := by
  simp [Ideal.ofBits, Ideal.ieee]

/-- The word of `1.0` denotes 1. -/
theorem ofBits_one : Ideal.ofBits .f32 0x3F800000#32 = ((1 : ℝ) : EReal) := by
  simp [Ideal.ofBits, Ideal.ieee, -EReal.coe_mul]; norm_num

/-- The word of `-1.0` denotes −1. -/
theorem ofBits_neg_one : Ideal.ofBits .f32 0xBF800000#32 = ((-1 : ℝ) : EReal) := by
  simp [Ideal.ofBits, Ideal.ieee, -EReal.coe_mul]; norm_num

/-- Over the reals: the mean of the squares minus the squared mean is the mean of the squared deviations. -/
theorem var_real {ι : Type} [Fintype ι] (f : ι → ℝ) (N : ℝ) (hN : N ≠ 0) (hc : (Fintype.card ι : ℝ) = N) :
    (∑ i, f i * f i) * (1 / N) - (∑ i, f i) * (1 / N) * ((∑ i, f i) * (1 / N))
      = (∑ i, (f i - (∑ i, f i) * (1 / N)) * (f i - (∑ i, f i) * (1 / N))) * (1 / N) := by
  set μ : ℝ := (∑ i, f i) * (1 / N) with hμ
  have hS : ∑ i, f i = N * μ := by rw [hμ]; field_simp
  have h1 : ∑ i, (f i - μ) * (f i - μ) = ∑ i, f i * f i - 2 * μ * ∑ i, f i + N * (μ * μ) := by
    have : ∀ i, (f i - μ) * (f i - μ) = f i * f i - 2 * μ * f i + μ * μ := fun i => by ring
    simp only [this, Finset.sum_add_distrib, Finset.sum_sub_distrib, ← Finset.mul_sum, Finset.sum_const,
      Finset.card_univ, nsmul_eq_mul, hc]
    ring
  rw [h1, hS]; field_simp; ring

/-- Over the reals, for entries that are +1 or −1: one minus the squared mean is the mean of the squared deviations. -/
theorem var_real_pm1 {ι : Type} [Fintype ι] (f : ι → ℝ) (N : ℝ) (hN : N ≠ 0) (hc : (Fintype.card ι : ℝ) = N)
    (hf : ∀ i, f i = 1 ∨ f i = -1) :
    1 - (∑ i, f i) * (1 / N) * ((∑ i, f i) * (1 / N))
      = (∑ i, (f i - (∑ i, f i) * (1 / N)) * (f i - (∑ i, f i) * (1 / N))) * (1 / N) := by
  rw [← var_real f N hN hc]
  have : ∑ i, f i * f i = N := by
    have : ∀ i, f i * f i = 1 := fun i => by rcases hf i with h | h <;> rw [h] <;> norm_num
    simp only [this, Finset.sum_const, Finset.card_univ, nsmul_eq_mul, mul_one, hc]
  rw [this, mul_one_div_cancel hN]

/-- The same over the extended reals, for a column of real entries: the quotient of the sum of squares by `N` minus
    the squared mean is the quotient of the sum of squared deviations by `N`. -/
theorem var_law {ι : Type} [Fintype ι] (h : ι → EReal) (hr : ∀ i, IsReal (h i)) (N : ℝ) (hN : N ≠ 0)
    (hc : (Fintype.card ι : ℝ) = N) :
    Ideal.div (∑ i, h i * h i) (N : EReal) - Ideal.div (∑ i, h i) (N : EReal) * Ideal.div (∑ i, h i) (N : EReal)
      = Ideal.div (∑ i, (h i - Ideal.div (∑ i, h i) (N : EReal)) * (h i - Ideal.div (∑ i, h i) (N : EReal))) (N : EReal) := by
  choose f hf using hr
  obtain rfl : h = fun i => (f i : EReal) := funext hf
  simp only [Ideal.div_coe hN, ← EReal.coe_mul, ← coe_sum, ← EReal.coe_sub]
  exact congrArg _ (var_real f N hN hc)

/-- For a column whose entries are +1 or −1: one minus the squared mean is the quotient of the sum of squared
    deviations by `N`. -/
theorem var_law_pm1 {ι : Type} [Fintype ι] (h : ι → EReal) (hpm : ∀ i, h i = ((1 : ℝ) : EReal) ∨ h i = ((-1 : ℝ) : EReal))
    (N : ℝ) (hN : N ≠ 0) (hc : (Fintype.card ι : ℝ) = N) :
    ((1 : ℝ) : EReal) - Ideal.div (∑ i, h i) (N : EReal) * Ideal.div (∑ i, h i) (N : EReal)
      = Ideal.div (∑ i, (h i - Ideal.div (∑ i, h i) (N : EReal)) * (h i - Ideal.div (∑ i, h i) (N : EReal))) (N : EReal) := by
  have hr : ∀ i, IsReal (h i) := fun i => by rcases hpm i with e | e <;> exact ⟨_, e⟩
  choose f hf using hr
  have hf' : ∀ i, f i = 1 ∨ f i = -1 := fun i => by
    rcases hpm i with e | e
    · left; exact_mod_cast (hf i).symm.trans e
    · right; exact_mod_cast (hf i).symm.trans e
  obtain rfl : h = fun i => (f i : EReal) := funext hf
  simp only [Ideal.div_coe hN, ← EReal.coe_mul, ← coe_sum, ← EReal.coe_sub]
  exact congrArg _ (var_real_pm1 f N hN hc hf')

end Cert.BNN.Laws

end
-- ==== Proof.LibGroupSum.lean ====
/-
  A sum over `G * R` consecutive positions, read as `G` groups of `R`: when every term outside one group vanishes, the
  sum is the sum over that group. In any additive commutative monoid, for any `G` and `R`.
-/
import Mathlib.Algebra.BigOperators.Fin
import Mathlib.Algebra.BigOperators.Group.Finset.Basic
import Mathlib.Logic.Equiv.Fin.Basic

namespace Cert.LibGroupSum

open Finset

/-- Position `R * g + r` of `G * R`: place `r` of group `g`. -/
def pos {G R : Nat} (g : Fin G) (r : Fin R) : Fin (G * R) := finProdFinEquiv (g, r)

theorem pos_val {G R : Nat} (g : Fin G) (r : Fin R) : (pos g r).val = r.val + R * g.val := rfl

/-- A sum over `G * R` positions is the sum over the groups of the sums over their places. -/
theorem sum_groups {M : Type*} [AddCommMonoid M] {G R : Nat} (f : Fin (G * R) → M) :
    ∑ j : Fin (G * R), f j = ∑ g : Fin G, ∑ r : Fin R, f (pos g r) := by
  rw [← Fintype.sum_prod_type' (fun g r => f (pos g r))]
  exact (Fintype.sum_equiv finProdFinEquiv (fun p => f (pos p.1 p.2)) f (fun _ => rfl)).symm

/-- If every term outside group `g` is zero, the whole sum is the sum over group `g`. -/
theorem sum_one_group {M : Type*} [AddCommMonoid M] {G R : Nat} (f : Fin (G * R) → M) (g : Fin G)
    (h0 : ∀ (g' : Fin G) (r : Fin R), g' ≠ g → f (pos g' r) = 0) :
    ∑ j : Fin (G * R), f j = ∑ r : Fin R, f (pos g r) := by
  rw [sum_groups]
  refine Finset.sum_eq_single_of_mem g (Finset.mem_univ g) fun g' _ hg' => ?_
  exact Finset.sum_eq_zero fun r _ => h0 g' r hg'

end Cert.LibGroupSum
-- ==== Proof.Stats.lean ====
/-
  The column statistics finished from per-block sums are the statistics of the whole column.

  The 50000 rows are cut into 10 blocks of 5000 consecutive rows, and for every block and column the block's sum and
  sum of squares are given.  Adding a column's ten block sums gives the sum over all 50000 rows, because every row
  lies in exactly one block: row n is row r of block t with n = 5000 · t + r.  Dividing by 50000 gives the column
  mean and the mean of the squares.  The variance is taken as the mean of the squares minus the squared mean, clamped
  below at zero.  For a column of real numbers this difference is the mean of the squared deviations from the mean
  (expand the square), which is a nonnegative real number, so the clamp changes nothing.
-/
import proofs.«131147_j56908316672645_2_alg».proof.Proof.StatsDefs
import proofs.«131147_j56908316672645_2_alg».proof.Proof.Spec
import proofs.«131147_j56908316672645_2_alg».proof.Proof.LibVariance
import proofs.«131147_j56908316672645_2_alg».proof.Proof.LibGroupSum
import proofs.«131147_j56908316672645_2_alg».proof.Proof.LibRealValued
import proofs.«131147_j56908316672645_2_alg».proof.Proof.LibRowVector
import Idealize.ShloMosaic.Lib.Pipeline.Value
import Idealize.ShloMosaic.Lib.ValueIdx
import Idealize.ShloMosaic.PureOps.Ideal.Laws

noncomputable section

namespace Cert.Gine.Stats

open Idealize.ShloMosaic Idealize.ShloMosaic.ValueIdx Cert.KernelIdeal Cert.KernelIdeal.Gen Cert.Gine Cert.RealValued

/-- A sum over the 50000 rows is the sum over the 10 blocks of the sums over each block's 5000 rows. -/
theorem sum_rows {M : Type} [AddCommMonoid M] (f : Fin 50000 → M) :
    ∑ n : Fin 50000, f n = ∑ t : Fin 10, ∑ r : Fin 5000, f (rowOf t r) := by
  have h := Cert.LibGroupSum.sum_groups (G := 10) (R := 5000) (M := M) f
  refine h.trans (Finset.sum_congr rfl fun t _ => Finset.sum_congr rfl fun r _ => congrArg f (Fin.ext ?_))
  rw [Cert.LibGroupSum.pos_val]
  show r.val + 5000 * t.val = t.val * 5000 + r.val
  omega

/-- The word of 50000.0 denotes the real number 50000. -/
theorem ofBits_50000 : Ideal.ofBits .f32 0x47435000#32 = ((50000 : ℝ) : EReal) := by
  simp [Ideal.ofBits, Ideal.ieee, -EReal.coe_mul]; norm_num

/-- One of the two layers of a [10, 2, 128] array, added over its ten blocks from the zero word: the plain sum of the
    ten entries of that layer and column. -/
theorem layerSum (s : FVec Ideal S10x2x128 .f32) (c : ℕ) (hc : c < 2) (hs : S10x2x128.Slices ![0, c, 0] S10x1x128)
    (q : Fin 128) :
    Host.reduceAdd (shapeCast S10x128 (extractStridedSlice S10x1x128 ![0, c, 0] s hs) shapeCasts_S10x1x128_S10x128)
        (constant (F := Ideal) S_ .f32 0x00000000#32) reducesTo_S10x128_S128_d0 h_S_ (ix1 q)
      = ∑ t : Fin 10, s (ix3 t ⟨c, hc⟩ q) := by
  simp only [Host.reduceAdd, Ideal.hostReduceAdd_def]
  rw [Ideal.hostReduceAdd_single reducesTo_S10x128_S128_d0 (by decide), constant_apply, Ideal.ofBits_zero_f32, zero_add]
  refine Finset.sum_congr rfl fun t _ => ?_
  have hl : (Shape.Reduces.lift (s := S10x128) (t := S128) (a := 0) (by decide) (ix1 q) t) = ix2 (n0 := 10) (n1 := 128) t q :=
    funext fun a => Fin.ext (by match a with | ⟨0, _⟩ => rfl | ⟨1, _⟩ => rfl)
  rw [hl]
  rw [shapeCast_apply _ shapeCasts_S10x1x128_S10x128 (ix2 (n0 := 10) (n1 := 128) t q) (ix3 (n0 := 10) (n1 := 1) (n2 := 128) t 0 q)
    (by rw [Shape.rowMajor_val_three, Shape.rowMajor_val_two]; simp)]
  exact extractStridedSlice_apply _ s hs _ (ix3 t ⟨c, hc⟩ q) (fun a => by
    match a with
    | ⟨0, _⟩ => simp
    | ⟨1, _⟩ => simp
    | ⟨2, _⟩ => simp)

/-- The sum of a column's ten block sums is the sum of the column over all 50000 rows. -/
theorem blockSums (o : Mat 50000 128) (q : Fin 128) :
    ∑ t : Fin 10, blockStats o (ix3 t (⟨0, by omega⟩ : Fin 2) q) = ∑ n : Fin 50000, o (ix2 n q) := by
  rw [sum_rows]
  refine Finset.sum_congr rfl fun t _ => ?_
  show (if ((0 : ℕ) = 0) then (∑ r : Fin 5000, o (ix2 (rowOf t r) q))
    else ∑ r : Fin 5000, o (ix2 (rowOf t r) q) * o (ix2 (rowOf t r) q)) = _
  rw [if_pos rfl]

/-- The sum of a column's ten block sums of squares is the sum of the squares of the column over all 50000 rows. -/
theorem blockSumSqs (o : Mat 50000 128) (q : Fin 128) :
    ∑ t : Fin 10, blockStats o (ix3 t (⟨1, by omega⟩ : Fin 2) q) = ∑ n : Fin 50000, o (ix2 n q) * o (ix2 n q) := by
  rw [sum_rows (fun n => o (ix2 n q) * o (ix2 n q))]
  refine Finset.sum_congr rfl fun t _ => ?_
  show (if ((1 : ℕ) = 0) then (∑ r : Fin 5000, o (ix2 (rowOf t r) q))
    else ∑ r : Fin 5000, o (ix2 (rowOf t r) q) * o (ix2 (rowOf t r) q)) = _
  rw [if_neg (by omega)]

/-- The column mean finished from the block sums is the sum of the column divided by 50000. -/
theorem mean_eq (o : Mat 50000 128) (q : Fin 128) :
    kMean (blockStats o) (ix1 q) = Ideal.div (∑ n : Fin 50000, o (ix2 n q)) (Ideal.ofBits .f32 0x47435000#32) := by
  show FloatOps.hostDivf
      (Host.reduceAdd (shapeCast S10x128 (extractStridedSlice S10x1x128 ![0, 0, 0] (blockStats o) slices_S10x2x128_S10x1x128_0_0_0)
        shapeCasts_S10x1x128_S10x128) (constant (F := Ideal) S_ .f32 0x00000000#32) reducesTo_S10x128_S128_d0 h_S_ (ix1 q))
      (broadcastInDim S128 ![] bcast_S_S128 (constant (F := Ideal) S_ .f32 0x47435000#32) (ix1 q)) = _
  rw [layerSum (blockStats o) 0 (by omega) slices_S10x2x128_S10x1x128_0_0_0 q, Cert.LibRowVector.inDimScalar_apply,
    constant_apply, Ideal.hostDivf_def, blockSums]

/-- The column mean of the squares finished from the block sums of squares is the sum of the squares of the column
    divided by 50000. -/
theorem meansq_eq (o : Mat 50000 128) (q : Fin 128) :
    kMeanSq (blockStats o) (ix1 q)
      = Ideal.div (∑ n : Fin 50000, o (ix2 n q) * o (ix2 n q)) (Ideal.ofBits .f32 0x47435000#32) := by
  show FloatOps.hostDivf
      (Host.reduceAdd (shapeCast S10x128 (extractStridedSlice S10x1x128 ![0, 1, 0] (blockStats o) slices_S10x2x128_S10x1x128_0_1_0)
        shapeCasts_S10x1x128_S10x128) (constant (F := Ideal) S_ .f32 0x00000000#32) reducesTo_S10x128_S128_d0 h_S_ (ix1 q))
      (broadcastInDim S128 ![] bcast_S_S128 (constant (F := Ideal) S_ .f32 0x47435000#32) (ix1 q)) = _
  rw [layerSum (blockStats o) 1 (by omega) slices_S10x2x128_S10x1x128_0_1_0 q, Cert.LibRowVector.inDimScalar_apply,
    constant_apply, Ideal.hostDivf_def, blockSumSqs]

/-- For real entries and a positive real N, the mean of the squared deviations from the mean is nonnegative. -/
theorem meanSqDev_nonneg {ι : Type} [Fintype ι] (h : ι → EReal) (hr : ∀ i, IsReal (h i)) (N : ℝ) (hN : 0 < N) :
    0 ≤ Ideal.div (∑ i, (h i - Ideal.div (∑ i, h i) (N : EReal)) * (h i - Ideal.div (∑ i, h i) (N : EReal))) (N : EReal) := by
  choose f hf using hr
  obtain rfl : h = fun i => (f i : EReal) := funext hf
  simp only [Ideal.div_coe hN.ne', ← EReal.coe_mul, ← coe_sum, ← EReal.coe_sub]
  exact_mod_cast mul_nonneg (Finset.sum_nonneg fun i _ => mul_self_nonneg _) (by positivity)

/-- The column variance finished from the block sums — the mean of the squares minus the squared mean, clamped below at
    zero — is, for a column of real entries, the mean of the squared deviations from the column mean. -/
theorem var_eq (o : Mat 50000 128) (q : Fin 128) (hr : ∀ n : Fin 50000, IsReal (o (ix2 n q))) :
    kVar (blockStats o) (ix1 q)
      = Ideal.div (∑ n : Fin 50000,
          (o (ix2 n q) - Ideal.div (∑ n : Fin 50000, o (ix2 n q)) (Ideal.ofBits .f32 0x47435000#32))
            * (o (ix2 n q) - Ideal.div (∑ n : Fin 50000, o (ix2 n q)) (Ideal.ofBits .f32 0x47435000#32)))
          (Ideal.ofBits .f32 0x47435000#32) := by
  show max (kMeanSq (blockStats o) (ix1 q) - kMean (blockStats o) (ix1 q) * kMean (blockStats o) (ix1 q))
      (broadcastInDim S128 ![] bcast_S_S128 (constant (F := Ideal) S_ .f32 0x00000000#32) (ix1 q)) = _
  rw [Cert.LibRowVector.inDimScalar_apply, constant_apply, Ideal.ofBits_zero_f32, meansq_eq, mean_eq, ofBits_50000,
    Cert.BNN.Laws.var_law (fun n => o (ix2 n q)) hr 50000 (by norm_num) (by simp)]
  exact max_eq_left (meanSqDev_nonneg (fun n => o (ix2 n q)) hr 50000 (by norm_num))

/-- The column means, as a whole vector. -/
theorem kMean_eq (o : Mat 50000 128) :
    kMean (blockStats o) = fun i => Ideal.div (∑ n : Fin 50000, o (ix2 n (i 0))) (Ideal.ofBits .f32 0x47435000#32) := by
  funext i
  obtain ⟨q, rfl⟩ : ∃ q : Fin 128, i = ix1 q := ⟨i 0, eq_ix1 i⟩
  exact mean_eq o q

/-- The column means of the squares, as a whole vector. -/
theorem kMeanSq_eq (o : Mat 50000 128) :
    kMeanSq (blockStats o)
      = fun i => Ideal.div (∑ n : Fin 50000, o (ix2 n (i 0)) * o (ix2 n (i 0))) (Ideal.ofBits .f32 0x47435000#32) := by
  funext i
  obtain ⟨q, rfl⟩ : ∃ q : Fin 128, i = ix1 q := ⟨i 0, eq_ix1 i⟩
  exact meansq_eq o q

/-- The column variances, as a whole vector, when every entry of the matrix is real. -/
theorem kVar_eq (o : Mat 50000 128) (hr : ∀ i, IsReal (o i)) :
    kVar (blockStats o)
      = fun i => Ideal.div (∑ n : Fin 50000,
          (o (ix2 n (i 0)) - Ideal.div (∑ n : Fin 50000, o (ix2 n (i 0))) (Ideal.ofBits .f32 0x47435000#32))
            * (o (ix2 n (i 0)) - Ideal.div (∑ n : Fin 50000, o (ix2 n (i 0))) (Ideal.ofBits .f32 0x47435000#32)))
          (Ideal.ofBits .f32 0x47435000#32) := by
  funext i
  obtain ⟨q, rfl⟩ : ∃ q : Fin 128, i = ix1 q := ⟨i 0, eq_ix1 i⟩
  exact var_eq o q fun n => hr _

end Cert.Gine.Stats

end
-- ==== Proof.LibRealOrder.lean ====
/-
  Real numbers among the extended reals: order, clamps, largest entries, and the straight-through identity.

  An extended real is real exactly when it is neither infinity; anything between two reals is real, so a clamp
  min hi (max lo y) between two real bounds is real whatever y is.  The largest entry of a nonempty finite family of
  reals is one of them, hence real, and it is nonnegative when the entries are.  The magnitude max x (-x) is
  nonnegative and is x itself for nonnegative x.  Finally x + (q - x) = q for every extended real q as soon as x is
  real (for an infinite x the left side is an infinity or its junk value): this is what lets a straight-through
  estimator's forward value be replaced by the quantized value.
-/
import proofs.«131147_j56908316672645_2_alg».proof.Proof.LibRealValued
import Mathlib.Data.EReal.Operations
import Mathlib.Order.Interval.Finset.Basic
import Mathlib.Data.Fintype.Basic
import Mathlib.Order.Lattice
import Mathlib.Data.Finset.Lattice.Fold

noncomputable section

namespace Cert.RealValued

/-- An extended real is a real number exactly when it is neither infinity. -/
theorem isReal_iff {x : EReal} : IsReal x ↔ x ≠ ⊥ ∧ x ≠ ⊤ := by
  constructor
  · rintro ⟨r, rfl⟩; exact ⟨EReal.coe_ne_bot r, EReal.coe_ne_top r⟩
  · rintro ⟨hb, ht⟩; exact ⟨x.toReal, (EReal.coe_toReal ht hb).symm⟩

/-- Anything between two reals is real. -/
theorem isReal_of_between {a b z : EReal} (ha : IsReal a) (hb : IsReal b) (h1 : a ≤ z) (h2 : z ≤ b) : IsReal z := by
  obtain ⟨r, rfl⟩ := ha
  obtain ⟨s, rfl⟩ := hb
  refine isReal_iff.mpr ⟨?_, ?_⟩
  · rintro rfl; exact EReal.coe_ne_bot r (le_bot_iff.mp h1)
  · rintro rfl; exact EReal.coe_ne_top s (top_le_iff.mp h2)

theorem IsReal.min {x y : EReal} (hx : IsReal x) (hy : IsReal y) : IsReal (min x y) := by
  rcases min_choice x y with h | h <;> rw [h] <;> assumption

theorem IsReal.neg {x : EReal} (hx : IsReal x) : IsReal (-x) := by
  obtain ⟨r, rfl⟩ := hx; exact ⟨-r, (EReal.coe_neg r).symm⟩

/-- A clamp between two reals is real, whatever is clamped. -/
theorem isReal_clamp {lo hi : EReal} (hlo : IsReal lo) (hhi : IsReal hi) (y : EReal) : IsReal (min hi (max lo y)) :=
  isReal_of_between (hhi.min hlo) hhi
    (le_min (min_le_left _ _) ((min_le_right _ _).trans (le_max_left _ _))) (min_le_left _ _)

/-- A positive real number. -/
def IsPos (s : EReal) : Prop := ∃ r : ℝ, 0 < r ∧ s = (r : EReal)

theorem IsPos.isReal {s : EReal} (h : IsPos s) : IsReal s := let ⟨r, _, e⟩ := h; ⟨r, e⟩

theorem IsPos.mul {s t : EReal} (hs : IsPos s) (ht : IsPos t) : IsPos (s * t) := by
  obtain ⟨a, ha, rfl⟩ := hs
  obtain ⟨b, hb, rfl⟩ := ht
  exact ⟨a * b, mul_pos ha hb, (EReal.coe_mul a b).symm⟩

/-- For a real x, x + (q - x) = q whatever the extended real q is. -/
theorem add_sub_cancel_of_isReal {x : EReal} (hx : IsReal x) (q : EReal) : x + (q - x) = q := by
  obtain ⟨r, rfl⟩ := hx
  induction q using EReal.rec with
  | bot => simp
  | coe s => rw [← EReal.coe_sub, ← EReal.coe_add]; congr 1; ring
  | top => simp

/-- A magnitude is nonnegative. -/
theorem abs_nonneg' (x : EReal) : 0 ≤ max x (-x) := by
  rcases le_total 0 x with h | h
  · exact le_max_of_le_left h
  · exact le_max_of_le_right (by simpa using EReal.neg_le_neg_iff.mpr h)

/-- The magnitude of a nonnegative extended real is itself. -/
theorem abs_of_nonneg' {x : EReal} (h : 0 ≤ x) : max x (-x) = x :=
  max_eq_left (le_trans (by simpa using EReal.neg_le_neg_iff.mpr h) h)

section Sup

variable {ι : Type} [Fintype ι] [Nonempty ι]

/-- The largest entry of a nonempty real family is real: it is one of the entries. -/
theorem isReal_sup (f : ι → EReal) (h : ∀ i, IsReal (f i)) : IsReal (Finset.univ.sup f) := by
  obtain ⟨i, -, hi⟩ := Finset.exists_mem_eq_sup Finset.univ Finset.univ_nonempty f
  rw [hi]; exact h i

/-- The largest entry of a nonempty nonnegative family is nonnegative. -/
theorem sup_nonneg' (f : ι → EReal) (h : ∀ i, 0 ≤ f i) : 0 ≤ Finset.univ.sup f := by
  obtain ⟨i⟩ := ‹Nonempty ι›
  exact (h i).trans (Finset.le_sup (Finset.mem_univ i))

end Sup

end Cert.RealValued

end
-- ==== Proof.Reals.lean ====
/-
  Every stage of the network maps arrays of real entries to arrays of real entries.

  An entry of a dense layer is a finite sum of products plus one entry; the rectifier is a maximum with zero; the
  normalisation is a difference and two products plus one entry.  Sums, products, differences and maxima of real
  numbers are real, so each of these stages keeps real entries real.  One round of message passing gathers rows of a
  real array (each entry of the result is an entry of the operand), adds the edge rows, rectifies, and accumulates the
  result into the zero array: every entry of the outcome is zero plus a finite sum of real entries.  The column mean
  is a finite sum of reals divided by the real number 50000; the column variance, a sum of squares of real deviations
  divided by 50000, is real and nonnegative; and the inverse square root of a nonnegative real plus a positive real
  constant is the inverse of a positive square root, which is real.
-/
import proofs.«131147_j56908316672645_2_alg».proof.Proof.Spec
import proofs.«131147_j56908316672645_2_alg».proof.Proof.Aggr
import proofs.«131147_j56908316672645_2_alg».proof.Proof.LibRealValued
import proofs.«131147_j56908316672645_2_alg».proof.Proof.LibRealOrder
import proofs.«131147_j56908316672645_2_alg».proof.Proof.LibRowVector
import Idealize.ShloMosaic.PureOps.Ideal
import Idealize.ShloMosaic.PureOps.Ideal.Laws
import Idealize.ShloMosaic.Lib.ValueIdx

noncomputable section

namespace Cert.Gine.Reals

open Cert.RealValued Idealize.ShloMosaic Idealize.ShloMosaic.ValueIdx

/-! ## Differences -/

/-- The difference of two reals is real. -/
theorem isReal_sub {x y : EReal} (hx : IsReal x) (hy : IsReal y) : IsReal (x - y) := by
  obtain ⟨a, rfl⟩ := hx
  obtain ⟨b, rfl⟩ := hy
  exact ⟨a - b, (EReal.coe_sub a b).symm⟩

/-! ## The stages of the specification -/

/-- A dense layer of real matrices is real. -/
theorem affine_real {M K N : ℕ} (x : Mat M K) (W : Mat K N) (b : Mat 1 N) (hx : ∀ i, IsReal (x i))
    (hW : ∀ i, IsReal (W i)) (hb : ∀ i, IsReal (b i)) : ∀ i, IsReal (affine x W b i) := fun i =>
  (isReal_sum _ _ fun k _ => (hx _).mul (hW _)).add (hb _)

/-- The rectifier of a real matrix is real. -/
theorem relu_real {M N : ℕ} (x : Mat M N) (hx : ∀ i, IsReal (x i)) : ∀ i, IsReal (relu x i) := fun i =>
  (hx i).max isReal_zero

/-- A real vector laid out as one row is real. -/
theorem row_real {n : ℕ} (b : Vect n) (hb : ∀ i, IsReal (b i)) : ∀ i, IsReal (row b i) := fun i => hb _

/-- A real one-column matrix laid out as one row is real. -/
theorem colAsRow_real {n : ℕ} (w : Mat n 1) (hw : ∀ i, IsReal (w i)) : ∀ i, IsReal (colAsRow w i) := fun i => hw _

/-- A real vector of length one as a one-by-one matrix is real. -/
theorem cell_real (b : Vect 1) (hb : ∀ i, IsReal (b i)) : ∀ i, IsReal (cell b i) := fun i => hb _

/-- The inner network of a convolution keeps real entries real. -/
theorem mlp_real {M D H C : ℕ} (h a : Mat M D) (W1 : Mat D H) (b1 : Mat 1 H) (W2 : Mat H C) (b2 : Mat 1 C)
    (hh : ∀ i, IsReal (h i)) (ha : ∀ i, IsReal (a i)) (hW1 : ∀ i, IsReal (W1 i)) (hb1 : ∀ i, IsReal (b1 i))
    (hW2 : ∀ i, IsReal (W2 i)) (hb2 : ∀ i, IsReal (b2 i)) : ∀ i, IsReal (mlp h a W1 b1 W2 b2 i) :=
  affine_real _ _ _ (relu_real _ (affine_real _ _ _ (fun i => (hh i).add (ha i)) hW1 hb1)) hW2 hb2

/-- The normalisation with real statistics, scale and shift keeps real entries real. -/
theorem normalize_real {M N : ℕ} (h : Mat M N) (mu s g b : Mat 1 N) (hh : ∀ i, IsReal (h i))
    (hmu : ∀ i, IsReal (mu i)) (hs : ∀ i, IsReal (s i)) (hg : ∀ i, IsReal (g i)) (hb : ∀ i, IsReal (b i)) :
    ∀ i, IsReal (normalize h mu s g b i) := fun i =>
  (((isReal_sub (hh i) (hmu _)).mul (hs _)).mul (hg _)).add (hb _)

/-! ## Gathers, accumulating scatters and the zero array, for any dimension numbers -/

/-- Every entry of a gather is an entry of its operand. -/
theorem gather_real {s si t : Shape} {w : ℕ} (d : GatherDims s si t) (x : s.Idx → EReal) (idx : IVec si w)
    (hx : ∀ i, IsReal (x i)) : ∀ j, IsReal (Host.gather d x idx j) := fun j => hx _

/-- Every entry of an accumulating scatter is the operand's entry plus a finite sum of update entries. -/
theorem scatterAdd_real {s si su : Shape} {w : ℕ} (d : ScatterDims s si su) (x : FVec Ideal s .f32) (idx : IVec si w)
    (U : FVec Ideal su .f32) (hx : ∀ i, IsReal (x i)) (hU : ∀ j, IsReal (U j)) :
    ∀ i, IsReal (Host.scatterAdd d x idx U i) := fun i => by
  show IsReal (x i + ∑ j ∈ Finset.univ.filter (fun j => d.resultIdx? j idx = some i), U j)
  exact (hx i).add (isReal_sum _ _ fun j _ => hU j)

/-- The zero word repeated over any shape reads zero everywhere. -/
theorem splat_zero {s : Shape} (h : (⟨0, ![]⟩ : Shape).BroadcastsInDim s ![]) (i : s.Idx) :
    broadcastInDim s ![] h (constant (F := Ideal) ⟨0, ![]⟩ .f32 0x00000000#32) i = 0 := by
  rw [Cert.LibRowVector.inDimScalar_apply]
  exact Ideal.ofBits_zero_f32

/-- One round of message passing, in the reference program's spelling, keeps real entries real. -/
theorem aggrR_real (x : FVec Ideal Cert.ReferenceIdeal.S50000x128 .f32) (src dst : IVec Cert.ReferenceIdeal.S600000 32)
    (e : FVec Ideal Cert.ReferenceIdeal.S600000x128 .f32) (hx : ∀ i, IsReal (x i)) (he : ∀ i, IsReal (e i)) :
    ∀ i, IsReal (aggrR x src dst e i) := by
  unfold aggrR
  refine scatterAdd_real _ _ _ _ (fun i => ?_) (fun j => ?_)
  · rw [splat_zero]; exact isReal_zero
  · rw [maximumf_apply, addf_apply, splat_zero]
    exact ((gather_real _ _ _ hx _).add (he j)).max isReal_zero

/-- The same round in the kernel program's spelling. -/
theorem aggrK_real (x : FVec Ideal Cert.KernelIdeal.S50000x128 .f32) (src dst : IVec Cert.KernelIdeal.S600000 32)
    (e : FVec Ideal Cert.KernelIdeal.S600000x128 .f32) (hx : ∀ i, IsReal (x i)) (he : ∀ i, IsReal (e i)) :
    ∀ i, IsReal (aggrK x src dst e i) := by
  rw [aggrK_eq_aggrR]
  exact aggrR_real x src dst e hx he

/-! ## The two constants of the statistics -/

/-- The word of 50000.0 denotes the real number 50000. -/
theorem ofBits_50000 : Ideal.ofBits .f32 0x47435000#32 = ((50000 : ℝ) : EReal) := by
  simp [Ideal.ofBits, Ideal.ieee, -EReal.coe_mul]; norm_num

/-- The word of the small constant denotes the positive real number 10995116 / 2 ^ 40, about one hundred-thousandth. -/
theorem ofBits_eps : Ideal.ofBits .f32 0x3727C5AC#32 = ((10995116 / 1099511627776 : ℝ) : EReal) := by
  simp [Ideal.ofBits, Ideal.ieee, -EReal.coe_mul]; norm_num

/-- The small constant is a positive real. -/
theorem eps_pos : IsPos (Ideal.ofBits .f32 0x3727C5AC#32) :=
  ⟨10995116 / 1099511627776, by norm_num, ofBits_eps⟩

/-! ## The column statistics -/

/-- The mean of 50000 real entries is real. -/
theorem mean_real (o : Fin 50000 → EReal) (ho : ∀ n, IsReal (o n)) :
    IsReal (Ideal.div (∑ n : Fin 50000, o n) (Ideal.ofBits .f32 0x47435000#32)) := by
  rw [ofBits_50000, Ideal.div_coe (by norm_num)]
  exact (isReal_sum _ _ fun n _ => ho n).mul (isReal_coe _)

/-- The inverse square root of a nonnegative real plus the small constant is real: the sum is a positive real r,
    and the inverse square root of r is the real number 1 / sqrt r. -/
theorem istd_real (v : EReal) (hv : IsReal v) (h0 : 0 ≤ v) :
    IsReal (Ideal.rsqrt (v + Ideal.ofBits .f32 0x3727C5AC#32)) := by
  obtain ⟨a, rfl⟩ := hv
  obtain ⟨r, hr, er⟩ := eps_pos
  have ha : (0 : ℝ) ≤ a := by exact_mod_cast h0
  rw [er, ← EReal.coe_add, Ideal.rsqrt_coe, if_neg (by linarith), if_neg (by linarith)]
  exact isReal_coe _

/-- The same at an entry of an array of any shape: the array's entry plus the constant repeated over the shape, under
    the entrywise inverse square root. -/
theorem istd_vec_real {s : Shape} (v : FVec Ideal s .f32) (hb : (⟨0, ![]⟩ : Shape).BroadcastsInDim s ![]) (i : s.Idx)
    (hv : IsReal (v i)) (h0 : 0 ≤ v i) :
    IsReal ((Host.rsqrt (addf v (broadcastInDim s ![] hb (constant (F := Ideal) ⟨0, ![]⟩ .f32 0x3727C5AC#32)))) i) := by
  show IsReal (Ideal.rsqrt (v i + broadcastInDim s ![] hb (constant (F := Ideal) ⟨0, ![]⟩ .f32 0x3727C5AC#32) i))
  rw [Cert.LibRowVector.inDimScalar_apply]
  exact istd_real (v i) hv h0

/-- The same for a vector of 128 columns at column q. -/
theorem istd_vec128_real (v : FVec Ideal ⟨1, ![128]⟩ .f32) (hb : (⟨0, ![]⟩ : Shape).BroadcastsInDim ⟨1, ![128]⟩ ![])
    (q : Fin 128) (hv : IsReal (v (ix1 q))) (h0 : 0 ≤ v (ix1 q)) :
    IsReal ((Host.rsqrt (addf v (broadcastInDim ⟨1, ![128]⟩ ![] hb (constant (F := Ideal) ⟨0, ![]⟩ .f32 0x3727C5AC#32))))
      (ix1 q)) :=
  istd_vec_real v hb (ix1 q) hv h0

/-- The mean of the squared deviations of 50000 real entries from a real number is real and nonnegative. -/
theorem var_nonneg_real (o : Fin 50000 → EReal) (ho : ∀ n, IsReal (o n)) (μ : EReal) (hμ : IsReal μ) :
    IsReal (Ideal.div (∑ n : Fin 50000, (o n - μ) * (o n - μ)) (Ideal.ofBits .f32 0x47435000#32))
      ∧ 0 ≤ Ideal.div (∑ n : Fin 50000, (o n - μ) * (o n - μ)) (Ideal.ofBits .f32 0x47435000#32) := by
  obtain ⟨m, rfl⟩ := hμ
  choose f hf using ho
  have e : ∀ n : Fin 50000, (o n - (m : EReal)) * (o n - (m : EReal)) = (((f n - m) * (f n - m) : ℝ) : EReal) := fun n => by
    rw [hf n, ← EReal.coe_sub, ← EReal.coe_mul]
  rw [ofBits_50000, Ideal.div_coe (by norm_num), Finset.sum_congr rfl (fun n _ => e n), ← coe_sum, ← EReal.coe_mul]
  refine ⟨isReal_coe _, ?_⟩
  have hnn : (0 : ℝ) ≤ (∑ n : Fin 50000, (f n - m) * (f n - m)) * (1 / 50000) :=
    mul_nonneg (Finset.sum_nonneg fun n _ => mul_self_nonneg _) (by norm_num)
  exact_mod_cast hnn

end Cert.Gine.Reals

end
-- ==== Proof.RefAggr.lean ====
/-
  The two aggregation stages of the reference as one round of message passing, and the realness of its stages.

  Each aggregation of the reference gathers the source rows, adds the edge embedding, rectifies, and scatters the sums
  to the destination rows: the same array operations, in the same order, as the round of message passing of the
  specification, so the two are equal by unfolding.  The source and destination lists are the two rows of the edge list.
  When every input entry is a real number, so is every entry of every stage up to the second inner network: a dense
  layer, a rectifier, a finite sum, a mean, and a normalisation by a positive deviation keep real entries real.
-/
import proofs.«131147_j56908316672645_2_alg».proof.Proof.Gen.ReferenceIdeal.Read
import proofs.«131147_j56908316672645_2_alg».proof.Proof.Spec
import proofs.«131147_j56908316672645_2_alg».proof.Proof.Aggr
import proofs.«131147_j56908316672645_2_alg».proof.Proof.RefStages
import proofs.«131147_j56908316672645_2_alg».proof.Proof.LibRealValued
import proofs.«131147_j56908316672645_2_alg».proof.Proof.Reals

noncomputable section

namespace Cert.ReferenceIdeal.AggrStages

open Cert.ReferenceIdeal Cert.ReferenceIdeal.Gen Cert.ReferenceIdeal.Read Cert.ReferenceIdeal.Stages Idealize.ShloMosaic
  Idealize.ShloMosaic.TcCoe Idealize.SL.Sem Idealize.ShloMosaic.StableHlo Idealize.ShloMosaic.ValueIdx Cert.RealValued

variable (x0 : (⟨S50000x128, .f32⟩ : BufTy).Contents (Elt Ideal))
  (x1 : (⟨S2x600000, .i32⟩ : BufTy).Contents (Elt Ideal))
  (x2 : (⟨S600000x64, .f32⟩ : BufTy).Contents (Elt Ideal))
  (x3 : (⟨S64x128, .f32⟩ : BufTy).Contents (Elt Ideal))
  (x4 : (⟨S128, .f32⟩ : BufTy).Contents (Elt Ideal))
  (x5 : (⟨S64x128, .f32⟩ : BufTy).Contents (Elt Ideal))
  (x6 : (⟨S128, .f32⟩ : BufTy).Contents (Elt Ideal))
  (x7 : (⟨S128x256, .f32⟩ : BufTy).Contents (Elt Ideal))
  (x8 : (⟨S256, .f32⟩ : BufTy).Contents (Elt Ideal))
  (x9 : (⟨S256x128, .f32⟩ : BufTy).Contents (Elt Ideal))
  (x10 : (⟨S128, .f32⟩ : BufTy).Contents (Elt Ideal))
  (x11 : (⟨S128x256, .f32⟩ : BufTy).Contents (Elt Ideal))
  (x12 : (⟨S256, .f32⟩ : BufTy).Contents (Elt Ideal))
  (x13 : (⟨S256x128, .f32⟩ : BufTy).Contents (Elt Ideal))
  (x14 : (⟨S128, .f32⟩ : BufTy).Contents (Elt Ideal))
  (x15 : (⟨S128, .f32⟩ : BufTy).Contents (Elt Ideal))
  (x16 : (⟨S128, .f32⟩ : BufTy).Contents (Elt Ideal))
  (x17 : (⟨S128, .f32⟩ : BufTy).Contents (Elt Ideal))
  (x18 : (⟨S128, .f32⟩ : BufTy).Contents (Elt Ideal))
  (x19 : (⟨S128x512, .f32⟩ : BufTy).Contents (Elt Ideal))
  (x20 : (⟨S512, .f32⟩ : BufTy).Contents (Elt Ideal))
  (x21 : (⟨S512x1, .f32⟩ : BufTy).Contents (Elt Ideal))
  (x22 : (⟨S1, .f32⟩ : BufTy).Contents (Elt Ideal))

/-- The source list: row 0 of the edge list. -/
theorem src_eq : val_main_v1 (F := Ideal) x1
    = shapeCast S600000 (extractStridedSlice S1x600000 ![0, 0] x1 slices_S2x600000_S1x600000_0_0) shapeCasts_S1x600000_S600000 := rfl

/-- The destination list: row 1 of the edge list. -/
theorem dst_eq : val_main_v3 (F := Ideal) x1
    = shapeCast S600000 (extractStridedSlice S1x600000 ![1, 0] x1 slices_S2x600000_S1x600000_1_0) shapeCasts_S1x600000_S600000 := rfl

/-- The first aggregation is one round of message passing over the node features and the layer-0 edge embedding. -/
theorem aggr0 : val_main_v19 (F := Ideal) x0 x1 x2 x3 x4
    = Cert.Gine.aggrR x0 (val_main_v1 (F := Ideal) x1) (val_main_v3 (F := Ideal) x1) (val_main_v7 (F := Ideal) x2 x3 x4) := rfl

/-- The second aggregation is one round over the normalised layer-0 output and the layer-1 edge embedding. -/
theorem aggr1 : val_main_v71 (F := Ideal) x0 x1 x2 x3 x4 x5 x6 x7 x8 x9 x10 x15 x16
    = Cert.Gine.aggrR (val_main_v55 (F := Ideal) x0 x1 x2 x3 x4 x7 x8 x9 x10 x15 x16) (val_main_v1 (F := Ideal) x1) (val_main_v3 (F := Ideal) x1)
        (val_main_v59 (F := Ideal) x2 x5 x6) := rfl

/-- The layer-0 edge embedding of real inputs is real. -/
theorem real_v7 (r2 : ∀ i, IsReal (x2 i)) (r3 : ∀ i, IsReal (x3 i)) (r4 : ∀ i, IsReal (x4 i)) :
    ∀ i, IsReal (val_main_v7 (F := Ideal) x2 x3 x4 i) := by
  rw [embed0]
  exact Cert.Gine.Reals.affine_real x2 x3 _ r2 r3 (Cert.Gine.Reals.row_real x4 r4)

/-- The layer-1 edge embedding of real inputs is real. -/
theorem real_v59 (r2 : ∀ i, IsReal (x2 i)) (r5 : ∀ i, IsReal (x5 i)) (r6 : ∀ i, IsReal (x6 i)) :
    ∀ i, IsReal (val_main_v59 (F := Ideal) x2 x5 x6 i) := by
  rw [embed1]
  exact Cert.Gine.Reals.affine_real x2 x5 _ r2 r5 (Cert.Gine.Reals.row_real x6 r6)

/-- The layer-0 output of real inputs is real. -/
theorem real_v29 (r0 : ∀ i, IsReal (x0 i)) (r2 : ∀ i, IsReal (x2 i)) (r3 : ∀ i, IsReal (x3 i)) (r4 : ∀ i, IsReal (x4 i))
    (r7 : ∀ i, IsReal (x7 i)) (r8 : ∀ i, IsReal (x8 i)) (r9 : ∀ i, IsReal (x9 i)) (r10 : ∀ i, IsReal (x10 i)) :
    ∀ i, IsReal (val_main_v29 (F := Ideal) x0 x1 x2 x3 x4 x7 x8 x9 x10 i) := by
  rw [inner0, aggr0]
  exact Cert.Gine.Reals.mlp_real x0 _ x7 _ x9 _ r0 (Cert.Gine.Reals.aggrR_real x0 _ _ _ r0 (real_v7 x2 x3 x4 r2 r3 r4)) r7
    (Cert.Gine.Reals.row_real x8 r8) r9 (Cert.Gine.Reals.row_real x10 r10)

/-- The column means of a real layer-0 output are real. -/
theorem real_v32 (r29 : ∀ i, IsReal (val_main_v29 (F := Ideal) x0 x1 x2 x3 x4 x7 x8 x9 x10 i)) :
    ∀ i, IsReal (val_main_v32 (F := Ideal) x0 x1 x2 x3 x4 x7 x8 x9 x10 i) := by
  intro i
  obtain ⟨q, rfl⟩ : ∃ q : Fin 128, i = ix1 q := ⟨i 0, eq_ix1 i⟩
  rw [mean0]
  exact Cert.Gine.Reals.mean_real _ fun n => r29 _

/-- The inverse deviations of a real layer-0 output are real: the variance is a nonnegative real, so the variance plus
    the small positive constant is a positive real. -/
theorem real_v45 (r29 : ∀ i, IsReal (val_main_v29 (F := Ideal) x0 x1 x2 x3 x4 x7 x8 x9 x10 i)) :
    ∀ i, IsReal (val_main_v45 (F := Ideal) x0 x1 x2 x3 x4 x7 x8 x9 x10 i) := by
  intro i
  obtain ⟨q, rfl⟩ : ∃ q : Fin 128, i = ix1 q := ⟨i 0, eq_ix1 i⟩
  show IsReal (Ideal.rsqrt (val_main_v39 (F := Ideal) x0 x1 x2 x3 x4 x7 x8 x9 x10 (ix1 q) + Ideal.ofBits .f32 0x3727C5AC#32))
  rw [var0]
  obtain ⟨hv, h0⟩ := Cert.Gine.Reals.var_nonneg_real (fun n => val_main_v29 (F := Ideal) x0 x1 x2 x3 x4 x7 x8 x9 x10 (ix2 n q)) (fun n => r29 _)
    (val_main_v32 (F := Ideal) x0 x1 x2 x3 x4 x7 x8 x9 x10 (ix1 q)) (real_v32 x0 x1 x2 x3 x4 x7 x8 x9 x10 r29 _)
  exact Cert.Gine.Reals.istd_real _ hv h0

/-- The normalised and rectified layer-0 output is real when the layer-0 output and the scale and shift are. -/
theorem real_v55 (r29 : ∀ i, IsReal (val_main_v29 (F := Ideal) x0 x1 x2 x3 x4 x7 x8 x9 x10 i))
    (r15 : ∀ i, IsReal (x15 i)) (r16 : ∀ i, IsReal (x16 i)) :
    ∀ i, IsReal (val_main_v55 (F := Ideal) x0 x1 x2 x3 x4 x7 x8 x9 x10 x15 x16 i) := by
  rw [norm0]
  exact Cert.Gine.Reals.relu_real _ (Cert.Gine.Reals.normalize_real _ _ _ _ _ r29 (Cert.Gine.Reals.row_real _ (real_v32 x0 x1 x2 x3 x4 x7 x8 x9 x10 r29))
    (Cert.Gine.Reals.row_real _ (real_v45 x0 x1 x2 x3 x4 x7 x8 x9 x10 r29)) (Cert.Gine.Reals.row_real x15 r15) (Cert.Gine.Reals.row_real x16 r16))

/-- The layer-1 output of real inputs is real. -/
theorem real_v81 (r0 : ∀ i, IsReal (x0 i)) (r2 : ∀ i, IsReal (x2 i)) (r3 : ∀ i, IsReal (x3 i)) (r4 : ∀ i, IsReal (x4 i))
    (r5 : ∀ i, IsReal (x5 i)) (r6 : ∀ i, IsReal (x6 i))
    (r7 : ∀ i, IsReal (x7 i)) (r8 : ∀ i, IsReal (x8 i)) (r9 : ∀ i, IsReal (x9 i)) (r10 : ∀ i, IsReal (x10 i))
    (r11 : ∀ i, IsReal (x11 i)) (r12 : ∀ i, IsReal (x12 i)) (r13 : ∀ i, IsReal (x13 i)) (r14 : ∀ i, IsReal (x14 i))
    (r15 : ∀ i, IsReal (x15 i)) (r16 : ∀ i, IsReal (x16 i)) :
    ∀ i, IsReal (val_main_v81 (F := Ideal) x0 x1 x2 x3 x4 x5 x6 x7 x8 x9 x10 x11 x12 x13 x14 x15 x16 i) := by
  have r29 := real_v29 x0 x1 x2 x3 x4 x7 x8 x9 x10 r0 r2 r3 r4 r7 r8 r9 r10
  have r55 := real_v55 x0 x1 x2 x3 x4 x7 x8 x9 x10 x15 x16 r29 r15 r16
  rw [inner1, aggr1]
  exact Cert.Gine.Reals.mlp_real _ _ x11 _ x13 _ r55 (Cert.Gine.Reals.aggrR_real _ _ _ _ r55 (real_v59 x2 x5 x6 r2 r5 r6)) r11
    (Cert.Gine.Reals.row_real x12 r12) r13 (Cert.Gine.Reals.row_real x14 r14)

end Cert.ReferenceIdeal.AggrStages

end
-- ==== Proof.Bridge.lean ====
/-
  The kernel program's result is the reference program's result.

  Both programs compute the same network: the edge features embedded for the two layers, two rounds of message passing
  each followed by the inner network and a normalisation, and the readout.  The kernel program embeds the edges for both
  layers with one dense layer whose weights are the two layers' weights side by side, and cuts the result in two; it
  obtains each column mean and variance from per-block column sums and sums of squares, the variance as the mean of
  the squares minus the squared mean clamped at zero.  Setting weights side by side computes the two layers separately;
  the block sums add up to the column sums because every row lies in one block; and for a column of real numbers the
  mean of the squares minus the squared mean is the mean of the squared deviations, which is not negative.  Every
  stage before a variance has real entries when the inputs do.  So stage by stage the two programs' arrays are equal.
-/
import proofs.«131147_j56908316672645_2_alg».proof.Proof.GlueDefs
import proofs.«131147_j56908316672645_2_alg».proof.Proof.RefStages
import proofs.«131147_j56908316672645_2_alg».proof.Proof.Layout
import proofs.«131147_j56908316672645_2_alg».proof.Proof.Stats
import proofs.«131147_j56908316672645_2_alg».proof.Proof.Reals
import proofs.«131147_j56908316672645_2_alg».proof.Proof.RefAggr

set_option maxRecDepth 16384

noncomputable section

namespace Cert.Bridge

open Cert.KernelIdeal Cert.KernelIdeal.Gen Cert.KernelIdeal.Glue Cert.RealValued
open Idealize.ShloMosaic Idealize.ShloMosaic.TcCoe Idealize.ShloMosaic.ValueIdx Idealize.SL.Sem Idealize.ShloMosaic.StableHlo

/-! ## The statistics of one layer -/

/-- For a matrix of real entries, the column means finished from the block sums are the column means, and the inverse
    deviations finished from the block sums are the inverse square roots of the column variances plus the small
    constant, the variance being the mean of the squared deviations from the mean. -/
theorem layer_stats (o : Cert.Gine.Mat 50000 128) (hr : ∀ i, IsReal (o i)) (mu var : FVec Ideal S128 .f32)
    (hmu : ∀ q : Fin 128, mu (ix1 q) = Ideal.div (∑ n : Fin 50000, o (ix2 n q)) (Ideal.ofBits .f32 0x47435000#32))
    (hvar : ∀ q : Fin 128, var (ix1 q)
      = Ideal.div (∑ n : Fin 50000, (o (ix2 n q) - mu (ix1 q)) * (o (ix2 n q) - mu (ix1 q))) (Ideal.ofBits .f32 0x47435000#32)) :
    Cert.Gine.kMean (Cert.Gine.blockStats o) = mu
    ∧ Cert.Gine.kIstd (Cert.Gine.blockStats o)
      = Host.rsqrt (addf var (broadcastInDim S128 ![] bcast_S_S128 (constant (F := Ideal) S_ .f32 0x3727C5AC#32))) := by
  have hm : Cert.Gine.kMean (Cert.Gine.blockStats o) = mu := by
    funext i
    obtain ⟨q, rfl⟩ : ∃ q : Fin 128, i = ix1 q := ⟨i 0, eq_ix1 i⟩
    rw [Cert.Gine.Stats.mean_eq, hmu]
  have hv : Cert.Gine.kVar (Cert.Gine.blockStats o) = var := by
    funext i
    obtain ⟨q, rfl⟩ : ∃ q : Fin 128, i = ix1 q := ⟨i 0, eq_ix1 i⟩
    rw [Cert.Gine.Stats.var_eq o q (fun n => hr _), hvar, hmu]
  refine ⟨hm, ?_⟩
  show Host.rsqrt (addf (Cert.Gine.kVar (Cert.Gine.blockStats o)) _) = _
  rw [hv]

/-! ## Stage by stage -/

section Stages

variable (Z : Valuation τ sig (Elt Ideal))

/-- The two halves of the joint edge embedding are the two layers' edge embeddings. -/
theorem e0_eq : e0 Z = (Cert.ReferenceIdeal.Read.val_main_v7 (F := Ideal) (Z (Proc.devRef .tc main_arg2)) (Z (Proc.devRef .tc main_arg3)) (Z (Proc.devRef .tc main_arg4))) := by
  unfold e0 e01
  exact (Cert.Gine.Layout.embed_lo (Z (Proc.devRef .tc main_arg2)) (Z (Proc.devRef .tc main_arg3)) (Z (Proc.devRef .tc main_arg5)) (Z (Proc.devRef .tc main_arg4)) (Z (Proc.devRef .tc main_arg6)) _ _ _ _).trans (Cert.ReferenceIdeal.Stages.embed0 (Z (Proc.devRef .tc main_arg2)) (Z (Proc.devRef .tc main_arg3)) (Z (Proc.devRef .tc main_arg4))).symm

@[inherit_doc e0_eq]
theorem e1_eq : e1 Z = (Cert.ReferenceIdeal.Read.val_main_v59 (F := Ideal) (Z (Proc.devRef .tc main_arg2)) (Z (Proc.devRef .tc main_arg5)) (Z (Proc.devRef .tc main_arg6))) := by
  unfold e1 e01
  exact (Cert.Gine.Layout.embed_hi (Z (Proc.devRef .tc main_arg2)) (Z (Proc.devRef .tc main_arg3)) (Z (Proc.devRef .tc main_arg5)) (Z (Proc.devRef .tc main_arg4)) (Z (Proc.devRef .tc main_arg6)) _ _ _ _).trans (Cert.ReferenceIdeal.Stages.embed1 (Z (Proc.devRef .tc main_arg2)) (Z (Proc.devRef .tc main_arg5)) (Z (Proc.devRef .tc main_arg6))).symm

/-- The first round of message passing. -/
theorem ag0_eq : ag0 Z = (Cert.ReferenceIdeal.Read.val_main_v19 (F := Ideal) (Z (Proc.devRef .tc main_arg0)) (Z (Proc.devRef .tc main_arg1)) (Z (Proc.devRef .tc main_arg2)) (Z (Proc.devRef .tc main_arg3)) (Z (Proc.devRef .tc main_arg4))) := by
  unfold ag0
  rw [Cert.Gine.aggrK_eq_aggrR, e0_eq]
  rfl

/-- The first inner network. -/
theorem h0raw_eq : h0raw Z = (Cert.ReferenceIdeal.Read.val_main_v29 (F := Ideal) (Z (Proc.devRef .tc main_arg0)) (Z (Proc.devRef .tc main_arg1)) (Z (Proc.devRef .tc main_arg2)) (Z (Proc.devRef .tc main_arg3)) (Z (Proc.devRef .tc main_arg4)) (Z (Proc.devRef .tc main_arg7)) (Z (Proc.devRef .tc main_arg8)) (Z (Proc.devRef .tc main_arg9)) (Z (Proc.devRef .tc main_arg10))) := by
  unfold h0raw
  rw [ag0_eq, Cert.Gine.Layout.cast_row, Cert.Gine.Layout.cast_row]
  exact (Cert.ReferenceIdeal.Stages.inner0 (Z (Proc.devRef .tc main_arg0)) (Z (Proc.devRef .tc main_arg1)) (Z (Proc.devRef .tc main_arg2)) (Z (Proc.devRef .tc main_arg3)) (Z (Proc.devRef .tc main_arg4)) (Z (Proc.devRef .tc main_arg7)) (Z (Proc.devRef .tc main_arg8)) (Z (Proc.devRef .tc main_arg9)) (Z (Proc.devRef .tc main_arg10))).symm

/-- The first inner network's output has real entries when the inputs do. -/
theorem real29 (r0 : ∀ i, IsReal ((Z (Proc.devRef .tc main_arg0)) i)) (r2 : ∀ i, IsReal ((Z (Proc.devRef .tc main_arg2)) i)) (r3 : ∀ i, IsReal ((Z (Proc.devRef .tc main_arg3)) i)) (r4 : ∀ i, IsReal ((Z (Proc.devRef .tc main_arg4)) i)) (r7 : ∀ i, IsReal ((Z (Proc.devRef .tc main_arg7)) i)) (r8 : ∀ i, IsReal ((Z (Proc.devRef .tc main_arg8)) i)) (r9 : ∀ i, IsReal ((Z (Proc.devRef .tc main_arg9)) i)) (r10 : ∀ i, IsReal ((Z (Proc.devRef .tc main_arg10)) i)) : ∀ i, IsReal ((Cert.ReferenceIdeal.Read.val_main_v29 (F := Ideal) (Z (Proc.devRef .tc main_arg0)) (Z (Proc.devRef .tc main_arg1)) (Z (Proc.devRef .tc main_arg2)) (Z (Proc.devRef .tc main_arg3)) (Z (Proc.devRef .tc main_arg4)) (Z (Proc.devRef .tc main_arg7)) (Z (Proc.devRef .tc main_arg8)) (Z (Proc.devRef .tc main_arg9)) (Z (Proc.devRef .tc main_arg10))) i) :=
  Cert.ReferenceIdeal.AggrStages.real_v29 (Z (Proc.devRef .tc main_arg0)) (Z (Proc.devRef .tc main_arg1)) (Z (Proc.devRef .tc main_arg2)) (Z (Proc.devRef .tc main_arg3)) (Z (Proc.devRef .tc main_arg4)) (Z (Proc.devRef .tc main_arg7)) (Z (Proc.devRef .tc main_arg8)) (Z (Proc.devRef .tc main_arg9)) (Z (Proc.devRef .tc main_arg10))
    r0 r2 r3 r4 r7 r8 r9 r10

/-- The first layer's statistics. -/
theorem stats0 (r0 : ∀ i, IsReal ((Z (Proc.devRef .tc main_arg0)) i)) (r2 : ∀ i, IsReal ((Z (Proc.devRef .tc main_arg2)) i)) (r3 : ∀ i, IsReal ((Z (Proc.devRef .tc main_arg3)) i)) (r4 : ∀ i, IsReal ((Z (Proc.devRef .tc main_arg4)) i)) (r7 : ∀ i, IsReal ((Z (Proc.devRef .tc main_arg7)) i)) (r8 : ∀ i, IsReal ((Z (Proc.devRef .tc main_arg8)) i)) (r9 : ∀ i, IsReal ((Z (Proc.devRef .tc main_arg9)) i)) (r10 : ∀ i, IsReal ((Z (Proc.devRef .tc main_arg10)) i)) :
    Cert.Gine.kMean (Cert.Gine.blockStats (Cert.ReferenceIdeal.Read.val_main_v29 (F := Ideal) (Z (Proc.devRef .tc main_arg0)) (Z (Proc.devRef .tc main_arg1)) (Z (Proc.devRef .tc main_arg2)) (Z (Proc.devRef .tc main_arg3)) (Z (Proc.devRef .tc main_arg4)) (Z (Proc.devRef .tc main_arg7)) (Z (Proc.devRef .tc main_arg8)) (Z (Proc.devRef .tc main_arg9)) (Z (Proc.devRef .tc main_arg10)))) = (Cert.ReferenceIdeal.Read.val_main_v32 (F := Ideal) (Z (Proc.devRef .tc main_arg0)) (Z (Proc.devRef .tc main_arg1)) (Z (Proc.devRef .tc main_arg2)) (Z (Proc.devRef .tc main_arg3)) (Z (Proc.devRef .tc main_arg4)) (Z (Proc.devRef .tc main_arg7)) (Z (Proc.devRef .tc main_arg8)) (Z (Proc.devRef .tc main_arg9)) (Z (Proc.devRef .tc main_arg10))) ∧ Cert.Gine.kIstd (Cert.Gine.blockStats (Cert.ReferenceIdeal.Read.val_main_v29 (F := Ideal) (Z (Proc.devRef .tc main_arg0)) (Z (Proc.devRef .tc main_arg1)) (Z (Proc.devRef .tc main_arg2)) (Z (Proc.devRef .tc main_arg3)) (Z (Proc.devRef .tc main_arg4)) (Z (Proc.devRef .tc main_arg7)) (Z (Proc.devRef .tc main_arg8)) (Z (Proc.devRef .tc main_arg9)) (Z (Proc.devRef .tc main_arg10)))) = (Cert.ReferenceIdeal.Read.val_main_v45 (F := Ideal) (Z (Proc.devRef .tc main_arg0)) (Z (Proc.devRef .tc main_arg1)) (Z (Proc.devRef .tc main_arg2)) (Z (Proc.devRef .tc main_arg3)) (Z (Proc.devRef .tc main_arg4)) (Z (Proc.devRef .tc main_arg7)) (Z (Proc.devRef .tc main_arg8)) (Z (Proc.devRef .tc main_arg9)) (Z (Proc.devRef .tc main_arg10))) :=
  layer_stats (Cert.ReferenceIdeal.Read.val_main_v29 (F := Ideal) (Z (Proc.devRef .tc main_arg0)) (Z (Proc.devRef .tc main_arg1)) (Z (Proc.devRef .tc main_arg2)) (Z (Proc.devRef .tc main_arg3)) (Z (Proc.devRef .tc main_arg4)) (Z (Proc.devRef .tc main_arg7)) (Z (Proc.devRef .tc main_arg8)) (Z (Proc.devRef .tc main_arg9)) (Z (Proc.devRef .tc main_arg10))) (real29 Z r0 r2 r3 r4 r7 r8 r9 r10) (Cert.ReferenceIdeal.Read.val_main_v32 (F := Ideal) (Z (Proc.devRef .tc main_arg0)) (Z (Proc.devRef .tc main_arg1)) (Z (Proc.devRef .tc main_arg2)) (Z (Proc.devRef .tc main_arg3)) (Z (Proc.devRef .tc main_arg4)) (Z (Proc.devRef .tc main_arg7)) (Z (Proc.devRef .tc main_arg8)) (Z (Proc.devRef .tc main_arg9)) (Z (Proc.devRef .tc main_arg10))) (Cert.ReferenceIdeal.Read.val_main_v39 (F := Ideal) (Z (Proc.devRef .tc main_arg0)) (Z (Proc.devRef .tc main_arg1)) (Z (Proc.devRef .tc main_arg2)) (Z (Proc.devRef .tc main_arg3)) (Z (Proc.devRef .tc main_arg4)) (Z (Proc.devRef .tc main_arg7)) (Z (Proc.devRef .tc main_arg8)) (Z (Proc.devRef .tc main_arg9)) (Z (Proc.devRef .tc main_arg10)))
    (fun q => Cert.ReferenceIdeal.Stages.mean0 (Z (Proc.devRef .tc main_arg0)) (Z (Proc.devRef .tc main_arg1)) (Z (Proc.devRef .tc main_arg2)) (Z (Proc.devRef .tc main_arg3)) (Z (Proc.devRef .tc main_arg4)) (Z (Proc.devRef .tc main_arg7)) (Z (Proc.devRef .tc main_arg8)) (Z (Proc.devRef .tc main_arg9)) (Z (Proc.devRef .tc main_arg10)) q) (fun q => Cert.ReferenceIdeal.Stages.var0 (Z (Proc.devRef .tc main_arg0)) (Z (Proc.devRef .tc main_arg1)) (Z (Proc.devRef .tc main_arg2)) (Z (Proc.devRef .tc main_arg3)) (Z (Proc.devRef .tc main_arg4)) (Z (Proc.devRef .tc main_arg7)) (Z (Proc.devRef .tc main_arg8)) (Z (Proc.devRef .tc main_arg9)) (Z (Proc.devRef .tc main_arg10)) q)

/-- The first layer's output. -/
theorem h0_eq (r0 : ∀ i, IsReal ((Z (Proc.devRef .tc main_arg0)) i)) (r2 : ∀ i, IsReal ((Z (Proc.devRef .tc main_arg2)) i)) (r3 : ∀ i, IsReal ((Z (Proc.devRef .tc main_arg3)) i)) (r4 : ∀ i, IsReal ((Z (Proc.devRef .tc main_arg4)) i)) (r7 : ∀ i, IsReal ((Z (Proc.devRef .tc main_arg7)) i)) (r8 : ∀ i, IsReal ((Z (Proc.devRef .tc main_arg8)) i)) (r9 : ∀ i, IsReal ((Z (Proc.devRef .tc main_arg9)) i)) (r10 : ∀ i, IsReal ((Z (Proc.devRef .tc main_arg10)) i)) (r15 : ∀ i, IsReal ((Z (Proc.devRef .tc main_arg15)) i)) (r16 : ∀ i, IsReal ((Z (Proc.devRef .tc main_arg16)) i)) : h0 Z = (Cert.ReferenceIdeal.Read.val_main_v55 (F := Ideal) (Z (Proc.devRef .tc main_arg0)) (Z (Proc.devRef .tc main_arg1)) (Z (Proc.devRef .tc main_arg2)) (Z (Proc.devRef .tc main_arg3)) (Z (Proc.devRef .tc main_arg4)) (Z (Proc.devRef .tc main_arg7)) (Z (Proc.devRef .tc main_arg8)) (Z (Proc.devRef .tc main_arg9)) (Z (Proc.devRef .tc main_arg10)) (Z (Proc.devRef .tc main_arg15)) (Z (Proc.devRef .tc main_arg16))) := by
  obtain ⟨em, ei⟩ := stats0 Z r0 r2 r3 r4 r7 r8 r9 r10
  unfold h0
  rw [h0raw_eq, em, ei]
  exact (Cert.ReferenceIdeal.Stages.norm bcast_S128_S1x128_1 bcast_S1x128_S50000x128_0_1 bcast_S_S50000x128 (Cert.ReferenceIdeal.Read.val_main_v29 (F := Ideal) (Z (Proc.devRef .tc main_arg0)) (Z (Proc.devRef .tc main_arg1)) (Z (Proc.devRef .tc main_arg2)) (Z (Proc.devRef .tc main_arg3)) (Z (Proc.devRef .tc main_arg4)) (Z (Proc.devRef .tc main_arg7)) (Z (Proc.devRef .tc main_arg8)) (Z (Proc.devRef .tc main_arg9)) (Z (Proc.devRef .tc main_arg10))) (Cert.ReferenceIdeal.Read.val_main_v32 (F := Ideal) (Z (Proc.devRef .tc main_arg0)) (Z (Proc.devRef .tc main_arg1)) (Z (Proc.devRef .tc main_arg2)) (Z (Proc.devRef .tc main_arg3)) (Z (Proc.devRef .tc main_arg4)) (Z (Proc.devRef .tc main_arg7)) (Z (Proc.devRef .tc main_arg8)) (Z (Proc.devRef .tc main_arg9)) (Z (Proc.devRef .tc main_arg10))) (Cert.ReferenceIdeal.Read.val_main_v45 (F := Ideal) (Z (Proc.devRef .tc main_arg0)) (Z (Proc.devRef .tc main_arg1)) (Z (Proc.devRef .tc main_arg2)) (Z (Proc.devRef .tc main_arg3)) (Z (Proc.devRef .tc main_arg4)) (Z (Proc.devRef .tc main_arg7)) (Z (Proc.devRef .tc main_arg8)) (Z (Proc.devRef .tc main_arg9)) (Z (Proc.devRef .tc main_arg10))) (Z (Proc.devRef .tc main_arg15)) (Z (Proc.devRef .tc main_arg16))).trans
    (Cert.ReferenceIdeal.Stages.norm0 (Z (Proc.devRef .tc main_arg0)) (Z (Proc.devRef .tc main_arg1)) (Z (Proc.devRef .tc main_arg2)) (Z (Proc.devRef .tc main_arg3)) (Z (Proc.devRef .tc main_arg4)) (Z (Proc.devRef .tc main_arg7)) (Z (Proc.devRef .tc main_arg8)) (Z (Proc.devRef .tc main_arg9)) (Z (Proc.devRef .tc main_arg10)) (Z (Proc.devRef .tc main_arg15)) (Z (Proc.devRef .tc main_arg16))).symm

/-- The second round of message passing. -/
theorem ag1_eq (r0 : ∀ i, IsReal ((Z (Proc.devRef .tc main_arg0)) i)) (r2 : ∀ i, IsReal ((Z (Proc.devRef .tc main_arg2)) i)) (r3 : ∀ i, IsReal ((Z (Proc.devRef .tc main_arg3)) i)) (r4 : ∀ i, IsReal ((Z (Proc.devRef .tc main_arg4)) i)) (r7 : ∀ i, IsReal ((Z (Proc.devRef .tc main_arg7)) i)) (r8 : ∀ i, IsReal ((Z (Proc.devRef .tc main_arg8)) i)) (r9 : ∀ i, IsReal ((Z (Proc.devRef .tc main_arg9)) i)) (r10 : ∀ i, IsReal ((Z (Proc.devRef .tc main_arg10)) i)) (r15 : ∀ i, IsReal ((Z (Proc.devRef .tc main_arg15)) i)) (r16 : ∀ i, IsReal ((Z (Proc.devRef .tc main_arg16)) i)) : ag1 Z = (Cert.ReferenceIdeal.Read.val_main_v71 (F := Ideal) (Z (Proc.devRef .tc main_arg0)) (Z (Proc.devRef .tc main_arg1)) (Z (Proc.devRef .tc main_arg2)) (Z (Proc.devRef .tc main_arg3)) (Z (Proc.devRef .tc main_arg4)) (Z (Proc.devRef .tc main_arg5)) (Z (Proc.devRef .tc main_arg6)) (Z (Proc.devRef .tc main_arg7)) (Z (Proc.devRef .tc main_arg8)) (Z (Proc.devRef .tc main_arg9)) (Z (Proc.devRef .tc main_arg10)) (Z (Proc.devRef .tc main_arg15)) (Z (Proc.devRef .tc main_arg16))) := by
  unfold ag1
  rw [Cert.Gine.aggrK_eq_aggrR, h0_eq Z r0 r2 r3 r4 r7 r8 r9 r10 r15 r16, e1_eq]
  rfl

/-- The second inner network. -/
theorem h1raw_eq (r0 : ∀ i, IsReal ((Z (Proc.devRef .tc main_arg0)) i)) (r2 : ∀ i, IsReal ((Z (Proc.devRef .tc main_arg2)) i)) (r3 : ∀ i, IsReal ((Z (Proc.devRef .tc main_arg3)) i)) (r4 : ∀ i, IsReal ((Z (Proc.devRef .tc main_arg4)) i)) (r7 : ∀ i, IsReal ((Z (Proc.devRef .tc main_arg7)) i)) (r8 : ∀ i, IsReal ((Z (Proc.devRef .tc main_arg8)) i)) (r9 : ∀ i, IsReal ((Z (Proc.devRef .tc main_arg9)) i)) (r10 : ∀ i, IsReal ((Z (Proc.devRef .tc main_arg10)) i)) (r15 : ∀ i, IsReal ((Z (Proc.devRef .tc main_arg15)) i)) (r16 : ∀ i, IsReal ((Z (Proc.devRef .tc main_arg16)) i)) : h1raw Z = (Cert.ReferenceIdeal.Read.val_main_v81 (F := Ideal) (Z (Proc.devRef .tc main_arg0)) (Z (Proc.devRef .tc main_arg1)) (Z (Proc.devRef .tc main_arg2)) (Z (Proc.devRef .tc main_arg3)) (Z (Proc.devRef .tc main_arg4)) (Z (Proc.devRef .tc main_arg5)) (Z (Proc.devRef .tc main_arg6)) (Z (Proc.devRef .tc main_arg7)) (Z (Proc.devRef .tc main_arg8)) (Z (Proc.devRef .tc main_arg9)) (Z (Proc.devRef .tc main_arg10)) (Z (Proc.devRef .tc main_arg11)) (Z (Proc.devRef .tc main_arg12)) (Z (Proc.devRef .tc main_arg13)) (Z (Proc.devRef .tc main_arg14)) (Z (Proc.devRef .tc main_arg15)) (Z (Proc.devRef .tc main_arg16))) := by
  unfold h1raw
  rw [ag1_eq Z r0 r2 r3 r4 r7 r8 r9 r10 r15 r16, h0_eq Z r0 r2 r3 r4 r7 r8 r9 r10 r15 r16, Cert.Gine.Layout.cast_row, Cert.Gine.Layout.cast_row]
  exact (Cert.ReferenceIdeal.Stages.inner1 (Z (Proc.devRef .tc main_arg0)) (Z (Proc.devRef .tc main_arg1)) (Z (Proc.devRef .tc main_arg2)) (Z (Proc.devRef .tc main_arg3)) (Z (Proc.devRef .tc main_arg4)) (Z (Proc.devRef .tc main_arg5)) (Z (Proc.devRef .tc main_arg6)) (Z (Proc.devRef .tc main_arg7)) (Z (Proc.devRef .tc main_arg8)) (Z (Proc.devRef .tc main_arg9)) (Z (Proc.devRef .tc main_arg10)) (Z (Proc.devRef .tc main_arg11)) (Z (Proc.devRef .tc main_arg12)) (Z (Proc.devRef .tc main_arg13)) (Z (Proc.devRef .tc main_arg14)) (Z (Proc.devRef .tc main_arg15)) (Z (Proc.devRef .tc main_arg16))).symm

/-- The second inner network's output has real entries when the inputs do. -/
theorem real81 (r0 : ∀ i, IsReal ((Z (Proc.devRef .tc main_arg0)) i)) (r2 : ∀ i, IsReal ((Z (Proc.devRef .tc main_arg2)) i)) (r3 : ∀ i, IsReal ((Z (Proc.devRef .tc main_arg3)) i)) (r4 : ∀ i, IsReal ((Z (Proc.devRef .tc main_arg4)) i)) (r5 : ∀ i, IsReal ((Z (Proc.devRef .tc main_arg5)) i)) (r6 : ∀ i, IsReal ((Z (Proc.devRef .tc main_arg6)) i)) (r7 : ∀ i, IsReal ((Z (Proc.devRef .tc main_arg7)) i)) (r8 : ∀ i, IsReal ((Z (Proc.devRef .tc main_arg8)) i)) (r9 : ∀ i, IsReal ((Z (Proc.devRef .tc main_arg9)) i)) (r10 : ∀ i, IsReal ((Z (Proc.devRef .tc main_arg10)) i)) (r11 : ∀ i, IsReal ((Z (Proc.devRef .tc main_arg11)) i)) (r12 : ∀ i, IsReal ((Z (Proc.devRef .tc main_arg12)) i)) (r13 : ∀ i, IsReal ((Z (Proc.devRef .tc main_arg13)) i)) (r14 : ∀ i, IsReal ((Z (Proc.devRef .tc main_arg14)) i)) (r15 : ∀ i, IsReal ((Z (Proc.devRef .tc main_arg15)) i)) (r16 : ∀ i, IsReal ((Z (Proc.devRef .tc main_arg16)) i)) : ∀ i, IsReal ((Cert.ReferenceIdeal.Read.val_main_v81 (F := Ideal) (Z (Proc.devRef .tc main_arg0)) (Z (Proc.devRef .tc main_arg1)) (Z (Proc.devRef .tc main_arg2)) (Z (Proc.devRef .tc main_arg3)) (Z (Proc.devRef .tc main_arg4)) (Z (Proc.devRef .tc main_arg5)) (Z (Proc.devRef .tc main_arg6)) (Z (Proc.devRef .tc main_arg7)) (Z (Proc.devRef .tc main_arg8)) (Z (Proc.devRef .tc main_arg9)) (Z (Proc.devRef .tc main_arg10)) (Z (Proc.devRef .tc main_arg11)) (Z (Proc.devRef .tc main_arg12)) (Z (Proc.devRef .tc main_arg13)) (Z (Proc.devRef .tc main_arg14)) (Z (Proc.devRef .tc main_arg15)) (Z (Proc.devRef .tc main_arg16))) i) :=
  Cert.ReferenceIdeal.AggrStages.real_v81 (Z (Proc.devRef .tc main_arg0)) (Z (Proc.devRef .tc main_arg1)) (Z (Proc.devRef .tc main_arg2)) (Z (Proc.devRef .tc main_arg3)) (Z (Proc.devRef .tc main_arg4)) (Z (Proc.devRef .tc main_arg5)) (Z (Proc.devRef .tc main_arg6)) (Z (Proc.devRef .tc main_arg7)) (Z (Proc.devRef .tc main_arg8)) (Z (Proc.devRef .tc main_arg9)) (Z (Proc.devRef .tc main_arg10)) (Z (Proc.devRef .tc main_arg11)) (Z (Proc.devRef .tc main_arg12)) (Z (Proc.devRef .tc main_arg13)) (Z (Proc.devRef .tc main_arg14)) (Z (Proc.devRef .tc main_arg15)) (Z (Proc.devRef .tc main_arg16))
    r0 r2 r3 r4 r5 r6 r7 r8 r9 r10 r11 r12 r13 r14 r15 r16

/-- The second layer's statistics. -/
theorem stats1 (r0 : ∀ i, IsReal ((Z (Proc.devRef .tc main_arg0)) i)) (r2 : ∀ i, IsReal ((Z (Proc.devRef .tc main_arg2)) i)) (r3 : ∀ i, IsReal ((Z (Proc.devRef .tc main_arg3)) i)) (r4 : ∀ i, IsReal ((Z (Proc.devRef .tc main_arg4)) i)) (r5 : ∀ i, IsReal ((Z (Proc.devRef .tc main_arg5)) i)) (r6 : ∀ i, IsReal ((Z (Proc.devRef .tc main_arg6)) i)) (r7 : ∀ i, IsReal ((Z (Proc.devRef .tc main_arg7)) i)) (r8 : ∀ i, IsReal ((Z (Proc.devRef .tc main_arg8)) i)) (r9 : ∀ i, IsReal ((Z (Proc.devRef .tc main_arg9)) i)) (r10 : ∀ i, IsReal ((Z (Proc.devRef .tc main_arg10)) i)) (r11 : ∀ i, IsReal ((Z (Proc.devRef .tc main_arg11)) i)) (r12 : ∀ i, IsReal ((Z (Proc.devRef .tc main_arg12)) i)) (r13 : ∀ i, IsReal ((Z (Proc.devRef .tc main_arg13)) i)) (r14 : ∀ i, IsReal ((Z (Proc.devRef .tc main_arg14)) i)) (r15 : ∀ i, IsReal ((Z (Proc.devRef .tc main_arg15)) i)) (r16 : ∀ i, IsReal ((Z (Proc.devRef .tc main_arg16)) i)) :
    Cert.Gine.kMean (Cert.Gine.blockStats (Cert.ReferenceIdeal.Read.val_main_v81 (F := Ideal) (Z (Proc.devRef .tc main_arg0)) (Z (Proc.devRef .tc main_arg1)) (Z (Proc.devRef .tc main_arg2)) (Z (Proc.devRef .tc main_arg3)) (Z (Proc.devRef .tc main_arg4)) (Z (Proc.devRef .tc main_arg5)) (Z (Proc.devRef .tc main_arg6)) (Z (Proc.devRef .tc main_arg7)) (Z (Proc.devRef .tc main_arg8)) (Z (Proc.devRef .tc main_arg9)) (Z (Proc.devRef .tc main_arg10)) (Z (Proc.devRef .tc main_arg11)) (Z (Proc.devRef .tc main_arg12)) (Z (Proc.devRef .tc main_arg13)) (Z (Proc.devRef .tc main_arg14)) (Z (Proc.devRef .tc main_arg15)) (Z (Proc.devRef .tc main_arg16)))) = (Cert.ReferenceIdeal.Read.val_main_v84 (F := Ideal) (Z (Proc.devRef .tc main_arg0)) (Z (Proc.devRef .tc main_arg1)) (Z (Proc.devRef .tc main_arg2)) (Z (Proc.devRef .tc main_arg3)) (Z (Proc.devRef .tc main_arg4)) (Z (Proc.devRef .tc main_arg5)) (Z (Proc.devRef .tc main_arg6)) (Z (Proc.devRef .tc main_arg7)) (Z (Proc.devRef .tc main_arg8)) (Z (Proc.devRef .tc main_arg9)) (Z (Proc.devRef .tc main_arg10)) (Z (Proc.devRef .tc main_arg11)) (Z (Proc.devRef .tc main_arg12)) (Z (Proc.devRef .tc main_arg13)) (Z (Proc.devRef .tc main_arg14)) (Z (Proc.devRef .tc main_arg15)) (Z (Proc.devRef .tc main_arg16))) ∧ Cert.Gine.kIstd (Cert.Gine.blockStats (Cert.ReferenceIdeal.Read.val_main_v81 (F := Ideal) (Z (Proc.devRef .tc main_arg0)) (Z (Proc.devRef .tc main_arg1)) (Z (Proc.devRef .tc main_arg2)) (Z (Proc.devRef .tc main_arg3)) (Z (Proc.devRef .tc main_arg4)) (Z (Proc.devRef .tc main_arg5)) (Z (Proc.devRef .tc main_arg6)) (Z (Proc.devRef .tc main_arg7)) (Z (Proc.devRef .tc main_arg8)) (Z (Proc.devRef .tc main_arg9)) (Z (Proc.devRef .tc main_arg10)) (Z (Proc.devRef .tc main_arg11)) (Z (Proc.devRef .tc main_arg12)) (Z (Proc.devRef .tc main_arg13)) (Z (Proc.devRef .tc main_arg14)) (Z (Proc.devRef .tc main_arg15)) (Z (Proc.devRef .tc main_arg16)))) = (Cert.ReferenceIdeal.Read.val_main_v97 (F := Ideal) (Z (Proc.devRef .tc main_arg0)) (Z (Proc.devRef .tc main_arg1)) (Z (Proc.devRef .tc main_arg2)) (Z (Proc.devRef .tc main_arg3)) (Z (Proc.devRef .tc main_arg4)) (Z (Proc.devRef .tc main_arg5)) (Z (Proc.devRef .tc main_arg6)) (Z (Proc.devRef .tc main_arg7)) (Z (Proc.devRef .tc main_arg8)) (Z (Proc.devRef .tc main_arg9)) (Z (Proc.devRef .tc main_arg10)) (Z (Proc.devRef .tc main_arg11)) (Z (Proc.devRef .tc main_arg12)) (Z (Proc.devRef .tc main_arg13)) (Z (Proc.devRef .tc main_arg14)) (Z (Proc.devRef .tc main_arg15)) (Z (Proc.devRef .tc main_arg16))) :=
  layer_stats (Cert.ReferenceIdeal.Read.val_main_v81 (F := Ideal) (Z (Proc.devRef .tc main_arg0)) (Z (Proc.devRef .tc main_arg1)) (Z (Proc.devRef .tc main_arg2)) (Z (Proc.devRef .tc main_arg3)) (Z (Proc.devRef .tc main_arg4)) (Z (Proc.devRef .tc main_arg5)) (Z (Proc.devRef .tc main_arg6)) (Z (Proc.devRef .tc main_arg7)) (Z (Proc.devRef .tc main_arg8)) (Z (Proc.devRef .tc main_arg9)) (Z (Proc.devRef .tc main_arg10)) (Z (Proc.devRef .tc main_arg11)) (Z (Proc.devRef .tc main_arg12)) (Z (Proc.devRef .tc main_arg13)) (Z (Proc.devRef .tc main_arg14)) (Z (Proc.devRef .tc main_arg15)) (Z (Proc.devRef .tc main_arg16))) (real81 Z r0 r2 r3 r4 r5 r6 r7 r8 r9 r10 r11 r12 r13 r14 r15 r16) (Cert.ReferenceIdeal.Read.val_main_v84 (F := Ideal) (Z (Proc.devRef .tc main_arg0)) (Z (Proc.devRef .tc main_arg1)) (Z (Proc.devRef .tc main_arg2)) (Z (Proc.devRef .tc main_arg3)) (Z (Proc.devRef .tc main_arg4)) (Z (Proc.devRef .tc main_arg5)) (Z (Proc.devRef .tc main_arg6)) (Z (Proc.devRef .tc main_arg7)) (Z (Proc.devRef .tc main_arg8)) (Z (Proc.devRef .tc main_arg9)) (Z (Proc.devRef .tc main_arg10)) (Z (Proc.devRef .tc main_arg11)) (Z (Proc.devRef .tc main_arg12)) (Z (Proc.devRef .tc main_arg13)) (Z (Proc.devRef .tc main_arg14)) (Z (Proc.devRef .tc main_arg15)) (Z (Proc.devRef .tc main_arg16))) (Cert.ReferenceIdeal.Read.val_main_v91 (F := Ideal) (Z (Proc.devRef .tc main_arg0)) (Z (Proc.devRef .tc main_arg1)) (Z (Proc.devRef .tc main_arg2)) (Z (Proc.devRef .tc main_arg3)) (Z (Proc.devRef .tc main_arg4)) (Z (Proc.devRef .tc main_arg5)) (Z (Proc.devRef .tc main_arg6)) (Z (Proc.devRef .tc main_arg7)) (Z (Proc.devRef .tc main_arg8)) (Z (Proc.devRef .tc main_arg9)) (Z (Proc.devRef .tc main_arg10)) (Z (Proc.devRef .tc main_arg11)) (Z (Proc.devRef .tc main_arg12)) (Z (Proc.devRef .tc main_arg13)) (Z (Proc.devRef .tc main_arg14)) (Z (Proc.devRef .tc main_arg15)) (Z (Proc.devRef .tc main_arg16)))
    (fun q => Cert.ReferenceIdeal.Stages.mean1 (Z (Proc.devRef .tc main_arg0)) (Z (Proc.devRef .tc main_arg1)) (Z (Proc.devRef .tc main_arg2)) (Z (Proc.devRef .tc main_arg3)) (Z (Proc.devRef .tc main_arg4)) (Z (Proc.devRef .tc main_arg5)) (Z (Proc.devRef .tc main_arg6)) (Z (Proc.devRef .tc main_arg7)) (Z (Proc.devRef .tc main_arg8)) (Z (Proc.devRef .tc main_arg9)) (Z (Proc.devRef .tc main_arg10)) (Z (Proc.devRef .tc main_arg11)) (Z (Proc.devRef .tc main_arg12)) (Z (Proc.devRef .tc main_arg13)) (Z (Proc.devRef .tc main_arg14)) (Z (Proc.devRef .tc main_arg15)) (Z (Proc.devRef .tc main_arg16)) q) (fun q => Cert.ReferenceIdeal.Stages.var1 (Z (Proc.devRef .tc main_arg0)) (Z (Proc.devRef .tc main_arg1)) (Z (Proc.devRef .tc main_arg2)) (Z (Proc.devRef .tc main_arg3)) (Z (Proc.devRef .tc main_arg4)) (Z (Proc.devRef .tc main_arg5)) (Z (Proc.devRef .tc main_arg6)) (Z (Proc.devRef .tc main_arg7)) (Z (Proc.devRef .tc main_arg8)) (Z (Proc.devRef .tc main_arg9)) (Z (Proc.devRef .tc main_arg10)) (Z (Proc.devRef .tc main_arg11)) (Z (Proc.devRef .tc main_arg12)) (Z (Proc.devRef .tc main_arg13)) (Z (Proc.devRef .tc main_arg14)) (Z (Proc.devRef .tc main_arg15)) (Z (Proc.devRef .tc main_arg16)) q)

end Stages

/-- THE TWO PROGRAMS' RESULTS ARE EQUAL when every floating-point input entry is a real number. -/
theorem main (Z : Valuation τ sig (Elt Ideal)) (r0 : ∀ i, IsReal ((Z (Proc.devRef .tc main_arg0)) i)) (r2 : ∀ i, IsReal ((Z (Proc.devRef .tc main_arg2)) i)) (r3 : ∀ i, IsReal ((Z (Proc.devRef .tc main_arg3)) i)) (r4 : ∀ i, IsReal ((Z (Proc.devRef .tc main_arg4)) i)) (r5 : ∀ i, IsReal ((Z (Proc.devRef .tc main_arg5)) i)) (r6 : ∀ i, IsReal ((Z (Proc.devRef .tc main_arg6)) i)) (r7 : ∀ i, IsReal ((Z (Proc.devRef .tc main_arg7)) i)) (r8 : ∀ i, IsReal ((Z (Proc.devRef .tc main_arg8)) i)) (r9 : ∀ i, IsReal ((Z (Proc.devRef .tc main_arg9)) i)) (r10 : ∀ i, IsReal ((Z (Proc.devRef .tc main_arg10)) i)) (r11 : ∀ i, IsReal ((Z (Proc.devRef .tc main_arg11)) i)) (r12 : ∀ i, IsReal ((Z (Proc.devRef .tc main_arg12)) i)) (r13 : ∀ i, IsReal ((Z (Proc.devRef .tc main_arg13)) i)) (r14 : ∀ i, IsReal ((Z (Proc.devRef .tc main_arg14)) i)) (r15 : ∀ i, IsReal ((Z (Proc.devRef .tc main_arg15)) i)) (r16 : ∀ i, IsReal ((Z (Proc.devRef .tc main_arg16)) i)) (r17 : ∀ i, IsReal ((Z (Proc.devRef .tc main_arg17)) i)) (r18 : ∀ i, IsReal ((Z (Proc.devRef .tc main_arg18)) i)) (r19 : ∀ i, IsReal ((Z (Proc.devRef .tc main_arg19)) i)) (r20 : ∀ i, IsReal ((Z (Proc.devRef .tc main_arg20)) i)) (r21 : ∀ i, IsReal ((Z (Proc.devRef .tc main_arg21)) i)) (r22 : ∀ i, IsReal ((Z (Proc.devRef .tc main_arg22)) i)) :
    out Z = (Cert.ReferenceIdeal.Read.val_main_v116 (F := Ideal) (Z (Proc.devRef .tc main_arg0)) (Z (Proc.devRef .tc main_arg1)) (Z (Proc.devRef .tc main_arg2)) (Z (Proc.devRef .tc main_arg3)) (Z (Proc.devRef .tc main_arg4)) (Z (Proc.devRef .tc main_arg5)) (Z (Proc.devRef .tc main_arg6)) (Z (Proc.devRef .tc main_arg7)) (Z (Proc.devRef .tc main_arg8)) (Z (Proc.devRef .tc main_arg9)) (Z (Proc.devRef .tc main_arg10)) (Z (Proc.devRef .tc main_arg11)) (Z (Proc.devRef .tc main_arg12)) (Z (Proc.devRef .tc main_arg13)) (Z (Proc.devRef .tc main_arg14)) (Z (Proc.devRef .tc main_arg15)) (Z (Proc.devRef .tc main_arg16)) (Z (Proc.devRef .tc main_arg17)) (Z (Proc.devRef .tc main_arg18)) (Z (Proc.devRef .tc main_arg19)) (Z (Proc.devRef .tc main_arg20)) (Z (Proc.devRef .tc main_arg21)) (Z (Proc.devRef .tc main_arg22))) := by
  obtain ⟨em, ei⟩ := stats1 Z r0 r2 r3 r4 r5 r6 r7 r8 r9 r10 r11 r12 r13 r14 r15 r16
  rw [Cert.ReferenceIdeal.Stages.out]
  unfold out
  rw [h1raw_eq Z r0 r2 r3 r4 r7 r8 r9 r10 r15 r16, em, ei, Cert.Gine.Layout.cast_cell, Cert.Gine.Layout.cast_colAsRow]
  simp only [Cert.Gine.Layout.cast_row]

end Cert.Bridge

end
-- ==== Proof.FiniteInputs.lean ====
/-
  The precondition, read back: every floating-point argument has only real entries.

  The predicate asks, of each floating-point argument a, that |a| < +∞ hold at every entry, and takes the conjunction
  of these 22 answers; the one integer argument (the pairs of row numbers) is not constrained.  Over the extended
  reals |x| is max x (−x), and the pattern 0x7F800000 denotes +∞.  An extended real is a real number, +∞ or −∞; at
  either infinity max x (−x) is +∞, which is not below +∞, so the comparison holds at a real number only.  A
  conjunction of one-bit words that is 1 has both of its operands 1, and a reduction by "and" over every axis that is
  1 met a 1 at every entry.  Read together: where the predicate is true, every entry of every floating-point argument
  is (the coercion of) a real number.
-/
import proofs.«131147_j56908316672645_2_alg».proof.Pre_finite_inputs
import proofs.«131147_j56908316672645_2_alg».proof.Proof.Gen.Pre_finite_inputs
import proofs.«131147_j56908316672645_2_alg».proof.Proof.LibRealValued
import Idealize.ShloMosaic.Lib.ReduceAll
import Idealize.ShloMosaic.Lib.ValueIdx

noncomputable section

namespace Cert.Finite

open Idealize.ShloMosaic Idealize.ShloMosaic.ValueIdx Cert.Pre_finite_inputs

/-- The shape of a scalar has one index. -/
instance subsingleton_scalar_idx : Subsingleton S_.Idx := ⟨fun a b => funext fun d => d.elim0⟩

/-- One value: if |x| < +∞ holds, with |x| = max x (−x) and +∞ written as the pattern 0x7F800000, then x is a real
    number.  The two infinities are excluded because max x (−x) is +∞ at both. -/
theorem isReal_of_abs_lt_inf (x : Ideal .f32)
    (h : FloatOps.cmpf .olt (FloatOps.hostAbsf x) (FloatOps.ofBits (F := Ideal) .f32 0x7F800000#32) = 1#1) :
    Cert.RealValued.IsReal x := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  unfold Ideal.cmp at h
  induction x using EReal.rec with
  | bot => simp at h
  | coe r => exact ⟨r, rfl⟩
  | top => simp at h

/-- A whole array: if the conjunction over every entry of |a| < +∞ is 1, then every entry of a is a real number.
    The shape and the axes of the reduction are arbitrary; the result has one index. -/
theorem all_real {s : Shape} {axes : List (Fin s.rank)} (a : FVec Ideal s .f32)
    (hb : S_.BroadcastsInDim s (![] : Fin 0 → Fin s.rank)) (hr : s.ReducesTo axes S_) (hu : 0 < S_.numel) (j : S_.Idx)
    (h : Host.reduce IntOp.andi
          (cmpf .olt (Host.absf a) (broadcastInDim s ![] hb (constant (F := Ideal) S_ .f32 0x7F800000#32)))
          (constantI S_ 1 1#1) hr hu j = 1#1) :
    ∀ i, Cert.RealValued.IsReal (a i) := by
  intro i
  exact isReal_of_abs_lt_inf (a i) (Host.reduce_andi_all _ _ hr hu j h i)

/-- Where the predicate is true, every entry of every floating-point argument is a real number.  The predicate's one
    result entry is a left-nested conjunction, one operand per floating-point argument in argument order; it is split
    from the outside (the last argument first), and each operand is a conjunction over a whole array. -/
theorem real_inputs (a0 : FVec Ideal S50000x128 .f32) (a1 : IVec S2x600000 32) (a2 : FVec Ideal S600000x64 .f32) (a3 : FVec Ideal S64x128 .f32) (a4 : FVec Ideal S128 .f32) (a5 : FVec Ideal S64x128 .f32) (a6 : FVec Ideal S128 .f32) (a7 : FVec Ideal S128x256 .f32) (a8 : FVec Ideal S256 .f32) (a9 : FVec Ideal S256x128 .f32) (a10 : FVec Ideal S128 .f32) (a11 : FVec Ideal S128x256 .f32) (a12 : FVec Ideal S256 .f32) (a13 : FVec Ideal S256x128 .f32) (a14 : FVec Ideal S128 .f32) (a15 : FVec Ideal S128 .f32) (a16 : FVec Ideal S128 .f32) (a17 : FVec Ideal S128 .f32) (a18 : FVec Ideal S128 .f32) (a19 : FVec Ideal S128x512 .f32) (a20 : FVec Ideal S512 .f32) (a21 : FVec Ideal S512x1 .f32) (a22 : FVec Ideal S1 .f32)
    (h : Cert.Pre_finite_inputs.fn (F := Ideal) a0 a1 a2 a3 a4 a5 a6 a7 a8 a9 a10 a11 a12 a13 a14 a15 a16 a17 a18 a19 a20 a21 a22 = fun _ => 1#1) :
    (∀ i, Cert.RealValued.IsReal (a0 i)) ∧
      (∀ i, Cert.RealValued.IsReal (a2 i)) ∧
      (∀ i, Cert.RealValued.IsReal (a3 i)) ∧
      (∀ i, Cert.RealValued.IsReal (a4 i)) ∧
      (∀ i, Cert.RealValued.IsReal (a5 i)) ∧
      (∀ i, Cert.RealValued.IsReal (a6 i)) ∧
      (∀ i, Cert.RealValued.IsReal (a7 i)) ∧
      (∀ i, Cert.RealValued.IsReal (a8 i)) ∧
      (∀ i, Cert.RealValued.IsReal (a9 i)) ∧
      (∀ i, Cert.RealValued.IsReal (a10 i)) ∧
      (∀ i, Cert.RealValued.IsReal (a11 i)) ∧
      (∀ i, Cert.RealValued.IsReal (a12 i)) ∧
      (∀ i, Cert.RealValued.IsReal (a13 i)) ∧
      (∀ i, Cert.RealValued.IsReal (a14 i)) ∧
      (∀ i, Cert.RealValued.IsReal (a15 i)) ∧
      (∀ i, Cert.RealValued.IsReal (a16 i)) ∧
      (∀ i, Cert.RealValued.IsReal (a17 i)) ∧
      (∀ i, Cert.RealValued.IsReal (a18 i)) ∧
      (∀ i, Cert.RealValued.IsReal (a19 i)) ∧
      (∀ i, Cert.RealValued.IsReal (a20 i)) ∧
      (∀ i, Cert.RealValued.IsReal (a21 i)) ∧
      (∀ i, Cert.RealValued.IsReal (a22 i)) := by
  have h0 := congrFun h ix0
  dsimp only [fn, fn_part1, fn_part2, fn_part3, fn_part4, fn_part5, fn_part6, andi] at h0
  obtain ⟨h0, r22⟩ := IntOp.andi_eq_one.1 h0
  obtain ⟨h0, r21⟩ := IntOp.andi_eq_one.1 h0
  obtain ⟨h0, r20⟩ := IntOp.andi_eq_one.1 h0
  obtain ⟨h0, r19⟩ := IntOp.andi_eq_one.1 h0
  obtain ⟨h0, r18⟩ := IntOp.andi_eq_one.1 h0
  obtain ⟨h0, r17⟩ := IntOp.andi_eq_one.1 h0
  obtain ⟨h0, r16⟩ := IntOp.andi_eq_one.1 h0
  obtain ⟨h0, r15⟩ := IntOp.andi_eq_one.1 h0
  obtain ⟨h0, r14⟩ := IntOp.andi_eq_one.1 h0
  obtain ⟨h0, r13⟩ := IntOp.andi_eq_one.1 h0
  obtain ⟨h0, r12⟩ := IntOp.andi_eq_one.1 h0
  obtain ⟨h0, r11⟩ := IntOp.andi_eq_one.1 h0
  obtain ⟨h0, r10⟩ := IntOp.andi_eq_one.1 h0
  obtain ⟨h0, r9⟩ := IntOp.andi_eq_one.1 h0
  obtain ⟨h0, r8⟩ := IntOp.andi_eq_one.1 h0
  obtain ⟨h0, r7⟩ := IntOp.andi_eq_one.1 h0
  obtain ⟨h0, r6⟩ := IntOp.andi_eq_one.1 h0
  obtain ⟨h0, r5⟩ := IntOp.andi_eq_one.1 h0
  obtain ⟨h0, r4⟩ := IntOp.andi_eq_one.1 h0
  obtain ⟨h0, r3⟩ := IntOp.andi_eq_one.1 h0
  obtain ⟨r0, r2⟩ := IntOp.andi_eq_one.1 h0
  exact ⟨all_real a0 _ _ _ _ r0,
    all_real a2 _ _ _ _ r2,
    all_real a3 _ _ _ _ r3,
    all_real a4 _ _ _ _ r4,
    all_real a5 _ _ _ _ r5,
    all_real a6 _ _ _ _ r6,
    all_real a7 _ _ _ _ r7,
    all_real a8 _ _ _ _ r8,
    all_real a9 _ _ _ _ r9,
    all_real a10 _ _ _ _ r10,
    all_real a11 _ _ _ _ r11,
    all_real a12 _ _ _ _ r12,
    all_real a13 _ _ _ _ r13,
    all_real a14 _ _ _ _ r14,
    all_real a15 _ _ _ _ r15,
    all_real a16 _ _ _ _ r16,
    all_real a17 _ _ _ _ r17,
    all_real a18 _ _ _ _ r18,
    all_real a19 _ _ _ _ r19,
    all_real a20 _ _ _ _ r20,
    all_real a21 _ _ _ _ r21,
    all_real a22 _ _ _ _ r22⟩

end Cert.Finite

end
-- ==== Proof.lean ====
/-
  The certificate: a two-layer graph network with edge features, computed by four grid kernels among array operations,
  against its reference written with whole-array operations.

  Both programs embed the edge features, run two rounds of message passing (gather the source rows, add the edge
  embedding, rectify, scatter-add onto the destinations), apply an inner two-layer network to node features plus
  messages, normalise each column with its mean and variance over all 50000 nodes, and read out one number per node.
  The kernel program computes the two edge embeddings in one product with the weights side by side, takes each column's
  statistics from per-block sums of the entries and of their squares (variance as the mean of the squares minus the
  squared mean, clamped at zero), folds the second normalisation into the readout kernel, and replaces the last
  one-column product by a row inner product.  Over the extended reals these are the same function of the arguments
  wherever the inner networks' outputs are real numbers, and they are, because every float input is finite: the
  variance identity is the one step that uses the precondition.

  The three programs run (the kernels' runs and the reference's run are generated); the idealization rewrote nothing;
  and the two idealized programs end with equal results: the kernel program's result array is read off its run as a
  function of the launch contents, the reference's result is its last stage, and the two functions agree.
-/
import proofs.«131147_j56908316672645_2_alg».proof.Defs
import proofs.«131147_j56908316672645_2_alg».proof.Proof.Gen.Kernel
import proofs.«131147_j56908316672645_2_alg».proof.Proof.Gen.Kernel.Skeleton
import proofs.«131147_j56908316672645_2_alg».proof.Proof.Gen.Kernel.Launch
import proofs.«131147_j56908316672645_2_alg».proof.Proof.Gen.Kernel.Points
import proofs.«131147_j56908316672645_2_alg».proof.Proof.Gen.Kernel.Frame
import proofs.«131147_j56908316672645_2_alg».proof.Proof.Gen.KernelIdeal
import proofs.«131147_j56908316672645_2_alg».proof.Proof.Gen.KernelIdeal.Skeleton
import proofs.«131147_j56908316672645_2_alg».proof.Proof.Gen.KernelIdeal.Launch
import proofs.«131147_j56908316672645_2_alg».proof.Proof.Gen.KernelIdeal.Points
import proofs.«131147_j56908316672645_2_alg».proof.Proof.Gen.KernelIdeal.Frame
import proofs.«131147_j56908316672645_2_alg».proof.Proof.Gen.ReferenceIdeal
import proofs.«131147_j56908316672645_2_alg».proof.Proof.Gen.ReferenceIdeal.Run
import proofs.«131147_j56908316672645_2_alg».proof.Proof.Gen.ReferenceIdeal.Read
import proofs.«131147_j56908316672645_2_alg».proof.Proof.Gen.Pre_finite_inputs
import proofs.«131147_j56908316672645_2_alg».proof.Proof.KernelRun
import proofs.«131147_j56908316672645_2_alg».proof.Proof.Glue
import proofs.«131147_j56908316672645_2_alg».proof.Proof.Bridge
import proofs.«131147_j56908316672645_2_alg».proof.Proof.FiniteInputs
import Idealize.ShloMosaic.Adequacy
import Idealize.ShloMosaic.Init

set_option maxRecDepth 16384

noncomputable section

namespace Cert.Proof

open Idealize.ShloMosaic Idealize.ShloMosaic.TcCoe Idealize.SL.Sem

/-- The kernel program as printed runs, and its arguments end unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The two idealized programs, from memories that agree on the arguments, end with the same result array: the
    readout of the launch contents. -/
theorem algebraic : Cert.algebraic_KernelIdeal_ReferenceIdeal := by
  intro m ρ m' ρ' hpre hagree
  refine ⟨fun c => Cert.KernelIdeal.Glue.out (Cert.KernelIdeal.Gen.W0 m ρ c), ?_, ?_⟩
  · exact (θ_run Cert.KernelIdeal.defs _ _).mono
      (fun r h c => ⟨(h c).1.trans (Cert.KernelIdeal.Glue.value m ρ c), (h c).2⟩)
      (Cert.KernelIdeal.RunValue.run (F := Ideal) m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7, a8, a9, a10, a11, a12, a13, a14, a15, a16, a17, a18, a19, a20, a21, a22⟩ := hagree c
    obtain ⟨r0, r2, r3, r4, r5, r6, r7, r8, r9, r10, r11, r12, r13, r14, r15, r16, r17, r18, r19, r20, r21, r22⟩ := Cert.Finite.real_inputs _ _ _ _ _ _ _ _ _ _ _ _ _ _ _ _ _ _ _ _ _ _ _ (hpre c)
    rw [Cert.ReferenceIdeal.Read.val_main_v116_eq, a0, a1, a2, a3, a4, a5, a6, a7, a8, a9, a10, a11, a12, a13, a14, a15, a16, a17, a18, a19, a20, a21, a22]
    exact (Cert.Bridge.main (Cert.KernelIdeal.Gen.W0 m ρ c) r0 r2 r3 r4 r5 r6 r7 r8 r9 r10 r11 r12 r13 r14 r15 r16 r17 r18 r19 r20 r21 r22).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
